-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v69)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v69) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_v22) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000x128 : Shape := ⟨2, ![1000, 128]⟩
abbrev S1200x128 : Shape := ⟨2, ![1200, 128]⟩
abbrev S4000000 : Shape := ⟨1, ![4000000]⟩
abbrev S_ : Shape := ⟨0, ![]⟩

class Facts : Prop where
  bcast_S_S1000x128 : S_.BroadcastsInDim S1000x128 (![] : Fin 0 → Fin S1000x128.rank)
  reducesTo_S1000x128_S_d0_1 : S1000x128.ReducesTo [0, 1] S_
  h_S_ : 0 < S_.numel
  bcast_S_S1200x128 : S_.BroadcastsInDim S1200x128 (![] : Fin 0 → Fin S1200x128.rank)
  reducesTo_S1200x128_S_d0_1 : S1200x128.ReducesTo [0, 1] S_
  bcast_S_S4000000 : S_.BroadcastsInDim S4000000 (![] : Fin 0 → Fin S4000000.rank)
  reducesTo_S4000000_S_d0 : S4000000.ReducesTo [0] S_

variable [Facts]

def fn_part2 {F : FTy → Type} [FloatOps F] (main_arg7 : FVec F S4000000 .f32) (main_v33 : IVec S_ 1) : IVec S_ 1 :=
  let main_v34 : FVec F S4000000 .f32 := Host.absf main_arg7
  let main_cst_12 : FVec F S_ .f32 := constant S_ .f32 0x7F800000#32
  let main_v35 : FVec F S4000000 .f32 := broadcastInDim S4000000 ![] bcast_S_S4000000 main_cst_12
  let main_v36 : IVec S4000000 1 := cmpf .olt main_v34 main_v35
  let main_c_13 : IVec S_ 1 := constantI S_ 1 1#1
  let main_v37 : IVec S_ 1 := (fun x v => Host.reduce IntOp.andi x v reducesTo_S4000000_S_d0 h_S_) main_v36 main_c_13
  let main_v38 : IVec S_ 1 := andi main_v33 main_v37
  main_v38

def fn_part1 {F : FTy → Type} [FloatOps F] (main_arg4 : FVec F S4000000 .f32) (main_arg5 : FVec F S4000000 .f32) (main_arg6 : FVec F S4000000 .f32) (main_arg7 : FVec F S4000000 .f32) (main_v13 : IVec S_ 1) (main_v16 : IVec S4000000 1) : IVec S_ 1 :=
  let main_c_5 : IVec S_ 1 := constantI S_ 1 1#1
  let main_v17 : IVec S_ 1 := (fun x v => Host.reduce IntOp.andi x v reducesTo_S4000000_S_d0 h_S_) main_v16 main_c_5
  let main_v18 : IVec S_ 1 := andi main_v13 main_v17
  let main_v19 : FVec F S4000000 .f32 := Host.absf main_arg4
  let main_cst_6 : FVec F S_ .f32 := constant S_ .f32 0x7F800000#32
  let main_v20 : FVec F S4000000 .f32 := broadcastInDim S4000000 ![] bcast_S_S4000000 main_cst_6
  let main_v21 : IVec S4000000 1 := cmpf .olt main_v19 main_v20
  let main_c_7 : IVec S_ 1 := constantI S_ 1 1#1
  let main_v22 : IVec S_ 1 := (fun x v => Host.reduce IntOp.andi x v reducesTo_S4000000_S_d0 h_S_) main_v21 main_c_7
  let main_v23 : IVec S_ 1 := andi main_v18 main_v22
  let main_v24 : FVec F S4000000 .f32 := Host.absf main_arg5
  let main_cst_8 : FVec F S_ .f32 := constant S_ .f32 0x7F800000#32
  let main_v25 : FVec F S4000000 .f32 := broadcastInDim S4000000 ![] bcast_S_S4000000 main_cst_8
  let main_v26 : IVec S4000000 1 := cmpf .olt main_v24 main_v25
  let main_c_9 : IVec S_ 1 := constantI S_ 1 1#1
  let main_v27 : IVec S_ 1 := (fun x v => Host.reduce IntOp.andi x v reducesTo_S4000000_S_d0 h_S_) main_v26 main_c_9
  let main_v28 : IVec S_ 1 := andi main_v23 main_v27
  let main_v29 : FVec F S4000000 .f32 := Host.absf main_arg6
  let main_cst_10 : FVec F S_ .f32 := constant S_ .f32 0x7F800000#32
  let main_v30 : FVec F S4000000 .f32 := broadcastInDim S4000000 ![] bcast_S_S4000000 main_cst_10
  let main_v31 : IVec S4000000 1 := cmpf .olt main_v29 main_v30
  let main_c_11 : IVec S_ 1 := constantI S_ 1 1#1
  let main_v32 : IVec S_ 1 := (fun x v => Host.reduce IntOp.andi x v reducesTo_S4000000_S_d0 h_S_) main_v31 main_c_11
  let main_v33 : IVec S_ 1 := andi main_v28 main_v32
  fn_part2 (F := F) main_arg7 main_v33

def fn {F : FTy → Type} [FloatOps F] (main_arg0 : FVec F S1000x128 .f32) (main_arg1 : FVec F S1200x128 .f32) (main_arg2 : FVec F S4000000 .f32) (main_arg3 : FVec F S4000000 .f32) (main_arg4 : FVec F S4000000 .f32) (main_arg5 : FVec F S4000000 .f32) (main_arg6 : FVec F S4000000 .f32) (main_arg7 : FVec F S4000000 .f32) (main_arg8 : IVec S4000000 32) (main_arg9 : IVec S4000000 32) (main_arg10 : IVec S4000000 32) (main_arg11 : IVec S4000000 32) (main_arg12 : IVec S4000000 32) (main_arg13 : IVec S4000000 32) : IVec S_ 1 :=
  let main_v0 : FVec F S1000x128 .f32 := Host.absf main_arg0
  let main_cst : FVec F S_ .f32 := constant S_ .f32 0x7F800000#32
  let main_v1 : FVec F S1000x128 .f32 := broadcastInDim S1000x128 ![] bcast_S_S1000x128 main_cst
  let main_v2 : IVec S1000x128 1 := cmpf .olt main_v0 main_v1
  let main_c : IVec S_ 1 := constantI S_ 1 1#1
  let main_v3 : IVec S_ 1 := (fun x v => Host.reduce IntOp.andi x v reducesTo_S1000x128_S_d0_1 h_S_) main_v2 main_c
  let main_v4 : FVec F S1200x128 .f32 := Host.absf main_arg1
  let main_cst_0 : FVec F S_ .f32 := constant S_ .f32 0x7F800000#32
  let main_v5 : FVec F S1200x128 .f32 := broadcastInDim S1200x128 ![] bcast_S_S1200x128 main_cst_0
  let main_v6 : IVec S1200x128 1 := cmpf .olt main_v4 main_v5
  let main_c_1 : IVec S_ 1 := constantI S_ 1 1#1
  let main_v7 : IVec S_ 1 := (fun x v => Host.reduce IntOp.andi x v reducesTo_S1200x128_S_d0_1 h_S_) main_v6 main_c_1
  let main_v8 : IVec S_ 1 := andi main_v3 main_v7
  let main_v9 : FVec F S4000000 .f32 := Host.absf main_arg2
  let main_cst_2 : FVec F S_ .f32 := constant S_ .f32 0x7F800000#32
  let main_v10 : FVec F S4000000 .f32 := broadcastInDim S4000000 ![] bcast_S_S4000000 main_cst_2
  let main_v11 : IVec S4000000 1 := cmpf .olt main_v9 main_v10
  let main_c_3 : IVec S_ 1 := constantI S_ 1 1#1
  let main_v12 : IVec S_ 1 := (fun x v => Host.reduce IntOp.andi x v reducesTo_S4000000_S_d0 h_S_) main_v11 main_c_3
  let main_v13 : IVec S_ 1 := andi main_v8 main_v12
  let main_v14 : FVec F S4000000 .f32 := Host.absf main_arg3
  let main_cst_4 : FVec F S_ .f32 := constant S_ .f32 0x7F800000#32
  let main_v15 : FVec F S4000000 .f32 := broadcastInDim S4000000 ![] bcast_S_S4000000 main_cst_4
  let main_v16 : IVec S4000000 1 := cmpf .olt main_v14 main_v15
  fn_part1 (F := F) main_arg4 main_arg5 main_arg6 main_arg7 main_v13 main_v16
-- ==== Kernel.lean ====
abbrev S1000x128 : Shape := ⟨2, ![1000, 128]⟩
abbrev S1200x128 : Shape := ⟨2, ![1200, 128]⟩
abbrev S4000000 : Shape := ⟨1, ![4000000]⟩
abbrev S_ : Shape := ⟨0, ![]⟩
abbrev S1x1200 : Shape := ⟨2, ![1, 1200]⟩
abbrev S1200 : Shape := ⟨1, ![1200]⟩
abbrev S1200x1 : Shape := ⟨2, ![1200, 1]⟩
abbrev S128x1200 : Shape := ⟨2, ![128, 1200]⟩
abbrev S1200x1200 : Shape := ⟨2, ![1200, 1200]⟩
abbrev S1000 : Shape := ⟨1, ![1000]⟩
abbrev S31250x128 : Shape := ⟨2, ![31250, 128]⟩
abbrev S4096x128 : Shape := ⟨2, ![4096, 128]⟩
abbrev S200000 : Shape := ⟨1, ![200000]⟩
abbrev S4000000x1 : Shape := ⟨2, ![4000000, 1]⟩
abbrev S200704 : Shape := ⟨1, ![200704]⟩
abbrev S1568x128 : Shape := ⟨2, ![1568, 128]⟩
abbrev S4200000 : Shape := ⟨1, ![4200000]⟩

abbrev nBuf : Space → Nat
  | .hbm => 105
  | .vmem => 26
  | .smem => 0
  | _ => 0

abbrev bufTy : (tb : Table) → Fin (tcTables nBuf tb) → BufTy
  | .hbm, ⟨0, _⟩ => ⟨S1000x128, .f32⟩
  | .hbm, ⟨1, _⟩ => ⟨S1200x128, .f32⟩
  | .hbm, ⟨2, _⟩ => ⟨S4000000, .f32⟩
  | .hbm, ⟨3, _⟩ => ⟨S4000000, .f32⟩
  | .hbm, ⟨4, _⟩ => ⟨S4000000, .f32⟩
  | .hbm, ⟨5, _⟩ => ⟨S4000000, .f32⟩
  | .hbm, ⟨6, _⟩ => ⟨S4000000, .f32⟩
  | .hbm, ⟨7, _⟩ => ⟨S4000000, .f32⟩
  | .hbm, ⟨8, _⟩ => ⟨S4000000, .i32⟩
  | .hbm, ⟨9, _⟩ => ⟨S4000000, .i32⟩
  | .hbm, ⟨10, _⟩ => ⟨S4000000, .i32⟩
  | .hbm, ⟨11, _⟩ => ⟨S4000000, .i32⟩
  | .hbm, ⟨12, _⟩ => ⟨S4000000, .i32⟩
  | .hbm, ⟨13, _⟩ => ⟨S4000000, .i32⟩
  | .hbm, ⟨14, _⟩ => ⟨S_, .i32⟩
  | .hbm, ⟨15, _⟩ => ⟨S_, .f32⟩
  | .hbm, ⟨16, _⟩ => ⟨S1200x128, .f32⟩
  | .hbm, ⟨17, _⟩ => ⟨S_, .i32⟩
  | .hbm, ⟨18, _⟩ => ⟨S_, .f32⟩
  | .hbm, ⟨19, _⟩ => ⟨S1200x128, .f32⟩
  | .hbm, ⟨20, _⟩ => ⟨S1x1200, .f32⟩
  | .hbm, ⟨21, _⟩ => ⟨S1x1200, .f32⟩
  | .hbm, ⟨22, _⟩ => ⟨S1200, .f32⟩
  | .hbm, ⟨23, _⟩ => ⟨S1000, .f32⟩
  | .hbm, ⟨24, _⟩ => ⟨S1200, .f32⟩
  | .hbm, ⟨25, _⟩ => ⟨S31250x128, .f32⟩
  | .hbm, ⟨26, _⟩ => ⟨S31250x128, .f32⟩
  | .hbm, ⟨27, _⟩ => ⟨S31250x128, .f32⟩
  | .hbm, ⟨28, _⟩ => ⟨S31250x128, .f32⟩
  | .hbm, ⟨29, _⟩ => ⟨S4000000, .f32⟩
  | .hbm, ⟨30, _⟩ => ⟨S_, .f32⟩
  | .hbm, ⟨31, _⟩ => ⟨S200000, .f32⟩
  | .hbm, ⟨32, _⟩ => ⟨S4000000x1, .i32⟩
  | .hbm, ⟨33, _⟩ => ⟨S200000, .f32⟩
  | .hbm, ⟨34, _⟩ => ⟨S_, .i32⟩
  | .hbm, ⟨35, _⟩ => ⟨S_, .f32⟩
  | .hbm, ⟨36, _⟩ => ⟨S200704, .f32⟩
  | .hbm, ⟨37, _⟩ => ⟨S1568x128, .f32⟩
  | .hbm, ⟨38, _⟩ => ⟨S1568x128, .f32⟩
  | .hbm, ⟨39, _⟩ => ⟨S1568x128, .f32⟩
  | .hbm, ⟨40, _⟩ => ⟨S200704, .f32⟩
  | .hbm, ⟨41, _⟩ => ⟨S200000, .f32⟩
  | .hbm, ⟨42, _⟩ => ⟨S200704, .f32⟩
  | .hbm, ⟨43, _⟩ => ⟨S200000, .f32⟩
  | .hbm, ⟨44, _⟩ => ⟨S_, .i32⟩
  | .hbm, ⟨45, _⟩ => ⟨S4000000, .i32⟩
  | .hbm, ⟨46, _⟩ => ⟨S4000000, .i1⟩
  | .hbm, ⟨47, _⟩ => ⟨S_, .i32⟩
  | .hbm, ⟨48, _⟩ => ⟨S4000000, .i32⟩
  | .hbm, ⟨49, _⟩ => ⟨S4000000, .i32⟩
  | .hbm, ⟨50, _⟩ => ⟨S4000000, .i32⟩
  | .hbm, ⟨51, _⟩ => ⟨S4000000x1, .i32⟩
  | .hbm, ⟨52, _⟩ => ⟨S4000000, .f32⟩
  | .hbm, ⟨53, _⟩ => ⟨S4000000, .f32⟩
  | .hbm, ⟨54, _⟩ => ⟨S_, .i32⟩
  | .hbm, ⟨55, _⟩ => ⟨S4000000, .i32⟩
  | .hbm, ⟨56, _⟩ => ⟨S4000000, .i1⟩
  | .hbm, ⟨57, _⟩ => ⟨S_, .i32⟩
  | .hbm, ⟨58, _⟩ => ⟨S4000000, .i32⟩
  | .hbm, ⟨59, _⟩ => ⟨S4000000, .i32⟩
  | .hbm, ⟨60, _⟩ => ⟨S4000000, .i32⟩
  | .hbm, ⟨61, _⟩ => ⟨S4000000x1, .i32⟩
  | .hbm, ⟨62, _⟩ => ⟨S4000000, .f32⟩
  | .hbm, ⟨63, _⟩ => ⟨S4000000, .f32⟩
  | .hbm, ⟨64, _⟩ => ⟨S4200000, .f32⟩
  | .hbm, ⟨65, _⟩ => ⟨S31250x128, .f32⟩
  | .hbm, ⟨66, _⟩ => ⟨S31250x128, .f32⟩
  | .hbm, ⟨67, _⟩ => ⟨S31250x128, .f32⟩
  | .hbm, ⟨68, _⟩ => ⟨S31250x128, .f32⟩
  | .hbm, ⟨69, _⟩ => ⟨S4000000, .f32⟩
  | .hbm, ⟨70, _⟩ => ⟨S_, .f32⟩
  | .hbm, ⟨71, _⟩ => ⟨S200000, .f32⟩
  | .hbm, ⟨72, _⟩ => ⟨S4000000x1, .i32⟩
  | .hbm, ⟨73, _⟩ => ⟨S200000, .f32⟩
  | .hbm, ⟨74, _⟩ => ⟨S_, .i32⟩
  | .hbm, ⟨75, _⟩ => ⟨S_, .f32⟩
  | .hbm, ⟨76, _⟩ => ⟨S200704, .f32⟩
  | .hbm, ⟨77, _⟩ => ⟨S1568x128, .f32⟩
  | .hbm, ⟨78, _⟩ => ⟨S1568x128, .f32⟩
  | .hbm, ⟨79, _⟩ => ⟨S1568x128, .f32⟩
  | .hbm, ⟨80, _⟩ => ⟨S200704, .f32⟩
  | .hbm, ⟨81, _⟩ => ⟨S200000, .f32⟩
  | .hbm, ⟨82, _⟩ => ⟨S200704, .f32⟩
  | .hbm, ⟨83, _⟩ => ⟨S200000, .f32⟩
  | .hbm, ⟨84, _⟩ => ⟨S_, .i32⟩
  | .hbm, ⟨85, _⟩ => ⟨S4000000, .i32⟩
  | .hbm, ⟨86, _⟩ => ⟨S4000000, .i1⟩
  | .hbm, ⟨87, _⟩ => ⟨S_, .i32⟩
  | .hbm, ⟨88, _⟩ => ⟨S4000000, .i32⟩
  | .hbm, ⟨89, _⟩ => ⟨S4000000, .i32⟩
  | .hbm, ⟨90, _⟩ => ⟨S4000000, .i32⟩
  | .hbm, ⟨91, _⟩ => ⟨S4000000x1, .i32⟩
  | .hbm, ⟨92, _⟩ => ⟨S4000000, .f32⟩
  | .hbm, ⟨93, _⟩ => ⟨S4000000, .f32⟩
  | .hbm, ⟨94, _⟩ => ⟨S_, .i32⟩
  | .hbm, ⟨95, _⟩ => ⟨S4000000, .i32⟩
  | .hbm, ⟨96, _⟩ => ⟨S4000000, .i1⟩
  | .hbm, ⟨97, _⟩ => ⟨S_, .i32⟩
  | .hbm, ⟨98, _⟩ => ⟨S4000000, .i32⟩
  | .hbm, ⟨99, _⟩ => ⟨S4000000, .i32⟩
  | .hbm, ⟨100, _⟩ => ⟨S4000000, .i32⟩
  | .hbm, ⟨101, _⟩ => ⟨S4000000x1, .i32⟩
  | .hbm, ⟨102, _⟩ => ⟨S4000000, .f32⟩
  | .hbm, ⟨103, _⟩ => ⟨S4000000, .f32⟩
  | .hbm, ⟨104, _⟩ => ⟨S4200000, .f32⟩
  | .local _ .vmem, ⟨0, _⟩ => ⟨S1200x128, .f32⟩
  | .local _ .vmem, ⟨1, _⟩ => ⟨S1200x128, .f32⟩
  | .local _ .vmem, ⟨2, _⟩ => ⟨S1x1200, .f32⟩
  | .local _ .vmem, ⟨3, _⟩ => ⟨S1x1200, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S1568x128, .f32⟩
  | .local _ .vmem, ⟨13, _⟩ => ⟨S1568x128, .f32⟩
  | .local _ .vmem, ⟨14, _⟩ => ⟨S1568x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | .local _ .vmem, ⟨20, _⟩ => ⟨S4096x128, .f32⟩
  | .local _ .vmem, ⟨21, _⟩ => ⟨S4096x128, .f32⟩
  | .local _ .vmem, ⟨22, _⟩ => ⟨S4096x128, .f32⟩
  | .local _ .vmem, ⟨23, _⟩ => ⟨S1568x128, .f32⟩
  | .local _ .vmem, ⟨24, _⟩ => ⟨S1568x128, .f32⟩
  | .local _ .vmem, ⟨25, _⟩ => ⟨S1568x128, .f32⟩
  | _, _ => ⟨S1000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_call0_v0 : Ref sig .tc := ⟨.hbm, 15, rfl⟩
abbrev main_v0 : Ref sig .tc := ⟨.hbm, 16, rfl⟩
abbrev main_c_0 : Ref sig .tc := ⟨.hbm, 17, rfl⟩
abbrev main_call1_v0 : Ref sig .tc := ⟨.hbm, 18, rfl⟩
abbrev main_v1 : Ref sig .tc := ⟨.hbm, 19, rfl⟩
abbrev main_v2_0 : Ref sig .tc := ⟨.hbm, 20, rfl⟩
abbrev main_v2_1 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_1 : Ref sig .tc := ⟨.hbm, 34, rfl⟩
abbrev main_call2_v0 : Ref sig .tc := ⟨.hbm, 35, rfl⟩
abbrev main_v14 : Ref sig .tc := ⟨.hbm, 36, rfl⟩
abbrev main_v15 : Ref sig .tc := ⟨.hbm, 37, rfl⟩
abbrev main_v16_0 : Ref sig .tc := ⟨.hbm, 38, rfl⟩
abbrev main_v16_1 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_2 : Ref sig .tc := ⟨.hbm, 44, rfl⟩
abbrev main_v21 : Ref sig .tc := ⟨.hbm, 45, rfl⟩
abbrev main_v22 : Ref sig .tc := ⟨.hbm, 46, rfl⟩
abbrev main_c_3 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_4 : Ref sig .tc := ⟨.hbm, 54, rfl⟩
abbrev main_v29 : Ref sig .tc := ⟨.hbm, 55, rfl⟩
abbrev main_v30 : Ref sig .tc := ⟨.hbm, 56, rfl⟩
abbrev main_c_5 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_c_7 : Ref sig .tc := ⟨.hbm, 74, rfl⟩
abbrev main_call3_v0 : Ref sig .tc := ⟨.hbm, 75, rfl⟩
abbrev main_v46 : Ref sig .tc := ⟨.hbm, 76, rfl⟩
abbrev main_v47 : Ref sig .tc := ⟨.hbm, 77, rfl⟩
abbrev main_v48_0 : Ref sig .tc := ⟨.hbm, 78, rfl⟩
abbrev main_v48_1 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_c_8 : Ref sig .tc := ⟨.hbm, 84, rfl⟩
abbrev main_v53 : Ref sig .tc := ⟨.hbm, 85, rfl⟩
abbrev main_v54 : Ref sig .tc := ⟨.hbm, 86, rfl⟩
abbrev main_c_9 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_c_10 : Ref sig .tc := ⟨.hbm, 94, rfl⟩
abbrev main_v61 : Ref sig .tc := ⟨.hbm, 95, rfl⟩
abbrev main_v62 : Ref sig .tc := ⟨.hbm, 96, rfl⟩
abbrev main_c_11 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg1_0 : Ref sig .tc := ⟨.vmem, 24, rfl⟩
abbrev cc4_stg2_0 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem1_0 : DmaSem sig := 13
abbrev cc2_sem2_0 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22
abbrev cc4_sem0_0 : DmaSem sig := 23
abbrev cc4_sem1_0 : DmaSem sig := 24
abbrev cc4_sem2_0 : DmaSem sig := 25

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1200x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1200x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1200 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1568x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1568x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1568x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4096x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4096x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1568x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S1568x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1568x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

class Facts₀ : Prop where
  pads_S1000x128_S1200x128_02000_000 : S1000x128.Pads (![0, 0] : Fin 2 → Nat) ![200, 0] ![0, 0] S1200x128
  h_S_ : 0 < S_.numel
  pads_S1200x128_S1200x128_000_000 : S1200x128.Pads (![0, 0] : Fin 2 → Nat) ![0, 0] ![0, 0] S1200x128
  inb_S1200x128_S1200x128_0_0 : ∀ a, (![0, 0] : Fin 2 → Nat) a + S1200x128.size a ≤ S1200x128.size a
  h_S1200x128 : 0 < S1200x128.numel
  shapeCasts_S1200x128_S1200x128 : S1200x128.ShapeCasts S1200x128
  reduces_S1200x128_S1200 : S1200x128.Reduces [1] S1200
  shapeCasts_S1200_S1200x1 : S1200.ShapeCasts S1200x1
  broadcasts_S1200x1_S1200x128 : S1200x1.Broadcasts S1200x128
  transposes_S1200x128_p1_0_S128x1200 : S1200x128.Transposes [1, 0] S128x1200
  reduces_S1200x1200_S1200 : S1200x1200.Reduces [1] S1200
  reduces_S1200x1200_S1200_2 : S1200x1200.Reduces [0] S1200
  shapeCasts_S1200_S1x1200 : S1200.ShapeCasts S1x1200
  inb_S1x1200_S1x1200_0_0 : ∀ a, (![0, 0] : Fin 2 → Nat) a + S1x1200.size a ≤ S1x1200.size a
  h_S1x1200 : 0 < S1x1200.numel
  shapeCasts_S1x1200_S1200 : S1x1200.ShapeCasts S1200
  slices_S1200_S1000_0 : S1200.Slices ![0] S1000
  shapeCasts_S4000000_S31250x128 : S4000000.ShapeCasts S31250x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S31250x128_S4000000 : S31250x128.ShapeCasts S4000000
  bcast_S_S200000 : S_.BroadcastsInDim S200000 (![] : Fin 0 → Fin S200000.rank)
  bcast_S4000000_S4000000x1_0 : S4000000.BroadcastsInDim S4000000x1 (![0] : Fin 1 → Fin S4000000x1.rank)
  pads_S200000_S200704_07040 : S200000.Pads (![0] : Fin 1 → Nat) ![704] ![0] S200704
  shapeCasts_S200704_S1568x128 : S200704.ShapeCasts S1568x128
  inb_S1568x128_S1568x128_0_0 : ∀ a, (![0, 0] : Fin 2 → Nat) a + S1568x128.size a ≤ S1568x128.size a
  h_S1568x128 : 0 < S1568x128.numel
  shapeCasts_S1568x128_S1568x128 : S1568x128.ShapeCasts S1568x128
  shapeCasts_S1568x128_S200704 : S1568x128.ShapeCasts S200704
  slices_S200704_S200000_0 : S200704.Slices ![0] S200000
  bcast_S_S4000000 : S_.BroadcastsInDim S4000000 (![] : Fin 0 → Fin S4000000.rank)
  concatenates_S4000000_S200000_S4200000_d0 : Shape.Concatenates [S4000000, S200000] S4200000 0
  dot_S1200x128_S128x1200_S1200x1200_1_0_0_1_n_n_wf : DotDims.WF S1200x128 S128x1200 S1200x1200 [1] [0] [0] [1] [] []
  scatter_S200000_S4000000x1_S4000000_n_0_0_1_wf : ScatterDims.WF S200000 S4000000x1 S4000000 [] [0] [0] 1
  gather_S200000_S4000000x1_S4000000_n_0_n_n_0_1_1_wf : GatherDims.WF S200000 S4000000x1 S4000000 [] [0] [] [0] [] 1 ![1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1200x128.size a ≤ S1200x128.size a
  hwx0_0 : ∀ i : grid0.Coords, EltTy.bits .f32 = 32 ∨ (Rect.block (s := S1200x128) S1200x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1200x128.size a ≤ S1200x128.size a
  hwx0_1 : ∀ i : grid0.Coords, EltTy.bits .f32 = 32 ∨ (Rect.block (s := S1200x128) S1200x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1200.size a ≤ S1x1200.size a
  hwx0_2 : ∀ i : grid0.Coords, EltTy.bits .f32 = 32 ∨ (Rect.block (s := S1x1200) S1x1200.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1200.size a ≤ S1x1200.size a
  hwx0_3 : ∀ i : grid0.Coords, EltTy.bits .f32 = 32 ∨ (Rect.block (s := S1x1200) S1x1200.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S4096x128.size a < S31250x128.size a
  hwx1_0 : ∀ i : grid1.Coords, EltTy.bits .f32 = 32 ∨ (Rect.unit (s := S31250x128) (fun a => cc1_transform_0 i a * S4096x128.size a) (fun a => (Pipeline.Clip.of (cc1_transform_0 i a) (S4096x128.size a) (S31250x128.size a)).extent (S4096x128.size a)) fun a => Pipeline.Clip.inb (Pipeline.Clip.ok_of (hstart1_0 i a))).WholeWords (EltTy.packing .f32)
  hwxs1_0 : ∀ i : grid1.Coords, EltTy.bits .f32 = 32 ∨ (Rect.unit (s := S4096x128) (fun _ => 0) (fun a => (Pipeline.Clip.of (cc1_transform_0 i a) (S4096x128.size a) (S31250x128.size a)).extent (S4096x128.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S4096x128.size a < S31250x128.size a
  hwx1_1 : ∀ i : grid1.Coords, EltTy.bits .f32 = 32 ∨ (Rect.unit (s := S31250x128) (fun a => cc1_transform_1 i a * S4096x128.size a) (fun a => (Pipeline.Clip.of (cc1_transform_1 i a) (S4096x128.size a) (S31250x128.size a)).extent (S4096x128.size a)) fun a => Pipeline.Clip.inb (Pipeline.Clip.ok_of (hstart1_1 i a))).WholeWords (EltTy.packing .f32)
  hwxs1_1 : ∀ i : grid1.Coords, EltTy.bits .f32 = 32 ∨ (Rect.unit (s := S4096x128) (fun _ => 0) (fun a => (Pipeline.Clip.of (cc1_transform_1 i a) (S4096x128.size a) (S31250x128.size a)).extent (S4096x128.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S4096x128.size a < S31250x128.size a
  hwx1_2 : ∀ i : grid1.Coords, EltTy.bits .f32 = 32 ∨ (Rect.unit (s := S31250x128) (fun a => cc1_transform_2 i a * S4096x128.size a) (fun a => (Pipeline.Clip.of (cc1_transform_2 i a) (S4096x128.size a) (S31250x128.size a)).extent (S4096x128.size a)) fun a => Pipeline.Clip.inb (Pipeline.Clip.ok_of (hstart1_2 i a))).WholeWords (EltTy.packing .f32)
  hwxs1_2 : ∀ i : grid1.Coords, EltTy.bits .f32 = 32 ∨ (Rect.unit (s := S4096x128) (fun _ => 0) (fun a => (Pipeline.Clip.of (cc1_transform_2 i a) (S4096x128.size a) (S31250x128.size a)).extent (S4096x128.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S4096x128.size a < S31250x128.size a
  hwx1_3 : ∀ i : grid1.Coords, EltTy.bits .f32 = 32 ∨ (Rect.unit (s := S31250x128) (fun a => cc1_transform_3 i a * S4096x128.size a) (fun a => (Pipeline.Clip.of (cc1_transform_3 i a) (S4096x128.size a) (S31250x128.size a)).extent (S4096x128.size a)) fun a => Pipeline.Clip.inb (Pipeline.Clip.ok_of (hstart1_3 i a))).WholeWords (EltTy.packing .f32)
  hwxs1_3 : ∀ i : grid1.Coords, EltTy.bits .f32 = 32 ∨ (Rect.unit (s := S4096x128) (fun _ => 0) (fun a => (Pipeline.Clip.of (cc1_transform_3 i a) (S4096x128.size a) (S31250x128.size a)).extent (S4096x128.size a)) fun a => (Nat.zero_add _).trans_le (Pipeline.Clip.extent_le (Pipeline.Clip.ok_of (hstart1_3 i a)))).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1568x128.size a ≤ S1568x128.size a
  hwx2_0 : ∀ i : grid2.Coords, EltTy.bits .f32 = 32 ∨ (Rect.block (s := S1568x128) S1568x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1568x128.size a ≤ S1568x128.size a
  hwx2_1 : ∀ i : grid2.Coords, EltTy.bits .f32 = 32 ∨ (Rect.block (s := S1568x128) S1568x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1568x128.size a ≤ S1568x128.size a
  hwx2_2 : ∀ i : grid2.Coords, EltTy.bits .f32 = 32 ∨ (Rect.block (s := S1568x128) S1568x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hstart3_0 : ∀ (i : grid3.Coords) a, cc3_transform_0 i a * S4096x128.size a < S31250x128.size a
  hwx3_0 : ∀ i : grid3.Coords, EltTy.bits .f32 = 32 ∨ (Rect.unit (s := S31250x128) (fun a => cc3_transform_0 i a * S4096x128.size a) (fun a => (Pipeline.Clip.of (cc3_transform_0 i a) (S4096x128.size a) (S31250x128.size a)).extent (S4096x128.size a)) fun a => Pipeline.Clip.inb (Pipeline.Clip.ok_of (hstart3_0 i a))).WholeWords (EltTy.packing .f32)
  hwxs3_0 : ∀ i : grid3.Coords, EltTy.bits .f32 = 32 ∨ (Rect.unit (s := S4096x128) (fun _ => 0) (fun a => (Pipeline.Clip.of (cc3_transform_0 i a) (S4096x128.size a) (S31250x128.size a)).extent (S4096x128.size a)) fun a => (Nat.zero_add _).trans_le (Pipeline.Clip.extent_le (Pipeline.Clip.ok_of (hstart3_0 i a)))).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hstart3_1 : ∀ (i : grid3.Coords) a, cc3_transform_1 i a * S4096x128.size a < S31250x128.size a
  hwx3_1 : ∀ i : grid3.Coords, EltTy.bits .f32 = 32 ∨ (Rect.unit (s := S31250x128) (fun a => cc3_transform_1 i a * S4096x128.size a) (fun a => (Pipeline.Clip.of (cc3_transform_1 i a) (S4096x128.size a) (S31250x128.size a)).extent (S4096x128.size a)) fun a => Pipeline.Clip.inb (Pipeline.Clip.ok_of (hstart3_1 i a))).WholeWords (EltTy.packing .f32)
  hwxs3_1 : ∀ i : grid3.Coords, EltTy.bits .f32 = 32 ∨ (Rect.unit (s := S4096x128) (fun _ => 0) (fun a => (Pipeline.Clip.of (cc3_transform_1 i a) (S4096x128.size a) (S31250x128.size a)).extent (S4096x128.size a)) fun a => (Nat.zero_add _).trans_le (Pipeline.Clip.extent_le (Pipeline.Clip.ok_of (hstart3_1 i a)))).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hstart3_2 : ∀ (i : grid3.Coords) a, cc3_transform_2 i a * S4096x128.size a < S31250x128.size a
  hwx3_2 : ∀ i : grid3.Coords, EltTy.bits .f32 = 32 ∨ (Rect.unit (s := S31250x128) (fun a => cc3_transform_2 i a * S4096x128.size a) (fun a => (Pipeline.Clip.of (cc3_transform_2 i a) (S4096x128.size a) (S31250x128.size a)).extent (S4096x128.size a)) fun a => Pipeline.Clip.inb (Pipeline.Clip.ok_of (hstart3_2 i a))).WholeWords (EltTy.packing .f32)
  hwxs3_2 : ∀ i : grid3.Coords, EltTy.bits .f32 = 32 ∨ (Rect.unit (s := S4096x128) (fun _ => 0) (fun a => (Pipeline.Clip.of (cc3_transform_2 i a) (S4096x128.size a) (S31250x128.size a)).extent (S4096x128.size a)) fun a => (Nat.zero_add _).trans_le (Pipeline.Clip.extent_le (Pipeline.Clip.ok_of (hstart3_2 i a)))).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hstart3_3 : ∀ (i : grid3.Coords) a, cc3_transform_3 i a * S4096x128.size a < S31250x128.size a
  hwx3_3 : ∀ i : grid3.Coords, EltTy.bits .f32 = 32 ∨ (Rect.unit (s := S31250x128) (fun a => cc3_transform_3 i a * S4096x128.size a) (fun a => (Pipeline.Clip.of (cc3_transform_3 i a) (S4096x128.size a) (S31250x128.size a)).extent (S4096x128.size a)) fun a => Pipeline.Clip.inb (Pipeline.Clip.ok_of (hstart3_3 i a))).WholeWords (EltTy.packing .f32)
  hwxs3_3 : ∀ i : grid3.Coords, EltTy.bits .f32 = 32 ∨ (Rect.unit (s := S4096x128) (fun _ => 0) (fun a => (Pipeline.Clip.of (cc3_transform_3 i a) (S4096x128.size a) (S31250x128.size a)).extent (S4096x128.size a)) fun a => (Nat.zero_add _).trans_le (Pipeline.Clip.extent_le (Pipeline.Clip.ok_of (hstart3_3 i a)))).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1568x128.size a ≤ S1568x128.size a
  hwx4_0 : ∀ i : grid4.Coords, EltTy.bits .f32 = 32 ∨ (Rect.block (s := S1568x128) S1568x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1568x128.size a ≤ S1568x128.size a
  hwx4_1 : ∀ i : grid4.Coords, EltTy.bits .f32 = 32 ∨ (Rect.block (s := S1568x128) S1568x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1568x128.size a ≤ S1568x128.size a
  hwx4_2 : ∀ i : grid4.Coords, EltTy.bits .f32 = 32 ∨ (Rect.block (s := S1568x128) S1568x128.size (cc4_transform_2 i) (hinb4_2 i)).WholeWords (EltTy.packing .f32)

variable [Facts₀]

def dot_S1200x128_S128x1200_S1200x1200_1_0_0_1_n_n : DotDims S1200x128 S128x1200 S1200x1200 where
  lhsContracting := [1]
  rhsContracting := [0]
  lhsNonContracting := [0]
  rhsNonContracting := [1]
  lhsBatch := []
  rhsBatch := []
  wf := dot_S1200x128_S128x1200_S1200x1200_1_0_0_1_n_n_wf
def scatter_S200000_S4000000x1_S4000000_n_0_0_1 : ScatterDims S200000 S4000000x1 S4000000 where
  updateWindowDims := []
  insertedWindowDims := [0]
  scatterDimsToOperandDims := [0]
  indexVectorDim := 1
  wf := scatter_S200000_S4000000x1_S4000000_n_0_0_1_wf
def gather_S200000_S4000000x1_S4000000_n_0_n_n_0_1_1 : GatherDims S200000 S4000000x1 S4000000 where
  offsetDims := []
  collapsedSliceDims := [0]
  operandBatchingDims := []
  startIndicesBatchingDims := []
  startIndexMap := [0]
  indexVectorDim := 1
  sliceSizes := ![1]
  wf := gather_S200000_S4000000x1_S4000000_n_0_n_n_0_1_1_wf

abbrev win0_0 : Pipeline.Window sig grid0 :=
  Pipeline.Window.ofSpec (Memref.whole main_v0) S1200x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1200x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1200.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1200.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpecClip (Memref.whole main_v6) S4096x128.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v7) S4096x128.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v8) S4096x128.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v9) S4096x128.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v15) S1568x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v16_0) S1568x128.size cc2_transform_1 reads2_1 true true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16_1) S1568x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpecClip (Memref.whole main_v38) S4096x128.size cc3_transform_0 reads3_0 false false 2 stage3_0 sem3_0
    hrank3 hreads3_0 hstart3_0 nbuf3_0 (Memref.isWhole_whole _) hwx3_0 hwxs3_0 hstage3_0

abbrev win3_1 : Pipeline.Window sig grid3 :=
  Pipeline.Window.ofSpecClip (Memref.whole main_v39) S4096x128.size cc3_transform_1 reads3_1 false false 2 stage3_1 sem3_1
    hrank3 hreads3_1 hstart3_1 nbuf3_1 (Memref.isWhole_whole _) hwx3_1 hwxs3_1 hstage3_1

abbrev win3_2 : Pipeline.Window sig grid3 :=
  Pipeline.Window.ofSpecClip (Memref.whole main_v40) S4096x128.size cc3_transform_2 reads3_2 false false 2 stage3_2 sem3_2
    hrank3 hreads3_2 hstart3_2 nbuf3_2 (Memref.isWhole_whole _) hwx3_2 hwxs3_2 hstage3_2

abbrev win3_3 : Pipeline.Window sig grid3 :=
  Pipeline.Window.ofSpecClip (Memref.whole main_v41) S4096x128.size cc3_transform_3 reads3_3 true false 2 stage3_3 sem3_3
    hrank3 hreads3_3 hstart3_3 nbuf3_3 (Memref.isWhole_whole _) hwx3_3 hwxs3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v47) S1568x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v48_0) S1568x128.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v48_1) S1568x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S1000x128 : Shape := ⟨2, ![1000, 128]⟩
abbrev S1200x128 : Shape := ⟨2, ![1200, 128]⟩
abbrev S4000000 : Shape := ⟨1, ![4000000]⟩
abbrev S_ : Shape := ⟨0, ![]⟩
abbrev S1200 : Shape := ⟨1, ![1200]⟩
abbrev S1200x1 : Shape := ⟨2, ![1200, 1]⟩
abbrev S128x1200 : Shape := ⟨2, ![128, 1200]⟩
abbrev S1200x1200 : Shape := ⟨2, ![1200, 1200]⟩
abbrev S1000 : Shape := ⟨1, ![1000]⟩
abbrev S200000 : Shape := ⟨1, ![200000]⟩
abbrev S4200000 : Shape := ⟨1, ![4200000]⟩
abbrev S4200000x1 : Shape := ⟨2, ![4200000, 1]⟩

abbrev nBuf : Space → Nat
  | .hbm => 133
  | .vmem => 0
  | .smem => 0
  | _ => 0

abbrev hbmTy0_0 (i : Nat) : BufTy := match i % 128 with
  | 0 => ⟨S1000x128, .f32⟩
  | 1 => ⟨S1200x128, .f32⟩
  | 2 => ⟨S4000000, .f32⟩
  | 3 => ⟨S4000000, .f32⟩
  | 4 => ⟨S4000000, .f32⟩
  | 5 => ⟨S4000000, .f32⟩
  | 6 => ⟨S4000000, .f32⟩
  | 7 => ⟨S4000000, .f32⟩
  | 8 => ⟨S4000000, .i32⟩
  | 9 => ⟨S4000000, .i32⟩
  | 10 => ⟨S4000000, .i32⟩
  | 11 => ⟨S4000000, .i32⟩
  | 12 => ⟨S4000000, .i32⟩
  | 13 => ⟨S4000000, .i32⟩
  | 14 => ⟨S_, .i32⟩
  | 15 => ⟨S_, .f32⟩
  | 16 => ⟨S1200x128, .f32⟩
  | 17 => ⟨S_, .i32⟩
  | 18 => ⟨S_, .f32⟩
  | 19 => ⟨S1200x128, .f32⟩
  | 20 => ⟨S1200x128, .f32⟩
  | 21 => ⟨S_, .f32⟩
  | 22 => ⟨S1200, .f32⟩
  | 23 => ⟨S1200x1, .f32⟩
  | 24 => ⟨S_, .f32⟩
  | 25 => ⟨S1200x1, .f32⟩
  | 26 => ⟨S1200x1, .f32⟩
  | 27 => ⟨S1200x1, .f32⟩
  | 28 => ⟨S1200x128, .f32⟩
  | 29 => ⟨S1200x128, .f32⟩
  | 30 => ⟨S1200x128, .f32⟩
  | 31 => ⟨S_, .f32⟩
  | 32 => ⟨S1200, .f32⟩
  | 33 => ⟨S1200x1, .f32⟩
  | 34 => ⟨S_, .f32⟩
  | 35 => ⟨S1200x1, .f32⟩
  | 36 => ⟨S1200x1, .f32⟩
  | 37 => ⟨S1200x1, .f32⟩
  | 38 => ⟨S1200x128, .f32⟩
  | 39 => ⟨S1200x128, .f32⟩
  | 40 => ⟨S128x1200, .f32⟩
  | 41 => ⟨S1200x1200, .f32⟩
  | 42 => ⟨S_, .f32⟩
  | 43 => ⟨S1200, .f32⟩
  | 44 => ⟨S1000, .f32⟩
  | 45 => ⟨S_, .f32⟩
  | 46 => ⟨S1200, .f32⟩
  | 47 => ⟨S4000000, .f32⟩
  | 48 => ⟨S4000000, .f32⟩
  | 49 => ⟨S200000, .i32⟩
  | 50 => ⟨S4200000, .i32⟩
  | 51 => ⟨S4200000, .i32⟩
  | 52 => ⟨S_, .f32⟩
  | 53 => ⟨S200000, .f32⟩
  | 54 => ⟨S4200000, .f32⟩
  | 55 => ⟨S_, .f32⟩
  | 56 => ⟨S200000, .f32⟩
  | 57 => ⟨S4200000x1, .i32⟩
  | 58 => ⟨S200000, .f32⟩
  | 59 => ⟨S_, .f32⟩
  | 60 => ⟨S200000, .f32⟩
  | 61 => ⟨S200000, .i1⟩
  | 62 => ⟨S_, .f32⟩
  | 63 => ⟨S200000, .f32⟩
  | 64 => ⟨S200000, .f32⟩
  | 65 => ⟨S200000, .f32⟩
  | 66 => ⟨S_, .f32⟩
  | 67 => ⟨S_, .f32⟩
  | 68 => ⟨S200000, .f32⟩
  | 69 => ⟨S200000, .f32⟩
  | 70 => ⟨S_, .i32⟩
  | 71 => ⟨S4200000, .i32⟩
  | 72 => ⟨S4200000, .i1⟩
  | 73 => ⟨S_, .i32⟩
  | 74 => ⟨S4200000, .i32⟩
  | 75 => ⟨S4200000, .i32⟩
  | 76 => ⟨S4200000, .i32⟩
  | 77 => ⟨S4200000x1, .i32⟩
  | 78 => ⟨S4200000, .f32⟩
  | 79 => ⟨S4200000, .f32⟩
  | 80 => ⟨S_, .i32⟩
  | 81 => ⟨S4200000, .i32⟩
  | 82 => ⟨S4200000, .i1⟩
  | 83 => ⟨S_, .i32⟩
  | 84 => ⟨S4200000, .i32⟩
  | 85 => ⟨S4200000, .i32⟩
  | 86 => ⟨S4200000, .i32⟩
  | 87 => ⟨S4200000x1, .i32⟩
  | 88 => ⟨S4200000, .f32⟩
  | 89 => ⟨S4200000, .f32⟩
  | 90 => ⟨S4000000, .f32⟩
  | 91 => ⟨S4000000, .f32⟩
  | 92 => ⟨S200000, .i32⟩
  | 93 => ⟨S4200000, .i32⟩
  | 94 => ⟨S4200000, .i32⟩
  | 95 => ⟨S_, .f32⟩
  | 96 => ⟨S200000, .f32⟩
  | 97 => ⟨S4200000, .f32⟩
  | 98 => ⟨S_, .f32⟩
  | 99 => ⟨S200000, .f32⟩
  | 100 => ⟨S4200000x1, .i32⟩
  | 101 => ⟨S200000, .f32⟩
  | 102 => ⟨S_, .f32⟩
  | 103 => ⟨S200000, .f32⟩
  | 104 => ⟨S200000, .i1⟩
  | 105 => ⟨S_, .f32⟩
  | 106 => ⟨S200000, .f32⟩
  | 107 => ⟨S200000, .f32⟩
  | 108 => ⟨S200000, .f32⟩
  | 109 => ⟨S_, .f32⟩
  | 110 => ⟨S_, .f32⟩
  | 111 => ⟨S200000, .f32⟩
  | 112 => ⟨S200000, .f32⟩
  | 113 => ⟨S_, .i32⟩
  | 114 => ⟨S4200000, .i32⟩
  | 115 => ⟨S4200000, .i1⟩
  | 116 => ⟨S_, .i32⟩
  | 117 => ⟨S4200000, .i32⟩
  | 118 => ⟨S4200000, .i32⟩
  | 119 => ⟨S4200000, .i32⟩
  | 120 => ⟨S4200000x1, .i32⟩
  | 121 => ⟨S4200000, .f32⟩
  | 122 => ⟨S4200000, .f32⟩
  | 123 => ⟨S_, .i32⟩
  | 124 => ⟨S4200000, .i32⟩
  | 125 => ⟨S4200000, .i1⟩
  | 126 => ⟨S_, .i32⟩
  | 127 => ⟨S4200000, .i32⟩
  | _ => ⟨S1000x128, .f32⟩

abbrev hbmTy0_1 (i : Nat) : BufTy := match i % 128 with
  | 0 => ⟨S4200000, .i32⟩
  | 1 => ⟨S4200000, .i32⟩
  | 2 => ⟨S4200000x1, .i32⟩
  | 3 => ⟨S4200000, .f32⟩
  | 4 => ⟨S4200000, .f32⟩
  | _ => ⟨S1000x128, .f32⟩

abbrev hbmTy (i : Nat) : BufTy := match i / 128 with
  | 0 => hbmTy0_0 i
  | 1 => hbmTy0_1 i
  | _ => ⟨S1000x128, .f32⟩

abbrev bufTy : (tb : Table) → Fin (tcTables nBuf tb) → BufTy
  | .hbm, ⟨i, _⟩ => hbmTy i
  | _, _ => ⟨S1000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_call0_v0 : Ref sig .tc := ⟨.hbm, 15, rfl⟩
abbrev main_v0 : Ref sig .tc := ⟨.hbm, 16, rfl⟩
abbrev main_c_0 : Ref sig .tc := ⟨.hbm, 17, rfl⟩
abbrev main_call1_v0 : Ref sig .tc := ⟨.hbm, 18, rfl⟩
abbrev main_v1 : Ref sig .tc := ⟨.hbm, 19, rfl⟩
abbrev main_v2 : Ref sig .tc := ⟨.hbm, 20, rfl⟩
abbrev main_cst : Ref sig .tc := ⟨.hbm, 21, rfl⟩
abbrev main_v3 : Ref sig .tc := ⟨.hbm, 22, rfl⟩
abbrev main_v4 : Ref sig .tc := ⟨.hbm, 23, rfl⟩
abbrev main_cst_1 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_cst_3 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_4 : Ref sig .tc := ⟨.hbm, 42, rfl⟩
abbrev main_v20 : Ref sig .tc := ⟨.hbm, 43, rfl⟩
abbrev main_v21 : Ref sig .tc := ⟨.hbm, 44, rfl⟩
abbrev main_cst_5 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_6 : Ref sig .tc := ⟨.hbm, 52, rfl⟩
abbrev main_v28 : Ref sig .tc := ⟨.hbm, 53, rfl⟩
abbrev main_v29 : Ref sig .tc := ⟨.hbm, 54, rfl⟩
abbrev main_cst_7 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_8 : Ref sig .tc := ⟨.hbm, 59, rfl⟩
abbrev main_v33 : Ref sig .tc := ⟨.hbm, 60, rfl⟩
abbrev main_v34 : Ref sig .tc := ⟨.hbm, 61, rfl⟩
abbrev main_cst_9 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_10 : Ref sig .tc := ⟨.hbm, 66, rfl⟩
abbrev main_call2_v0 : Ref sig .tc := ⟨.hbm, 67, rfl⟩
abbrev main_call2_v1 : Ref sig .tc := ⟨.hbm, 68, rfl⟩
abbrev main_v38 : Ref sig .tc := ⟨.hbm, 69, rfl⟩
abbrev main_c_11 : Ref sig .tc := ⟨.hbm, 70, rfl⟩
abbrev main_v39 : Ref sig .tc := ⟨.hbm, 71, rfl⟩
abbrev main_v40 : Ref sig .tc := ⟨.hbm, 72, rfl⟩
abbrev main_c_12 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_c_13 : Ref sig .tc := ⟨.hbm, 80, rfl⟩
abbrev main_v47 : Ref sig .tc := ⟨.hbm, 81, rfl⟩
abbrev main_v48 : Ref sig .tc := ⟨.hbm, 82, rfl⟩
abbrev main_c_14 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_15 : Ref sig .tc := ⟨.hbm, 95, rfl⟩
abbrev main_v60 : Ref sig .tc := ⟨.hbm, 96, rfl⟩
abbrev main_v61 : Ref sig .tc := ⟨.hbm, 97, rfl⟩
abbrev main_cst_16 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_17 : Ref sig .tc := ⟨.hbm, 102, rfl⟩
abbrev main_v65 : Ref sig .tc := ⟨.hbm, 103, rfl⟩
abbrev main_v66 : Ref sig .tc := ⟨.hbm, 104, rfl⟩
abbrev main_cst_18 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_19 : Ref sig .tc := ⟨.hbm, 109, rfl⟩
abbrev main_call3_v0 : Ref sig .tc := ⟨.hbm, 110, rfl⟩
abbrev main_call3_v1 : Ref sig .tc := ⟨.hbm, 111, rfl⟩
abbrev main_v70 : Ref sig .tc := ⟨.hbm, 112, rfl⟩
abbrev main_c_20 : Ref sig .tc := ⟨.hbm, 113, rfl⟩
abbrev main_v71 : Ref sig .tc := ⟨.hbm, 114, rfl⟩
abbrev main_v72 : Ref sig .tc := ⟨.hbm, 115, rfl⟩
abbrev main_c_21 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_c_22 : Ref sig .tc := ⟨.hbm, 123, rfl⟩
abbrev main_v79 : Ref sig .tc := ⟨.hbm, 124, rfl⟩
abbrev main_v80 : Ref sig .tc := ⟨.hbm, 125, rfl⟩
abbrev main_c_23 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩

abbrev nD : Nat := 1
abbrev τ : Topo := Topo.v7x

variable {F : FTy → Type} [FloatOps F]

class Facts₀ : Prop where
  pads_S1000x128_S1200x128_02000_000 : S1000x128.Pads (![0, 0] : Fin 2 → Nat) ![200, 0] ![0, 0] S1200x128
  h_S_ : 0 < S_.numel
  pads_S1200x128_S1200x128_000_000 : S1200x128.Pads (![0, 0] : Fin 2 → Nat) ![0, 0] ![0, 0] S1200x128
  reducesTo_S1200x128_S1200_d1 : S1200x128.ReducesTo [1] S1200
  bcast_S1200_S1200x1_0 : S1200.BroadcastsInDim S1200x1 (![0] : Fin 1 → Fin S1200x1.rank)
  bcast_S_S1200x1 : S_.BroadcastsInDim S1200x1 (![] : Fin 0 → Fin S1200x1.rank)
  bcast_S1200x1_S1200x128_0_1 : S1200x1.BroadcastsInDim S1200x128 (![0, 1] : Fin 2 → Fin S1200x128.rank)
  transposes_S1200x128_S128x1200_1_0 : S1200x128.Transposes [1, 0] S128x1200
  reducesTo_S1200x1200_S1200_d1 : S1200x1200.ReducesTo [1] S1200
  slices_S1200_S1000_0 : S1200.Slices ![0] S1000
  reducesTo_S1200x1200_S1200_d0 : S1200x1200.ReducesTo [0] S1200
  concatenates_S4000000_S200000_S4200000_d0 : Shape.Concatenates [S4000000, S200000] S4200000 0
  bcast_S_S200000 : S_.BroadcastsInDim S200000 (![] : Fin 0 → Fin S200000.rank)
  bcast_S4200000_S4200000x1_0 : S4200000.BroadcastsInDim S4200000x1 (![0] : Fin 1 → Fin S4200000x1.rank)
  bcast_S_S4200000 : S_.BroadcastsInDim S4200000 (![] : Fin 0 → Fin S4200000.rank)
  dot_S1200x128_S128x1200_S1200x1200_1_0_0_1_n_n_wf : DotDims.WF S1200x128 S128x1200 S1200x1200 [1] [0] [0] [1] [] []
  scatter_S200000_S4200000x1_S4200000_n_0_0_1_wf : ScatterDims.WF S200000 S4200000x1 S4200000 [] [0] [0] 1
  gather_S200000_S4200000x1_S4200000_n_0_n_n_0_1_1_wf : GatherDims.WF S200000 S4200000x1 S4200000 [] [0] [] [0] [] 1 ![1]

variable [Facts₀]

def dot_S1200x128_S128x1200_S1200x1200_1_0_0_1_n_n : DotDims S1200x128 S128x1200 S1200x1200 where
  lhsContracting := [1]
  rhsContracting := [0]
  lhsNonContracting := [0]
  rhsNonContracting := [1]
  lhsBatch := []
  rhsBatch := []
  wf := dot_S1200x128_S128x1200_S1200x1200_1_0_0_1_n_n_wf
def scatter_S200000_S4200000x1_S4200000_n_0_0_1 : ScatterDims S200000 S4200000x1 S4200000 where
  updateWindowDims := []
  insertedWindowDims := [0]
  scatterDimsToOperandDims := [0]
  indexVectorDim := 1
  wf := scatter_S200000_S4200000x1_S4200000_n_0_0_1_wf
def gather_S200000_S4200000x1_S4200000_n_0_n_n_0_1_1 : GatherDims S200000 S4200000x1 S4200000 where
  offsetDims := []
  collapsedSliceDims := [0]
  operandBatchingDims := []
  startIndicesBatchingDims := []
  startIndexMap := [0]
  indexVectorDim := 1
  sliceSizes := ![1]
  wf := gather_S200000_S4200000x1_S4200000_n_0_n_n_0_1_1_wf

class Facts : Prop extends Facts₀ where

variable [Facts]
-- ==== Proof.Fold.lean ====
/-
  The contents of the TensorCore's unscoped buffers at every boundary between two items of @main — a stretch of host
  operations or a kernel region —, as a fold from the launch memory: a host stretch applies its operations' pure
  functions; a region replaces the arrays of its windows by what it leaves there (`O p`, a parameter here: the
  regions' own modules say what that is) and touches nothing else.  Stated at any float instance.  Beside each
  boundary: the buffers the step does not write keep their contents.
-/
import proofs.«153293_j29283087024787_2_alg».proof.Proof.Gen.KernelIdeal.Launch
import proofs.«153293_j29283087024787_2_alg».proof.Proof.Gen.KernelIdeal.Regions
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

/-- What region `p` leaves in the arrays of its windows, per core. -/
abbrev Out0 : Type := (c : Dev nD) → (w : Fin 4) → Buf (Elt F) ((spec0 w).arr.view.loc (c.tc : Thread nD τ))
abbrev Out1 : Type := (c : Dev nD) → (w : Fin 4) → Buf (Elt F) ((spec1 w).arr.view.loc (c.tc : Thread nD τ))
abbrev Out2 : Type := (c : Dev nD) → (w : Fin 3) → Buf (Elt F) ((spec2 w).arr.view.loc (c.tc : Thread nD τ))
abbrev Out3 : Type := (c : Dev nD) → (w : Fin 4) → Buf (Elt F) ((spec3 w).arr.view.loc (c.tc : Thread nD τ))
abbrev Out4 : Type := (c : Dev nD) → (w : Fin 3) → Buf (Elt F) ((spec4 w).arr.view.loc (c.tc : Thread nD τ))

variable (m : (ℓ : Loc nD τ sig) → Buf (Elt F) ℓ)
variable (O0 : Out0 (F := F)) (O1 : Out1 (F := F)) (O2 : Out2 (F := F)) (O3 : Out3 (F := F)) (O4 : Out4 (F := F))

/-- Core `c`'s buffers at launch. -/
abbrev W0 (c : Dev nD) : Valuation τ sig (Elt F) := fun b => m (c, b)
/-- After item 0, the host stretch `hostOps0`. -/
abbrev W1 (c : Dev nD) : Valuation τ sig (Elt F) := StableHlo.after hostOps0 (W0 m c)
theorem W1_of (c : Dev nD) (r : Ref sig .tc) (h : r ∉ hostOps0_W) : W1 m  c r = W0 m c r :=
  StableHlo.after_of_writes_sub hostOps0 _ hostOps0_writes h
/-- After item 1, the host stretch `hostOps0_1`. -/
abbrev W2 (c : Dev nD) : Valuation τ sig (Elt F) := StableHlo.after hostOps0_1 (W1 m c)
theorem W2_of (c : Dev nD) (r : Ref sig .tc) (h : r ∉ hostOps0_1_W) : W2 m  c r = W1 m c r :=
  StableHlo.after_of_writes_sub hostOps0_1 _ hostOps0_1_writes h
/-- After item 2, the host stretch `hostOps0_2`. -/
abbrev W3 (c : Dev nD) : Valuation τ sig (Elt F) := StableHlo.after hostOps0_2 (W2 m c)
theorem W3_of (c : Dev nD) (r : Ref sig .tc) (h : r ∉ hostOps0_2_W) : W3 m  c r = W2 m c r :=
  StableHlo.after_of_writes_sub hostOps0_2 _ hostOps0_2_writes h
/-- After item 3, the host stretch `hostOps0_3`. -/
abbrev W4 (c : Dev nD) : Valuation τ sig (Elt F) := StableHlo.after hostOps0_3 (W3 m c)
theorem W4_of (c : Dev nD) (r : Ref sig .tc) (h : r ∉ hostOps0_3_W) : W4 m  c r = W3 m c r :=
  StableHlo.after_of_writes_sub hostOps0_3 _ hostOps0_3_writes h
/-- After item 4, region 0: its windows' arrays at what it leaves, every other buffer as entered. -/
def W5 (c : Dev nD) : Valuation τ sig (Elt F) := Pipeline.withArrays spec0 c (W4 m c) (O0 c)
theorem W5_arr (c : Dev nD) (w : Fin 4) : W5 m O0 c (Proc.devRef .tc (Pipeline.arrRef spec0 w)) = O0 c w := by
  unfold W5; exact Pipeline.withArrays_arr spec0 launch0.win.arr_inj c _ _ w
theorem W5_of (c : Dev nD) (b : Ref sig .tc) (hb : ∀ w, Pipeline.arrRef spec0 w ≠ b) : W5 m O0 c (Proc.devRef .tc b) = W4 m c (Proc.devRef .tc b) := by
  unfold W5; exact Pipeline.withArrays_of_ne spec0 c _ _ b hb
/-- After item 5, the host stretch `hostOps1`. -/
abbrev W6 (c : Dev nD) : Valuation τ sig (Elt F) := StableHlo.after hostOps1 (W5 m O0 c)
theorem W6_of (c : Dev nD) (r : Ref sig .tc) (h : r ∉ hostOps1_W) : W6 m O0 c r = W5 m O0 c r :=
  StableHlo.after_of_writes_sub hostOps1 _ hostOps1_writes h
/-- After item 6, region 1: its windows' arrays at what it leaves, every other buffer as entered. -/
def W7 (c : Dev nD) : Valuation τ sig (Elt F) := Pipeline.withArrays spec1 c (W6 m O0 c) (O1 c)
theorem W7_arr (c : Dev nD) (w : Fin 4) : W7 m O0 O1 c (Proc.devRef .tc (Pipeline.arrRef spec1 w)) = O1 c w := by
  unfold W7; exact Pipeline.withArrays_arr spec1 launch1.win.arr_inj c _ _ w
theorem W7_of (c : Dev nD) (b : Ref sig .tc) (hb : ∀ w, Pipeline.arrRef spec1 w ≠ b) : W7 m O0 O1 c (Proc.devRef .tc b) = W6 m O0 c (Proc.devRef .tc b) := by
  unfold W7; exact Pipeline.withArrays_of_ne spec1 c _ _ b hb
/-- After item 7, the host stretch `hostOps2`. -/
abbrev W8 (c : Dev nD) : Valuation τ sig (Elt F) := StableHlo.after hostOps2 (W7 m O0 O1 c)
theorem W8_of (c : Dev nD) (r : Ref sig .tc) (h : r ∉ hostOps2_W) : W8 m O0 O1 c r = W7 m O0 O1 c r :=
  StableHlo.after_of_writes_sub hostOps2 _ hostOps2_writes h
/-- After item 8, the host stretch `hostOps2_1`. -/
abbrev W9 (c : Dev nD) : Valuation τ sig (Elt F) := StableHlo.after hostOps2_1 (W8 m O0 O1 c)
theorem W9_of (c : Dev nD) (r : Ref sig .tc) (h : r ∉ hostOps2_1_W) : W9 m O0 O1 c r = W8 m O0 O1 c r :=
  StableHlo.after_of_writes_sub hostOps2_1 _ hostOps2_1_writes h
/-- After item 9, the host stretch `hostOps2_2`. -/
abbrev W10 (c : Dev nD) : Valuation τ sig (Elt F) := StableHlo.after hostOps2_2 (W9 m O0 O1 c)
theorem W10_of (c : Dev nD) (r : Ref sig .tc) (h : r ∉ hostOps2_2_W) : W10 m O0 O1 c r = W9 m O0 O1 c r :=
  StableHlo.after_of_writes_sub hostOps2_2 _ hostOps2_2_writes h
/-- After item 10, region 2: its windows' arrays at what it leaves, every other buffer as entered. -/
def W11 (c : Dev nD) : Valuation τ sig (Elt F) := Pipeline.withArrays spec2 c (W10 m O0 O1 c) (O2 c)
theorem W11_arr (c : Dev nD) (w : Fin 3) : W11 m O0 O1 O2 c (Proc.devRef .tc (Pipeline.arrRef spec2 w)) = O2 c w := by
  unfold W11; exact Pipeline.withArrays_arr spec2 launch2.win.arr_inj c _ _ w
theorem W11_of (c : Dev nD) (b : Ref sig .tc) (hb : ∀ w, Pipeline.arrRef spec2 w ≠ b) : W11 m O0 O1 O2 c (Proc.devRef .tc b) = W10 m O0 O1 c (Proc.devRef .tc b) := by
  unfold W11; exact Pipeline.withArrays_of_ne spec2 c _ _ b hb
/-- After item 11, the host stretch `hostOps3`. -/
abbrev W12 (c : Dev nD) : Valuation τ sig (Elt F) := StableHlo.after hostOps3 (W11 m O0 O1 O2 c)
theorem W12_of (c : Dev nD) (r : Ref sig .tc) (h : r ∉ hostOps3_W) : W12 m O0 O1 O2 c r = W11 m O0 O1 O2 c r :=
  StableHlo.after_of_writes_sub hostOps3 _ hostOps3_writes h
/-- After item 12, region 3: its windows' arrays at what it leaves, every other buffer as entered. -/
def W13 (c : Dev nD) : Valuation τ sig (Elt F) := Pipeline.withArrays spec3 c (W12 m O0 O1 O2 c) (O3 c)
theorem W13_arr (c : Dev nD) (w : Fin 4) : W13 m O0 O1 O2 O3 c (Proc.devRef .tc (Pipeline.arrRef spec3 w)) = O3 c w := by
  unfold W13; exact Pipeline.withArrays_arr spec3 launch3.win.arr_inj c _ _ w
theorem W13_of (c : Dev nD) (b : Ref sig .tc) (hb : ∀ w, Pipeline.arrRef spec3 w ≠ b) : W13 m O0 O1 O2 O3 c (Proc.devRef .tc b) = W12 m O0 O1 O2 c (Proc.devRef .tc b) := by
  unfold W13; exact Pipeline.withArrays_of_ne spec3 c _ _ b hb
/-- After item 13, the host stretch `hostOps4`. -/
abbrev W14 (c : Dev nD) : Valuation τ sig (Elt F) := StableHlo.after hostOps4 (W13 m O0 O1 O2 O3 c)
theorem W14_of (c : Dev nD) (r : Ref sig .tc) (h : r ∉ hostOps4_W) : W14 m O0 O1 O2 O3 c r = W13 m O0 O1 O2 O3 c r :=
  StableHlo.after_of_writes_sub hostOps4 _ hostOps4_writes h
/-- After item 14, the host stretch `hostOps4_1`. -/
abbrev W15 (c : Dev nD) : Valuation τ sig (Elt F) := StableHlo.after hostOps4_1 (W14 m O0 O1 O2 O3 c)
theorem W15_of (c : Dev nD) (r : Ref sig .tc) (h : r ∉ hostOps4_1_W) : W15 m O0 O1 O2 O3 c r = W14 m O0 O1 O2 O3 c r :=
  StableHlo.after_of_writes_sub hostOps4_1 _ hostOps4_1_writes h
/-- After item 15, the host stretch `hostOps4_2`. -/
abbrev W16 (c : Dev nD) : Valuation τ sig (Elt F) := StableHlo.after hostOps4_2 (W15 m O0 O1 O2 O3 c)
theorem W16_of (c : Dev nD) (r : Ref sig .tc) (h : r ∉ hostOps4_2_W) : W16 m O0 O1 O2 O3 c r = W15 m O0 O1 O2 O3 c r :=
  StableHlo.after_of_writes_sub hostOps4_2 _ hostOps4_2_writes h
/-- After item 16, region 4: its windows' arrays at what it leaves, every other buffer as entered. -/
def W17 (c : Dev nD) : Valuation τ sig (Elt F) := Pipeline.withArrays spec4 c (W16 m O0 O1 O2 O3 c) (O4 c)
theorem W17_arr (c : Dev nD) (w : Fin 3) : W17 m O0 O1 O2 O3 O4 c (Proc.devRef .tc (Pipeline.arrRef spec4 w)) = O4 c w := by
  unfold W17; exact Pipeline.withArrays_arr spec4 launch4.win.arr_inj c _ _ w
theorem W17_of (c : Dev nD) (b : Ref sig .tc) (hb : ∀ w, Pipeline.arrRef spec4 w ≠ b) : W17 m O0 O1 O2 O3 O4 c (Proc.devRef .tc b) = W16 m O0 O1 O2 O3 c (Proc.devRef .tc b) := by
  unfold W17; exact Pipeline.withArrays_of_ne spec4 c _ _ b hb
/-- After item 17, the host stretch `hostOps5`. -/
abbrev W18 (c : Dev nD) : Valuation τ sig (Elt F) := StableHlo.after hostOps5 (W17 m O0 O1 O2 O3 O4 c)
theorem W18_of (c : Dev nD) (r : Ref sig .tc) (h : r ∉ hostOps5_W) : W18 m O0 O1 O2 O3 O4 c r = W17 m O0 O1 O2 O3 O4 c r :=
  StableHlo.after_of_writes_sub hostOps5 _ hostOps5_writes h

end Cert.KernelIdeal.Hand

end
-- ==== Proof.RegionRelw.lean ====
/-
  Region 0, the relation-weighting kernel, at any float instance: one grid point whose blocks are the whole arrays.
  The body loads the two 1200 × 128 tables whole and stores two 1 × 1200 rows, each a pure function of the two loads;
  so after the region each output array holds that function of what the region found in its two input arrays, and
  the input arrays hold what they held.  Stated at a parameter: the buffer contents when the region is entered.
-/
import proofs.«153293_j29283087024787_2_alg».proof.Proof.Gen.KernelIdeal.Launch
import proofs.«153293_j29283087024787_2_alg».proof.Proof.Gen.KernelIdeal.Skeleton
import proofs.«153293_j29283087024787_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The similarity-maxima region (region 0 of @main, pipeline 0), at its entry contents

The region has one grid point. Its two input windows are the two whole `[1200,128]` row matrices, its two
output windows the two whole `[1,1200]` rows. The body loads both matrices whole and stores one whole row
into each output window; before each store it also loads the output window, a load whose value is never used.
Everything here is stated at a parameter `V`: the contents of the core's buffers when the region is entered. -/

section Region0
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first matrix's staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for the second matrix. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is a whole buffer -/

abbrev r0_in : Rect S1200x128 := Rect.unit (s := S1200x128) ![0, 0] S1200x128.size inb_S1200x128_S1200x128_0_0
abbrev r0_out : Rect S1x1200 := Rect.unit (s := S1x1200) ![0, 0] S1x1200.size inb_S1x1200_S1x1200_0_0

/-! ## What the body leaves in each output window's buffer -/

/-- The row-maxima window's staging buffer after the body, from the two input blocks: one whole-buffer store. -/
def out0_2 (x0 : Vec F S1200x128 .f32) (x1 : Vec F S1200x128 .f32) : Vec F S1x1200 .f32 :=
  View.canon [⟨r0_out, k0_pay2 (View.ld x0 r0_in) (View.ld x1 r0_in)⟩]

/-- The one store covers the buffer. -/
theorem cover0_2 (p0 : Vec F S1x1200 .f32) (y : S1x1200.Idx) :
    ∃ pc ∈ ([⟨r0_out, p0⟩] : List (View.Piece (Elt F) S1x1200 .f32)), y ∈ pc.1.set :=
  View.cover_of_tiled [⟨r0_out, p0⟩] S1x1200.size (by rfl) y

/-- The column-maxima window's staging buffer after the body: one whole-buffer store. -/
def out0_3 (x0 : Vec F S1200x128 .f32) (x1 : Vec F S1200x128 .f32) : Vec F S1x1200 .f32 :=
  View.canon [⟨r0_out, k0_pay3 (View.ld x0 r0_in) (View.ld x1 r0_in)⟩]

/-- The one store covers the buffer. -/
theorem cover0_3 (p0 : Vec F S1x1200 .f32) (y : S1x1200.Idx) :
    ∃ pc ∈ ([⟨r0_out, p0⟩] : List (View.Piece (Elt F) S1x1200 .f32)), y ∈ pc.1.set :=
  View.cover_of_tiled [⟨r0_out, p0⟩] S1x1200.size (by rfl) y

/-! ## The body's triple -/

set_option maxHeartbeats 1000000 in
/-- The body on whole staging memrefs, the inputs' at contents `x0`, `x1` and the outputs' at anything, runs to
    the continuation with the inputs' unchanged and each output's at its one store over the inputs'. The two
    loads of the output memrefs read whatever is there and their values are dropped. -/
theorem sound_kernel0 (c : Dev nD) (E : Set ℕ) (i : grid0.Coords) (arg1 : Memref sig .tc .vmem S1200x128 .f32) (harg1 : arg1.IsWhole) (arg2 : Memref sig .tc .vmem S1200x128 .f32) (harg2 : arg2.IsWhole) (arg3 : Memref sig .tc .vmem S1x1200 .f32) (harg3 : arg3.IsWhole) (arg4 : Memref sig .tc .vmem S1x1200 .f32) (harg4 : arg4.IsWhole)
    (x0 : Vec F S1200x128 .f32) (x1 : Vec F S1200x128 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0__relw_kernel i arg1 harg1 arg2 harg2 arg3 harg3 arg4 harg4) K := by
  simp only [cc0__relw_kernel_eq_skeleton]; unfold cc0__relw_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-! ## The pipeline's proof data -/

/-- The proof data of pipeline 0 on core `c`: the arrays as the region finds them; after the body each input's
    buffer at its block and each output's at its one store over the input blocks; the invariant that of a body
    that touches nothing but its windows; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The two output arrays after the region

The grid has one point and every window's block there is its whole array (every block index is 0), so a block
read off an array is the array, and the one write-back of an output window overwrites its whole array with what
the body stored. -/

theorem hz0 : (![0, 0] : Fin 2 → Nat) = fun _ => 0 := funext fun a => by fin_cases a <;> rfl

/-- Every window's block index is 0 on both axes at every point (decided over the grid). -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The first matrix's block is the whole matrix. -/
theorem iblk0_0_eq (c : Dev nD) (t : Fin cfg0.N) : (iblk0 V c 0 t : Vec F S1200x128 .f32) = V c main_v0 := by
  obtain ⟨e0, e1, -⟩ := idx_facts0 t
  funext j
  show V c main_v0 (((cfg0.win 0).blk t).view.emb j) = V c main_v0 j
  congr 1
  funext a; apply Fin.ext
  match a with
  | ⟨0, _⟩ => show win0_0.index t (0 : Fin 2) * 1200 + 1 * (j 0).val = (j 0).val; omega
  | ⟨1, _⟩ => show win0_0.index t (1 : Fin 2) * 128 + 1 * (j 1).val = (j 1).val; omega

/-- The second matrix's block is the whole matrix. -/
theorem iblk0_1_eq (c : Dev nD) (t : Fin cfg0.N) : (iblk0 V c 1 t : Vec F S1200x128 .f32) = V c main_v1 := by
  obtain ⟨-, -, e0, e1, -⟩ := idx_facts0 t
  funext j
  show V c main_v1 (((cfg0.win 1).blk t).view.emb j) = V c main_v1 j
  congr 1
  funext a; apply Fin.ext
  match a with
  | ⟨0, _⟩ => show win0_1.index t (0 : Fin 2) * 1200 + 1 * (j 0).val = (j 0).val; omega
  | ⟨1, _⟩ => show win0_1.index t (1 : Fin 2) * 128 + 1 * (j 1).val = (j 1).val; omega

/-- A position of the row-maxima window's block is the same position of its array. -/
theorem emb0_2 (t : Fin cfg0.N) (j : S1x1200.Idx) : ((cfg0.win 2).blk t).view.emb j = j := by
  obtain ⟨-, -, -, -, e0, e1, -⟩ := idx_facts0 t
  funext a; apply Fin.ext
  match a with
  | ⟨0, _⟩ => show win0_2.index t (0 : Fin 2) * 1 + 1 * (j 0).val = (j 0).val; omega
  | ⟨1, _⟩ => show win0_2.index t (1 : Fin 2) * 1200 + 1 * (j 1).val = (j 1).val; omega

/-- The same for the column-maxima window. -/
theorem emb0_3 (t : Fin cfg0.N) (j : S1x1200.Idx) : ((cfg0.win 3).blk t).view.emb j = j := by
  obtain ⟨-, -, -, -, -, -, e0, e1⟩ := idx_facts0 t
  funext a; apply Fin.ext
  match a with
  | ⟨0, _⟩ => show win0_3.index t (0 : Fin 2) * 1 + 1 * (j 0).val = (j 0).val; omega
  | ⟨1, _⟩ => show win0_3.index t (1 : Fin 2) * 1200 + 1 * (j 1).val = (j 1).val; omega

/-- The row-maxima window's block of any contents of its array is those contents: the block is the whole array
    and the transfer moves all of it. -/
theorem read_blk0_2 (t : Fin cfg0.N) (X : Vec F S1x1200 .f32) :
    ((cfg0.win 2).blk t).view.read (Elt F) X = (cfg0.win 2).cut (grid0.coords t) X := by
  obtain ⟨-, -, -, -, e0, e1, -⟩ := idx_facts0 t
  funext j
  show X (((cfg0.win 2).blk t).view.emb j) = X ((cfg0.win 2).xinj (grid0.coords t) j)
  congr 1
  funext a; apply Fin.ext
  match a with
  | ⟨0, _⟩ => show win0_2.index t (0 : Fin 2) * 1 + 1 * (j 0).val = (j 0).val; omega
  | ⟨1, _⟩ => show win0_2.index t (1 : Fin 2) * 1200 + 1 * (j 1).val = (j 1).val; omega

/-- The same for the column-maxima window. -/
theorem read_blk0_3 (t : Fin cfg0.N) (X : Vec F S1x1200 .f32) :
    ((cfg0.win 3).blk t).view.read (Elt F) X = (cfg0.win 3).cut (grid0.coords t) X := by
  obtain ⟨-, -, -, -, -, -, e0, e1⟩ := idx_facts0 t
  funext j
  show X (((cfg0.win 3).blk t).view.emb j) = X ((cfg0.win 3).xinj (grid0.coords t) j)
  congr 1
  funext a; apply Fin.ext
  match a with
  | ⟨0, _⟩ => show win0_3.index t (0 : Fin 2) * 1 + 1 * (j 0).val = (j 0).val; omega
  | ⟨1, _⟩ => show win0_3.index t (1 : Fin 2) * 1200 + 1 * (j 1).val = (j 1).val; omega

/-- What the point writes back to the row-maxima array is the block of the row-maxima payload of the two
    matrices as the region finds them. -/
theorem flushed0_2_eq (c : Dev nD) (t : Fin cfg0.N) :
    (dat0 V c).flushed 2 t = ((cfg0.win 2).blk t).view.read (Elt F) (k0_pay2 (V c main_v0) (V c main_v1)) := by
  show (cfg0.win 2).cut (grid0.coords t) ((dat0 V c).after 2 t) = _
  rw [after0_2]
  unfold out0_2
  rw [View.canon_unit_zero hz0]
  simp only [View.ld_unit_zero (S := S1200x128) hz0]
  rw [iblk0_0_eq, iblk0_1_eq]
  exact (read_blk0_2 t _).symm

/-- What the point writes back to the column-maxima array. -/
theorem flushed0_3_eq (c : Dev nD) (t : Fin cfg0.N) :
    (dat0 V c).flushed 3 t = ((cfg0.win 3).blk t).view.read (Elt F) (k0_pay3 (V c main_v0) (V c main_v1)) := by
  show (cfg0.win 3).cut (grid0.coords t) ((dat0 V c).after 3 t) = _
  rw [after0_3]
  unfold out0_3
  rw [View.canon_unit_zero hz0]
  simp only [View.ld_unit_zero (S := S1200x128) hz0]
  rw [iblk0_0_eq, iblk0_1_eq]
  exact (read_blk0_3 t _).symm

/-- Every position of the row-maxima array is in the one point's block. -/
theorem cover_arr0_2 (i : S1x1200.Idx) :
    ∃ t : Fin cfg0.N, (cfg0.win 2).flush t = true ∧ i ∈ ((cfg0.win 2).blk t).view.set :=
  ⟨t0_0, flush0_2 t0_0, by
    have h := ((cfg0.win 2).blk t0_0).view.emb_mem_set i
    rwa [emb0_2] at h⟩

/-- Every position of the column-maxima array is in the one point's block. -/
theorem cover_arr0_3 (i : S1x1200.Idx) :
    ∃ t : Fin cfg0.N, (cfg0.win 3).flush t = true ∧ i ∈ ((cfg0.win 3).blk t).view.set :=
  ⟨t0_0, flush0_3 t0_0, by
    have h := ((cfg0.win 3).blk t0_0).view.emb_mem_set i
    rwa [emb0_3] at h⟩

/-- THE ROW-MAXIMA ARRAY after the region: the row-maxima payload of the two matrices the region found. -/
theorem final0_2 (c : Dev nD) : (dat0 V c).arrAt 2 cfg0.N = k0_pay2 (V c main_v0) (V c main_v1) :=
  (dat0 V c).arrAt_eq_of_cover 2 _ (fun t _ => flushed0_2_eq V c t) cover_arr0_2

/-- THE COLUMN-MAXIMA ARRAY after the region: the column-maxima payload of the two matrices the region found. -/
theorem final0_3 (c : Dev nD) : (dat0 V c).arrAt 3 cfg0.N = k0_pay3 (V c main_v0) (V c main_v1) :=
  (dat0 V c).arrAt_eq_of_cover 3 _ (fun t _ => flushed0_3_eq V c t) cover_arr0_3

end Region0

end Cert.KernelIdeal.Hand

end
-- ==== Proof.RegionDis.lean ====
/-
  Regions 2 and 4, the node-factor kernel, at any float instance: one grid point whose blocks are the whole
  1568 × 128 arrays.  The body loads the padded degrees whole and stores two arrays, each a lane-wise function of the
  load (the guarded inverse square root of the entry plus one, and its square); so after the region each output
  array holds that function of what the region found in its input array, which is unchanged.  Stated at a parameter:
  the buffer contents when the region is entered.
-/
import proofs.«153293_j29283087024787_2_alg».proof.Proof.Gen.KernelIdeal.Launch
import proofs.«153293_j29283087024787_2_alg».proof.Proof.Gen.KernelIdeal.Skeleton
import proofs.«153293_j29283087024787_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The two guarded-inverse-square-root regions share their shapes and their body's accesses: every load and
every store is of a whole `[1568,128]` buffer. -/

abbrev rD : Rect S1568x128 := Rect.unit (s := S1568x128) ![0, 0] S1568x128.size inb_S1568x128_S1568x128_0_0

theorem hzD : (![0, 0] : Fin 2 → Nat) = fun _ => 0 := funext fun a => by fin_cases a <;> rfl

/-! # The degree-factor region of the first graph side (region 2 of @main, pipeline 2), at its entry contents

One grid point; the input window and the two output windows are each a whole `[1568,128]` array. The body
loads the input whole and stores one whole array into each output window; before each store it also loads the
output window, a load whose value is never used. -/

section Region2
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input's staging buffer holds its block at every point, for any proof data whose array is the entry
    contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in each output window's buffer -/

/-- The first output window's staging buffer after the body, from the input block: one whole-buffer store. -/
def out2_1 (x0 : Vec F S1568x128 .f32) : Vec F S1568x128 .f32 :=
  View.canon [⟨rD, k2_pay1 (View.ld x0 rD)⟩]

/-- The one store covers the buffer. -/
theorem cover2_1 (p0 : Vec F S1568x128 .f32) (y : S1568x128.Idx) :
    ∃ pc ∈ ([⟨rD, p0⟩] : List (View.Piece (Elt F) S1568x128 .f32)), y ∈ pc.1.set :=
  View.cover_of_tiled [⟨rD, p0⟩] S1568x128.size (by rfl) y

/-- The second output window's staging buffer after the body: one whole-buffer store. -/
def out2_2 (x0 : Vec F S1568x128 .f32) : Vec F S1568x128 .f32 :=
  View.canon [⟨rD, k2_pay2 (View.ld x0 rD)⟩]

/-- The one store covers the buffer. -/
theorem cover2_2 (p0 : Vec F S1568x128 .f32) (y : S1568x128.Idx) :
    ∃ pc ∈ ([⟨rD, p0⟩] : List (View.Piece (Elt F) S1568x128 .f32)), y ∈ pc.1.set :=
  View.cover_of_tiled [⟨rD, p0⟩] S1568x128.size (by rfl) y

/-! ## The body's triple -/

set_option maxHeartbeats 1000000 in
/-- The body on whole staging memrefs, the input's at contents `x0` and the outputs' at anything, runs to the
    continuation with the input's unchanged and each output's at its one store over the input's. The two loads of
    the output memrefs read whatever is there and their values are dropped. -/
theorem sound_kernel2 (c : Dev nD) (E : Set ℕ) (i : grid2.Coords) (arg1 : Memref sig .tc .vmem S1568x128 .f32) (harg1 : arg1.IsWhole) (arg2 : Memref sig .tc .vmem S1568x128 .f32) (harg2 : arg2.IsWhole) (arg3 : Memref sig .tc .vmem S1568x128 .f32) (harg3 : arg3.IsWhole)
    (x0 : Vec F S1568x128 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out2_1 x0) ∗ owns (c : Thread nD τ) arg3 fullShare (out2_2 x0)) -∗ K ⟨⟩))
      ⊢ wp frame (wpE (defs₀ (F := F)) Variants.none c none) E (cc2__dis_kernel i arg1 harg1 arg2 harg2 arg3 harg3) K := by
  simp only [cc2__dis_kernel_eq_skeleton]; unfold cc2__dis_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover2_1 _)
  iexists _; isplitr
  swap; · iexact H2
  ipureintro
  exact View.read_writes_eq_canon _ _ _ (cover2_2 _)

/-! ## The pipeline's proof data -/

/-- The proof data of pipeline 2 on core `c`: the arrays as the region finds them; after the body the input's
    buffer at its block and each output's at its one store over the input block; the invariant that of a body that
    touches nothing but its windows; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
    | ⟨2, _⟩ => out2_2 (iblk2 V c 0 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]
theorem after2_2 (c : Dev nD) (t : Fin cfg2.N) : (dat2 V c).after 2 t = out2_2 (iblk2 V c 0 t) := by dsimp only [dat2]

/-- The input's current staging buffer holds its block at every point. -/
theorem before2_0 (c : Dev nD) (t : Fin cfg2.N) (d) : (dat2 V c).before 0 t d = iblk2 V c 0 t :=
  before2_0_of V (dat2 V c) (A_eq2 V c 0) (after2_0 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the input's memref holds its block, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The two output arrays after the region

The grid has one point and every window's block there is its whole array (every block index is 0), so the block
read off the input array is the array, and the one write-back of an output window overwrites its whole array
with what the body stored. -/

/-- Every window's block index is 0 on both axes at every point (decided over the grid). -/
theorem idx_facts2 : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- The input's block is the whole input array. -/
theorem iblk2_0_eq (c : Dev nD) (t : Fin cfg2.N) : (iblk2 V c 0 t : Vec F S1568x128 .f32) = V c main_v15 := by
  obtain ⟨e0, e1, -⟩ := idx_facts2 t
  funext j
  show V c main_v15 (((cfg2.win 0).blk t).view.emb j) = V c main_v15 j
  congr 1
  funext a; apply Fin.ext
  match a with
  | ⟨0, _⟩ => show win2_0.index t (0 : Fin 2) * 1568 + 1 * (j 0).val = (j 0).val; omega
  | ⟨1, _⟩ => show win2_0.index t (1 : Fin 2) * 128 + 1 * (j 1).val = (j 1).val; omega

/-- A position of the first output window's block is the same position of its array. -/
theorem emb2_1 (t : Fin cfg2.N) (j : S1568x128.Idx) : ((cfg2.win 1).blk t).view.emb j = j := by
  obtain ⟨-, -, e0, e1, -⟩ := idx_facts2 t
  funext a; apply Fin.ext
  match a with
  | ⟨0, _⟩ => show win2_1.index t (0 : Fin 2) * 1568 + 1 * (j 0).val = (j 0).val; omega
  | ⟨1, _⟩ => show win2_1.index t (1 : Fin 2) * 128 + 1 * (j 1).val = (j 1).val; omega

/-- The same for the second output window. -/
theorem emb2_2 (t : Fin cfg2.N) (j : S1568x128.Idx) : ((cfg2.win 2).blk t).view.emb j = j := by
  obtain ⟨-, -, -, -, e0, e1⟩ := idx_facts2 t
  funext a; apply Fin.ext
  match a with
  | ⟨0, _⟩ => show win2_2.index t (0 : Fin 2) * 1568 + 1 * (j 0).val = (j 0).val; omega
  | ⟨1, _⟩ => show win2_2.index t (1 : Fin 2) * 128 + 1 * (j 1).val = (j 1).val; omega

/-- The first output window's block of any contents of its array is those contents: the block is the whole
    array and the transfer moves all of it. -/
theorem read_blk2_1 (t : Fin cfg2.N) (X : Vec F S1568x128 .f32) :
    ((cfg2.win 1).blk t).view.read (Elt F) X = (cfg2.win 1).cut (grid2.coords t) X := by
  obtain ⟨-, -, e0, e1, -⟩ := idx_facts2 t
  funext j
  show X (((cfg2.win 1).blk t).view.emb j) = X ((cfg2.win 1).xinj (grid2.coords t) j)
  congr 1
  funext a; apply Fin.ext
  match a with
  | ⟨0, _⟩ => show win2_1.index t (0 : Fin 2) * 1568 + 1 * (j 0).val = (j 0).val; omega
  | ⟨1, _⟩ => show win2_1.index t (1 : Fin 2) * 128 + 1 * (j 1).val = (j 1).val; omega

/-- The same for the second output window. -/
theorem read_blk2_2 (t : Fin cfg2.N) (X : Vec F S1568x128 .f32) :
    ((cfg2.win 2).blk t).view.read (Elt F) X = (cfg2.win 2).cut (grid2.coords t) X := by
  obtain ⟨-, -, -, -, e0, e1⟩ := idx_facts2 t
  funext j
  show X (((cfg2.win 2).blk t).view.emb j) = X ((cfg2.win 2).xinj (grid2.coords t) j)
  congr 1
  funext a; apply Fin.ext
  match a with
  | ⟨0, _⟩ => show win2_2.index t (0 : Fin 2) * 1568 + 1 * (j 0).val = (j 0).val; omega
  | ⟨1, _⟩ => show win2_2.index t (1 : Fin 2) * 128 + 1 * (j 1).val = (j 1).val; omega

/-- What the point writes back to the first output array is the block of the first payload of the input array
    as the region finds it. -/
theorem flushed2_1_eq (c : Dev nD) (t : Fin cfg2.N) :
    (dat2 V c).flushed 1 t = ((cfg2.win 1).blk t).view.read (Elt F) (k2_pay1 (V c main_v15)) := by
  show (cfg2.win 1).cut (grid2.coords t) ((dat2 V c).after 1 t) = _
  rw [after2_1]
  unfold out2_1
  rw [View.canon_unit_zero hzD]
  simp only [View.ld_unit_zero (S := S1568x128) hzD]
  rw [iblk2_0_eq]
  exact (read_blk2_1 t _).symm

/-- What the point writes back to the second output array. -/
theorem flushed2_2_eq (c : Dev nD) (t : Fin cfg2.N) :
    (dat2 V c).flushed 2 t = ((cfg2.win 2).blk t).view.read (Elt F) (k2_pay2 (V c main_v15)) := by
  show (cfg2.win 2).cut (grid2.coords t) ((dat2 V c).after 2 t) = _
  rw [after2_2]
  unfold out2_2
  rw [View.canon_unit_zero hzD]
  simp only [View.ld_unit_zero (S := S1568x128) hzD]
  rw [iblk2_0_eq]
  exact (read_blk2_2 t _).symm

/-- Every position of the first output array is in the one point's block. -/
theorem cover_arr2_1 (i : S1568x128.Idx) :
    ∃ t : Fin cfg2.N, (cfg2.win 1).flush t = true ∧ i ∈ ((cfg2.win 1).blk t).view.set :=
  ⟨t2_0, flush2_1 t2_0, by
    have h := ((cfg2.win 1).blk t2_0).view.emb_mem_set i
    rwa [emb2_1] at h⟩

/-- Every position of the second output array is in the one point's block. -/
theorem cover_arr2_2 (i : S1568x128.Idx) :
    ∃ t : Fin cfg2.N, (cfg2.win 2).flush t = true ∧ i ∈ ((cfg2.win 2).blk t).view.set :=
  ⟨t2_0, flush2_2 t2_0, by
    have h := ((cfg2.win 2).blk t2_0).view.emb_mem_set i
    rwa [emb2_2] at h⟩

/-- THE FIRST OUTPUT ARRAY after the region: the first payload of the input array the region found. -/
theorem final2_1 (c : Dev nD) : (dat2 V c).arrAt 1 cfg2.N = k2_pay1 (V c main_v15) :=
  (dat2 V c).arrAt_eq_of_cover 1 _ (fun t _ => flushed2_1_eq V c t) cover_arr2_1

/-- THE SECOND OUTPUT ARRAY after the region: the second payload of the input array the region found. -/
theorem final2_2 (c : Dev nD) : (dat2 V c).arrAt 2 cfg2.N = k2_pay2 (V c main_v15) :=
  (dat2 V c).arrAt_eq_of_cover 2 _ (fun t _ => flushed2_2_eq V c t) cover_arr2_2

end Region2

/-! # The degree-factor region of the second graph side (region 4 of @main, pipeline 4), at its entry contents

One grid point; the input window and the two output windows are each a whole `[1568,128]` array. The body
loads the input whole and stores one whole array into each output window; before each store it also loads the
output window, a load whose value is never used. -/

section Region4
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input's staging buffer holds its block at every point, for any proof data whose array is the entry
    contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-! ## What the body leaves in each output window's buffer -/

/-- The first output window's staging buffer after the body, from the input block: one whole-buffer store. -/
def out4_1 (x0 : Vec F S1568x128 .f32) : Vec F S1568x128 .f32 :=
  View.canon [⟨rD, k4_pay1 (View.ld x0 rD)⟩]

/-- The one store covers the buffer. -/
theorem cover4_1 (p0 : Vec F S1568x128 .f32) (y : S1568x128.Idx) :
    ∃ pc ∈ ([⟨rD, p0⟩] : List (View.Piece (Elt F) S1568x128 .f32)), y ∈ pc.1.set :=
  View.cover_of_tiled [⟨rD, p0⟩] S1568x128.size (by rfl) y

/-- The second output window's staging buffer after the body: one whole-buffer store. -/
def out4_2 (x0 : Vec F S1568x128 .f32) : Vec F S1568x128 .f32 :=
  View.canon [⟨rD, k4_pay2 (View.ld x0 rD)⟩]

/-- The one store covers the buffer. -/
theorem cover4_2 (p0 : Vec F S1568x128 .f32) (y : S1568x128.Idx) :
    ∃ pc ∈ ([⟨rD, p0⟩] : List (View.Piece (Elt F) S1568x128 .f32)), y ∈ pc.1.set :=
  View.cover_of_tiled [⟨rD, p0⟩] S1568x128.size (by rfl) y

/-! ## The body's triple -/

set_option maxHeartbeats 1000000 in
/-- The body on whole staging memrefs, the input's at contents `x0` and the outputs' at anything, runs to the
    continuation with the input's unchanged and each output's at its one store over the input's. The two loads of
    the output memrefs read whatever is there and their values are dropped. -/
theorem sound_kernel4 (c : Dev nD) (E : Set ℕ) (i : grid4.Coords) (arg1 : Memref sig .tc .vmem S1568x128 .f32) (harg1 : arg1.IsWhole) (arg2 : Memref sig .tc .vmem S1568x128 .f32) (harg2 : arg2.IsWhole) (arg3 : Memref sig .tc .vmem S1568x128 .f32) (harg3 : arg3.IsWhole)
    (x0 : Vec F S1568x128 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out4_1 x0) ∗ owns (c : Thread nD τ) arg3 fullShare (out4_2 x0)) -∗ K ⟨⟩))
      ⊢ wp frame (wpE (defs₀ (F := F)) Variants.none c none) E (cc4__dis_kernel i arg1 harg1 arg2 harg2 arg3 harg3) K := by
  simp only [cc4__dis_kernel_eq_skeleton]; unfold cc4__dis_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover4_1 _)
  iexists _; isplitr
  swap; · iexact H2
  ipureintro
  exact View.read_writes_eq_canon _ _ _ (cover4_2 _)

/-! ## The pipeline's proof data -/

/-- The proof data of pipeline 4 on core `c`: the arrays as the region finds them; after the body the input's
    buffer at its block and each output's at its one store over the input block; the invariant that of a body that
    touches nothing but its windows; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => out4_1 (iblk4 V c 0 t)
    | ⟨2, _⟩ => out4_2 (iblk4 V c 0 t)
  Φ _ := Pipeline.ΦA spec4 c
  q _ := fullShare
  owed _ := 0

/-- The proof data's arrays are the entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = out4_1 (iblk4 V c 0 t) := by dsimp only [dat4]
theorem after4_2 (c : Dev nD) (t : Fin cfg4.N) : (dat4 V c).after 2 t = out4_2 (iblk4 V c 0 t) := by dsimp only [dat4]

/-- The input's current staging buffer holds its block at every point. -/
theorem before4_0 (c : Dev nD) (t : Fin cfg4.N) (d) : (dat4 V c).before 0 t d = iblk4 V c 0 t :=
  before4_0_of V (dat4 V c) (A_eq4 V c 0) (after4_0 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the input's memref holds its block, so the body's triple applies; the invariant and
    what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The two output arrays after the region

The grid has one point and every window's block there is its whole array (every block index is 0), so the block
read off the input array is the array, and the one write-back of an output window overwrites its whole array
with what the body stored. -/

/-- Every window's block index is 0 on both axes at every point (decided over the grid). -/
theorem idx_facts4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0 :=
  (by decide +kernel : ∀ t : Fin grid4.N, _)

/-- The input's block is the whole input array. -/
theorem iblk4_0_eq (c : Dev nD) (t : Fin cfg4.N) : (iblk4 V c 0 t : Vec F S1568x128 .f32) = V c main_v47 := by
  obtain ⟨e0, e1, -⟩ := idx_facts4 t
  funext j
  show V c main_v47 (((cfg4.win 0).blk t).view.emb j) = V c main_v47 j
  congr 1
  funext a; apply Fin.ext
  match a with
  | ⟨0, _⟩ => show win4_0.index t (0 : Fin 2) * 1568 + 1 * (j 0).val = (j 0).val; omega
  | ⟨1, _⟩ => show win4_0.index t (1 : Fin 2) * 128 + 1 * (j 1).val = (j 1).val; omega

/-- A position of the first output window's block is the same position of its array. -/
theorem emb4_1 (t : Fin cfg4.N) (j : S1568x128.Idx) : ((cfg4.win 1).blk t).view.emb j = j := by
  obtain ⟨-, -, e0, e1, -⟩ := idx_facts4 t
  funext a; apply Fin.ext
  match a with
  | ⟨0, _⟩ => show win4_1.index t (0 : Fin 2) * 1568 + 1 * (j 0).val = (j 0).val; omega
  | ⟨1, _⟩ => show win4_1.index t (1 : Fin 2) * 128 + 1 * (j 1).val = (j 1).val; omega

/-- The same for the second output window. -/
theorem emb4_2 (t : Fin cfg4.N) (j : S1568x128.Idx) : ((cfg4.win 2).blk t).view.emb j = j := by
  obtain ⟨-, -, -, -, e0, e1⟩ := idx_facts4 t
  funext a; apply Fin.ext
  match a with
  | ⟨0, _⟩ => show win4_2.index t (0 : Fin 2) * 1568 + 1 * (j 0).val = (j 0).val; omega
  | ⟨1, _⟩ => show win4_2.index t (1 : Fin 2) * 128 + 1 * (j 1).val = (j 1).val; omega

/-- The first output window's block of any contents of its array is those contents: the block is the whole
    array and the transfer moves all of it. -/
theorem read_blk4_1 (t : Fin cfg4.N) (X : Vec F S1568x128 .f32) :
    ((cfg4.win 1).blk t).view.read (Elt F) X = (cfg4.win 1).cut (grid4.coords t) X := by
  obtain ⟨-, -, e0, e1, -⟩ := idx_facts4 t
  funext j
  show X (((cfg4.win 1).blk t).view.emb j) = X ((cfg4.win 1).xinj (grid4.coords t) j)
  congr 1
  funext a; apply Fin.ext
  match a with
  | ⟨0, _⟩ => show win4_1.index t (0 : Fin 2) * 1568 + 1 * (j 0).val = (j 0).val; omega
  | ⟨1, _⟩ => show win4_1.index t (1 : Fin 2) * 128 + 1 * (j 1).val = (j 1).val; omega

/-- The same for the second output window. -/
theorem read_blk4_2 (t : Fin cfg4.N) (X : Vec F S1568x128 .f32) :
    ((cfg4.win 2).blk t).view.read (Elt F) X = (cfg4.win 2).cut (grid4.coords t) X := by
  obtain ⟨-, -, -, -, e0, e1⟩ := idx_facts4 t
  funext j
  show X (((cfg4.win 2).blk t).view.emb j) = X ((cfg4.win 2).xinj (grid4.coords t) j)
  congr 1
  funext a; apply Fin.ext
  match a with
  | ⟨0, _⟩ => show win4_2.index t (0 : Fin 2) * 1568 + 1 * (j 0).val = (j 0).val; omega
  | ⟨1, _⟩ => show win4_2.index t (1 : Fin 2) * 128 + 1 * (j 1).val = (j 1).val; omega

/-- What the point writes back to the first output array is the block of the first payload of the input array
    as the region finds it. -/
theorem flushed4_1_eq (c : Dev nD) (t : Fin cfg4.N) :
    (dat4 V c).flushed 1 t = ((cfg4.win 1).blk t).view.read (Elt F) (k4_pay1 (V c main_v47)) := by
  show (cfg4.win 1).cut (grid4.coords t) ((dat4 V c).after 1 t) = _
  rw [after4_1]
  unfold out4_1
  rw [View.canon_unit_zero hzD]
  simp only [View.ld_unit_zero (S := S1568x128) hzD]
  rw [iblk4_0_eq]
  exact (read_blk4_1 t _).symm

/-- What the point writes back to the second output array. -/
theorem flushed4_2_eq (c : Dev nD) (t : Fin cfg4.N) :
    (dat4 V c).flushed 2 t = ((cfg4.win 2).blk t).view.read (Elt F) (k4_pay2 (V c main_v47)) := by
  show (cfg4.win 2).cut (grid4.coords t) ((dat4 V c).after 2 t) = _
  rw [after4_2]
  unfold out4_2
  rw [View.canon_unit_zero hzD]
  simp only [View.ld_unit_zero (S := S1568x128) hzD]
  rw [iblk4_0_eq]
  exact (read_blk4_2 t _).symm

/-- Every position of the first output array is in the one point's block. -/
theorem cover_arr4_1 (i : S1568x128.Idx) :
    ∃ t : Fin cfg4.N, (cfg4.win 1).flush t = true ∧ i ∈ ((cfg4.win 1).blk t).view.set :=
  ⟨t4_0, flush4_1 t4_0, by
    have h := ((cfg4.win 1).blk t4_0).view.emb_mem_set i
    rwa [emb4_1] at h⟩

/-- Every position of the second output array is in the one point's block. -/
theorem cover_arr4_2 (i : S1568x128.Idx) :
    ∃ t : Fin cfg4.N, (cfg4.win 2).flush t = true ∧ i ∈ ((cfg4.win 2).blk t).view.set :=
  ⟨t4_0, flush4_2 t4_0, by
    have h := ((cfg4.win 2).blk t4_0).view.emb_mem_set i
    rwa [emb4_2] at h⟩

/-- THE FIRST OUTPUT ARRAY after the region: the first payload of the input array the region found. -/
theorem final4_1 (c : Dev nD) : (dat4 V c).arrAt 1 cfg4.N = k4_pay1 (V c main_v47) :=
  (dat4 V c).arrAt_eq_of_cover 1 _ (fun t _ => flushed4_1_eq V c t) cover_arr4_1

/-- THE SECOND OUTPUT ARRAY after the region: the second payload of the input array the region found. -/
theorem final4_2 (c : Dev nD) : (dat4 V c).arrAt 2 cfg4.N = k4_pay2 (V c main_v47) :=
  (dat4 V c).arrAt_eq_of_cover 2 _ (fun t _ => flushed4_2_eq V c t) cover_arr4_2

end Region4

end Cert.KernelIdeal.Hand

end
-- ==== Proof.RegionMul3.lean ====
/-
  The two gridded regions of @main that multiply three arrays entry by entry: each takes three inputs of shape
  [31250, 128] and writes their product to a fourth array of that shape, in eight blocks of [4096, 128]. Eight
  blocks span 32768 rows, so the last block overhangs the arrays: only its first 31250 − 7·4096 = 2578 rows lie
  inside. A fetch of that block lands those rows in the staging buffer's leading rows and leaves the rest of the
  buffer at words nothing names; the body multiplies the three whole staging buffers, those rows too; the write-back
  moves the leading 2578 rows of the product buffer and nothing past the array's end.

  Per region, at the contents `V` the region is entered with: each window's block at a point restricted to the rows
  inside the array, the proof data of the pipeline (after the body every staging buffer is stated on those rows
  only; past them the filler is a word the proof picks and nothing reads), the body's triple on arbitrary whole
  staging buffers, the body obligation at every point in the form that states each buffer on the moved rows only,
  and the output array after the region in closed form: block `t` of the final array is what point `t` wrote, that
  is block `t` of the product of the three arrays, and the eight blocks' rows inside the array are rows
  4096·t ‥ min(4096·t + 4095, 31249), which together are all 31250 rows (row `r` is in the block of point `r / 4096`).
  So the output array ends holding the entrywise product of the three input arrays, and the inputs what they held.

  Everything here is stated for any interpretation of the float operations: nothing depends on what a product of
  two words is, only on the body computing the same product at every entry.
-/
import proofs.«153293_j29283087024787_2_alg».proof.Proof.Gen.KernelIdeal.Launch
import proofs.«153293_j29283087024787_2_alg».proof.Proof.Gen.KernelIdeal.Skeleton
import proofs.«153293_j29283087024787_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Pipeline.Kit
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a whole-block access, however they are spelt. -/
theorem hzMul3 : (![0, 0] : Fin 2 → Nat) = fun _ => 0 := funext fun a => by fin_cases a <;> rfl

/-! # Region 1: the three-way product over [31250, 128] in eight [4096, 128] blocks, the last one cut at row 31250 -/

/-- Rows of block `t` of an input that lie inside the array (all 4096 at points 0‥6, 2578 at point 7), read off
    the array as the region finds it. The four windows have one index map, one block size and one cut, so one
    index type serves the three inputs and the output. -/
def xblk1_0 (c : Dev nD) (t : Fin cfg1.N) : (win1_0.xblock (grid1.coords t)).Idx → Elt F .f32 :=
  (win1_0.blk t).view.read (Elt F) (V c main_v6)
def xblk1_1 (c : Dev nD) (t : Fin cfg1.N) : (win1_0.xblock (grid1.coords t)).Idx → Elt F .f32 :=
  (win1_1.blk t).view.read (Elt F) (V c main_v7)
def xblk1_2 (c : Dev nD) (t : Fin cfg1.N) : (win1_0.xblock (grid1.coords t)).Idx → Elt F .f32 :=
  (win1_2.blk t).view.read (Elt F) (V c main_v8)

/-- The product of the three blocks, entry by entry, on the rows inside the array. -/
def xprod1 (c : Dev nD) (t : Fin cfg1.N) : (win1_0.xblock (grid1.coords t)).Idx → Elt F .f32 :=
  fun j => FloatOps.mulf (FloatOps.mulf (xblk1_0 V c t j) (xblk1_1 V c t j)) (xblk1_2 V c t j)

/-- The same four, filled out to the whole [4096, 128] staging block: past the array's end (rows 2578‥4095 of the
    last block) nothing is stated of a staging buffer and nothing is read back; the filler is the zero word. -/
def xblk1_0f (c : Dev nD) (t : Fin cfg1.N) : S4096x128.Idx → Elt F .f32 :=
  win1_0.fill (grid1.coords t) (fun _ => Scalar.ofBits .f32 0#32) (xblk1_0 V c t)
def xblk1_1f (c : Dev nD) (t : Fin cfg1.N) : S4096x128.Idx → Elt F .f32 :=
  win1_0.fill (grid1.coords t) (fun _ => Scalar.ofBits .f32 0#32) (xblk1_1 V c t)
def xblk1_2f (c : Dev nD) (t : Fin cfg1.N) : S4096x128.Idx → Elt F .f32 :=
  win1_0.fill (grid1.coords t) (fun _ => Scalar.ofBits .f32 0#32) (xblk1_2 V c t)
def xprod1f (c : Dev nD) (t : Fin cfg1.N) : S4096x128.Idx → Elt F .f32 :=
  win1_0.fill (grid1.coords t) (fun _ => Scalar.ofBits .f32 0#32) (xprod1 V c t)

/-! ## The proof data -/

/-- The proof data of pipeline 1 on core `c`: the four arrays as the region finds them; after the body at point `t`
    each input's staging buffer at its filled block and the output's at the filled product; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => xblk1_0f V c t
    | ⟨1, _⟩ => xblk1_1f V c t
    | ⟨2, _⟩ => xblk1_2f V c t
    | ⟨3, _⟩ => xprod1f V c t
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

theorem after1_0 (c : Dev nD) (t : Fin cfg1.N) : (dat1 V c).after 0 t = xblk1_0f V c t := by dsimp only [dat1]
theorem after1_1 (c : Dev nD) (t : Fin cfg1.N) : (dat1 V c).after 1 t = xblk1_1f V c t := by dsimp only [dat1]
theorem after1_2 (c : Dev nD) (t : Fin cfg1.N) : (dat1 V c).after 2 t = xblk1_2f V c t := by dsimp only [dat1]
theorem after1_3 (c : Dev nD) (t : Fin cfg1.N) : (dat1 V c).after 3 t = xprod1f V c t := by dsimp only [dat1]

/-- What the body finds: each input's buffer just fetched — the block on the rows inside the array, `d` (whatever
    the buffer held) elsewhere —, -/
theorem before1_0 (c : Dev nD) (t : Fin cfg1.N) (d) :
    (dat1 V c).before (0 : Fin 4) t d = win1_0.fill (grid1.coords t) d (xblk1_0 V c t) := by
  unfold Dat.before; rw [if_pos (fetch1_0 t)]; rfl
theorem before1_1 (c : Dev nD) (t : Fin cfg1.N) (d) :
    (dat1 V c).before (1 : Fin 4) t d = win1_0.fill (grid1.coords t) d (xblk1_1 V c t) := by
  unfold Dat.before; rw [if_pos (fetch1_1 t)]; rfl
theorem before1_2 (c : Dev nD) (t : Fin cfg1.N) (d) :
    (dat1 V c).before (2 : Fin 4) t d = win1_0.fill (grid1.coords t) d (xblk1_2 V c t) := by
  unfold Dat.before; rw [if_pos (fetch1_2 t)]; rfl
/-- and the output's buffer at contents nothing names (it is written back at every point, so the buffer the next
    point is handed carries nothing forward). -/
theorem before1_3 (c : Dev nD) (t : Fin cfg1.N) (d) : (dat1 V c).before (3 : Fin 4) t d = d :=
  (dat1 V c).before_out_reset (3 : Fin 4) rfl t (by
    by_cases h : t.val = 0
    · exact .inl h
    · exact .inr ⟨h, flush1_3 _⟩) d

/-! ## The body's accesses and what it leaves -/

/-- The whole [4096, 128] staging block as a rectangle: every load and the one store of the body go through it. -/
abbrev r1_0 : Rect S4096x128 := Rect.unit (s := S4096x128) ![0, 0] S4096x128.size inb_S4096x128_S4096x128_0_0

/-- The body's arithmetic at an entry: the product of the three loaded words (the same-shape casts are the identity). -/
theorem k1_pay1_eq (a b d : Vec F S4096x128 .f32) :
    k1_pay1 a b d = fun j => FloatOps.mulf (FloatOps.mulf (a j) (b j)) (d j) := by
  unfold k1_pay1
  simp only [shapeCast_self]
  rfl

/-- The output's staging buffer after the body, from what the three inputs' hold: its one store, through the whole
    block. -/
def out1_3 (x0 x1 x2 : Vec F S4096x128 .f32) : Vec F S4096x128 .f32 :=
  View.canon [⟨r1_0, k1_pay1 (View.ld x0 r1_0) (View.ld x1 r1_0) (View.ld x2 r1_0)⟩]

/-- That store covers the buffer. -/
theorem cover1_3 (p0 : Vec F S4096x128 .f32) (y : S4096x128.Idx) :
    ∃ pc ∈ ([⟨r1_0, p0⟩] : List (View.Piece (Elt F) S4096x128 .f32)), y ∈ pc.1.set :=
  ⟨_, List.mem_singleton_self _, View.mem_set_unit_zero hzMul3 inb_S4096x128_S4096x128_0_0 y⟩

/-- So the buffer ends holding the entrywise product of the three. -/
theorem out1_3_eq (x0 x1 x2 : Vec F S4096x128 .f32) :
    out1_3 x0 x1 x2 = fun j => FloatOps.mulf (FloatOps.mulf (x0 j) (x1 j)) (x2 j) := by
  unfold out1_3
  rw [View.canon_unit_zero hzMul3]
  simp only [View.ld_unit_zero (S := S4096x128) hzMul3]
  exact k1_pay1_eq _ _ _

/-! ## The body's triple -/

set_option maxHeartbeats 1000000 in
/-- The kernel body on whole staging memrefs, the inputs' at contents `x0`, `x1`, `x2` and the output's at anything,
    runs to the continuation holding the inputs' as they were and the output's at their entrywise product. -/
theorem sound_kernel1 (c : Dev nD) (E : Set ℕ) (i : grid1.Coords)
    (arg1 : Memref sig .tc .vmem S4096x128 .f32) (harg1 : arg1.IsWhole)
    (arg2 : Memref sig .tc .vmem S4096x128 .f32) (harg2 : arg2.IsWhole)
    (arg3 : Memref sig .tc .vmem S4096x128 .f32) (harg3 : arg3.IsWhole)
    (arg4 : Memref sig .tc .vmem S4096x128 .f32) (harg4 : arg4.IsWhole)
    (x0 x1 x2 : Vec F S4096x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out1_3 x0 x1 x2)) -∗ K ⟨⟩))
      ⊢ wp frame (wpE (defs₀ (F := F)) Variants.none c none) E (cc1__mul3_kernel i arg1 harg1 arg2 harg2 arg3 harg3 arg4 harg4) K := by
  simp only [cc1__mul3_kernel_eq_skeleton]; unfold cc1__mul3_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The body obligation -/

/-- A product of three filled blocks is the filled product (of the fillers, and of what they were filled with):
    `Window.fill` chooses by the index alone. -/
theorem fill_prod1 (t : Fin cfg1.N) (d0 d1 d2 : S4096x128.Idx → Elt F .f32)
    (g0 g1 g2 : (win1_0.xblock (grid1.coords t)).Idx → Elt F .f32) :
    (fun j => FloatOps.mulf (FloatOps.mulf (win1_0.fill (grid1.coords t) d0 g0 j) (win1_0.fill (grid1.coords t) d1 g1 j))
        (win1_0.fill (grid1.coords t) d2 g2 j))
      = win1_0.fill (grid1.coords t) (fun j => FloatOps.mulf (FloatOps.mulf (d0 j) (d1 j)) (d2 j))
          (fun j => FloatOps.mulf (FloatOps.mulf (g0 j) (g1 j)) (g2 j)) := by
  funext j; unfold Window.fill; split <;> rfl

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: every window is loose, so each buffer is handed back stated on the rows inside the array
    only. -/
def bodyPost1 (c : Dev nD) (t : Fin cfg1.N) : sProp 𝕄 :=
  iprop((dat1 V c).Φ t.succ ∗ (dat1 V c).owesAt () t.succ
    ∗ (∃ d, owns (c : Thread nD τ) (st1_0 t) fullShare (win1_0.fill (grid1.coords t) d (win1_0.cut (grid1.coords t) ((dat1 V c).after 0 t))))
    ∗ (∃ d, owns (c : Thread nD τ) (st1_1 t) fullShare (win1_1.fill (grid1.coords t) d (win1_1.cut (grid1.coords t) ((dat1 V c).after 1 t))))
    ∗ (∃ d, owns (c : Thread nD τ) (st1_2 t) fullShare (win1_2.fill (grid1.coords t) d (win1_2.cut (grid1.coords t) ((dat1 V c).after 2 t))))
    ∗ (∃ d, owns (c : Thread nD τ) (st1_3 t) fullShare (win1_3.fill (grid1.coords t) d (win1_3.cut (grid1.coords t) ((dat1 V c).after 3 t)))))

/-- The body at any point: the inputs' buffers hold their blocks filled out with whatever was there (`before1_W`),
    the output's anything; `sound_kernel1` leaves the inputs' as found and the output's at the product of the three,
    which on the rows inside the array is the product of the blocks. The invariant and the core's `owes` pass
    through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  rw [before1_0 V c t d0, before1_1 V c t d1, before1_2 V c t d2, before1_3 V c t d3]
  iapply (sound_kernel1 (F := F) c Set.univ (grid1.coords t) _ _ _ _ _ _ _ _
    (win1_0.fill (grid1.coords t) d0 (xblk1_0 V c t)) (win1_0.fill (grid1.coords t) d1 (xblk1_1 V c t))
    (win1_0.fill (grid1.coords t) d2 (xblk1_2 V c t)) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  have hx0 : win1_0.cut (grid1.coords t) (xblk1_0f V c t) = xblk1_0 V c t := win1_0.cut_fill _ _ _
  have hx1 : win1_0.cut (grid1.coords t) (xblk1_1f V c t) = xblk1_1 V c t := win1_0.cut_fill _ _ _
  have hx2 : win1_0.cut (grid1.coords t) (xblk1_2f V c t) = xblk1_2 V c t := win1_0.cut_fill _ _ _
  have hp : win1_0.cut (grid1.coords t) (xprod1f V c t) = xprod1 V c t := win1_0.cut_fill _ _ _
  isplitl [H0]
  · iexists d0
    change _ ⊢ owns (c : Thread nD τ) (st1_0 t) fullShare (win1_0.fill (grid1.coords t) d0 (win1_0.cut (grid1.coords t) (xblk1_0f V c t)))
    rw [hx0]; try exact .rfl
  isplitl [H1]
  · iexists d1
    change _ ⊢ owns (c : Thread nD τ) (st1_1 t) fullShare (win1_0.fill (grid1.coords t) d1 (win1_0.cut (grid1.coords t) (xblk1_1f V c t)))
    rw [hx1]; try exact .rfl
  isplitl [H2]
  · iexists d2
    change _ ⊢ owns (c : Thread nD τ) (st1_2 t) fullShare (win1_0.fill (grid1.coords t) d2 (win1_0.cut (grid1.coords t) (xblk1_2f V c t)))
    rw [hx2]; try exact .rfl
  · iexists (fun j => FloatOps.mulf (FloatOps.mulf (d0 j) (d1 j)) (d2 j))
    change _ ⊢ owns (c : Thread nD τ) (st1_3 t) fullShare (win1_0.fill (grid1.coords t) (fun j => FloatOps.mulf (FloatOps.mulf (d0 j) (d1 j)) (d2 j))
      (win1_0.cut (grid1.coords t) (xprod1f V c t)))
    rw [hp, show xprod1 V c t = fun j => FloatOps.mulf (FloatOps.mulf (xblk1_0 V c t j) (xblk1_1 V c t j)) (xblk1_2 V c t j) from rfl,
      ← fill_prod1, out1_3_eq]; try exact .rfl

/-- The library's body obligation, at every point: no point is idle and every window is loose. -/
theorem body_obligation1 (c : Dev nD) : BodyObligationLoose (dat1 (F := F) V c) (defs₀ (F := F)) Variants.none () Set.univ := fun t => by
  rw [bigSep_W1, bigSep_W1]
  exact sound_body1 V c t

/-! ## The output array after the region -/

/-- The entrywise product of the three input arrays: what the output array is shown to hold. -/
abbrev tripleProd1 (c : Dev nD) : Buf (Elt F) ((c : Thread nD τ).loc main_v9) :=
  mulf (s := S31250x128) (mulf (s := S31250x128) (V c main_v6) (V c main_v7)) (V c main_v8)

/-- The inputs are never written back: after the region they hold what they held. -/
theorem final1_0 (c : Dev nD) : (dat1 V c).arrAt 0 cfg1.N = V c main_v6 := (dat1 V c).arrAt_in (0 : Fin 4) rfl _
theorem final1_1 (c : Dev nD) : (dat1 V c).arrAt 1 cfg1.N = V c main_v7 := (dat1 V c).arrAt_in (1 : Fin 4) rfl _
theorem final1_2 (c : Dev nD) : (dat1 V c).arrAt 2 cfg1.N = V c main_v8 := (dat1 V c).arrAt_in (2 : Fin 4) rfl _

/-- What point `t` writes back — the rows inside the array of the product block — is block `t` of the product of
    the arrays: the four windows read one rectangle of their arrays, and a block of an entrywise product is the
    product of the blocks. -/
theorem flushed1_3 (c : Dev nD) (t : Fin cfg1.N) :
    (dat1 V c).flushed 3 t = ((cfg1.win 3).blk t).view.read (Elt F) (tripleProd1 V c) := by
  show win1_3.cut (grid1.coords t) ((dat1 V c).after 3 t) = _
  rw [after1_3]
  change win1_0.cut (grid1.coords t) (xprod1f V c t)
    = fun j => FloatOps.mulf (FloatOps.mulf (xblk1_0 V c t j) (xblk1_1 V c t j)) (xblk1_2 V c t j)
  exact win1_0.cut_fill _ _ _

/-- The blocks' rectangles, decided over the eight points: block `t` starts at row 4096·t and spans the 128 lanes;
    it has 4096 rows inside the array at points 0‥6 and 31250 − 7·4096 = 2578 at point 7. -/
theorem blk_facts1 : ∀ t : Fin cfg1.N, win1_3.index t 0 = t.val ∧ win1_3.index t 1 * win1_3.size 1 = 0
    ∧ win1_3.xsize (grid1.coords t) 1 = 128
    ∧ (t.val < 7 → win1_3.xsize (grid1.coords t) 0 = 4096) ∧ (t.val = 7 → win1_3.xsize (grid1.coords t) 0 = 2578) :=
  (by decide +kernel : ∀ t : Fin grid1.N, _)

/-- An entry of the array is in point `t`'s block iff its row is among the block's rows inside the array. -/
theorem mem_blk1 (t : Fin cfg1.N) (i : S31250x128.Idx) :
    i ∈ (win1_3.blk t).view.set
      ↔ win1_3.index t 0 * 4096 ≤ (i 0 : Nat) ∧ (i 0 : Nat) < win1_3.index t 0 * 4096 + win1_3.xsize (grid1.coords t) 0 := by
  show i ∈ ((View.whole main_v9).slice (win1_3.rect t)).set ↔ _
  rw [View.set_slice_whole, Rect.mem_set_unit]
  have h1 : (i 1 : Nat) < 128 := (i 1).isLt
  obtain ⟨-, e1, e1', -, -⟩ := blk_facts1 t
  refine ⟨fun h => h 0, fun h a => ?_⟩
  match a with
  | ⟨0, _⟩ => exact h
  | ⟨1, _⟩ =>
    change win1_3.index t 1 * win1_3.size 1 ≤ (i 1 : Nat)
      ∧ (i 1 : Nat) < win1_3.index t 1 * win1_3.size 1 + win1_3.xsize (grid1.coords t) 1
    rw [e1, e1']; omega

/-- Row `r` of the array lies in the block of point `r / 4096`: the eight blocks cover the 31250 rows. -/
theorem cover1_out (i : S31250x128.Idx) :
    ∃ t : Fin cfg1.N, (cfg1.win 3).flush t = true ∧ i ∈ ((cfg1.win 3).blk t).view.set := by
  have h0 : (i 0 : Nat) < 31250 := (i 0).isLt
  have hN : cfg1.N = 8 := N_1
  have ht : (i 0 : Nat) / 4096 < cfg1.N := by rw [hN]; omega
  refine ⟨⟨(i 0 : Nat) / 4096, ht⟩, flush1_3 _, ?_⟩
  show i ∈ (win1_3.blk ⟨(i 0 : Nat) / 4096, ht⟩).view.set
  rw [mem_blk1]
  obtain ⟨e0, -, -, hlt, heq⟩ := blk_facts1 ⟨(i 0 : Nat) / 4096, ht⟩
  rw [e0]
  by_cases h : (i 0 : Nat) / 4096 < 7
  · rw [hlt h]; dsimp only; omega
  · rw [heq (by dsimp only; omega)]; dsimp only; omega

/-- So the output array ends holding the entrywise product of the three input arrays, all 31250 rows: the cut
    write-back at the last point writes the staging buffer's first 2578 rows and nothing past the array. -/
theorem final1_3 (c : Dev nD) : (dat1 V c).arrAt 3 cfg1.N = tripleProd1 V c :=
  (dat1 V c).arrAt_eq_of_cover (3 : Fin 4) (tripleProd1 V c) (fun t _ => flushed1_3 V c t) cover1_out

/-! # Region 3: the three-way product over [31250, 128] in eight [4096, 128] blocks, the last one cut at row 31250 -/

/-- Rows of block `t` of an input that lie inside the array (all 4096 at points 0‥6, 2578 at point 7), read off
    the array as the region finds it. The four windows have one index map, one block size and one cut, so one
    index type serves the three inputs and the output. -/
def xblk3_0 (c : Dev nD) (t : Fin cfg3.N) : (win3_0.xblock (grid3.coords t)).Idx → Elt F .f32 :=
  (win3_0.blk t).view.read (Elt F) (V c main_v38)
def xblk3_1 (c : Dev nD) (t : Fin cfg3.N) : (win3_0.xblock (grid3.coords t)).Idx → Elt F .f32 :=
  (win3_1.blk t).view.read (Elt F) (V c main_v39)
def xblk3_2 (c : Dev nD) (t : Fin cfg3.N) : (win3_0.xblock (grid3.coords t)).Idx → Elt F .f32 :=
  (win3_2.blk t).view.read (Elt F) (V c main_v40)

/-- The product of the three blocks, entry by entry, on the rows inside the array. -/
def xprod3 (c : Dev nD) (t : Fin cfg3.N) : (win3_0.xblock (grid3.coords t)).Idx → Elt F .f32 :=
  fun j => FloatOps.mulf (FloatOps.mulf (xblk3_0 V c t j) (xblk3_1 V c t j)) (xblk3_2 V c t j)

/-- The same four, filled out to the whole [4096, 128] staging block: past the array's end (rows 2578‥4095 of the
    last block) nothing is stated of a staging buffer and nothing is read back; the filler is the zero word. -/
def xblk3_0f (c : Dev nD) (t : Fin cfg3.N) : S4096x128.Idx → Elt F .f32 :=
  win3_0.fill (grid3.coords t) (fun _ => Scalar.ofBits .f32 0#32) (xblk3_0 V c t)
def xblk3_1f (c : Dev nD) (t : Fin cfg3.N) : S4096x128.Idx → Elt F .f32 :=
  win3_0.fill (grid3.coords t) (fun _ => Scalar.ofBits .f32 0#32) (xblk3_1 V c t)
def xblk3_2f (c : Dev nD) (t : Fin cfg3.N) : S4096x128.Idx → Elt F .f32 :=
  win3_0.fill (grid3.coords t) (fun _ => Scalar.ofBits .f32 0#32) (xblk3_2 V c t)
def xprod3f (c : Dev nD) (t : Fin cfg3.N) : S4096x128.Idx → Elt F .f32 :=
  win3_0.fill (grid3.coords t) (fun _ => Scalar.ofBits .f32 0#32) (xprod3 V c t)

/-! ## The proof data -/

/-- The proof data of pipeline 3 on core `c`: the four arrays as the region finds them; after the body at point `t`
    each input's staging buffer at its filled block and the output's at the filled product; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => xblk3_0f V c t
    | ⟨1, _⟩ => xblk3_1f V c t
    | ⟨2, _⟩ => xblk3_2f V c t
    | ⟨3, _⟩ => xprod3f V c t
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

theorem after3_0 (c : Dev nD) (t : Fin cfg3.N) : (dat3 V c).after 0 t = xblk3_0f V c t := by dsimp only [dat3]
theorem after3_1 (c : Dev nD) (t : Fin cfg3.N) : (dat3 V c).after 1 t = xblk3_1f V c t := by dsimp only [dat3]
theorem after3_2 (c : Dev nD) (t : Fin cfg3.N) : (dat3 V c).after 2 t = xblk3_2f V c t := by dsimp only [dat3]
theorem after3_3 (c : Dev nD) (t : Fin cfg3.N) : (dat3 V c).after 3 t = xprod3f V c t := by dsimp only [dat3]

/-- What the body finds: each input's buffer just fetched — the block on the rows inside the array, `d` (whatever
    the buffer held) elsewhere —, -/
theorem before3_0 (c : Dev nD) (t : Fin cfg3.N) (d) :
    (dat3 V c).before (0 : Fin 4) t d = win3_0.fill (grid3.coords t) d (xblk3_0 V c t) := by
  unfold Dat.before; rw [if_pos (fetch3_0 t)]; rfl
theorem before3_1 (c : Dev nD) (t : Fin cfg3.N) (d) :
    (dat3 V c).before (1 : Fin 4) t d = win3_0.fill (grid3.coords t) d (xblk3_1 V c t) := by
  unfold Dat.before; rw [if_pos (fetch3_1 t)]; rfl
theorem before3_2 (c : Dev nD) (t : Fin cfg3.N) (d) :
    (dat3 V c).before (2 : Fin 4) t d = win3_0.fill (grid3.coords t) d (xblk3_2 V c t) := by
  unfold Dat.before; rw [if_pos (fetch3_2 t)]; rfl
/-- and the output's buffer at contents nothing names (it is written back at every point, so the buffer the next
    point is handed carries nothing forward). -/
theorem before3_3 (c : Dev nD) (t : Fin cfg3.N) (d) : (dat3 V c).before (3 : Fin 4) t d = d :=
  (dat3 V c).before_out_reset (3 : Fin 4) rfl t (by
    by_cases h : t.val = 0
    · exact .inl h
    · exact .inr ⟨h, flush3_3 _⟩) d

/-! ## The body's accesses and what it leaves -/

/-- The whole [4096, 128] staging block as a rectangle: every load and the one store of the body go through it. -/
abbrev r3_0 : Rect S4096x128 := Rect.unit (s := S4096x128) ![0, 0] S4096x128.size inb_S4096x128_S4096x128_0_0

/-- The body's arithmetic at an entry: the product of the three loaded words (the same-shape casts are the identity). -/
theorem k3_pay1_eq (a b d : Vec F S4096x128 .f32) :
    k3_pay1 a b d = fun j => FloatOps.mulf (FloatOps.mulf (a j) (b j)) (d j) := by
  unfold k3_pay1
  simp only [shapeCast_self]
  rfl

/-- The output's staging buffer after the body, from what the three inputs' hold: its one store, through the whole
    block. -/
def out3_3 (x0 x1 x2 : Vec F S4096x128 .f32) : Vec F S4096x128 .f32 :=
  View.canon [⟨r3_0, k3_pay1 (View.ld x0 r3_0) (View.ld x1 r3_0) (View.ld x2 r3_0)⟩]

/-- That store covers the buffer. -/
theorem cover3_3 (p0 : Vec F S4096x128 .f32) (y : S4096x128.Idx) :
    ∃ pc ∈ ([⟨r3_0, p0⟩] : List (View.Piece (Elt F) S4096x128 .f32)), y ∈ pc.1.set :=
  ⟨_, List.mem_singleton_self _, View.mem_set_unit_zero hzMul3 inb_S4096x128_S4096x128_0_0 y⟩

/-- So the buffer ends holding the entrywise product of the three. -/
theorem out3_3_eq (x0 x1 x2 : Vec F S4096x128 .f32) :
    out3_3 x0 x1 x2 = fun j => FloatOps.mulf (FloatOps.mulf (x0 j) (x1 j)) (x2 j) := by
  unfold out3_3
  rw [View.canon_unit_zero hzMul3]
  simp only [View.ld_unit_zero (S := S4096x128) hzMul3]
  exact k3_pay1_eq _ _ _

/-! ## The body's triple -/

set_option maxHeartbeats 1000000 in
/-- The kernel body on whole staging memrefs, the inputs' at contents `x0`, `x1`, `x2` and the output's at anything,
    runs to the continuation holding the inputs' as they were and the output's at their entrywise product. -/
theorem sound_kernel3 (c : Dev nD) (E : Set ℕ) (i : grid3.Coords)
    (arg1 : Memref sig .tc .vmem S4096x128 .f32) (harg1 : arg1.IsWhole)
    (arg2 : Memref sig .tc .vmem S4096x128 .f32) (harg2 : arg2.IsWhole)
    (arg3 : Memref sig .tc .vmem S4096x128 .f32) (harg3 : arg3.IsWhole)
    (arg4 : Memref sig .tc .vmem S4096x128 .f32) (harg4 : arg4.IsWhole)
    (x0 x1 x2 : Vec F S4096x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out3_3 x0 x1 x2)) -∗ K ⟨⟩))
      ⊢ wp frame (wpE (defs₀ (F := F)) Variants.none c none) E (cc3__mul3_kernel i arg1 harg1 arg2 harg2 arg3 harg3 arg4 harg4) K := by
  simp only [cc3__mul3_kernel_eq_skeleton]; unfold cc3__mul3_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The body obligation -/

/-- A product of three filled blocks is the filled product (of the fillers, and of what they were filled with):
    `Window.fill` chooses by the index alone. -/
theorem fill_prod3 (t : Fin cfg3.N) (d0 d1 d2 : S4096x128.Idx → Elt F .f32)
    (g0 g1 g2 : (win3_0.xblock (grid3.coords t)).Idx → Elt F .f32) :
    (fun j => FloatOps.mulf (FloatOps.mulf (win3_0.fill (grid3.coords t) d0 g0 j) (win3_0.fill (grid3.coords t) d1 g1 j))
        (win3_0.fill (grid3.coords t) d2 g2 j))
      = win3_0.fill (grid3.coords t) (fun j => FloatOps.mulf (FloatOps.mulf (d0 j) (d1 j)) (d2 j))
          (fun j => FloatOps.mulf (FloatOps.mulf (g0 j) (g1 j)) (g2 j)) := by
  funext j; unfold Window.fill; split <;> rfl

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns: every window is loose, so each buffer is handed back stated on the rows inside the array
    only. -/
def bodyPost3 (c : Dev nD) (t : Fin cfg3.N) : sProp 𝕄 :=
  iprop((dat3 V c).Φ t.succ ∗ (dat3 V c).owesAt () t.succ
    ∗ (∃ d, owns (c : Thread nD τ) (st3_0 t) fullShare (win3_0.fill (grid3.coords t) d (win3_0.cut (grid3.coords t) ((dat3 V c).after 0 t))))
    ∗ (∃ d, owns (c : Thread nD τ) (st3_1 t) fullShare (win3_1.fill (grid3.coords t) d (win3_1.cut (grid3.coords t) ((dat3 V c).after 1 t))))
    ∗ (∃ d, owns (c : Thread nD τ) (st3_2 t) fullShare (win3_2.fill (grid3.coords t) d (win3_2.cut (grid3.coords t) ((dat3 V c).after 2 t))))
    ∗ (∃ d, owns (c : Thread nD τ) (st3_3 t) fullShare (win3_3.fill (grid3.coords t) d (win3_3.cut (grid3.coords t) ((dat3 V c).after 3 t)))))

/-- The body at any point: the inputs' buffers hold their blocks filled out with whatever was there (`before3_W`),
    the output's anything; `sound_kernel3` leaves the inputs' as found and the output's at the product of the three,
    which on the rows inside the array is the product of the blocks. The invariant and the core's `owes` pass
    through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  rw [before3_0 V c t d0, before3_1 V c t d1, before3_2 V c t d2, before3_3 V c t d3]
  iapply (sound_kernel3 (F := F) c Set.univ (grid3.coords t) _ _ _ _ _ _ _ _
    (win3_0.fill (grid3.coords t) d0 (xblk3_0 V c t)) (win3_0.fill (grid3.coords t) d1 (xblk3_1 V c t))
    (win3_0.fill (grid3.coords t) d2 (xblk3_2 V c t)) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  have hx0 : win3_0.cut (grid3.coords t) (xblk3_0f V c t) = xblk3_0 V c t := win3_0.cut_fill _ _ _
  have hx1 : win3_0.cut (grid3.coords t) (xblk3_1f V c t) = xblk3_1 V c t := win3_0.cut_fill _ _ _
  have hx2 : win3_0.cut (grid3.coords t) (xblk3_2f V c t) = xblk3_2 V c t := win3_0.cut_fill _ _ _
  have hp : win3_0.cut (grid3.coords t) (xprod3f V c t) = xprod3 V c t := win3_0.cut_fill _ _ _
  isplitl [H0]
  · iexists d0
    change _ ⊢ owns (c : Thread nD τ) (st3_0 t) fullShare (win3_0.fill (grid3.coords t) d0 (win3_0.cut (grid3.coords t) (xblk3_0f V c t)))
    rw [hx0]; try exact .rfl
  isplitl [H1]
  · iexists d1
    change _ ⊢ owns (c : Thread nD τ) (st3_1 t) fullShare (win3_0.fill (grid3.coords t) d1 (win3_0.cut (grid3.coords t) (xblk3_1f V c t)))
    rw [hx1]; try exact .rfl
  isplitl [H2]
  · iexists d2
    change _ ⊢ owns (c : Thread nD τ) (st3_2 t) fullShare (win3_0.fill (grid3.coords t) d2 (win3_0.cut (grid3.coords t) (xblk3_2f V c t)))
    rw [hx2]; try exact .rfl
  · iexists (fun j => FloatOps.mulf (FloatOps.mulf (d0 j) (d1 j)) (d2 j))
    change _ ⊢ owns (c : Thread nD τ) (st3_3 t) fullShare (win3_0.fill (grid3.coords t) (fun j => FloatOps.mulf (FloatOps.mulf (d0 j) (d1 j)) (d2 j))
      (win3_0.cut (grid3.coords t) (xprod3f V c t)))
    rw [hp, show xprod3 V c t = fun j => FloatOps.mulf (FloatOps.mulf (xblk3_0 V c t j) (xblk3_1 V c t j)) (xblk3_2 V c t j) from rfl,
      ← fill_prod3, out3_3_eq]; try exact .rfl

/-- The library's body obligation, at every point: no point is idle and every window is loose. -/
theorem body_obligation3 (c : Dev nD) : BodyObligationLoose (dat3 (F := F) V c) (defs₀ (F := F)) Variants.none () Set.univ := fun t => by
  rw [bigSep_W3, bigSep_W3]
  exact sound_body3 V c t

/-! ## The output array after the region -/

/-- The entrywise product of the three input arrays: what the output array is shown to hold. -/
abbrev tripleProd3 (c : Dev nD) : Buf (Elt F) ((c : Thread nD τ).loc main_v41) :=
  mulf (s := S31250x128) (mulf (s := S31250x128) (V c main_v38) (V c main_v39)) (V c main_v40)

/-- The inputs are never written back: after the region they hold what they held. -/
theorem final3_0 (c : Dev nD) : (dat3 V c).arrAt 0 cfg3.N = V c main_v38 := (dat3 V c).arrAt_in (0 : Fin 4) rfl _
theorem final3_1 (c : Dev nD) : (dat3 V c).arrAt 1 cfg3.N = V c main_v39 := (dat3 V c).arrAt_in (1 : Fin 4) rfl _
theorem final3_2 (c : Dev nD) : (dat3 V c).arrAt 2 cfg3.N = V c main_v40 := (dat3 V c).arrAt_in (2 : Fin 4) rfl _

/-- What point `t` writes back — the rows inside the array of the product block — is block `t` of the product of
    the arrays: the four windows read one rectangle of their arrays, and a block of an entrywise product is the
    product of the blocks. -/
theorem flushed3_3 (c : Dev nD) (t : Fin cfg3.N) :
    (dat3 V c).flushed 3 t = ((cfg3.win 3).blk t).view.read (Elt F) (tripleProd3 V c) := by
  show win3_3.cut (grid3.coords t) ((dat3 V c).after 3 t) = _
  rw [after3_3]
  change win3_0.cut (grid3.coords t) (xprod3f V c t)
    = fun j => FloatOps.mulf (FloatOps.mulf (xblk3_0 V c t j) (xblk3_1 V c t j)) (xblk3_2 V c t j)
  exact win3_0.cut_fill _ _ _

/-- The blocks' rectangles, decided over the eight points: block `t` starts at row 4096·t and spans the 128 lanes;
    it has 4096 rows inside the array at points 0‥6 and 31250 − 7·4096 = 2578 at point 7. -/
theorem blk_facts3 : ∀ t : Fin cfg3.N, win3_3.index t 0 = t.val ∧ win3_3.index t 1 * win3_3.size 1 = 0
    ∧ win3_3.xsize (grid3.coords t) 1 = 128
    ∧ (t.val < 7 → win3_3.xsize (grid3.coords t) 0 = 4096) ∧ (t.val = 7 → win3_3.xsize (grid3.coords t) 0 = 2578) :=
  (by decide +kernel : ∀ t : Fin grid3.N, _)

/-- An entry of the array is in point `t`'s block iff its row is among the block's rows inside the array. -/
theorem mem_blk3 (t : Fin cfg3.N) (i : S31250x128.Idx) :
    i ∈ (win3_3.blk t).view.set
      ↔ win3_3.index t 0 * 4096 ≤ (i 0 : Nat) ∧ (i 0 : Nat) < win3_3.index t 0 * 4096 + win3_3.xsize (grid3.coords t) 0 := by
  show i ∈ ((View.whole main_v41).slice (win3_3.rect t)).set ↔ _
  rw [View.set_slice_whole, Rect.mem_set_unit]
  have h1 : (i 1 : Nat) < 128 := (i 1).isLt
  obtain ⟨-, e1, e1', -, -⟩ := blk_facts3 t
  refine ⟨fun h => h 0, fun h a => ?_⟩
  match a with
  | ⟨0, _⟩ => exact h
  | ⟨1, _⟩ =>
    change win3_3.index t 1 * win3_3.size 1 ≤ (i 1 : Nat)
      ∧ (i 1 : Nat) < win3_3.index t 1 * win3_3.size 1 + win3_3.xsize (grid3.coords t) 1
    rw [e1, e1']; omega

/-- Row `r` of the array lies in the block of point `r / 4096`: the eight blocks cover the 31250 rows. -/
theorem cover3_out (i : S31250x128.Idx) :
    ∃ t : Fin cfg3.N, (cfg3.win 3).flush t = true ∧ i ∈ ((cfg3.win 3).blk t).view.set := by
  have h0 : (i 0 : Nat) < 31250 := (i 0).isLt
  have hN : cfg3.N = 8 := N_3
  have ht : (i 0 : Nat) / 4096 < cfg3.N := by rw [hN]; omega
  refine ⟨⟨(i 0 : Nat) / 4096, ht⟩, flush3_3 _, ?_⟩
  show i ∈ (win3_3.blk ⟨(i 0 : Nat) / 4096, ht⟩).view.set
  rw [mem_blk3]
  obtain ⟨e0, -, -, hlt, heq⟩ := blk_facts3 ⟨(i 0 : Nat) / 4096, ht⟩
  rw [e0]
  by_cases h : (i 0 : Nat) / 4096 < 7
  · rw [hlt h]; dsimp only; omega
  · rw [heq (by dsimp only; omega)]; dsimp only; omega

/-- So the output array ends holding the entrywise product of the three input arrays, all 31250 rows: the cut
    write-back at the last point writes the staging buffer's first 2578 rows and nothing past the array. -/
theorem final3_3 (c : Dev nD) : (dat3 V c).arrAt 3 cfg3.N = tripleProd3 V c :=
  (dat3 V c).arrAt_eq_of_cover (3 : Fin 4) (tripleProd3 V c) (fun t _ => flushed3_3 V c t) cover3_out

end Cert.KernelIdeal.Hand
-- ==== Proof.Run.lean ====
/-
  The run of the kernel program, at any float instance: @main as eighteen items — thirteen stretches of host operations
  and five kernel regions —, the contents of every unscoped buffer at each boundary (the fold of the boundary contents, with
  each region's arrays at what its pipeline leaves: the proof data's `arrAt` after the last grid point), one segment
  record per item over the thread state "every unscoped buffer at the boundary's contents, the generator register at
  some state, nothing owed", and the theorem `run_all`: from any memory with zero counters every weakly fair execution
  of @main terminates, nothing faulting, and every unscoped buffer ends at the last boundary's contents.  The argument
  arrays are read back through the fold to their launch contents (`W18_main_arg0` … `W18_main_arg13`).
-/
import proofs.«153293_j29283087024787_2_alg».proof.Proof.Fold
import proofs.«153293_j29283087024787_2_alg».proof.Proof.RegionRelw
import proofs.«153293_j29283087024787_2_alg».proof.Proof.RegionDis
import proofs.«153293_j29283087024787_2_alg».proof.Proof.RegionMul3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each region finds and what it leaves -/

/-- The buffers as region 0 finds them. -/
abbrev U4 : (c : Dev nD) → (b : Ref sig .tc) → Buf (Elt F) ((c : Thread nD τ).loc b) := fun c b => W4 m c b
/-- What region 0 leaves in its windows' arrays: its proof data's arrays after the last grid point. -/
def o0 : Out0 (F := F) := fun c w => (dat0 (U4 m) c).arrAt w cfg0.N
theorem hF0 (c : Dev nD) (w : Fin cfg0.W) : (dat0 (U4 m) c).arrAt w cfg0.N = W5 m (o0 m) c (Pipeline.arrRef spec0 w) :=
  (W5_arr m (o0 m) c w).symm
theorem hrest0 (c : Dev nD) : ∀ b : Ref sig .tc, b ∉ Finset.univ.image (Pipeline.arrRef spec0) → W5 m (o0 m) c b = W4 m c b :=
  fun b hb => W5_of m (o0 m) c b fun w e => hb (Finset.mem_image.mpr ⟨w, Finset.mem_univ _, e⟩)

/-- The buffers as region 1 finds them. -/
abbrev U6 : (c : Dev nD) → (b : Ref sig .tc) → Buf (Elt F) ((c : Thread nD τ).loc b) := fun c b => W6 m (o0 m) c b
/-- What region 1 leaves in its windows' arrays: its proof data's arrays after the last grid point. -/
def o1 : Out1 (F := F) := fun c w => (dat1 (U6 m) c).arrAt w cfg1.N
theorem hF1 (c : Dev nD) (w : Fin cfg1.W) : (dat1 (U6 m) c).arrAt w cfg1.N = W7 m (o0 m) (o1 m) c (Pipeline.arrRef spec1 w) :=
  (W7_arr m (o0 m) (o1 m) c w).symm
theorem hrest1 (c : Dev nD) : ∀ b : Ref sig .tc, b ∉ Finset.univ.image (Pipeline.arrRef spec1) → W7 m (o0 m) (o1 m) c b = W6 m (o0 m) c b :=
  fun b hb => W7_of m (o0 m) (o1 m) c b fun w e => hb (Finset.mem_image.mpr ⟨w, Finset.mem_univ _, e⟩)

/-- The buffers as region 2 finds them. -/
abbrev U10 : (c : Dev nD) → (b : Ref sig .tc) → Buf (Elt F) ((c : Thread nD τ).loc b) := fun c b => W10 m (o0 m) (o1 m) c b
/-- What region 2 leaves in its windows' arrays: its proof data's arrays after the last grid point. -/
def o2 : Out2 (F := F) := fun c w => (dat2 (U10 m) c).arrAt w cfg2.N
theorem hF2 (c : Dev nD) (w : Fin cfg2.W) : (dat2 (U10 m) c).arrAt w cfg2.N = W11 m (o0 m) (o1 m) (o2 m) c (Pipeline.arrRef spec2 w) :=
  (W11_arr m (o0 m) (o1 m) (o2 m) c w).symm
theorem hrest2 (c : Dev nD) : ∀ b : Ref sig .tc, b ∉ Finset.univ.image (Pipeline.arrRef spec2) → W11 m (o0 m) (o1 m) (o2 m) c b = W10 m (o0 m) (o1 m) c b :=
  fun b hb => W11_of m (o0 m) (o1 m) (o2 m) c b fun w e => hb (Finset.mem_image.mpr ⟨w, Finset.mem_univ _, e⟩)

/-- The buffers as region 3 finds them. -/
abbrev U12 : (c : Dev nD) → (b : Ref sig .tc) → Buf (Elt F) ((c : Thread nD τ).loc b) := fun c b => W12 m (o0 m) (o1 m) (o2 m) c b
/-- What region 3 leaves in its windows' arrays: its proof data's arrays after the last grid point. -/
def o3 : Out3 (F := F) := fun c w => (dat3 (U12 m) c).arrAt w cfg3.N
theorem hF3 (c : Dev nD) (w : Fin cfg3.W) : (dat3 (U12 m) c).arrAt w cfg3.N = W13 m (o0 m) (o1 m) (o2 m) (o3 m) c (Pipeline.arrRef spec3 w) :=
  (W13_arr m (o0 m) (o1 m) (o2 m) (o3 m) c w).symm
theorem hrest3 (c : Dev nD) : ∀ b : Ref sig .tc, b ∉ Finset.univ.image (Pipeline.arrRef spec3) → W13 m (o0 m) (o1 m) (o2 m) (o3 m) c b = W12 m (o0 m) (o1 m) (o2 m) c b :=
  fun b hb => W13_of m (o0 m) (o1 m) (o2 m) (o3 m) c b fun w e => hb (Finset.mem_image.mpr ⟨w, Finset.mem_univ _, e⟩)

/-- The buffers as region 4 finds them. -/
abbrev U16 : (c : Dev nD) → (b : Ref sig .tc) → Buf (Elt F) ((c : Thread nD τ).loc b) := fun c b => W16 m (o0 m) (o1 m) (o2 m) (o3 m) c b
/-- What region 4 leaves in its windows' arrays: its proof data's arrays after the last grid point. -/
def o4 : Out4 (F := F) := fun c w => (dat4 (U16 m) c).arrAt w cfg4.N
theorem hF4 (c : Dev nD) (w : Fin cfg4.W) : (dat4 (U16 m) c).arrAt w cfg4.N = W17 m (o0 m) (o1 m) (o2 m) (o3 m) (o4 m) c (Pipeline.arrRef spec4 w) :=
  (W17_arr m (o0 m) (o1 m) (o2 m) (o3 m) (o4 m) c w).symm
theorem hrest4 (c : Dev nD) : ∀ b : Ref sig .tc, b ∉ Finset.univ.image (Pipeline.arrRef spec4) → W17 m (o0 m) (o1 m) (o2 m) (o3 m) (o4 m) c b = W16 m (o0 m) (o1 m) (o2 m) (o3 m) c b :=
  fun b hb => W17_of m (o0 m) (o1 m) (o2 m) (o3 m) (o4 m) c b fun w e => hb (Finset.mem_image.mpr ⟨w, Finset.mem_univ _, e⟩)

/-! ## The proof data family and the thread state -/

/-- Every pipeline's proof data, each at its region's entry contents: a literal match, so that the pinned
    configuration at a numeral reduces to the printed one. -/
def pdats : (p : Fin 5) → (c : Dev nD) → Dat τ (Elt F) Unit ℕ (UR sig nD τ) ℕ (Pipeline.pin (pcfgs (F := F)) adm p) c
  | ⟨0, _⟩ => fun c => dat0 (U4 m) c
  | ⟨1, _⟩ => fun c => dat1 (U6 m) c
  | ⟨2, _⟩ => fun c => dat2 (U10 m) c
  | ⟨3, _⟩ => fun c => dat3 (U12 m) c
  | ⟨4, _⟩ => fun c => dat4 (U16 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W18 m (o0 m) (o1 m) (o2 m) (o3 m) (o4 m) c) ∗ ∃ r, prngReg c r)

/-! ## The regions as segments -/

set_option backward.isDefEq.respectTransparency.types false in
/-- Region 0 over the thread state: entered from every unscoped buffer at boundary 4's contents, left at boundary
    5's. Its arrays are split out of the unscoped buffers and put back at the exit contents; the generator register
    goes into the pipeline's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U4 m) c).loose
  hwaits := Pipeline.hwaits_of_owed_zero _ _ _ _ L lv 0 fun _ _ => rfl
  pre c := iprop(StableHlo.held (c : Thread nD τ) (Pipeline.ucRefs τ sig) (W4 m c) ∗ R c)
  post c := iprop(StableHlo.held (c : Thread nD τ) (Pipeline.ucRefs τ sig) (W5 m (o0 m) c) ∗ R c)
  X c := iprop(∃ r, prngReg c r)
  Y c := iprop(∃ r, prngReg c r)
  Z c := Pipeline.unscopedRest (Ix := Unit) (Name := ℕ) (U := UR sig nD τ) (Lvl := ℕ) spec0 c (U4 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U4 m c) (fun b => W5 m (o0 m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at boundary 6's contents, left at boundary
    7's. Its arrays are split out of the unscoped buffers and put back at the exit contents; the generator register
    goes into the pipeline's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (U6 m) c
  hwaits := Pipeline.hwaits_of_owed_zero _ _ _ _ L lv 1 fun _ _ => rfl
  pre c := iprop(StableHlo.held (c : Thread nD τ) (Pipeline.ucRefs τ sig) (W6 m (o0 m) c) ∗ R c)
  post c := iprop(StableHlo.held (c : Thread nD τ) (Pipeline.ucRefs τ sig) (W7 m (o0 m) (o1 m) c) ∗ R c)
  X c := iprop(∃ r, prngReg c r)
  Y c := iprop(∃ r, prngReg c r)
  Z c := Pipeline.unscopedRest (Ix := Unit) (Name := ℕ) (U := UR sig nD τ) (Lvl := ℕ) spec1 c (U6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U6 m c) (fun b => W7 m (o0 m) (o1 m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at boundary 10's contents, left at boundary
    11's. Its arrays are split out of the unscoped buffers and put back at the exit contents; the generator register
    goes into the pipeline's invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U10 m) c).loose
  hwaits := Pipeline.hwaits_of_owed_zero _ _ _ _ L lv 2 fun _ _ => rfl
  pre c := iprop(StableHlo.held (c : Thread nD τ) (Pipeline.ucRefs τ sig) (W10 m (o0 m) (o1 m) c) ∗ R c)
  post c := iprop(StableHlo.held (c : Thread nD τ) (Pipeline.ucRefs τ sig) (W11 m (o0 m) (o1 m) (o2 m) c) ∗ R c)
  X c := iprop(∃ r, prngReg c r)
  Y c := iprop(∃ r, prngReg c r)
  Z c := Pipeline.unscopedRest (Ix := Unit) (Name := ℕ) (U := UR sig nD τ) (Lvl := ℕ) spec2 c (U10 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U10 m c) (fun b => W11 m (o0 m) (o1 m) (o2 m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at boundary 12's contents, left at boundary
    13's. Its arrays are split out of the unscoped buffers and put back at the exit contents; the generator register
    goes into the pipeline's invariant and comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := body_obligation3 (U12 m) c
  hwaits := Pipeline.hwaits_of_owed_zero _ _ _ _ L lv 3 fun _ _ => rfl
  pre c := iprop(StableHlo.held (c : Thread nD τ) (Pipeline.ucRefs τ sig) (W12 m (o0 m) (o1 m) (o2 m) c) ∗ R c)
  post c := iprop(StableHlo.held (c : Thread nD τ) (Pipeline.ucRefs τ sig) (W13 m (o0 m) (o1 m) (o2 m) (o3 m) c) ∗ R c)
  X c := iprop(∃ r, prngReg c r)
  Y c := iprop(∃ r, prngReg c r)
  Z c := Pipeline.unscopedRest (Ix := Unit) (Name := ℕ) (U := UR sig nD τ) (Lvl := ℕ) spec3 c (U12 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (U12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (U12 m c) (fun b => W13 m (o0 m) (o1 m) (o2 m) (o3 m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at boundary 16's contents, left at boundary
    17's. Its arrays are split out of the unscoped buffers and put back at the exit contents; the generator register
    goes into the pipeline's invariant and comes out; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U16 m) c).loose
  hwaits := Pipeline.hwaits_of_owed_zero _ _ _ _ L lv 4 fun _ _ => rfl
  pre c := iprop(StableHlo.held (c : Thread nD τ) (Pipeline.ucRefs τ sig) (W16 m (o0 m) (o1 m) (o2 m) (o3 m) c) ∗ R c)
  post c := iprop(StableHlo.held (c : Thread nD τ) (Pipeline.ucRefs τ sig) (W17 m (o0 m) (o1 m) (o2 m) (o3 m) (o4 m) c) ∗ R c)
  X c := iprop(∃ r, prngReg c r)
  Y c := iprop(∃ r, prngReg c r)
  Z c := Pipeline.unscopedRest (Ix := Unit) (Name := ℕ) (U := UR sig nD τ) (Lvl := ℕ) spec4 c (U16 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (U16 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (U16 m c) (fun b => W17 m (o0 m) (o1 m) (o2 m) (o3 m) (o4 m) c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eighteen items in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .region (reg0 m),
    .host (hseg hostOps1 hostOps1_sub hostOps1_fresh (W5 m (o0 m))),
    .region (reg1 m),
    .host (hseg hostOps2 hostOps2_sub hostOps2_fresh (W7 m (o0 m) (o1 m))),
    .host (hseg hostOps2_1 hostOps2_1_sub hostOps2_1_fresh (W8 m (o0 m) (o1 m))),
    .host (hseg hostOps2_2 hostOps2_2_sub hostOps2_2_fresh (W9 m (o0 m) (o1 m))),
    .region (reg2 m),
    .host (hseg hostOps3 hostOps3_sub hostOps3_fresh (W11 m (o0 m) (o1 m) (o2 m))),
    .region (reg3 m),
    .host (hseg hostOps4 hostOps4_sub hostOps4_fresh (W13 m (o0 m) (o1 m) (o2 m) (o3 m))),
    .host (hseg hostOps4_1 hostOps4_1_sub hostOps4_1_fresh (W14 m (o0 m) (o1 m) (o2 m) (o3 m))),
    .host (hseg hostOps4_2 hostOps4_2_sub hostOps4_2_fresh (W15 m (o0 m) (o1 m) (o2 m) (o3 m))),
    .region (reg4 m),
    .host (hseg hostOps5 hostOps5_sub hostOps5_fresh (W17 m (o0 m) (o1 m) (o2 m) (o3 m) (o4 m))) ]

/-- @main IS the run of the segments. -/
theorem main_run (c : Dev nD) : main (F := F) c = Pipeline.Seg.run (segs m) := (main_chain c).trans (by chain_rfl)

set_option backward.isDefEq.respectTransparency.types false in
/-- THE RUN: at the compiled mesh, from any memory with zero counters, every weakly fair execution of @main on the
    TensorCores terminates, nothing faulting, and in every final state each unscoped buffer holds the last boundary's
    contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W18 m (o0 m) (o1 m) (o2 m) (o3 m) (o4 m) c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W18 m (o0 m) (o1 m) (o2 m) (o3 m) (o4 m) c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m (o0 m) (o1 m) (o2 m) (o3 m) (o4 m) c b)
    (hfin := fun c s' => by
      iintro ⟨⟨Hh, -⟩, HSI⟩
      unfold StableHlo.held
      imodintro
      iapply (pointsTo_read_all (Pipeline.ucRefs τ sig) (fun b => (((c : Thread nD τ)).1, b)) (W18 m (o0 m) (o1 m) (o2 m) (o3 m) (o4 m) c) s')
      isplitl [Hh] <;> iassumption)
    (hQ := fun s h c => h c)

/-! ## The arguments end as launched -/

theorem W18_main_arg0 (c : Dev nD) : W18 m (o0 m) (o1 m) (o2 m) (o3 m) (o4 m) c main_arg0 = m ((c : Thread nD τ).loc main_arg0) :=
  (W18_of m (o0 m) (o1 m) (o2 m) (o3 m) (o4 m) c main_arg0 (by decide)).trans ((W17_of m (o0 m) (o1 m) (o2 m) (o3 m) (o4 m) c main_arg0 (by decide)).trans ((W16_of m (o0 m) (o1 m) (o2 m) (o3 m) c main_arg0 (by decide)).trans ((W15_of m (o0 m) (o1 m) (o2 m) (o3 m) c main_arg0 (by decide)).trans ((W14_of m (o0 m) (o1 m) (o2 m) (o3 m) c main_arg0 (by decide)).trans ((W13_of m (o0 m) (o1 m) (o2 m) (o3 m) c main_arg0 (by decide)).trans ((W12_of m (o0 m) (o1 m) (o2 m) c main_arg0 (by decide)).trans ((W11_of m (o0 m) (o1 m) (o2 m) c main_arg0 (by decide)).trans ((W10_of m (o0 m) (o1 m) c main_arg0 (by decide)).trans ((W9_of m (o0 m) (o1 m) c main_arg0 (by decide)).trans ((W8_of m (o0 m) (o1 m) c main_arg0 (by decide)).trans ((W7_of m (o0 m) (o1 m) c main_arg0 (by decide)).trans ((W6_of m (o0 m) c main_arg0 (by decide)).trans ((W5_of m (o0 m) c main_arg0 (by decide)).trans ((W4_of m  c main_arg0 (by decide)).trans ((W3_of m  c main_arg0 (by decide)).trans ((W2_of m  c main_arg0 (by decide)).trans ((W1_of m  c main_arg0 (by decide)))))))))))))))))))
theorem W18_main_arg1 (c : Dev nD) : W18 m (o0 m) (o1 m) (o2 m) (o3 m) (o4 m) c main_arg1 = m ((c : Thread nD τ).loc main_arg1) :=
  (W18_of m (o0 m) (o1 m) (o2 m) (o3 m) (o4 m) c main_arg1 (by decide)).trans ((W17_of m (o0 m) (o1 m) (o2 m) (o3 m) (o4 m) c main_arg1 (by decide)).trans ((W16_of m (o0 m) (o1 m) (o2 m) (o3 m) c main_arg1 (by decide)).trans ((W15_of m (o0 m) (o1 m) (o2 m) (o3 m) c main_arg1 (by decide)).trans ((W14_of m (o0 m) (o1 m) (o2 m) (o3 m) c main_arg1 (by decide)).trans ((W13_of m (o0 m) (o1 m) (o2 m) (o3 m) c main_arg1 (by decide)).trans ((W12_of m (o0 m) (o1 m) (o2 m) c main_arg1 (by decide)).trans ((W11_of m (o0 m) (o1 m) (o2 m) c main_arg1 (by decide)).trans ((W10_of m (o0 m) (o1 m) c main_arg1 (by decide)).trans ((W9_of m (o0 m) (o1 m) c main_arg1 (by decide)).trans ((W8_of m (o0 m) (o1 m) c main_arg1 (by decide)).trans ((W7_of m (o0 m) (o1 m) c main_arg1 (by decide)).trans ((W6_of m (o0 m) c main_arg1 (by decide)).trans ((W5_of m (o0 m) c main_arg1 (by decide)).trans ((W4_of m  c main_arg1 (by decide)).trans ((W3_of m  c main_arg1 (by decide)).trans ((W2_of m  c main_arg1 (by decide)).trans ((W1_of m  c main_arg1 (by decide)))))))))))))))))))
theorem W18_main_arg2 (c : Dev nD) : W18 m (o0 m) (o1 m) (o2 m) (o3 m) (o4 m) c main_arg2 = m ((c : Thread nD τ).loc main_arg2) :=
  (W18_of m (o0 m) (o1 m) (o2 m) (o3 m) (o4 m) c main_arg2 (by decide)).trans ((W17_of m (o0 m) (o1 m) (o2 m) (o3 m) (o4 m) c main_arg2 (by decide)).trans ((W16_of m (o0 m) (o1 m) (o2 m) (o3 m) c main_arg2 (by decide)).trans ((W15_of m (o0 m) (o1 m) (o2 m) (o3 m) c main_arg2 (by decide)).trans ((W14_of m (o0 m) (o1 m) (o2 m) (o3 m) c main_arg2 (by decide)).trans ((W13_of m (o0 m) (o1 m) (o2 m) (o3 m) c main_arg2 (by decide)).trans ((W12_of m (o0 m) (o1 m) (o2 m) c main_arg2 (by decide)).trans ((W11_of m (o0 m) (o1 m) (o2 m) c main_arg2 (by decide)).trans ((W10_of m (o0 m) (o1 m) c main_arg2 (by decide)).trans ((W9_of m (o0 m) (o1 m) c main_arg2 (by decide)).trans ((W8_of m (o0 m) (o1 m) c main_arg2 (by decide)).trans ((W7_of m (o0 m) (o1 m) c main_arg2 (by decide)).trans ((W6_of m (o0 m) c main_arg2 (by decide)).trans ((W5_of m (o0 m) c main_arg2 (by decide)).trans ((W4_of m  c main_arg2 (by decide)).trans ((W3_of m  c main_arg2 (by decide)).trans ((W2_of m  c main_arg2 (by decide)).trans ((W1_of m  c main_arg2 (by decide)))))))))))))))))))
theorem W18_main_arg3 (c : Dev nD) : W18 m (o0 m) (o1 m) (o2 m) (o3 m) (o4 m) c main_arg3 = m ((c : Thread nD τ).loc main_arg3) :=
  (W18_of m (o0 m) (o1 m) (o2 m) (o3 m) (o4 m) c main_arg3 (by decide)).trans ((W17_of m (o0 m) (o1 m) (o2 m) (o3 m) (o4 m) c main_arg3 (by decide)).trans ((W16_of m (o0 m) (o1 m) (o2 m) (o3 m) c main_arg3 (by decide)).trans ((W15_of m (o0 m) (o1 m) (o2 m) (o3 m) c main_arg3 (by decide)).trans ((W14_of m (o0 m) (o1 m) (o2 m) (o3 m) c main_arg3 (by decide)).trans ((W13_of m (o0 m) (o1 m) (o2 m) (o3 m) c main_arg3 (by decide)).trans ((W12_of m (o0 m) (o1 m) (o2 m) c main_arg3 (by decide)).trans ((W11_of m (o0 m) (o1 m) (o2 m) c main_arg3 (by decide)).trans ((W10_of m (o0 m) (o1 m) c main_arg3 (by decide)).trans ((W9_of m (o0 m) (o1 m) c main_arg3 (by decide)).trans ((W8_of m (o0 m) (o1 m) c main_arg3 (by decide)).trans ((W7_of m (o0 m) (o1 m) c main_arg3 (by decide)).trans ((W6_of m (o0 m) c main_arg3 (by decide)).trans ((W5_of m (o0 m) c main_arg3 (by decide)).trans ((W4_of m  c main_arg3 (by decide)).trans ((W3_of m  c main_arg3 (by decide)).trans ((W2_of m  c main_arg3 (by decide)).trans ((W1_of m  c main_arg3 (by decide)))))))))))))))))))
theorem W18_main_arg4 (c : Dev nD) : W18 m (o0 m) (o1 m) (o2 m) (o3 m) (o4 m) c main_arg4 = m ((c : Thread nD τ).loc main_arg4) :=
  (W18_of m (o0 m) (o1 m) (o2 m) (o3 m) (o4 m) c main_arg4 (by decide)).trans ((W17_of m (o0 m) (o1 m) (o2 m) (o3 m) (o4 m) c main_arg4 (by decide)).trans ((W16_of m (o0 m) (o1 m) (o2 m) (o3 m) c main_arg4 (by decide)).trans ((W15_of m (o0 m) (o1 m) (o2 m) (o3 m) c main_arg4 (by decide)).trans ((W14_of m (o0 m) (o1 m) (o2 m) (o3 m) c main_arg4 (by decide)).trans ((W13_of m (o0 m) (o1 m) (o2 m) (o3 m) c main_arg4 (by decide)).trans ((W12_of m (o0 m) (o1 m) (o2 m) c main_arg4 (by decide)).trans ((W11_of m (o0 m) (o1 m) (o2 m) c main_arg4 (by decide)).trans ((W10_of m (o0 m) (o1 m) c main_arg4 (by decide)).trans ((W9_of m (o0 m) (o1 m) c main_arg4 (by decide)).trans ((W8_of m (o0 m) (o1 m) c main_arg4 (by decide)).trans ((W7_of m (o0 m) (o1 m) c main_arg4 (by decide)).trans ((W6_of m (o0 m) c main_arg4 (by decide)).trans ((W5_of m (o0 m) c main_arg4 (by decide)).trans ((W4_of m  c main_arg4 (by decide)).trans ((W3_of m  c main_arg4 (by decide)).trans ((W2_of m  c main_arg4 (by decide)).trans ((W1_of m  c main_arg4 (by decide)))))))))))))))))))
theorem W18_main_arg5 (c : Dev nD) : W18 m (o0 m) (o1 m) (o2 m) (o3 m) (o4 m) c main_arg5 = m ((c : Thread nD τ).loc main_arg5) :=
  (W18_of m (o0 m) (o1 m) (o2 m) (o3 m) (o4 m) c main_arg5 (by decide)).trans ((W17_of m (o0 m) (o1 m) (o2 m) (o3 m) (o4 m) c main_arg5 (by decide)).trans ((W16_of m (o0 m) (o1 m) (o2 m) (o3 m) c main_arg5 (by decide)).trans ((W15_of m (o0 m) (o1 m) (o2 m) (o3 m) c main_arg5 (by decide)).trans ((W14_of m (o0 m) (o1 m) (o2 m) (o3 m) c main_arg5 (by decide)).trans ((W13_of m (o0 m) (o1 m) (o2 m) (o3 m) c main_arg5 (by decide)).trans ((W12_of m (o0 m) (o1 m) (o2 m) c main_arg5 (by decide)).trans ((W11_of m (o0 m) (o1 m) (o2 m) c main_arg5 (by decide)).trans ((W10_of m (o0 m) (o1 m) c main_arg5 (by decide)).trans ((W9_of m (o0 m) (o1 m) c main_arg5 (by decide)).trans ((W8_of m (o0 m) (o1 m) c main_arg5 (by decide)).trans ((W7_of m (o0 m) (o1 m) c main_arg5 (by decide)).trans ((W6_of m (o0 m) c main_arg5 (by decide)).trans ((W5_of m (o0 m) c main_arg5 (by decide)).trans ((W4_of m  c main_arg5 (by decide)).trans ((W3_of m  c main_arg5 (by decide)).trans ((W2_of m  c main_arg5 (by decide)).trans ((W1_of m  c main_arg5 (by decide)))))))))))))))))))
theorem W18_main_arg6 (c : Dev nD) : W18 m (o0 m) (o1 m) (o2 m) (o3 m) (o4 m) c main_arg6 = m ((c : Thread nD τ).loc main_arg6) :=
  (W18_of m (o0 m) (o1 m) (o2 m) (o3 m) (o4 m) c main_arg6 (by decide)).trans ((W17_of m (o0 m) (o1 m) (o2 m) (o3 m) (o4 m) c main_arg6 (by decide)).trans ((W16_of m (o0 m) (o1 m) (o2 m) (o3 m) c main_arg6 (by decide)).trans ((W15_of m (o0 m) (o1 m) (o2 m) (o3 m) c main_arg6 (by decide)).trans ((W14_of m (o0 m) (o1 m) (o2 m) (o3 m) c main_arg6 (by decide)).trans ((W13_of m (o0 m) (o1 m) (o2 m) (o3 m) c main_arg6 (by decide)).trans ((W12_of m (o0 m) (o1 m) (o2 m) c main_arg6 (by decide)).trans ((W11_of m (o0 m) (o1 m) (o2 m) c main_arg6 (by decide)).trans ((W10_of m (o0 m) (o1 m) c main_arg6 (by decide)).trans ((W9_of m (o0 m) (o1 m) c main_arg6 (by decide)).trans ((W8_of m (o0 m) (o1 m) c main_arg6 (by decide)).trans ((W7_of m (o0 m) (o1 m) c main_arg6 (by decide)).trans ((W6_of m (o0 m) c main_arg6 (by decide)).trans ((W5_of m (o0 m) c main_arg6 (by decide)).trans ((W4_of m  c main_arg6 (by decide)).trans ((W3_of m  c main_arg6 (by decide)).trans ((W2_of m  c main_arg6 (by decide)).trans ((W1_of m  c main_arg6 (by decide)))))))))))))))))))
theorem W18_main_arg7 (c : Dev nD) : W18 m (o0 m) (o1 m) (o2 m) (o3 m) (o4 m) c main_arg7 = m ((c : Thread nD τ).loc main_arg7) :=
  (W18_of m (o0 m) (o1 m) (o2 m) (o3 m) (o4 m) c main_arg7 (by decide)).trans ((W17_of m (o0 m) (o1 m) (o2 m) (o3 m) (o4 m) c main_arg7 (by decide)).trans ((W16_of m (o0 m) (o1 m) (o2 m) (o3 m) c main_arg7 (by decide)).trans ((W15_of m (o0 m) (o1 m) (o2 m) (o3 m) c main_arg7 (by decide)).trans ((W14_of m (o0 m) (o1 m) (o2 m) (o3 m) c main_arg7 (by decide)).trans ((W13_of m (o0 m) (o1 m) (o2 m) (o3 m) c main_arg7 (by decide)).trans ((W12_of m (o0 m) (o1 m) (o2 m) c main_arg7 (by decide)).trans ((W11_of m (o0 m) (o1 m) (o2 m) c main_arg7 (by decide)).trans ((W10_of m (o0 m) (o1 m) c main_arg7 (by decide)).trans ((W9_of m (o0 m) (o1 m) c main_arg7 (by decide)).trans ((W8_of m (o0 m) (o1 m) c main_arg7 (by decide)).trans ((W7_of m (o0 m) (o1 m) c main_arg7 (by decide)).trans ((W6_of m (o0 m) c main_arg7 (by decide)).trans ((W5_of m (o0 m) c main_arg7 (by decide)).trans ((W4_of m  c main_arg7 (by decide)).trans ((W3_of m  c main_arg7 (by decide)).trans ((W2_of m  c main_arg7 (by decide)).trans ((W1_of m  c main_arg7 (by decide)))))))))))))))))))
theorem W18_main_arg8 (c : Dev nD) : W18 m (o0 m) (o1 m) (o2 m) (o3 m) (o4 m) c main_arg8 = m ((c : Thread nD τ).loc main_arg8) :=
  (W18_of m (o0 m) (o1 m) (o2 m) (o3 m) (o4 m) c main_arg8 (by decide)).trans ((W17_of m (o0 m) (o1 m) (o2 m) (o3 m) (o4 m) c main_arg8 (by decide)).trans ((W16_of m (o0 m) (o1 m) (o2 m) (o3 m) c main_arg8 (by decide)).trans ((W15_of m (o0 m) (o1 m) (o2 m) (o3 m) c main_arg8 (by decide)).trans ((W14_of m (o0 m) (o1 m) (o2 m) (o3 m) c main_arg8 (by decide)).trans ((W13_of m (o0 m) (o1 m) (o2 m) (o3 m) c main_arg8 (by decide)).trans ((W12_of m (o0 m) (o1 m) (o2 m) c main_arg8 (by decide)).trans ((W11_of m (o0 m) (o1 m) (o2 m) c main_arg8 (by decide)).trans ((W10_of m (o0 m) (o1 m) c main_arg8 (by decide)).trans ((W9_of m (o0 m) (o1 m) c main_arg8 (by decide)).trans ((W8_of m (o0 m) (o1 m) c main_arg8 (by decide)).trans ((W7_of m (o0 m) (o1 m) c main_arg8 (by decide)).trans ((W6_of m (o0 m) c main_arg8 (by decide)).trans ((W5_of m (o0 m) c main_arg8 (by decide)).trans ((W4_of m  c main_arg8 (by decide)).trans ((W3_of m  c main_arg8 (by decide)).trans ((W2_of m  c main_arg8 (by decide)).trans ((W1_of m  c main_arg8 (by decide)))))))))))))))))))
theorem W18_main_arg9 (c : Dev nD) : W18 m (o0 m) (o1 m) (o2 m) (o3 m) (o4 m) c main_arg9 = m ((c : Thread nD τ).loc main_arg9) :=
  (W18_of m (o0 m) (o1 m) (o2 m) (o3 m) (o4 m) c main_arg9 (by decide)).trans ((W17_of m (o0 m) (o1 m) (o2 m) (o3 m) (o4 m) c main_arg9 (by decide)).trans ((W16_of m (o0 m) (o1 m) (o2 m) (o3 m) c main_arg9 (by decide)).trans ((W15_of m (o0 m) (o1 m) (o2 m) (o3 m) c main_arg9 (by decide)).trans ((W14_of m (o0 m) (o1 m) (o2 m) (o3 m) c main_arg9 (by decide)).trans ((W13_of m (o0 m) (o1 m) (o2 m) (o3 m) c main_arg9 (by decide)).trans ((W12_of m (o0 m) (o1 m) (o2 m) c main_arg9 (by decide)).trans ((W11_of m (o0 m) (o1 m) (o2 m) c main_arg9 (by decide)).trans ((W10_of m (o0 m) (o1 m) c main_arg9 (by decide)).trans ((W9_of m (o0 m) (o1 m) c main_arg9 (by decide)).trans ((W8_of m (o0 m) (o1 m) c main_arg9 (by decide)).trans ((W7_of m (o0 m) (o1 m) c main_arg9 (by decide)).trans ((W6_of m (o0 m) c main_arg9 (by decide)).trans ((W5_of m (o0 m) c main_arg9 (by decide)).trans ((W4_of m  c main_arg9 (by decide)).trans ((W3_of m  c main_arg9 (by decide)).trans ((W2_of m  c main_arg9 (by decide)).trans ((W1_of m  c main_arg9 (by decide)))))))))))))))))))
theorem W18_main_arg10 (c : Dev nD) : W18 m (o0 m) (o1 m) (o2 m) (o3 m) (o4 m) c main_arg10 = m ((c : Thread nD τ).loc main_arg10) :=
  (W18_of m (o0 m) (o1 m) (o2 m) (o3 m) (o4 m) c main_arg10 (by decide)).trans ((W17_of m (o0 m) (o1 m) (o2 m) (o3 m) (o4 m) c main_arg10 (by decide)).trans ((W16_of m (o0 m) (o1 m) (o2 m) (o3 m) c main_arg10 (by decide)).trans ((W15_of m (o0 m) (o1 m) (o2 m) (o3 m) c main_arg10 (by decide)).trans ((W14_of m (o0 m) (o1 m) (o2 m) (o3 m) c main_arg10 (by decide)).trans ((W13_of m (o0 m) (o1 m) (o2 m) (o3 m) c main_arg10 (by decide)).trans ((W12_of m (o0 m) (o1 m) (o2 m) c main_arg10 (by decide)).trans ((W11_of m (o0 m) (o1 m) (o2 m) c main_arg10 (by decide)).trans ((W10_of m (o0 m) (o1 m) c main_arg10 (by decide)).trans ((W9_of m (o0 m) (o1 m) c main_arg10 (by decide)).trans ((W8_of m (o0 m) (o1 m) c main_arg10 (by decide)).trans ((W7_of m (o0 m) (o1 m) c main_arg10 (by decide)).trans ((W6_of m (o0 m) c main_arg10 (by decide)).trans ((W5_of m (o0 m) c main_arg10 (by decide)).trans ((W4_of m  c main_arg10 (by decide)).trans ((W3_of m  c main_arg10 (by decide)).trans ((W2_of m  c main_arg10 (by decide)).trans ((W1_of m  c main_arg10 (by decide)))))))))))))))))))
theorem W18_main_arg11 (c : Dev nD) : W18 m (o0 m) (o1 m) (o2 m) (o3 m) (o4 m) c main_arg11 = m ((c : Thread nD τ).loc main_arg11) :=
  (W18_of m (o0 m) (o1 m) (o2 m) (o3 m) (o4 m) c main_arg11 (by decide)).trans ((W17_of m (o0 m) (o1 m) (o2 m) (o3 m) (o4 m) c main_arg11 (by decide)).trans ((W16_of m (o0 m) (o1 m) (o2 m) (o3 m) c main_arg11 (by decide)).trans ((W15_of m (o0 m) (o1 m) (o2 m) (o3 m) c main_arg11 (by decide)).trans ((W14_of m (o0 m) (o1 m) (o2 m) (o3 m) c main_arg11 (by decide)).trans ((W13_of m (o0 m) (o1 m) (o2 m) (o3 m) c main_arg11 (by decide)).trans ((W12_of m (o0 m) (o1 m) (o2 m) c main_arg11 (by decide)).trans ((W11_of m (o0 m) (o1 m) (o2 m) c main_arg11 (by decide)).trans ((W10_of m (o0 m) (o1 m) c main_arg11 (by decide)).trans ((W9_of m (o0 m) (o1 m) c main_arg11 (by decide)).trans ((W8_of m (o0 m) (o1 m) c main_arg11 (by decide)).trans ((W7_of m (o0 m) (o1 m) c main_arg11 (by decide)).trans ((W6_of m (o0 m) c main_arg11 (by decide)).trans ((W5_of m (o0 m) c main_arg11 (by decide)).trans ((W4_of m  c main_arg11 (by decide)).trans ((W3_of m  c main_arg11 (by decide)).trans ((W2_of m  c main_arg11 (by decide)).trans ((W1_of m  c main_arg11 (by decide)))))))))))))))))))
theorem W18_main_arg12 (c : Dev nD) : W18 m (o0 m) (o1 m) (o2 m) (o3 m) (o4 m) c main_arg12 = m ((c : Thread nD τ).loc main_arg12) :=
  (W18_of m (o0 m) (o1 m) (o2 m) (o3 m) (o4 m) c main_arg12 (by decide)).trans ((W17_of m (o0 m) (o1 m) (o2 m) (o3 m) (o4 m) c main_arg12 (by decide)).trans ((W16_of m (o0 m) (o1 m) (o2 m) (o3 m) c main_arg12 (by decide)).trans ((W15_of m (o0 m) (o1 m) (o2 m) (o3 m) c main_arg12 (by decide)).trans ((W14_of m (o0 m) (o1 m) (o2 m) (o3 m) c main_arg12 (by decide)).trans ((W13_of m (o0 m) (o1 m) (o2 m) (o3 m) c main_arg12 (by decide)).trans ((W12_of m (o0 m) (o1 m) (o2 m) c main_arg12 (by decide)).trans ((W11_of m (o0 m) (o1 m) (o2 m) c main_arg12 (by decide)).trans ((W10_of m (o0 m) (o1 m) c main_arg12 (by decide)).trans ((W9_of m (o0 m) (o1 m) c main_arg12 (by decide)).trans ((W8_of m (o0 m) (o1 m) c main_arg12 (by decide)).trans ((W7_of m (o0 m) (o1 m) c main_arg12 (by decide)).trans ((W6_of m (o0 m) c main_arg12 (by decide)).trans ((W5_of m (o0 m) c main_arg12 (by decide)).trans ((W4_of m  c main_arg12 (by decide)).trans ((W3_of m  c main_arg12 (by decide)).trans ((W2_of m  c main_arg12 (by decide)).trans ((W1_of m  c main_arg12 (by decide)))))))))))))))))))
theorem W18_main_arg13 (c : Dev nD) : W18 m (o0 m) (o1 m) (o2 m) (o3 m) (o4 m) c main_arg13 = m ((c : Thread nD τ).loc main_arg13) :=
  (W18_of m (o0 m) (o1 m) (o2 m) (o3 m) (o4 m) c main_arg13 (by decide)).trans ((W17_of m (o0 m) (o1 m) (o2 m) (o3 m) (o4 m) c main_arg13 (by decide)).trans ((W16_of m (o0 m) (o1 m) (o2 m) (o3 m) c main_arg13 (by decide)).trans ((W15_of m (o0 m) (o1 m) (o2 m) (o3 m) c main_arg13 (by decide)).trans ((W14_of m (o0 m) (o1 m) (o2 m) (o3 m) c main_arg13 (by decide)).trans ((W13_of m (o0 m) (o1 m) (o2 m) (o3 m) c main_arg13 (by decide)).trans ((W12_of m (o0 m) (o1 m) (o2 m) c main_arg13 (by decide)).trans ((W11_of m (o0 m) (o1 m) (o2 m) c main_arg13 (by decide)).trans ((W10_of m (o0 m) (o1 m) c main_arg13 (by decide)).trans ((W9_of m (o0 m) (o1 m) c main_arg13 (by decide)).trans ((W8_of m (o0 m) (o1 m) c main_arg13 (by decide)).trans ((W7_of m (o0 m) (o1 m) c main_arg13 (by decide)).trans ((W6_of m (o0 m) c main_arg13 (by decide)).trans ((W5_of m (o0 m) c main_arg13 (by decide)).trans ((W4_of m  c main_arg13 (by decide)).trans ((W3_of m  c main_arg13 (by decide)).trans ((W2_of m  c main_arg13 (by decide)).trans ((W1_of m  c main_arg13 (by decide)))))))))))))))))))

/-- info: 'Cert.KernelIdeal.Hand.run_all' depends on axioms: [propext, Classical.choice, Quot.sound] -/
#guard_msgs in #print axioms run_all

end Cert.KernelIdeal.Hand

end
-- ==== Proof.KFold.lean ====
/-
  The contents of the TensorCore's unscoped buffers at every boundary between two items of @main — a stretch of host
  operations or a kernel region —, as a fold from the launch memory: a host stretch applies its operations' pure
  functions; a region replaces the arrays of its windows by what it leaves there (`O p`, a parameter here: the
  regions' own modules say what that is) and touches nothing else.  Stated at any float instance.  Beside each
  boundary: the buffers the step does not write keep their contents.

  Stated here of the program as printed, whose floats are machine words and whose float operations are the
  word-level ones. Neither the statements nor their proofs depend on how a float operation is read — they hold at
  any reading — and the idealized program, being the same text, satisfies the same statements.
-/
import proofs.«153293_j29283087024787_2_alg».proof.Proof.Gen.Kernel.Launch
import proofs.«153293_j29283087024787_2_alg».proof.Proof.Gen.Kernel.Regions
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.Sem

variable {F : FTy → Type} [FloatOps F]

/-- What region `p` leaves in the arrays of its windows, per core. -/
abbrev Out0 : Type := (c : Dev nD) → (w : Fin 4) → Buf (Elt F) ((spec0 w).arr.view.loc (c.tc : Thread nD τ))
abbrev Out1 : Type := (c : Dev nD) → (w : Fin 4) → Buf (Elt F) ((spec1 w).arr.view.loc (c.tc : Thread nD τ))
abbrev Out2 : Type := (c : Dev nD) → (w : Fin 3) → Buf (Elt F) ((spec2 w).arr.view.loc (c.tc : Thread nD τ))
abbrev Out3 : Type := (c : Dev nD) → (w : Fin 4) → Buf (Elt F) ((spec3 w).arr.view.loc (c.tc : Thread nD τ))
abbrev Out4 : Type := (c : Dev nD) → (w : Fin 3) → Buf (Elt F) ((spec4 w).arr.view.loc (c.tc : Thread nD τ))

variable (m : (ℓ : Loc nD τ sig) → Buf (Elt F) ℓ)
variable (O0 : Out0 (F := F)) (O1 : Out1 (F := F)) (O2 : Out2 (F := F)) (O3 : Out3 (F := F)) (O4 : Out4 (F := F))

/-- Core `c`'s buffers at launch. -/
abbrev W0 (c : Dev nD) : Valuation τ sig (Elt F) := fun b => m (c, b)
/-- After item 0, the host stretch `hostOps0`. -/
abbrev W1 (c : Dev nD) : Valuation τ sig (Elt F) := StableHlo.after hostOps0 (W0 m c)
theorem W1_of (c : Dev nD) (r : Ref sig .tc) (h : r ∉ hostOps0_W) : W1 m  c r = W0 m c r :=
  StableHlo.after_of_writes_sub hostOps0 _ hostOps0_writes h
/-- After item 1, the host stretch `hostOps0_1`. -/
abbrev W2 (c : Dev nD) : Valuation τ sig (Elt F) := StableHlo.after hostOps0_1 (W1 m c)
theorem W2_of (c : Dev nD) (r : Ref sig .tc) (h : r ∉ hostOps0_1_W) : W2 m  c r = W1 m c r :=
  StableHlo.after_of_writes_sub hostOps0_1 _ hostOps0_1_writes h
/-- After item 2, the host stretch `hostOps0_2`. -/
abbrev W3 (c : Dev nD) : Valuation τ sig (Elt F) := StableHlo.after hostOps0_2 (W2 m c)
theorem W3_of (c : Dev nD) (r : Ref sig .tc) (h : r ∉ hostOps0_2_W) : W3 m  c r = W2 m c r :=
  StableHlo.after_of_writes_sub hostOps0_2 _ hostOps0_2_writes h
/-- After item 3, the host stretch `hostOps0_3`. -/
abbrev W4 (c : Dev nD) : Valuation τ sig (Elt F) := StableHlo.after hostOps0_3 (W3 m c)
theorem W4_of (c : Dev nD) (r : Ref sig .tc) (h : r ∉ hostOps0_3_W) : W4 m  c r = W3 m c r :=
  StableHlo.after_of_writes_sub hostOps0_3 _ hostOps0_3_writes h
/-- After item 4, region 0: its windows' arrays at what it leaves, every other buffer as entered. -/
def W5 (c : Dev nD) : Valuation τ sig (Elt F) := Pipeline.withArrays spec0 c (W4 m c) (O0 c)
theorem W5_arr (c : Dev nD) (w : Fin 4) : W5 m O0 c (Proc.devRef .tc (Pipeline.arrRef spec0 w)) = O0 c w := by
  unfold W5; exact Pipeline.withArrays_arr spec0 launch0.win.arr_inj c _ _ w
theorem W5_of (c : Dev nD) (b : Ref sig .tc) (hb : ∀ w, Pipeline.arrRef spec0 w ≠ b) : W5 m O0 c (Proc.devRef .tc b) = W4 m c (Proc.devRef .tc b) := by
  unfold W5; exact Pipeline.withArrays_of_ne spec0 c _ _ b hb
/-- After item 5, the host stretch `hostOps1`. -/
abbrev W6 (c : Dev nD) : Valuation τ sig (Elt F) := StableHlo.after hostOps1 (W5 m O0 c)
theorem W6_of (c : Dev nD) (r : Ref sig .tc) (h : r ∉ hostOps1_W) : W6 m O0 c r = W5 m O0 c r :=
  StableHlo.after_of_writes_sub hostOps1 _ hostOps1_writes h
/-- After item 6, region 1: its windows' arrays at what it leaves, every other buffer as entered. -/
def W7 (c : Dev nD) : Valuation τ sig (Elt F) := Pipeline.withArrays spec1 c (W6 m O0 c) (O1 c)
theorem W7_arr (c : Dev nD) (w : Fin 4) : W7 m O0 O1 c (Proc.devRef .tc (Pipeline.arrRef spec1 w)) = O1 c w := by
  unfold W7; exact Pipeline.withArrays_arr spec1 launch1.win.arr_inj c _ _ w
theorem W7_of (c : Dev nD) (b : Ref sig .tc) (hb : ∀ w, Pipeline.arrRef spec1 w ≠ b) : W7 m O0 O1 c (Proc.devRef .tc b) = W6 m O0 c (Proc.devRef .tc b) := by
  unfold W7; exact Pipeline.withArrays_of_ne spec1 c _ _ b hb
/-- After item 7, the host stretch `hostOps2`. -/
abbrev W8 (c : Dev nD) : Valuation τ sig (Elt F) := StableHlo.after hostOps2 (W7 m O0 O1 c)
theorem W8_of (c : Dev nD) (r : Ref sig .tc) (h : r ∉ hostOps2_W) : W8 m O0 O1 c r = W7 m O0 O1 c r :=
  StableHlo.after_of_writes_sub hostOps2 _ hostOps2_writes h
/-- After item 8, the host stretch `hostOps2_1`. -/
abbrev W9 (c : Dev nD) : Valuation τ sig (Elt F) := StableHlo.after hostOps2_1 (W8 m O0 O1 c)
theorem W9_of (c : Dev nD) (r : Ref sig .tc) (h : r ∉ hostOps2_1_W) : W9 m O0 O1 c r = W8 m O0 O1 c r :=
  StableHlo.after_of_writes_sub hostOps2_1 _ hostOps2_1_writes h
/-- After item 9, the host stretch `hostOps2_2`. -/
abbrev W10 (c : Dev nD) : Valuation τ sig (Elt F) := StableHlo.after hostOps2_2 (W9 m O0 O1 c)
theorem W10_of (c : Dev nD) (r : Ref sig .tc) (h : r ∉ hostOps2_2_W) : W10 m O0 O1 c r = W9 m O0 O1 c r :=
  StableHlo.after_of_writes_sub hostOps2_2 _ hostOps2_2_writes h
/-- After item 10, region 2: its windows' arrays at what it leaves, every other buffer as entered. -/
def W11 (c : Dev nD) : Valuation τ sig (Elt F) := Pipeline.withArrays spec2 c (W10 m O0 O1 c) (O2 c)
theorem W11_arr (c : Dev nD) (w : Fin 3) : W11 m O0 O1 O2 c (Proc.devRef .tc (Pipeline.arrRef spec2 w)) = O2 c w := by
  unfold W11; exact Pipeline.withArrays_arr spec2 launch2.win.arr_inj c _ _ w
theorem W11_of (c : Dev nD) (b : Ref sig .tc) (hb : ∀ w, Pipeline.arrRef spec2 w ≠ b) : W11 m O0 O1 O2 c (Proc.devRef .tc b) = W10 m O0 O1 c (Proc.devRef .tc b) := by
  unfold W11; exact Pipeline.withArrays_of_ne spec2 c _ _ b hb
/-- After item 11, the host stretch `hostOps3`. -/
abbrev W12 (c : Dev nD) : Valuation τ sig (Elt F) := StableHlo.after hostOps3 (W11 m O0 O1 O2 c)
theorem W12_of (c : Dev nD) (r : Ref sig .tc) (h : r ∉ hostOps3_W) : W12 m O0 O1 O2 c r = W11 m O0 O1 O2 c r :=
  StableHlo.after_of_writes_sub hostOps3 _ hostOps3_writes h
/-- After item 12, region 3: its windows' arrays at what it leaves, every other buffer as entered. -/
def W13 (c : Dev nD) : Valuation τ sig (Elt F) := Pipeline.withArrays spec3 c (W12 m O0 O1 O2 c) (O3 c)
theorem W13_arr (c : Dev nD) (w : Fin 4) : W13 m O0 O1 O2 O3 c (Proc.devRef .tc (Pipeline.arrRef spec3 w)) = O3 c w := by
  unfold W13; exact Pipeline.withArrays_arr spec3 launch3.win.arr_inj c _ _ w
theorem W13_of (c : Dev nD) (b : Ref sig .tc) (hb : ∀ w, Pipeline.arrRef spec3 w ≠ b) : W13 m O0 O1 O2 O3 c (Proc.devRef .tc b) = W12 m O0 O1 O2 c (Proc.devRef .tc b) := by
  unfold W13; exact Pipeline.withArrays_of_ne spec3 c _ _ b hb
/-- After item 13, the host stretch `hostOps4`. -/
abbrev W14 (c : Dev nD) : Valuation τ sig (Elt F) := StableHlo.after hostOps4 (W13 m O0 O1 O2 O3 c)
theorem W14_of (c : Dev nD) (r : Ref sig .tc) (h : r ∉ hostOps4_W) : W14 m O0 O1 O2 O3 c r = W13 m O0 O1 O2 O3 c r :=
  StableHlo.after_of_writes_sub hostOps4 _ hostOps4_writes h
/-- After item 14, the host stretch `hostOps4_1`. -/
abbrev W15 (c : Dev nD) : Valuation τ sig (Elt F) := StableHlo.after hostOps4_1 (W14 m O0 O1 O2 O3 c)
theorem W15_of (c : Dev nD) (r : Ref sig .tc) (h : r ∉ hostOps4_1_W) : W15 m O0 O1 O2 O3 c r = W14 m O0 O1 O2 O3 c r :=
  StableHlo.after_of_writes_sub hostOps4_1 _ hostOps4_1_writes h
/-- After item 15, the host stretch `hostOps4_2`. -/
abbrev W16 (c : Dev nD) : Valuation τ sig (Elt F) := StableHlo.after hostOps4_2 (W15 m O0 O1 O2 O3 c)
theorem W16_of (c : Dev nD) (r : Ref sig .tc) (h : r ∉ hostOps4_2_W) : W16 m O0 O1 O2 O3 c r = W15 m O0 O1 O2 O3 c r :=
  StableHlo.after_of_writes_sub hostOps4_2 _ hostOps4_2_writes h
/-- After item 16, region 4: its windows' arrays at what it leaves, every other buffer as entered. -/
def W17 (c : Dev nD) : Valuation τ sig (Elt F) := Pipeline.withArrays spec4 c (W16 m O0 O1 O2 O3 c) (O4 c)
theorem W17_arr (c : Dev nD) (w : Fin 3) : W17 m O0 O1 O2 O3 O4 c (Proc.devRef .tc (Pipeline.arrRef spec4 w)) = O4 c w := by
  unfold W17; exact Pipeline.withArrays_arr spec4 launch4.win.arr_inj c _ _ w
theorem W17_of (c : Dev nD) (b : Ref sig .tc) (hb : ∀ w, Pipeline.arrRef spec4 w ≠ b) : W17 m O0 O1 O2 O3 O4 c (Proc.devRef .tc b) = W16 m O0 O1 O2 O3 c (Proc.devRef .tc b) := by
  unfold W17; exact Pipeline.withArrays_of_ne spec4 c _ _ b hb
/-- After item 17, the host stretch `hostOps5`. -/
abbrev W18 (c : Dev nD) : Valuation τ sig (Elt F) := StableHlo.after hostOps5 (W17 m O0 O1 O2 O3 O4 c)
theorem W18_of (c : Dev nD) (r : Ref sig .tc) (h : r ∉ hostOps5_W) : W18 m O0 O1 O2 O3 O4 c r = W17 m O0 O1 O2 O3 O4 c r :=
  StableHlo.after_of_writes_sub hostOps5 _ hostOps5_writes h

end Cert.Kernel.Hand

end
-- ==== Proof.KRegionRelw.lean ====
/-
  The similarity-maxima region of @main (one grid point; the two whole [1200,128] matrices in, the two whole
  [1,1200] rows out), at the contents the region is entered with: its windows' blocks, what the body leaves in each
  output window's staging buffer, the body's triple, the pipeline's proof data and the body obligation, and the two
  output arrays after the region (every block is its whole array, so the one write-back of an output window
  overwrites the array with what the body stored).

  Stated here of the program as printed, whose floats are machine words and whose float operations are the
  word-level ones. Neither the statements nor their proofs depend on how a float operation is read — they hold at
  any reading — and the idealized program, being the same text, satisfies the same statements.
-/
import proofs.«153293_j29283087024787_2_alg».proof.Proof.Gen.Kernel.Launch
import proofs.«153293_j29283087024787_2_alg».proof.Proof.Gen.Kernel.Skeleton
import proofs.«153293_j29283087024787_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The similarity-maxima region (region 0 of @main, pipeline 0), at its entry contents

The region has one grid point. Its two input windows are the two whole `[1200,128]` row matrices, its two
output windows the two whole `[1,1200]` rows. The body loads both matrices whole and stores one whole row
into each output window; before each store it also loads the output window, a load whose value is never used.
Everything here is stated at a parameter `V`: the contents of the core's buffers when the region is entered. -/

section Region0
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first matrix's staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for the second matrix. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is a whole buffer -/

abbrev r0_in : Rect S1200x128 := Rect.unit (s := S1200x128) ![0, 0] S1200x128.size inb_S1200x128_S1200x128_0_0
abbrev r0_out : Rect S1x1200 := Rect.unit (s := S1x1200) ![0, 0] S1x1200.size inb_S1x1200_S1x1200_0_0

/-! ## What the body leaves in each output window's buffer -/

/-- The row-maxima window's staging buffer after the body, from the two input blocks: one whole-buffer store. -/
def out0_2 (x0 : Vec F S1200x128 .f32) (x1 : Vec F S1200x128 .f32) : Vec F S1x1200 .f32 :=
  View.canon [⟨r0_out, k0_pay2 (View.ld x0 r0_in) (View.ld x1 r0_in)⟩]

/-- The one store covers the buffer. -/
theorem cover0_2 (p0 : Vec F S1x1200 .f32) (y : S1x1200.Idx) :
    ∃ pc ∈ ([⟨r0_out, p0⟩] : List (View.Piece (Elt F) S1x1200 .f32)), y ∈ pc.1.set :=
  View.cover_of_tiled [⟨r0_out, p0⟩] S1x1200.size (by rfl) y

/-- The column-maxima window's staging buffer after the body: one whole-buffer store. -/
def out0_3 (x0 : Vec F S1200x128 .f32) (x1 : Vec F S1200x128 .f32) : Vec F S1x1200 .f32 :=
  View.canon [⟨r0_out, k0_pay3 (View.ld x0 r0_in) (View.ld x1 r0_in)⟩]

/-- The one store covers the buffer. -/
theorem cover0_3 (p0 : Vec F S1x1200 .f32) (y : S1x1200.Idx) :
    ∃ pc ∈ ([⟨r0_out, p0⟩] : List (View.Piece (Elt F) S1x1200 .f32)), y ∈ pc.1.set :=
  View.cover_of_tiled [⟨r0_out, p0⟩] S1x1200.size (by rfl) y

/-! ## The body's triple -/

set_option maxHeartbeats 1000000 in
/-- The body on whole staging memrefs, the inputs' at contents `x0`, `x1` and the outputs' at anything, runs to
    the continuation with the inputs' unchanged and each output's at its one store over the inputs'. The two
    loads of the output memrefs read whatever is there and their values are dropped. -/
theorem sound_kernel0 (c : Dev nD) (E : Set ℕ) (i : grid0.Coords) (arg1 : Memref sig .tc .vmem S1200x128 .f32) (harg1 : arg1.IsWhole) (arg2 : Memref sig .tc .vmem S1200x128 .f32) (harg2 : arg2.IsWhole) (arg3 : Memref sig .tc .vmem S1x1200 .f32) (harg3 : arg3.IsWhole) (arg4 : Memref sig .tc .vmem S1x1200 .f32) (harg4 : arg4.IsWhole)
    (x0 : Vec F S1200x128 .f32) (x1 : Vec F S1200x128 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0__relw_kernel i arg1 harg1 arg2 harg2 arg3 harg3 arg4 harg4) K := by
  simp only [cc0__relw_kernel_eq_skeleton]; unfold cc0__relw_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-! ## The pipeline's proof data -/

/-- The proof data of pipeline 0 on core `c`: the arrays as the region finds them; after the body each input's
    buffer at its block and each output's at its one store over the input blocks; the invariant that of a body
    that touches nothing but its windows; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The two output arrays after the region

The grid has one point and every window's block there is its whole array (every block index is 0), so a block
read off an array is the array, and the one write-back of an output window overwrites its whole array with what
the body stored. -/

theorem hz0 : (![0, 0] : Fin 2 → Nat) = fun _ => 0 := funext fun a => by fin_cases a <;> rfl

/-- Every window's block index is 0 on both axes at every point (decided over the grid). -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The first matrix's block is the whole matrix. -/
theorem iblk0_0_eq (c : Dev nD) (t : Fin cfg0.N) : (iblk0 V c 0 t : Vec F S1200x128 .f32) = V c main_v0 := by
  obtain ⟨e0, e1, -⟩ := idx_facts0 t
  funext j
  show V c main_v0 (((cfg0.win 0).blk t).view.emb j) = V c main_v0 j
  congr 1
  funext a; apply Fin.ext
  match a with
  | ⟨0, _⟩ => show win0_0.index t (0 : Fin 2) * 1200 + 1 * (j 0).val = (j 0).val; omega
  | ⟨1, _⟩ => show win0_0.index t (1 : Fin 2) * 128 + 1 * (j 1).val = (j 1).val; omega

/-- The second matrix's block is the whole matrix. -/
theorem iblk0_1_eq (c : Dev nD) (t : Fin cfg0.N) : (iblk0 V c 1 t : Vec F S1200x128 .f32) = V c main_v1 := by
  obtain ⟨-, -, e0, e1, -⟩ := idx_facts0 t
  funext j
  show V c main_v1 (((cfg0.win 1).blk t).view.emb j) = V c main_v1 j
  congr 1
  funext a; apply Fin.ext
  match a with
  | ⟨0, _⟩ => show win0_1.index t (0 : Fin 2) * 1200 + 1 * (j 0).val = (j 0).val; omega
  | ⟨1, _⟩ => show win0_1.index t (1 : Fin 2) * 128 + 1 * (j 1).val = (j 1).val; omega

/-- A position of the row-maxima window's block is the same position of its array. -/
theorem emb0_2 (t : Fin cfg0.N) (j : S1x1200.Idx) : ((cfg0.win 2).blk t).view.emb j = j := by
  obtain ⟨-, -, -, -, e0, e1, -⟩ := idx_facts0 t
  funext a; apply Fin.ext
  match a with
  | ⟨0, _⟩ => show win0_2.index t (0 : Fin 2) * 1 + 1 * (j 0).val = (j 0).val; omega
  | ⟨1, _⟩ => show win0_2.index t (1 : Fin 2) * 1200 + 1 * (j 1).val = (j 1).val; omega

/-- The same for the column-maxima window. -/
theorem emb0_3 (t : Fin cfg0.N) (j : S1x1200.Idx) : ((cfg0.win 3).blk t).view.emb j = j := by
  obtain ⟨-, -, -, -, -, -, e0, e1⟩ := idx_facts0 t
  funext a; apply Fin.ext
  match a with
  | ⟨0, _⟩ => show win0_3.index t (0 : Fin 2) * 1 + 1 * (j 0).val = (j 0).val; omega
  | ⟨1, _⟩ => show win0_3.index t (1 : Fin 2) * 1200 + 1 * (j 1).val = (j 1).val; omega

/-- The row-maxima window's block of any contents of its array is those contents: the block is the whole array
    and the transfer moves all of it. -/
theorem read_blk0_2 (t : Fin cfg0.N) (X : Vec F S1x1200 .f32) :
    ((cfg0.win 2).blk t).view.read (Elt F) X = (cfg0.win 2).cut (grid0.coords t) X := by
  obtain ⟨-, -, -, -, e0, e1, -⟩ := idx_facts0 t
  funext j
  show X (((cfg0.win 2).blk t).view.emb j) = X ((cfg0.win 2).xinj (grid0.coords t) j)
  congr 1
  funext a; apply Fin.ext
  match a with
  | ⟨0, _⟩ => show win0_2.index t (0 : Fin 2) * 1 + 1 * (j 0).val = (j 0).val; omega
  | ⟨1, _⟩ => show win0_2.index t (1 : Fin 2) * 1200 + 1 * (j 1).val = (j 1).val; omega

/-- The same for the column-maxima window. -/
theorem read_blk0_3 (t : Fin cfg0.N) (X : Vec F S1x1200 .f32) :
    ((cfg0.win 3).blk t).view.read (Elt F) X = (cfg0.win 3).cut (grid0.coords t) X := by
  obtain ⟨-, -, -, -, -, -, e0, e1⟩ := idx_facts0 t
  funext j
  show X (((cfg0.win 3).blk t).view.emb j) = X ((cfg0.win 3).xinj (grid0.coords t) j)
  congr 1
  funext a; apply Fin.ext
  match a with
  | ⟨0, _⟩ => show win0_3.index t (0 : Fin 2) * 1 + 1 * (j 0).val = (j 0).val; omega
  | ⟨1, _⟩ => show win0_3.index t (1 : Fin 2) * 1200 + 1 * (j 1).val = (j 1).val; omega

/-- What the point writes back to the row-maxima array is the block of the row-maxima payload of the two
    matrices as the region finds them. -/
theorem flushed0_2_eq (c : Dev nD) (t : Fin cfg0.N) :
    (dat0 V c).flushed 2 t = ((cfg0.win 2).blk t).view.read (Elt F) (k0_pay2 (V c main_v0) (V c main_v1)) := by
  show (cfg0.win 2).cut (grid0.coords t) ((dat0 V c).after 2 t) = _
  rw [after0_2]
  unfold out0_2
  rw [View.canon_unit_zero hz0]
  simp only [View.ld_unit_zero (S := S1200x128) hz0]
  rw [iblk0_0_eq, iblk0_1_eq]
  exact (read_blk0_2 t _).symm

/-- What the point writes back to the column-maxima array. -/
theorem flushed0_3_eq (c : Dev nD) (t : Fin cfg0.N) :
    (dat0 V c).flushed 3 t = ((cfg0.win 3).blk t).view.read (Elt F) (k0_pay3 (V c main_v0) (V c main_v1)) := by
  show (cfg0.win 3).cut (grid0.coords t) ((dat0 V c).after 3 t) = _
  rw [after0_3]
  unfold out0_3
  rw [View.canon_unit_zero hz0]
  simp only [View.ld_unit_zero (S := S1200x128) hz0]
  rw [iblk0_0_eq, iblk0_1_eq]
  exact (read_blk0_3 t _).symm

/-- Every position of the row-maxima array is in the one point's block. -/
theorem cover_arr0_2 (i : S1x1200.Idx) :
    ∃ t : Fin cfg0.N, (cfg0.win 2).flush t = true ∧ i ∈ ((cfg0.win 2).blk t).view.set :=
  ⟨t0_0, flush0_2 t0_0, by
    have h := ((cfg0.win 2).blk t0_0).view.emb_mem_set i
    rwa [emb0_2] at h⟩

/-- Every position of the column-maxima array is in the one point's block. -/
theorem cover_arr0_3 (i : S1x1200.Idx) :
    ∃ t : Fin cfg0.N, (cfg0.win 3).flush t = true ∧ i ∈ ((cfg0.win 3).blk t).view.set :=
  ⟨t0_0, flush0_3 t0_0, by
    have h := ((cfg0.win 3).blk t0_0).view.emb_mem_set i
    rwa [emb0_3] at h⟩

/-- THE ROW-MAXIMA ARRAY after the region: the row-maxima payload of the two matrices the region found. -/
theorem final0_2 (c : Dev nD) : (dat0 V c).arrAt 2 cfg0.N = k0_pay2 (V c main_v0) (V c main_v1) :=
  (dat0 V c).arrAt_eq_of_cover 2 _ (fun t _ => flushed0_2_eq V c t) cover_arr0_2

/-- THE COLUMN-MAXIMA ARRAY after the region: the column-maxima payload of the two matrices the region found. -/
theorem final0_3 (c : Dev nD) : (dat0 V c).arrAt 3 cfg0.N = k0_pay3 (V c main_v0) (V c main_v1) :=
  (dat0 V c).arrAt_eq_of_cover 3 _ (fun t _ => flushed0_3_eq V c t) cover_arr0_3

end Region0

end Cert.Kernel.Hand

end
-- ==== Proof.KRegionDis.lean ====
/-
  The two degree-factor regions of @main (one grid point each; a whole [1568,128] array in, two whole [1568,128]
  arrays out), each at the contents it is entered with: its windows' blocks, what the body leaves in each output
  window's staging buffer, the body's triple, the pipeline's proof data and the body obligation, and the two output
  arrays after the region (every block is its whole array, so the one write-back of an output window overwrites
  the array with what the body stored).

  Stated here of the program as printed, whose floats are machine words and whose float operations are the
  word-level ones. Neither the statements nor their proofs depend on how a float operation is read — they hold at
  any reading — and the idealized program, being the same text, satisfies the same statements.
-/
import proofs.«153293_j29283087024787_2_alg».proof.Proof.Gen.Kernel.Launch
import proofs.«153293_j29283087024787_2_alg».proof.Proof.Gen.Kernel.Skeleton
import proofs.«153293_j29283087024787_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The two guarded-inverse-square-root regions share their shapes and their body's accesses: every load and
every store is of a whole `[1568,128]` buffer. -/

abbrev rD : Rect S1568x128 := Rect.unit (s := S1568x128) ![0, 0] S1568x128.size inb_S1568x128_S1568x128_0_0

theorem hzD : (![0, 0] : Fin 2 → Nat) = fun _ => 0 := funext fun a => by fin_cases a <;> rfl

/-! # The degree-factor region of the first graph side (region 2 of @main, pipeline 2), at its entry contents

One grid point; the input window and the two output windows are each a whole `[1568,128]` array. The body
loads the input whole and stores one whole array into each output window; before each store it also loads the
output window, a load whose value is never used. -/

section Region2
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input's staging buffer holds its block at every point, for any proof data whose array is the entry
    contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in each output window's buffer -/

/-- The first output window's staging buffer after the body, from the input block: one whole-buffer store. -/
def out2_1 (x0 : Vec F S1568x128 .f32) : Vec F S1568x128 .f32 :=
  View.canon [⟨rD, k2_pay1 (View.ld x0 rD)⟩]

/-- The one store covers the buffer. -/
theorem cover2_1 (p0 : Vec F S1568x128 .f32) (y : S1568x128.Idx) :
    ∃ pc ∈ ([⟨rD, p0⟩] : List (View.Piece (Elt F) S1568x128 .f32)), y ∈ pc.1.set :=
  View.cover_of_tiled [⟨rD, p0⟩] S1568x128.size (by rfl) y

/-- The second output window's staging buffer after the body: one whole-buffer store. -/
def out2_2 (x0 : Vec F S1568x128 .f32) : Vec F S1568x128 .f32 :=
  View.canon [⟨rD, k2_pay2 (View.ld x0 rD)⟩]

/-- The one store covers the buffer. -/
theorem cover2_2 (p0 : Vec F S1568x128 .f32) (y : S1568x128.Idx) :
    ∃ pc ∈ ([⟨rD, p0⟩] : List (View.Piece (Elt F) S1568x128 .f32)), y ∈ pc.1.set :=
  View.cover_of_tiled [⟨rD, p0⟩] S1568x128.size (by rfl) y

/-! ## The body's triple -/

set_option maxHeartbeats 1000000 in
/-- The body on whole staging memrefs, the input's at contents `x0` and the outputs' at anything, runs to the
    continuation with the input's unchanged and each output's at its one store over the input's. The two loads of
    the output memrefs read whatever is there and their values are dropped. -/
theorem sound_kernel2 (c : Dev nD) (E : Set ℕ) (i : grid2.Coords) (arg1 : Memref sig .tc .vmem S1568x128 .f32) (harg1 : arg1.IsWhole) (arg2 : Memref sig .tc .vmem S1568x128 .f32) (harg2 : arg2.IsWhole) (arg3 : Memref sig .tc .vmem S1568x128 .f32) (harg3 : arg3.IsWhole)
    (x0 : Vec F S1568x128 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out2_1 x0) ∗ owns (c : Thread nD τ) arg3 fullShare (out2_2 x0)) -∗ K ⟨⟩))
      ⊢ wp frame (wpE (defs₀ (F := F)) Variants.none c none) E (cc2__dis_kernel i arg1 harg1 arg2 harg2 arg3 harg3) K := by
  simp only [cc2__dis_kernel_eq_skeleton]; unfold cc2__dis_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover2_1 _)
  iexists _; isplitr
  swap; · iexact H2
  ipureintro
  exact View.read_writes_eq_canon _ _ _ (cover2_2 _)

/-! ## The pipeline's proof data -/

/-- The proof data of pipeline 2 on core `c`: the arrays as the region finds them; after the body the input's
    buffer at its block and each output's at its one store over the input block; the invariant that of a body that
    touches nothing but its windows; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
    | ⟨2, _⟩ => out2_2 (iblk2 V c 0 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]
theorem after2_2 (c : Dev nD) (t : Fin cfg2.N) : (dat2 V c).after 2 t = out2_2 (iblk2 V c 0 t) := by dsimp only [dat2]

/-- The input's current staging buffer holds its block at every point. -/
theorem before2_0 (c : Dev nD) (t : Fin cfg2.N) (d) : (dat2 V c).before 0 t d = iblk2 V c 0 t :=
  before2_0_of V (dat2 V c) (A_eq2 V c 0) (after2_0 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the input's memref holds its block, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The two output arrays after the region

The grid has one point and every window's block there is its whole array (every block index is 0), so the block
read off the input array is the array, and the one write-back of an output window overwrites its whole array
with what the body stored. -/

/-- Every window's block index is 0 on both axes at every point (decided over the grid). -/
theorem idx_facts2 : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- The input's block is the whole input array. -/
theorem iblk2_0_eq (c : Dev nD) (t : Fin cfg2.N) : (iblk2 V c 0 t : Vec F S1568x128 .f32) = V c main_v15 := by
  obtain ⟨e0, e1, -⟩ := idx_facts2 t
  funext j
  show V c main_v15 (((cfg2.win 0).blk t).view.emb j) = V c main_v15 j
  congr 1
  funext a; apply Fin.ext
  match a with
  | ⟨0, _⟩ => show win2_0.index t (0 : Fin 2) * 1568 + 1 * (j 0).val = (j 0).val; omega
  | ⟨1, _⟩ => show win2_0.index t (1 : Fin 2) * 128 + 1 * (j 1).val = (j 1).val; omega

/-- A position of the first output window's block is the same position of its array. -/
theorem emb2_1 (t : Fin cfg2.N) (j : S1568x128.Idx) : ((cfg2.win 1).blk t).view.emb j = j := by
  obtain ⟨-, -, e0, e1, -⟩ := idx_facts2 t
  funext a; apply Fin.ext
  match a with
  | ⟨0, _⟩ => show win2_1.index t (0 : Fin 2) * 1568 + 1 * (j 0).val = (j 0).val; omega
  | ⟨1, _⟩ => show win2_1.index t (1 : Fin 2) * 128 + 1 * (j 1).val = (j 1).val; omega

/-- The same for the second output window. -/
theorem emb2_2 (t : Fin cfg2.N) (j : S1568x128.Idx) : ((cfg2.win 2).blk t).view.emb j = j := by
  obtain ⟨-, -, -, -, e0, e1⟩ := idx_facts2 t
  funext a; apply Fin.ext
  match a with
  | ⟨0, _⟩ => show win2_2.index t (0 : Fin 2) * 1568 + 1 * (j 0).val = (j 0).val; omega
  | ⟨1, _⟩ => show win2_2.index t (1 : Fin 2) * 128 + 1 * (j 1).val = (j 1).val; omega

/-- The first output window's block of any contents of its array is those contents: the block is the whole
    array and the transfer moves all of it. -/
theorem read_blk2_1 (t : Fin cfg2.N) (X : Vec F S1568x128 .f32) :
    ((cfg2.win 1).blk t).view.read (Elt F) X = (cfg2.win 1).cut (grid2.coords t) X := by
  obtain ⟨-, -, e0, e1, -⟩ := idx_facts2 t
  funext j
  show X (((cfg2.win 1).blk t).view.emb j) = X ((cfg2.win 1).xinj (grid2.coords t) j)
  congr 1
  funext a; apply Fin.ext
  match a with
  | ⟨0, _⟩ => show win2_1.index t (0 : Fin 2) * 1568 + 1 * (j 0).val = (j 0).val; omega
  | ⟨1, _⟩ => show win2_1.index t (1 : Fin 2) * 128 + 1 * (j 1).val = (j 1).val; omega

/-- The same for the second output window. -/
theorem read_blk2_2 (t : Fin cfg2.N) (X : Vec F S1568x128 .f32) :
    ((cfg2.win 2).blk t).view.read (Elt F) X = (cfg2.win 2).cut (grid2.coords t) X := by
  obtain ⟨-, -, -, -, e0, e1⟩ := idx_facts2 t
  funext j
  show X (((cfg2.win 2).blk t).view.emb j) = X ((cfg2.win 2).xinj (grid2.coords t) j)
  congr 1
  funext a; apply Fin.ext
  match a with
  | ⟨0, _⟩ => show win2_2.index t (0 : Fin 2) * 1568 + 1 * (j 0).val = (j 0).val; omega
  | ⟨1, _⟩ => show win2_2.index t (1 : Fin 2) * 128 + 1 * (j 1).val = (j 1).val; omega

/-- What the point writes back to the first output array is the block of the first payload of the input array
    as the region finds it. -/
theorem flushed2_1_eq (c : Dev nD) (t : Fin cfg2.N) :
    (dat2 V c).flushed 1 t = ((cfg2.win 1).blk t).view.read (Elt F) (k2_pay1 (V c main_v15)) := by
  show (cfg2.win 1).cut (grid2.coords t) ((dat2 V c).after 1 t) = _
  rw [after2_1]
  unfold out2_1
  rw [View.canon_unit_zero hzD]
  simp only [View.ld_unit_zero (S := S1568x128) hzD]
  rw [iblk2_0_eq]
  exact (read_blk2_1 t _).symm

/-- What the point writes back to the second output array. -/
theorem flushed2_2_eq (c : Dev nD) (t : Fin cfg2.N) :
    (dat2 V c).flushed 2 t = ((cfg2.win 2).blk t).view.read (Elt F) (k2_pay2 (V c main_v15)) := by
  show (cfg2.win 2).cut (grid2.coords t) ((dat2 V c).after 2 t) = _
  rw [after2_2]
  unfold out2_2
  rw [View.canon_unit_zero hzD]
  simp only [View.ld_unit_zero (S := S1568x128) hzD]
  rw [iblk2_0_eq]
  exact (read_blk2_2 t _).symm

/-- Every position of the first output array is in the one point's block. -/
theorem cover_arr2_1 (i : S1568x128.Idx) :
    ∃ t : Fin cfg2.N, (cfg2.win 1).flush t = true ∧ i ∈ ((cfg2.win 1).blk t).view.set :=
  ⟨t2_0, flush2_1 t2_0, by
    have h := ((cfg2.win 1).blk t2_0).view.emb_mem_set i
    rwa [emb2_1] at h⟩

/-- Every position of the second output array is in the one point's block. -/
theorem cover_arr2_2 (i : S1568x128.Idx) :
    ∃ t : Fin cfg2.N, (cfg2.win 2).flush t = true ∧ i ∈ ((cfg2.win 2).blk t).view.set :=
  ⟨t2_0, flush2_2 t2_0, by
    have h := ((cfg2.win 2).blk t2_0).view.emb_mem_set i
    rwa [emb2_2] at h⟩

/-- THE FIRST OUTPUT ARRAY after the region: the first payload of the input array the region found. -/
theorem final2_1 (c : Dev nD) : (dat2 V c).arrAt 1 cfg2.N = k2_pay1 (V c main_v15) :=
  (dat2 V c).arrAt_eq_of_cover 1 _ (fun t _ => flushed2_1_eq V c t) cover_arr2_1

/-- THE SECOND OUTPUT ARRAY after the region: the second payload of the input array the region found. -/
theorem final2_2 (c : Dev nD) : (dat2 V c).arrAt 2 cfg2.N = k2_pay2 (V c main_v15) :=
  (dat2 V c).arrAt_eq_of_cover 2 _ (fun t _ => flushed2_2_eq V c t) cover_arr2_2

end Region2

/-! # The degree-factor region of the second graph side (region 4 of @main, pipeline 4), at its entry contents

One grid point; the input window and the two output windows are each a whole `[1568,128]` array. The body
loads the input whole and stores one whole array into each output window; before each store it also loads the
output window, a load whose value is never used. -/

section Region4
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input's staging buffer holds its block at every point, for any proof data whose array is the entry
    contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-! ## What the body leaves in each output window's buffer -/

/-- The first output window's staging buffer after the body, from the input block: one whole-buffer store. -/
def out4_1 (x0 : Vec F S1568x128 .f32) : Vec F S1568x128 .f32 :=
  View.canon [⟨rD, k4_pay1 (View.ld x0 rD)⟩]

/-- The one store covers the buffer. -/
theorem cover4_1 (p0 : Vec F S1568x128 .f32) (y : S1568x128.Idx) :
    ∃ pc ∈ ([⟨rD, p0⟩] : List (View.Piece (Elt F) S1568x128 .f32)), y ∈ pc.1.set :=
  View.cover_of_tiled [⟨rD, p0⟩] S1568x128.size (by rfl) y

/-- The second output window's staging buffer after the body: one whole-buffer store. -/
def out4_2 (x0 : Vec F S1568x128 .f32) : Vec F S1568x128 .f32 :=
  View.canon [⟨rD, k4_pay2 (View.ld x0 rD)⟩]

/-- The one store covers the buffer. -/
theorem cover4_2 (p0 : Vec F S1568x128 .f32) (y : S1568x128.Idx) :
    ∃ pc ∈ ([⟨rD, p0⟩] : List (View.Piece (Elt F) S1568x128 .f32)), y ∈ pc.1.set :=
  View.cover_of_tiled [⟨rD, p0⟩] S1568x128.size (by rfl) y

/-! ## The body's triple -/

set_option maxHeartbeats 1000000 in
/-- The body on whole staging memrefs, the input's at contents `x0` and the outputs' at anything, runs to the
    continuation with the input's unchanged and each output's at its one store over the input's. The two loads of
    the output memrefs read whatever is there and their values are dropped. -/
theorem sound_kernel4 (c : Dev nD) (E : Set ℕ) (i : grid4.Coords) (arg1 : Memref sig .tc .vmem S1568x128 .f32) (harg1 : arg1.IsWhole) (arg2 : Memref sig .tc .vmem S1568x128 .f32) (harg2 : arg2.IsWhole) (arg3 : Memref sig .tc .vmem S1568x128 .f32) (harg3 : arg3.IsWhole)
    (x0 : Vec F S1568x128 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out4_1 x0) ∗ owns (c : Thread nD τ) arg3 fullShare (out4_2 x0)) -∗ K ⟨⟩))
      ⊢ wp frame (wpE (defs₀ (F := F)) Variants.none c none) E (cc4__dis_kernel i arg1 harg1 arg2 harg2 arg3 harg3) K := by
  simp only [cc4__dis_kernel_eq_skeleton]; unfold cc4__dis_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover4_1 _)
  iexists _; isplitr
  swap; · iexact H2
  ipureintro
  exact View.read_writes_eq_canon _ _ _ (cover4_2 _)

/-! ## The pipeline's proof data -/

/-- The proof data of pipeline 4 on core `c`: the arrays as the region finds them; after the body the input's
    buffer at its block and each output's at its one store over the input block; the invariant that of a body that
    touches nothing but its windows; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => out4_1 (iblk4 V c 0 t)
    | ⟨2, _⟩ => out4_2 (iblk4 V c 0 t)
  Φ _ := Pipeline.ΦA spec4 c
  q _ := fullShare
  owed _ := 0

/-- The proof data's arrays are the entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = out4_1 (iblk4 V c 0 t) := by dsimp only [dat4]
theorem after4_2 (c : Dev nD) (t : Fin cfg4.N) : (dat4 V c).after 2 t = out4_2 (iblk4 V c 0 t) := by dsimp only [dat4]

/-- The input's current staging buffer holds its block at every point. -/
theorem before4_0 (c : Dev nD) (t : Fin cfg4.N) (d) : (dat4 V c).before 0 t d = iblk4 V c 0 t :=
  before4_0_of V (dat4 V c) (A_eq4 V c 0) (after4_0 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the input's memref holds its block, so the body's triple applies; the invariant and
    what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The two output arrays after the region

The grid has one point and every window's block there is its whole array (every block index is 0), so the block
read off the input array is the array, and the one write-back of an output window overwrites its whole array
with what the body stored. -/

/-- Every window's block index is 0 on both axes at every point (decided over the grid). -/
theorem idx_facts4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0 :=
  (by decide +kernel : ∀ t : Fin grid4.N, _)

/-- The input's block is the whole input array. -/
theorem iblk4_0_eq (c : Dev nD) (t : Fin cfg4.N) : (iblk4 V c 0 t : Vec F S1568x128 .f32) = V c main_v47 := by
  obtain ⟨e0, e1, -⟩ := idx_facts4 t
  funext j
  show V c main_v47 (((cfg4.win 0).blk t).view.emb j) = V c main_v47 j
  congr 1
  funext a; apply Fin.ext
  match a with
  | ⟨0, _⟩ => show win4_0.index t (0 : Fin 2) * 1568 + 1 * (j 0).val = (j 0).val; omega
  | ⟨1, _⟩ => show win4_0.index t (1 : Fin 2) * 128 + 1 * (j 1).val = (j 1).val; omega

/-- A position of the first output window's block is the same position of its array. -/
theorem emb4_1 (t : Fin cfg4.N) (j : S1568x128.Idx) : ((cfg4.win 1).blk t).view.emb j = j := by
  obtain ⟨-, -, e0, e1, -⟩ := idx_facts4 t
  funext a; apply Fin.ext
  match a with
  | ⟨0, _⟩ => show win4_1.index t (0 : Fin 2) * 1568 + 1 * (j 0).val = (j 0).val; omega
  | ⟨1, _⟩ => show win4_1.index t (1 : Fin 2) * 128 + 1 * (j 1).val = (j 1).val; omega

/-- The same for the second output window. -/
theorem emb4_2 (t : Fin cfg4.N) (j : S1568x128.Idx) : ((cfg4.win 2).blk t).view.emb j = j := by
  obtain ⟨-, -, -, -, e0, e1⟩ := idx_facts4 t
  funext a; apply Fin.ext
  match a with
  | ⟨0, _⟩ => show win4_2.index t (0 : Fin 2) * 1568 + 1 * (j 0).val = (j 0).val; omega
  | ⟨1, _⟩ => show win4_2.index t (1 : Fin 2) * 128 + 1 * (j 1).val = (j 1).val; omega

/-- The first output window's block of any contents of its array is those contents: the block is the whole
    array and the transfer moves all of it. -/
theorem read_blk4_1 (t : Fin cfg4.N) (X : Vec F S1568x128 .f32) :
    ((cfg4.win 1).blk t).view.read (Elt F) X = (cfg4.win 1).cut (grid4.coords t) X := by
  obtain ⟨-, -, e0, e1, -⟩ := idx_facts4 t
  funext j
  show X (((cfg4.win 1).blk t).view.emb j) = X ((cfg4.win 1).xinj (grid4.coords t) j)
  congr 1
  funext a; apply Fin.ext
  match a with
  | ⟨0, _⟩ => show win4_1.index t (0 : Fin 2) * 1568 + 1 * (j 0).val = (j 0).val; omega
  | ⟨1, _⟩ => show win4_1.index t (1 : Fin 2) * 128 + 1 * (j 1).val = (j 1).val; omega

/-- The same for the second output window. -/
theorem read_blk4_2 (t : Fin cfg4.N) (X : Vec F S1568x128 .f32) :
    ((cfg4.win 2).blk t).view.read (Elt F) X = (cfg4.win 2).cut (grid4.coords t) X := by
  obtain ⟨-, -, -, -, e0, e1⟩ := idx_facts4 t
  funext j
  show X (((cfg4.win 2).blk t).view.emb j) = X ((cfg4.win 2).xinj (grid4.coords t) j)
  congr 1
  funext a; apply Fin.ext
  match a with
  | ⟨0, _⟩ => show win4_2.index t (0 : Fin 2) * 1568 + 1 * (j 0).val = (j 0).val; omega
  | ⟨1, _⟩ => show win4_2.index t (1 : Fin 2) * 128 + 1 * (j 1).val = (j 1).val; omega

/-- What the point writes back to the first output array is the block of the first payload of the input array
    as the region finds it. -/
theorem flushed4_1_eq (c : Dev nD) (t : Fin cfg4.N) :
    (dat4 V c).flushed 1 t = ((cfg4.win 1).blk t).view.read (Elt F) (k4_pay1 (V c main_v47)) := by
  show (cfg4.win 1).cut (grid4.coords t) ((dat4 V c).after 1 t) = _
  rw [after4_1]
  unfold out4_1
  rw [View.canon_unit_zero hzD]
  simp only [View.ld_unit_zero (S := S1568x128) hzD]
  rw [iblk4_0_eq]
  exact (read_blk4_1 t _).symm

/-- What the point writes back to the second output array. -/
theorem flushed4_2_eq (c : Dev nD) (t : Fin cfg4.N) :
    (dat4 V c).flushed 2 t = ((cfg4.win 2).blk t).view.read (Elt F) (k4_pay2 (V c main_v47)) := by
  show (cfg4.win 2).cut (grid4.coords t) ((dat4 V c).after 2 t) = _
  rw [after4_2]
  unfold out4_2
  rw [View.canon_unit_zero hzD]
  simp only [View.ld_unit_zero (S := S1568x128) hzD]
  rw [iblk4_0_eq]
  exact (read_blk4_2 t _).symm

/-- Every position of the first output array is in the one point's block. -/
theorem cover_arr4_1 (i : S1568x128.Idx) :
    ∃ t : Fin cfg4.N, (cfg4.win 1).flush t = true ∧ i ∈ ((cfg4.win 1).blk t).view.set :=
  ⟨t4_0, flush4_1 t4_0, by
    have h := ((cfg4.win 1).blk t4_0).view.emb_mem_set i
    rwa [emb4_1] at h⟩

/-- Every position of the second output array is in the one point's block. -/
theorem cover_arr4_2 (i : S1568x128.Idx) :
    ∃ t : Fin cfg4.N, (cfg4.win 2).flush t = true ∧ i ∈ ((cfg4.win 2).blk t).view.set :=
  ⟨t4_0, flush4_2 t4_0, by
    have h := ((cfg4.win 2).blk t4_0).view.emb_mem_set i
    rwa [emb4_2] at h⟩

/-- THE FIRST OUTPUT ARRAY after the region: the first payload of the input array the region found. -/
theorem final4_1 (c : Dev nD) : (dat4 V c).arrAt 1 cfg4.N = k4_pay1 (V c main_v47) :=
  (dat4 V c).arrAt_eq_of_cover 1 _ (fun t _ => flushed4_1_eq V c t) cover_arr4_1

/-- THE SECOND OUTPUT ARRAY after the region: the second payload of the input array the region found. -/
theorem final4_2 (c : Dev nD) : (dat4 V c).arrAt 2 cfg4.N = k4_pay2 (V c main_v47) :=
  (dat4 V c).arrAt_eq_of_cover 2 _ (fun t _ => flushed4_2_eq V c t) cover_arr4_2

end Region4

end Cert.Kernel.Hand

end
-- ==== Proof.KRegionMul3.lean ====
/-
  The two gridded regions of @main that multiply three arrays entry by entry: each takes three inputs of shape
  [31250, 128] and writes their product to a fourth array of that shape, in eight blocks of [4096, 128]. Eight
  blocks span 32768 rows, so the last block overhangs the arrays: only its first 31250 − 7·4096 = 2578 rows lie
  inside. A fetch of that block lands those rows in the staging buffer's leading rows and leaves the rest of the
  buffer at words nothing names; the body multiplies the three whole staging buffers, those rows too; the write-back
  moves the leading 2578 rows of the product buffer and nothing past the array's end.

  Per region, at the contents `V` the region is entered with: each window's block at a point restricted to the rows
  inside the array, the proof data of the pipeline (after the body every staging buffer is stated on those rows
  only; past them the filler is a word the proof picks and nothing reads), the body's triple on arbitrary whole
  staging buffers, the body obligation at every point in the form that states each buffer on the moved rows only,
  and the output array after the region in closed form: block `t` of the final array is what point `t` wrote, that
  is block `t` of the product of the three arrays, and the eight blocks' rows inside the array are rows
  4096·t ‥ min(4096·t + 4095, 31249), which together are all 31250 rows (row `r` is in the block of point `r / 4096`).
  So the output array ends holding the entrywise product of the three input arrays, and the inputs what they held.

  Everything here is stated for any interpretation of the float operations: nothing depends on what a product of
  two words is, only on the body computing the same product at every entry.

  Stated here of the program as printed, whose floats are machine words and whose float operations are the
  word-level ones. Neither the statements nor their proofs depend on how a float operation is read — they hold at
  any reading — and the idealized program, being the same text, satisfies the same statements.
-/
import proofs.«153293_j29283087024787_2_alg».proof.Proof.Gen.Kernel.Launch
import proofs.«153293_j29283087024787_2_alg».proof.Proof.Gen.Kernel.Skeleton
import proofs.«153293_j29283087024787_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Pipeline.Kit
import Idealize.ShloMosaic.Lib.Ring
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a whole-block access, however they are spelt. -/
theorem hzMul3 : (![0, 0] : Fin 2 → Nat) = fun _ => 0 := funext fun a => by fin_cases a <;> rfl

/-! # Region 1: the three-way product over [31250, 128] in eight [4096, 128] blocks, the last one cut at row 31250 -/

/-- Rows of block `t` of an input that lie inside the array (all 4096 at points 0‥6, 2578 at point 7), read off
    the array as the region finds it. The four windows have one index map, one block size and one cut, so one
    index type serves the three inputs and the output. -/
def xblk1_0 (c : Dev nD) (t : Fin cfg1.N) : (win1_0.xblock (grid1.coords t)).Idx → Elt F .f32 :=
  (win1_0.blk t).view.read (Elt F) (V c main_v6)
def xblk1_1 (c : Dev nD) (t : Fin cfg1.N) : (win1_0.xblock (grid1.coords t)).Idx → Elt F .f32 :=
  (win1_1.blk t).view.read (Elt F) (V c main_v7)
def xblk1_2 (c : Dev nD) (t : Fin cfg1.N) : (win1_0.xblock (grid1.coords t)).Idx → Elt F .f32 :=
  (win1_2.blk t).view.read (Elt F) (V c main_v8)

/-- The product of the three blocks, entry by entry, on the rows inside the array. -/
def xprod1 (c : Dev nD) (t : Fin cfg1.N) : (win1_0.xblock (grid1.coords t)).Idx → Elt F .f32 :=
  fun j => FloatOps.mulf (FloatOps.mulf (xblk1_0 V c t j) (xblk1_1 V c t j)) (xblk1_2 V c t j)

/-- The same four, filled out to the whole [4096, 128] staging block: past the array's end (rows 2578‥4095 of the
    last block) nothing is stated of a staging buffer and nothing is read back; the filler is the zero word. -/
def xblk1_0f (c : Dev nD) (t : Fin cfg1.N) : S4096x128.Idx → Elt F .f32 :=
  win1_0.fill (grid1.coords t) (fun _ => Scalar.ofBits .f32 0#32) (xblk1_0 V c t)
def xblk1_1f (c : Dev nD) (t : Fin cfg1.N) : S4096x128.Idx → Elt F .f32 :=
  win1_0.fill (grid1.coords t) (fun _ => Scalar.ofBits .f32 0#32) (xblk1_1 V c t)
def xblk1_2f (c : Dev nD) (t : Fin cfg1.N) : S4096x128.Idx → Elt F .f32 :=
  win1_0.fill (grid1.coords t) (fun _ => Scalar.ofBits .f32 0#32) (xblk1_2 V c t)
def xprod1f (c : Dev nD) (t : Fin cfg1.N) : S4096x128.Idx → Elt F .f32 :=
  win1_0.fill (grid1.coords t) (fun _ => Scalar.ofBits .f32 0#32) (xprod1 V c t)

/-! ## The proof data -/

/-- The proof data of pipeline 1 on core `c`: the four arrays as the region finds them; after the body at point `t`
    each input's staging buffer at its filled block and the output's at the filled product; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => xblk1_0f V c t
    | ⟨1, _⟩ => xblk1_1f V c t
    | ⟨2, _⟩ => xblk1_2f V c t
    | ⟨3, _⟩ => xprod1f V c t
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

theorem after1_0 (c : Dev nD) (t : Fin cfg1.N) : (dat1 V c).after 0 t = xblk1_0f V c t := by dsimp only [dat1]
theorem after1_1 (c : Dev nD) (t : Fin cfg1.N) : (dat1 V c).after 1 t = xblk1_1f V c t := by dsimp only [dat1]
theorem after1_2 (c : Dev nD) (t : Fin cfg1.N) : (dat1 V c).after 2 t = xblk1_2f V c t := by dsimp only [dat1]
theorem after1_3 (c : Dev nD) (t : Fin cfg1.N) : (dat1 V c).after 3 t = xprod1f V c t := by dsimp only [dat1]

/-- What the body finds: each input's buffer just fetched — the block on the rows inside the array, `d` (whatever
    the buffer held) elsewhere —, -/
theorem before1_0 (c : Dev nD) (t : Fin cfg1.N) (d) :
    (dat1 V c).before (0 : Fin 4) t d = win1_0.fill (grid1.coords t) d (xblk1_0 V c t) := by
  unfold Dat.before; rw [if_pos (fetch1_0 t)]; rfl
theorem before1_1 (c : Dev nD) (t : Fin cfg1.N) (d) :
    (dat1 V c).before (1 : Fin 4) t d = win1_0.fill (grid1.coords t) d (xblk1_1 V c t) := by
  unfold Dat.before; rw [if_pos (fetch1_1 t)]; rfl
theorem before1_2 (c : Dev nD) (t : Fin cfg1.N) (d) :
    (dat1 V c).before (2 : Fin 4) t d = win1_0.fill (grid1.coords t) d (xblk1_2 V c t) := by
  unfold Dat.before; rw [if_pos (fetch1_2 t)]; rfl
/-- and the output's buffer at contents nothing names (it is written back at every point, so the buffer the next
    point is handed carries nothing forward). -/
theorem before1_3 (c : Dev nD) (t : Fin cfg1.N) (d) : (dat1 V c).before (3 : Fin 4) t d = d :=
  (dat1 V c).before_out_reset (3 : Fin 4) rfl t (by
    by_cases h : t.val = 0
    · exact .inl h
    · exact .inr ⟨h, flush1_3 _⟩) d

/-! ## The body's accesses and what it leaves -/

/-- The whole [4096, 128] staging block as a rectangle: every load and the one store of the body go through it. -/
abbrev r1_0 : Rect S4096x128 := Rect.unit (s := S4096x128) ![0, 0] S4096x128.size inb_S4096x128_S4096x128_0_0

/-- The body's arithmetic at an entry: the product of the three loaded words (the same-shape casts are the identity). -/
theorem k1_pay1_eq (a b d : Vec F S4096x128 .f32) :
    k1_pay1 a b d = fun j => FloatOps.mulf (FloatOps.mulf (a j) (b j)) (d j) := by
  unfold k1_pay1
  simp only [shapeCast_self]
  rfl

/-- The output's staging buffer after the body, from what the three inputs' hold: its one store, through the whole
    block. -/
def out1_3 (x0 x1 x2 : Vec F S4096x128 .f32) : Vec F S4096x128 .f32 :=
  View.canon [⟨r1_0, k1_pay1 (View.ld x0 r1_0) (View.ld x1 r1_0) (View.ld x2 r1_0)⟩]

/-- That store covers the buffer. -/
theorem cover1_3 (p0 : Vec F S4096x128 .f32) (y : S4096x128.Idx) :
    ∃ pc ∈ ([⟨r1_0, p0⟩] : List (View.Piece (Elt F) S4096x128 .f32)), y ∈ pc.1.set :=
  ⟨_, List.mem_singleton_self _, View.mem_set_unit_zero hzMul3 inb_S4096x128_S4096x128_0_0 y⟩

/-- So the buffer ends holding the entrywise product of the three. -/
theorem out1_3_eq (x0 x1 x2 : Vec F S4096x128 .f32) :
    out1_3 x0 x1 x2 = fun j => FloatOps.mulf (FloatOps.mulf (x0 j) (x1 j)) (x2 j) := by
  unfold out1_3
  rw [View.canon_unit_zero hzMul3]
  simp only [View.ld_unit_zero (S := S4096x128) hzMul3]
  exact k1_pay1_eq _ _ _

/-! ## The body's triple -/

set_option maxHeartbeats 1000000 in
/-- The kernel body on whole staging memrefs, the inputs' at contents `x0`, `x1`, `x2` and the output's at anything,
    runs to the continuation holding the inputs' as they were and the output's at their entrywise product. -/
theorem sound_kernel1 (c : Dev nD) (E : Set ℕ) (i : grid1.Coords)
    (arg1 : Memref sig .tc .vmem S4096x128 .f32) (harg1 : arg1.IsWhole)
    (arg2 : Memref sig .tc .vmem S4096x128 .f32) (harg2 : arg2.IsWhole)
    (arg3 : Memref sig .tc .vmem S4096x128 .f32) (harg3 : arg3.IsWhole)
    (arg4 : Memref sig .tc .vmem S4096x128 .f32) (harg4 : arg4.IsWhole)
    (x0 x1 x2 : Vec F S4096x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out1_3 x0 x1 x2)) -∗ K ⟨⟩))
      ⊢ wp frame (wpE (defs₀ (F := F)) Variants.none c none) E (cc1__mul3_kernel i arg1 harg1 arg2 harg2 arg3 harg3 arg4 harg4) K := by
  simp only [cc1__mul3_kernel_eq_skeleton]; unfold cc1__mul3_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The body obligation -/

/-- A product of three filled blocks is the filled product (of the fillers, and of what they were filled with):
    `Window.fill` chooses by the index alone. -/
theorem fill_prod1 (t : Fin cfg1.N) (d0 d1 d2 : S4096x128.Idx → Elt F .f32)
    (g0 g1 g2 : (win1_0.xblock (grid1.coords t)).Idx → Elt F .f32) :
    (fun j => FloatOps.mulf (FloatOps.mulf (win1_0.fill (grid1.coords t) d0 g0 j) (win1_0.fill (grid1.coords t) d1 g1 j))
        (win1_0.fill (grid1.coords t) d2 g2 j))
      = win1_0.fill (grid1.coords t) (fun j => FloatOps.mulf (FloatOps.mulf (d0 j) (d1 j)) (d2 j))
          (fun j => FloatOps.mulf (FloatOps.mulf (g0 j) (g1 j)) (g2 j)) := by
  funext j; unfold Window.fill; split <;> rfl

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: every window is loose, so each buffer is handed back stated on the rows inside the array
    only. -/
def bodyPost1 (c : Dev nD) (t : Fin cfg1.N) : sProp 𝕄 :=
  iprop((dat1 V c).Φ t.succ ∗ (dat1 V c).owesAt () t.succ
    ∗ (∃ d, owns (c : Thread nD τ) (st1_0 t) fullShare (win1_0.fill (grid1.coords t) d (win1_0.cut (grid1.coords t) ((dat1 V c).after 0 t))))
    ∗ (∃ d, owns (c : Thread nD τ) (st1_1 t) fullShare (win1_1.fill (grid1.coords t) d (win1_1.cut (grid1.coords t) ((dat1 V c).after 1 t))))
    ∗ (∃ d, owns (c : Thread nD τ) (st1_2 t) fullShare (win1_2.fill (grid1.coords t) d (win1_2.cut (grid1.coords t) ((dat1 V c).after 2 t))))
    ∗ (∃ d, owns (c : Thread nD τ) (st1_3 t) fullShare (win1_3.fill (grid1.coords t) d (win1_3.cut (grid1.coords t) ((dat1 V c).after 3 t)))))

/-- The body at any point: the inputs' buffers hold their blocks filled out with whatever was there (`before1_W`),
    the output's anything; `sound_kernel1` leaves the inputs' as found and the output's at the product of the three,
    which on the rows inside the array is the product of the blocks. The invariant and the core's `owes` pass
    through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  rw [before1_0 V c t d0, before1_1 V c t d1, before1_2 V c t d2, before1_3 V c t d3]
  iapply (sound_kernel1 (F := F) c Set.univ (grid1.coords t) _ _ _ _ _ _ _ _
    (win1_0.fill (grid1.coords t) d0 (xblk1_0 V c t)) (win1_0.fill (grid1.coords t) d1 (xblk1_1 V c t))
    (win1_0.fill (grid1.coords t) d2 (xblk1_2 V c t)) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  have hx0 : win1_0.cut (grid1.coords t) (xblk1_0f V c t) = xblk1_0 V c t := win1_0.cut_fill _ _ _
  have hx1 : win1_0.cut (grid1.coords t) (xblk1_1f V c t) = xblk1_1 V c t := win1_0.cut_fill _ _ _
  have hx2 : win1_0.cut (grid1.coords t) (xblk1_2f V c t) = xblk1_2 V c t := win1_0.cut_fill _ _ _
  have hp : win1_0.cut (grid1.coords t) (xprod1f V c t) = xprod1 V c t := win1_0.cut_fill _ _ _
  isplitl [H0]
  · iexists d0
    change _ ⊢ owns (c : Thread nD τ) (st1_0 t) fullShare (win1_0.fill (grid1.coords t) d0 (win1_0.cut (grid1.coords t) (xblk1_0f V c t)))
    rw [hx0]; try exact .rfl
  isplitl [H1]
  · iexists d1
    change _ ⊢ owns (c : Thread nD τ) (st1_1 t) fullShare (win1_0.fill (grid1.coords t) d1 (win1_0.cut (grid1.coords t) (xblk1_1f V c t)))
    rw [hx1]; try exact .rfl
  isplitl [H2]
  · iexists d2
    change _ ⊢ owns (c : Thread nD τ) (st1_2 t) fullShare (win1_0.fill (grid1.coords t) d2 (win1_0.cut (grid1.coords t) (xblk1_2f V c t)))
    rw [hx2]; try exact .rfl
  · iexists (fun j => FloatOps.mulf (FloatOps.mulf (d0 j) (d1 j)) (d2 j))
    change _ ⊢ owns (c : Thread nD τ) (st1_3 t) fullShare (win1_0.fill (grid1.coords t) (fun j => FloatOps.mulf (FloatOps.mulf (d0 j) (d1 j)) (d2 j))
      (win1_0.cut (grid1.coords t) (xprod1f V c t)))
    rw [hp, show xprod1 V c t = fun j => FloatOps.mulf (FloatOps.mulf (xblk1_0 V c t j) (xblk1_1 V c t j)) (xblk1_2 V c t j) from rfl,
      ← fill_prod1, out1_3_eq]; try exact .rfl

/-- The library's body obligation, at every point: no point is idle and every window is loose. -/
theorem body_obligation1 (c : Dev nD) : BodyObligationLoose (dat1 (F := F) V c) (defs₀ (F := F)) Variants.none () Set.univ := fun t => by
  rw [bigSep_W1, bigSep_W1]
  exact sound_body1 V c t

/-! ## The output array after the region -/

/-- The entrywise product of the three input arrays: what the output array is shown to hold. -/
abbrev tripleProd1 (c : Dev nD) : Buf (Elt F) ((c : Thread nD τ).loc main_v9) :=
  mulf (s := S31250x128) (mulf (s := S31250x128) (V c main_v6) (V c main_v7)) (V c main_v8)

/-- The inputs are never written back: after the region they hold what they held. -/
theorem final1_0 (c : Dev nD) : (dat1 V c).arrAt 0 cfg1.N = V c main_v6 := (dat1 V c).arrAt_in (0 : Fin 4) rfl _
theorem final1_1 (c : Dev nD) : (dat1 V c).arrAt 1 cfg1.N = V c main_v7 := (dat1 V c).arrAt_in (1 : Fin 4) rfl _
theorem final1_2 (c : Dev nD) : (dat1 V c).arrAt 2 cfg1.N = V c main_v8 := (dat1 V c).arrAt_in (2 : Fin 4) rfl _

/-- What point `t` writes back — the rows inside the array of the product block — is block `t` of the product of
    the arrays: the four windows read one rectangle of their arrays, and a block of an entrywise product is the
    product of the blocks. -/
theorem flushed1_3 (c : Dev nD) (t : Fin cfg1.N) :
    (dat1 V c).flushed 3 t = ((cfg1.win 3).blk t).view.read (Elt F) (tripleProd1 V c) := by
  show win1_3.cut (grid1.coords t) ((dat1 V c).after 3 t) = _
  rw [after1_3]
  change win1_0.cut (grid1.coords t) (xprod1f V c t)
    = fun j => FloatOps.mulf (FloatOps.mulf (xblk1_0 V c t j) (xblk1_1 V c t j)) (xblk1_2 V c t j)
  exact win1_0.cut_fill _ _ _

/-- The blocks' rectangles, decided over the eight points: block `t` starts at row 4096·t and spans the 128 lanes;
    it has 4096 rows inside the array at points 0‥6 and 31250 − 7·4096 = 2578 at point 7. -/
theorem blk_facts1 : ∀ t : Fin cfg1.N, win1_3.index t 0 = t.val ∧ win1_3.index t 1 * win1_3.size 1 = 0
    ∧ win1_3.xsize (grid1.coords t) 1 = 128
    ∧ (t.val < 7 → win1_3.xsize (grid1.coords t) 0 = 4096) ∧ (t.val = 7 → win1_3.xsize (grid1.coords t) 0 = 2578) :=
  (by decide +kernel : ∀ t : Fin grid1.N, _)

/-- An entry of the array is in point `t`'s block iff its row is among the block's rows inside the array. -/
theorem mem_blk1 (t : Fin cfg1.N) (i : S31250x128.Idx) :
    i ∈ (win1_3.blk t).view.set
      ↔ win1_3.index t 0 * 4096 ≤ (i 0 : Nat) ∧ (i 0 : Nat) < win1_3.index t 0 * 4096 + win1_3.xsize (grid1.coords t) 0 := by
  show i ∈ ((View.whole main_v9).slice (win1_3.rect t)).set ↔ _
  rw [View.set_slice_whole, Rect.mem_set_unit]
  have h1 : (i 1 : Nat) < 128 := (i 1).isLt
  obtain ⟨-, e1, e1', -, -⟩ := blk_facts1 t
  refine ⟨fun h => h 0, fun h a => ?_⟩
  match a with
  | ⟨0, _⟩ => exact h
  | ⟨1, _⟩ =>
    change win1_3.index t 1 * win1_3.size 1 ≤ (i 1 : Nat)
      ∧ (i 1 : Nat) < win1_3.index t 1 * win1_3.size 1 + win1_3.xsize (grid1.coords t) 1
    rw [e1, e1']; omega

/-- Row `r` of the array lies in the block of point `r / 4096`: the eight blocks cover the 31250 rows. -/
theorem cover1_out (i : S31250x128.Idx) :
    ∃ t : Fin cfg1.N, (cfg1.win 3).flush t = true ∧ i ∈ ((cfg1.win 3).blk t).view.set := by
  have h0 : (i 0 : Nat) < 31250 := (i 0).isLt
  have hN : cfg1.N = 8 := N_1
  have ht : (i 0 : Nat) / 4096 < cfg1.N := by rw [hN]; omega
  refine ⟨⟨(i 0 : Nat) / 4096, ht⟩, flush1_3 _, ?_⟩
  show i ∈ (win1_3.blk ⟨(i 0 : Nat) / 4096, ht⟩).view.set
  rw [mem_blk1]
  obtain ⟨e0, -, -, hlt, heq⟩ := blk_facts1 ⟨(i 0 : Nat) / 4096, ht⟩
  rw [e0]
  by_cases h : (i 0 : Nat) / 4096 < 7
  · rw [hlt h]; dsimp only; omega
  · rw [heq (by dsimp only; omega)]; dsimp only; omega

/-- So the output array ends holding the entrywise product of the three input arrays, all 31250 rows: the cut
    write-back at the last point writes the staging buffer's first 2578 rows and nothing past the array. -/
theorem final1_3 (c : Dev nD) : (dat1 V c).arrAt 3 cfg1.N = tripleProd1 V c :=
  (dat1 V c).arrAt_eq_of_cover (3 : Fin 4) (tripleProd1 V c) (fun t _ => flushed1_3 V c t) cover1_out

/-! # Region 3: the three-way product over [31250, 128] in eight [4096, 128] blocks, the last one cut at row 31250 -/

/-- Rows of block `t` of an input that lie inside the array (all 4096 at points 0‥6, 2578 at point 7), read off
    the array as the region finds it. The four windows have one index map, one block size and one cut, so one
    index type serves the three inputs and the output. -/
def xblk3_0 (c : Dev nD) (t : Fin cfg3.N) : (win3_0.xblock (grid3.coords t)).Idx → Elt F .f32 :=
  (win3_0.blk t).view.read (Elt F) (V c main_v38)
def xblk3_1 (c : Dev nD) (t : Fin cfg3.N) : (win3_0.xblock (grid3.coords t)).Idx → Elt F .f32 :=
  (win3_1.blk t).view.read (Elt F) (V c main_v39)
def xblk3_2 (c : Dev nD) (t : Fin cfg3.N) : (win3_0.xblock (grid3.coords t)).Idx → Elt F .f32 :=
  (win3_2.blk t).view.read (Elt F) (V c main_v40)

/-- The product of the three blocks, entry by entry, on the rows inside the array. -/
def xprod3 (c : Dev nD) (t : Fin cfg3.N) : (win3_0.xblock (grid3.coords t)).Idx → Elt F .f32 :=
  fun j => FloatOps.mulf (FloatOps.mulf (xblk3_0 V c t j) (xblk3_1 V c t j)) (xblk3_2 V c t j)

/-- The same four, filled out to the whole [4096, 128] staging block: past the array's end (rows 2578‥4095 of the
    last block) nothing is stated of a staging buffer and nothing is read back; the filler is the zero word. -/
def xblk3_0f (c : Dev nD) (t : Fin cfg3.N) : S4096x128.Idx → Elt F .f32 :=
  win3_0.fill (grid3.coords t) (fun _ => Scalar.ofBits .f32 0#32) (xblk3_0 V c t)
def xblk3_1f (c : Dev nD) (t : Fin cfg3.N) : S4096x128.Idx → Elt F .f32 :=
  win3_0.fill (grid3.coords t) (fun _ => Scalar.ofBits .f32 0#32) (xblk3_1 V c t)
def xblk3_2f (c : Dev nD) (t : Fin cfg3.N) : S4096x128.Idx → Elt F .f32 :=
  win3_0.fill (grid3.coords t) (fun _ => Scalar.ofBits .f32 0#32) (xblk3_2 V c t)
def xprod3f (c : Dev nD) (t : Fin cfg3.N) : S4096x128.Idx → Elt F .f32 :=
  win3_0.fill (grid3.coords t) (fun _ => Scalar.ofBits .f32 0#32) (xprod3 V c t)

/-! ## The proof data -/

/-- The proof data of pipeline 3 on core `c`: the four arrays as the region finds them; after the body at point `t`
    each input's staging buffer at its filled block and the output's at the filled product; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => xblk3_0f V c t
    | ⟨1, _⟩ => xblk3_1f V c t
    | ⟨2, _⟩ => xblk3_2f V c t
    | ⟨3, _⟩ => xprod3f V c t
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

theorem after3_0 (c : Dev nD) (t : Fin cfg3.N) : (dat3 V c).after 0 t = xblk3_0f V c t := by dsimp only [dat3]
theorem after3_1 (c : Dev nD) (t : Fin cfg3.N) : (dat3 V c).after 1 t = xblk3_1f V c t := by dsimp only [dat3]
theorem after3_2 (c : Dev nD) (t : Fin cfg3.N) : (dat3 V c).after 2 t = xblk3_2f V c t := by dsimp only [dat3]
theorem after3_3 (c : Dev nD) (t : Fin cfg3.N) : (dat3 V c).after 3 t = xprod3f V c t := by dsimp only [dat3]

/-- What the body finds: each input's buffer just fetched — the block on the rows inside the array, `d` (whatever
    the buffer held) elsewhere —, -/
theorem before3_0 (c : Dev nD) (t : Fin cfg3.N) (d) :
    (dat3 V c).before (0 : Fin 4) t d = win3_0.fill (grid3.coords t) d (xblk3_0 V c t) := by
  unfold Dat.before; rw [if_pos (fetch3_0 t)]; rfl
theorem before3_1 (c : Dev nD) (t : Fin cfg3.N) (d) :
    (dat3 V c).before (1 : Fin 4) t d = win3_0.fill (grid3.coords t) d (xblk3_1 V c t) := by
  unfold Dat.before; rw [if_pos (fetch3_1 t)]; rfl
theorem before3_2 (c : Dev nD) (t : Fin cfg3.N) (d) :
    (dat3 V c).before (2 : Fin 4) t d = win3_0.fill (grid3.coords t) d (xblk3_2 V c t) := by
  unfold Dat.before; rw [if_pos (fetch3_2 t)]; rfl
/-- and the output's buffer at contents nothing names (it is written back at every point, so the buffer the next
    point is handed carries nothing forward). -/
theorem before3_3 (c : Dev nD) (t : Fin cfg3.N) (d) : (dat3 V c).before (3 : Fin 4) t d = d :=
  (dat3 V c).before_out_reset (3 : Fin 4) rfl t (by
    by_cases h : t.val = 0
    · exact .inl h
    · exact .inr ⟨h, flush3_3 _⟩) d

/-! ## The body's accesses and what it leaves -/

/-- The whole [4096, 128] staging block as a rectangle: every load and the one store of the body go through it. -/
abbrev r3_0 : Rect S4096x128 := Rect.unit (s := S4096x128) ![0, 0] S4096x128.size inb_S4096x128_S4096x128_0_0

/-- The body's arithmetic at an entry: the product of the three loaded words (the same-shape casts are the identity). -/
theorem k3_pay1_eq (a b d : Vec F S4096x128 .f32) :
    k3_pay1 a b d = fun j => FloatOps.mulf (FloatOps.mulf (a j) (b j)) (d j) := by
  unfold k3_pay1
  simp only [shapeCast_self]
  rfl

/-- The output's staging buffer after the body, from what the three inputs' hold: its one store, through the whole
    block. -/
def out3_3 (x0 x1 x2 : Vec F S4096x128 .f32) : Vec F S4096x128 .f32 :=
  View.canon [⟨r3_0, k3_pay1 (View.ld x0 r3_0) (View.ld x1 r3_0) (View.ld x2 r3_0)⟩]

/-- That store covers the buffer. -/
theorem cover3_3 (p0 : Vec F S4096x128 .f32) (y : S4096x128.Idx) :
    ∃ pc ∈ ([⟨r3_0, p0⟩] : List (View.Piece (Elt F) S4096x128 .f32)), y ∈ pc.1.set :=
  ⟨_, List.mem_singleton_self _, View.mem_set_unit_zero hzMul3 inb_S4096x128_S4096x128_0_0 y⟩

/-- So the buffer ends holding the entrywise product of the three. -/
theorem out3_3_eq (x0 x1 x2 : Vec F S4096x128 .f32) :
    out3_3 x0 x1 x2 = fun j => FloatOps.mulf (FloatOps.mulf (x0 j) (x1 j)) (x2 j) := by
  unfold out3_3
  rw [View.canon_unit_zero hzMul3]
  simp only [View.ld_unit_zero (S := S4096x128) hzMul3]
  exact k3_pay1_eq _ _ _

/-! ## The body's triple -/

set_option maxHeartbeats 1000000 in
/-- The kernel body on whole staging memrefs, the inputs' at contents `x0`, `x1`, `x2` and the output's at anything,
    runs to the continuation holding the inputs' as they were and the output's at their entrywise product. -/
theorem sound_kernel3 (c : Dev nD) (E : Set ℕ) (i : grid3.Coords)
    (arg1 : Memref sig .tc .vmem S4096x128 .f32) (harg1 : arg1.IsWhole)
    (arg2 : Memref sig .tc .vmem S4096x128 .f32) (harg2 : arg2.IsWhole)
    (arg3 : Memref sig .tc .vmem S4096x128 .f32) (harg3 : arg3.IsWhole)
    (arg4 : Memref sig .tc .vmem S4096x128 .f32) (harg4 : arg4.IsWhole)
    (x0 x1 x2 : Vec F S4096x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out3_3 x0 x1 x2)) -∗ K ⟨⟩))
      ⊢ wp frame (wpE (defs₀ (F := F)) Variants.none c none) E (cc3__mul3_kernel i arg1 harg1 arg2 harg2 arg3 harg3 arg4 harg4) K := by
  simp only [cc3__mul3_kernel_eq_skeleton]; unfold cc3__mul3_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The body obligation -/

/-- A product of three filled blocks is the filled product (of the fillers, and of what they were filled with):
    `Window.fill` chooses by the index alone. -/
theorem fill_prod3 (t : Fin cfg3.N) (d0 d1 d2 : S4096x128.Idx → Elt F .f32)
    (g0 g1 g2 : (win3_0.xblock (grid3.coords t)).Idx → Elt F .f32) :
    (fun j => FloatOps.mulf (FloatOps.mulf (win3_0.fill (grid3.coords t) d0 g0 j) (win3_0.fill (grid3.coords t) d1 g1 j))
        (win3_0.fill (grid3.coords t) d2 g2 j))
      = win3_0.fill (grid3.coords t) (fun j => FloatOps.mulf (FloatOps.mulf (d0 j) (d1 j)) (d2 j))
          (fun j => FloatOps.mulf (FloatOps.mulf (g0 j) (g1 j)) (g2 j)) := by
  funext j; unfold Window.fill; split <;> rfl

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns: every window is loose, so each buffer is handed back stated on the rows inside the array
    only. -/
def bodyPost3 (c : Dev nD) (t : Fin cfg3.N) : sProp 𝕄 :=
  iprop((dat3 V c).Φ t.succ ∗ (dat3 V c).owesAt () t.succ
    ∗ (∃ d, owns (c : Thread nD τ) (st3_0 t) fullShare (win3_0.fill (grid3.coords t) d (win3_0.cut (grid3.coords t) ((dat3 V c).after 0 t))))
    ∗ (∃ d, owns (c : Thread nD τ) (st3_1 t) fullShare (win3_1.fill (grid3.coords t) d (win3_1.cut (grid3.coords t) ((dat3 V c).after 1 t))))
    ∗ (∃ d, owns (c : Thread nD τ) (st3_2 t) fullShare (win3_2.fill (grid3.coords t) d (win3_2.cut (grid3.coords t) ((dat3 V c).after 2 t))))
    ∗ (∃ d, owns (c : Thread nD τ) (st3_3 t) fullShare (win3_3.fill (grid3.coords t) d (win3_3.cut (grid3.coords t) ((dat3 V c).after 3 t)))))

/-- The body at any point: the inputs' buffers hold their blocks filled out with whatever was there (`before3_W`),
    the output's anything; `sound_kernel3` leaves the inputs' as found and the output's at the product of the three,
    which on the rows inside the array is the product of the blocks. The invariant and the core's `owes` pass
    through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  rw [before3_0 V c t d0, before3_1 V c t d1, before3_2 V c t d2, before3_3 V c t d3]
  iapply (sound_kernel3 (F := F) c Set.univ (grid3.coords t) _ _ _ _ _ _ _ _
    (win3_0.fill (grid3.coords t) d0 (xblk3_0 V c t)) (win3_0.fill (grid3.coords t) d1 (xblk3_1 V c t))
    (win3_0.fill (grid3.coords t) d2 (xblk3_2 V c t)) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  have hx0 : win3_0.cut (grid3.coords t) (xblk3_0f V c t) = xblk3_0 V c t := win3_0.cut_fill _ _ _
  have hx1 : win3_0.cut (grid3.coords t) (xblk3_1f V c t) = xblk3_1 V c t := win3_0.cut_fill _ _ _
  have hx2 : win3_0.cut (grid3.coords t) (xblk3_2f V c t) = xblk3_2 V c t := win3_0.cut_fill _ _ _
  have hp : win3_0.cut (grid3.coords t) (xprod3f V c t) = xprod3 V c t := win3_0.cut_fill _ _ _
  isplitl [H0]
  · iexists d0
    change _ ⊢ owns (c : Thread nD τ) (st3_0 t) fullShare (win3_0.fill (grid3.coords t) d0 (win3_0.cut (grid3.coords t) (xblk3_0f V c t)))
    rw [hx0]; try exact .rfl
  isplitl [H1]
  · iexists d1
    change _ ⊢ owns (c : Thread nD τ) (st3_1 t) fullShare (win3_0.fill (grid3.coords t) d1 (win3_0.cut (grid3.coords t) (xblk3_1f V c t)))
    rw [hx1]; try exact .rfl
  isplitl [H2]
  · iexists d2
    change _ ⊢ owns (c : Thread nD τ) (st3_2 t) fullShare (win3_0.fill (grid3.coords t) d2 (win3_0.cut (grid3.coords t) (xblk3_2f V c t)))
    rw [hx2]; try exact .rfl
  · iexists (fun j => FloatOps.mulf (FloatOps.mulf (d0 j) (d1 j)) (d2 j))
    change _ ⊢ owns (c : Thread nD τ) (st3_3 t) fullShare (win3_0.fill (grid3.coords t) (fun j => FloatOps.mulf (FloatOps.mulf (d0 j) (d1 j)) (d2 j))
      (win3_0.cut (grid3.coords t) (xprod3f V c t)))
    rw [hp, show xprod3 V c t = fun j => FloatOps.mulf (FloatOps.mulf (xblk3_0 V c t j) (xblk3_1 V c t j)) (xblk3_2 V c t j) from rfl,
      ← fill_prod3, out3_3_eq]; try exact .rfl

/-- The library's body obligation, at every point: no point is idle and every window is loose. -/
theorem body_obligation3 (c : Dev nD) : BodyObligationLoose (dat3 (F := F) V c) (defs₀ (F := F)) Variants.none () Set.univ := fun t => by
  rw [bigSep_W3, bigSep_W3]
  exact sound_body3 V c t

/-! ## The output array after the region -/

/-- The entrywise product of the three input arrays: what the output array is shown to hold. -/
abbrev tripleProd3 (c : Dev nD) : Buf (Elt F) ((c : Thread nD τ).loc main_v41) :=
  mulf (s := S31250x128) (mulf (s := S31250x128) (V c main_v38) (V c main_v39)) (V c main_v40)

/-- The inputs are never written back: after the region they hold what they held. -/
theorem final3_0 (c : Dev nD) : (dat3 V c).arrAt 0 cfg3.N = V c main_v38 := (dat3 V c).arrAt_in (0 : Fin 4) rfl _
theorem final3_1 (c : Dev nD) : (dat3 V c).arrAt 1 cfg3.N = V c main_v39 := (dat3 V c).arrAt_in (1 : Fin 4) rfl _
theorem final3_2 (c : Dev nD) : (dat3 V c).arrAt 2 cfg3.N = V c main_v40 := (dat3 V c).arrAt_in (2 : Fin 4) rfl _

/-- What point `t` writes back — the rows inside the array of the product block — is block `t` of the product of
    the arrays: the four windows read one rectangle of their arrays, and a block of an entrywise product is the
    product of the blocks. -/
theorem flushed3_3 (c : Dev nD) (t : Fin cfg3.N) :
    (dat3 V c).flushed 3 t = ((cfg3.win 3).blk t).view.read (Elt F) (tripleProd3 V c) := by
  show win3_3.cut (grid3.coords t) ((dat3 V c).after 3 t) = _
  rw [after3_3]
  change win3_0.cut (grid3.coords t) (xprod3f V c t)
    = fun j => FloatOps.mulf (FloatOps.mulf (xblk3_0 V c t j) (xblk3_1 V c t j)) (xblk3_2 V c t j)
  exact win3_0.cut_fill _ _ _

/-- The blocks' rectangles, decided over the eight points: block `t` starts at row 4096·t and spans the 128 lanes;
    it has 4096 rows inside the array at points 0‥6 and 31250 − 7·4096 = 2578 at point 7. -/
theorem blk_facts3 : ∀ t : Fin cfg3.N, win3_3.index t 0 = t.val ∧ win3_3.index t 1 * win3_3.size 1 = 0
    ∧ win3_3.xsize (grid3.coords t) 1 = 128
    ∧ (t.val < 7 → win3_3.xsize (grid3.coords t) 0 = 4096) ∧ (t.val = 7 → win3_3.xsize (grid3.coords t) 0 = 2578) :=
  (by decide +kernel : ∀ t : Fin grid3.N, _)

/-- An entry of the array is in point `t`'s block iff its row is among the block's rows inside the array. -/
theorem mem_blk3 (t : Fin cfg3.N) (i : S31250x128.Idx) :
    i ∈ (win3_3.blk t).view.set
      ↔ win3_3.index t 0 * 4096 ≤ (i 0 : Nat) ∧ (i 0 : Nat) < win3_3.index t 0 * 4096 + win3_3.xsize (grid3.coords t) 0 := by
  show i ∈ ((View.whole main_v41).slice (win3_3.rect t)).set ↔ _
  rw [View.set_slice_whole, Rect.mem_set_unit]
  have h1 : (i 1 : Nat) < 128 := (i 1).isLt
  obtain ⟨-, e1, e1', -, -⟩ := blk_facts3 t
  refine ⟨fun h => h 0, fun h a => ?_⟩
  match a with
  | ⟨0, _⟩ => exact h
  | ⟨1, _⟩ =>
    change win3_3.index t 1 * win3_3.size 1 ≤ (i 1 : Nat)
      ∧ (i 1 : Nat) < win3_3.index t 1 * win3_3.size 1 + win3_3.xsize (grid3.coords t) 1
    rw [e1, e1']; omega

/-- Row `r` of the array lies in the block of point `r / 4096`: the eight blocks cover the 31250 rows. -/
theorem cover3_out (i : S31250x128.Idx) :
    ∃ t : Fin cfg3.N, (cfg3.win 3).flush t = true ∧ i ∈ ((cfg3.win 3).blk t).view.set := by
  have h0 : (i 0 : Nat) < 31250 := (i 0).isLt
  have hN : cfg3.N = 8 := N_3
  have ht : (i 0 : Nat) / 4096 < cfg3.N := by rw [hN]; omega
  refine ⟨⟨(i 0 : Nat) / 4096, ht⟩, flush3_3 _, ?_⟩
  show i ∈ (win3_3.blk ⟨(i 0 : Nat) / 4096, ht⟩).view.set
  rw [mem_blk3]
  obtain ⟨e0, -, -, hlt, heq⟩ := blk_facts3 ⟨(i 0 : Nat) / 4096, ht⟩
  rw [e0]
  by_cases h : (i 0 : Nat) / 4096 < 7
  · rw [hlt h]; dsimp only; omega
  · rw [heq (by dsimp only; omega)]; dsimp only; omega

/-- So the output array ends holding the entrywise product of the three input arrays, all 31250 rows: the cut
    write-back at the last point writes the staging buffer's first 2578 rows and nothing past the array. -/
theorem final3_3 (c : Dev nD) : (dat3 V c).arrAt 3 cfg3.N = tripleProd3 V c :=
  (dat3 V c).arrAt_eq_of_cover (3 : Fin 4) (tripleProd3 V c) (fun t _ => flushed3_3 V c t) cover3_out

end Cert.Kernel.Hand
-- ==== Proof.KRun.lean ====
/-
  The run of the kernel program as printed (the same text as its idealization, in its own namespace), at any float
  instance: @main as eighteen items — thirteen stretches of host operations
  and five kernel regions —, the contents of every unscoped buffer at each boundary (the fold of the boundary contents, with
  each region's arrays at what its pipeline leaves: the proof data's `arrAt` after the last grid point), one segment
  record per item over the thread state "every unscoped buffer at the boundary's contents, the generator register at
  some state, nothing owed", and the theorem `run_all`: from any memory with zero counters every weakly fair execution
  of @main terminates, nothing faulting, and every unscoped buffer ends at the last boundary's contents.  The argument
  arrays are read back through the fold to their launch contents (`W18_main_arg0` … `W18_main_arg13`).
-/
import proofs.«153293_j29283087024787_2_alg».proof.Proof.KFold
import proofs.«153293_j29283087024787_2_alg».proof.Proof.KRegionRelw
import proofs.«153293_j29283087024787_2_alg».proof.Proof.KRegionDis
import proofs.«153293_j29283087024787_2_alg».proof.Proof.KRegionMul3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each region finds and what it leaves -/

/-- The buffers as region 0 finds them. -/
abbrev U4 : (c : Dev nD) → (b : Ref sig .tc) → Buf (Elt F) ((c : Thread nD τ).loc b) := fun c b => W4 m c b
/-- What region 0 leaves in its windows' arrays: its proof data's arrays after the last grid point. -/
def o0 : Out0 (F := F) := fun c w => (dat0 (U4 m) c).arrAt w cfg0.N
theorem hF0 (c : Dev nD) (w : Fin cfg0.W) : (dat0 (U4 m) c).arrAt w cfg0.N = W5 m (o0 m) c (Pipeline.arrRef spec0 w) :=
  (W5_arr m (o0 m) c w).symm
theorem hrest0 (c : Dev nD) : ∀ b : Ref sig .tc, b ∉ Finset.univ.image (Pipeline.arrRef spec0) → W5 m (o0 m) c b = W4 m c b :=
  fun b hb => W5_of m (o0 m) c b fun w e => hb (Finset.mem_image.mpr ⟨w, Finset.mem_univ _, e⟩)

/-- The buffers as region 1 finds them. -/
abbrev U6 : (c : Dev nD) → (b : Ref sig .tc) → Buf (Elt F) ((c : Thread nD τ).loc b) := fun c b => W6 m (o0 m) c b
/-- What region 1 leaves in its windows' arrays: its proof data's arrays after the last grid point. -/
def o1 : Out1 (F := F) := fun c w => (dat1 (U6 m) c).arrAt w cfg1.N
theorem hF1 (c : Dev nD) (w : Fin cfg1.W) : (dat1 (U6 m) c).arrAt w cfg1.N = W7 m (o0 m) (o1 m) c (Pipeline.arrRef spec1 w) :=
  (W7_arr m (o0 m) (o1 m) c w).symm
theorem hrest1 (c : Dev nD) : ∀ b : Ref sig .tc, b ∉ Finset.univ.image (Pipeline.arrRef spec1) → W7 m (o0 m) (o1 m) c b = W6 m (o0 m) c b :=
  fun b hb => W7_of m (o0 m) (o1 m) c b fun w e => hb (Finset.mem_image.mpr ⟨w, Finset.mem_univ _, e⟩)

/-- The buffers as region 2 finds them. -/
abbrev U10 : (c : Dev nD) → (b : Ref sig .tc) → Buf (Elt F) ((c : Thread nD τ).loc b) := fun c b => W10 m (o0 m) (o1 m) c b
/-- What region 2 leaves in its windows' arrays: its proof data's arrays after the last grid point. -/
def o2 : Out2 (F := F) := fun c w => (dat2 (U10 m) c).arrAt w cfg2.N
theorem hF2 (c : Dev nD) (w : Fin cfg2.W) : (dat2 (U10 m) c).arrAt w cfg2.N = W11 m (o0 m) (o1 m) (o2 m) c (Pipeline.arrRef spec2 w) :=
  (W11_arr m (o0 m) (o1 m) (o2 m) c w).symm
theorem hrest2 (c : Dev nD) : ∀ b : Ref sig .tc, b ∉ Finset.univ.image (Pipeline.arrRef spec2) → W11 m (o0 m) (o1 m) (o2 m) c b = W10 m (o0 m) (o1 m) c b :=
  fun b hb => W11_of m (o0 m) (o1 m) (o2 m) c b fun w e => hb (Finset.mem_image.mpr ⟨w, Finset.mem_univ _, e⟩)

/-- The buffers as region 3 finds them. -/
abbrev U12 : (c : Dev nD) → (b : Ref sig .tc) → Buf (Elt F) ((c : Thread nD τ).loc b) := fun c b => W12 m (o0 m) (o1 m) (o2 m) c b
/-- What region 3 leaves in its windows' arrays: its proof data's arrays after the last grid point. -/
def o3 : Out3 (F := F) := fun c w => (dat3 (U12 m) c).arrAt w cfg3.N
theorem hF3 (c : Dev nD) (w : Fin cfg3.W) : (dat3 (U12 m) c).arrAt w cfg3.N = W13 m (o0 m) (o1 m) (o2 m) (o3 m) c (Pipeline.arrRef spec3 w) :=
  (W13_arr m (o0 m) (o1 m) (o2 m) (o3 m) c w).symm
theorem hrest3 (c : Dev nD) : ∀ b : Ref sig .tc, b ∉ Finset.univ.image (Pipeline.arrRef spec3) → W13 m (o0 m) (o1 m) (o2 m) (o3 m) c b = W12 m (o0 m) (o1 m) (o2 m) c b :=
  fun b hb => W13_of m (o0 m) (o1 m) (o2 m) (o3 m) c b fun w e => hb (Finset.mem_image.mpr ⟨w, Finset.mem_univ _, e⟩)

/-- The buffers as region 4 finds them. -/
abbrev U16 : (c : Dev nD) → (b : Ref sig .tc) → Buf (Elt F) ((c : Thread nD τ).loc b) := fun c b => W16 m (o0 m) (o1 m) (o2 m) (o3 m) c b
/-- What region 4 leaves in its windows' arrays: its proof data's arrays after the last grid point. -/
def o4 : Out4 (F := F) := fun c w => (dat4 (U16 m) c).arrAt w cfg4.N
theorem hF4 (c : Dev nD) (w : Fin cfg4.W) : (dat4 (U16 m) c).arrAt w cfg4.N = W17 m (o0 m) (o1 m) (o2 m) (o3 m) (o4 m) c (Pipeline.arrRef spec4 w) :=
  (W17_arr m (o0 m) (o1 m) (o2 m) (o3 m) (o4 m) c w).symm
theorem hrest4 (c : Dev nD) : ∀ b : Ref sig .tc, b ∉ Finset.univ.image (Pipeline.arrRef spec4) → W17 m (o0 m) (o1 m) (o2 m) (o3 m) (o4 m) c b = W16 m (o0 m) (o1 m) (o2 m) (o3 m) c b :=
  fun b hb => W17_of m (o0 m) (o1 m) (o2 m) (o3 m) (o4 m) c b fun w e => hb (Finset.mem_image.mpr ⟨w, Finset.mem_univ _, e⟩)

/-! ## The proof data family and the thread state -/

/-- Every pipeline's proof data, each at its region's entry contents: a literal match, so that the pinned
    configuration at a numeral reduces to the printed one. -/
def pdats : (p : Fin 5) → (c : Dev nD) → Dat τ (Elt F) Unit ℕ (UR sig nD τ) ℕ (Pipeline.pin (pcfgs (F := F)) adm p) c
  | ⟨0, _⟩ => fun c => dat0 (U4 m) c
  | ⟨1, _⟩ => fun c => dat1 (U6 m) c
  | ⟨2, _⟩ => fun c => dat2 (U10 m) c
  | ⟨3, _⟩ => fun c => dat3 (U12 m) c
  | ⟨4, _⟩ => fun c => dat4 (U16 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W18 m (o0 m) (o1 m) (o2 m) (o3 m) (o4 m) c) ∗ ∃ r, prngReg c r)

/-! ## The regions as segments -/

set_option backward.isDefEq.respectTransparency.types false in
/-- Region 0 over the thread state: entered from every unscoped buffer at boundary 4's contents, left at boundary
    5's. Its arrays are split out of the unscoped buffers and put back at the exit contents; the generator register
    goes into the pipeline's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U4 m) c).loose
  hwaits := Pipeline.hwaits_of_owed_zero _ _ _ _ L lv 0 fun _ _ => rfl
  pre c := iprop(StableHlo.held (c : Thread nD τ) (Pipeline.ucRefs τ sig) (W4 m c) ∗ R c)
  post c := iprop(StableHlo.held (c : Thread nD τ) (Pipeline.ucRefs τ sig) (W5 m (o0 m) c) ∗ R c)
  X c := iprop(∃ r, prngReg c r)
  Y c := iprop(∃ r, prngReg c r)
  Z c := Pipeline.unscopedRest (Ix := Unit) (Name := ℕ) (U := UR sig nD τ) (Lvl := ℕ) spec0 c (U4 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U4 m c) (fun b => W5 m (o0 m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at boundary 6's contents, left at boundary
    7's. Its arrays are split out of the unscoped buffers and put back at the exit contents; the generator register
    goes into the pipeline's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (U6 m) c
  hwaits := Pipeline.hwaits_of_owed_zero _ _ _ _ L lv 1 fun _ _ => rfl
  pre c := iprop(StableHlo.held (c : Thread nD τ) (Pipeline.ucRefs τ sig) (W6 m (o0 m) c) ∗ R c)
  post c := iprop(StableHlo.held (c : Thread nD τ) (Pipeline.ucRefs τ sig) (W7 m (o0 m) (o1 m) c) ∗ R c)
  X c := iprop(∃ r, prngReg c r)
  Y c := iprop(∃ r, prngReg c r)
  Z c := Pipeline.unscopedRest (Ix := Unit) (Name := ℕ) (U := UR sig nD τ) (Lvl := ℕ) spec1 c (U6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U6 m c) (fun b => W7 m (o0 m) (o1 m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at boundary 10's contents, left at boundary
    11's. Its arrays are split out of the unscoped buffers and put back at the exit contents; the generator register
    goes into the pipeline's invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U10 m) c).loose
  hwaits := Pipeline.hwaits_of_owed_zero _ _ _ _ L lv 2 fun _ _ => rfl
  pre c := iprop(StableHlo.held (c : Thread nD τ) (Pipeline.ucRefs τ sig) (W10 m (o0 m) (o1 m) c) ∗ R c)
  post c := iprop(StableHlo.held (c : Thread nD τ) (Pipeline.ucRefs τ sig) (W11 m (o0 m) (o1 m) (o2 m) c) ∗ R c)
  X c := iprop(∃ r, prngReg c r)
  Y c := iprop(∃ r, prngReg c r)
  Z c := Pipeline.unscopedRest (Ix := Unit) (Name := ℕ) (U := UR sig nD τ) (Lvl := ℕ) spec2 c (U10 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U10 m c) (fun b => W11 m (o0 m) (o1 m) (o2 m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at boundary 12's contents, left at boundary
    13's. Its arrays are split out of the unscoped buffers and put back at the exit contents; the generator register
    goes into the pipeline's invariant and comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := body_obligation3 (U12 m) c
  hwaits := Pipeline.hwaits_of_owed_zero _ _ _ _ L lv 3 fun _ _ => rfl
  pre c := iprop(StableHlo.held (c : Thread nD τ) (Pipeline.ucRefs τ sig) (W12 m (o0 m) (o1 m) (o2 m) c) ∗ R c)
  post c := iprop(StableHlo.held (c : Thread nD τ) (Pipeline.ucRefs τ sig) (W13 m (o0 m) (o1 m) (o2 m) (o3 m) c) ∗ R c)
  X c := iprop(∃ r, prngReg c r)
  Y c := iprop(∃ r, prngReg c r)
  Z c := Pipeline.unscopedRest (Ix := Unit) (Name := ℕ) (U := UR sig nD τ) (Lvl := ℕ) spec3 c (U12 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (U12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (U12 m c) (fun b => W13 m (o0 m) (o1 m) (o2 m) (o3 m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at boundary 16's contents, left at boundary
    17's. Its arrays are split out of the unscoped buffers and put back at the exit contents; the generator register
    goes into the pipeline's invariant and comes out; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U16 m) c).loose
  hwaits := Pipeline.hwaits_of_owed_zero _ _ _ _ L lv 4 fun _ _ => rfl
  pre c := iprop(StableHlo.held (c : Thread nD τ) (Pipeline.ucRefs τ sig) (W16 m (o0 m) (o1 m) (o2 m) (o3 m) c) ∗ R c)
  post c := iprop(StableHlo.held (c : Thread nD τ) (Pipeline.ucRefs τ sig) (W17 m (o0 m) (o1 m) (o2 m) (o3 m) (o4 m) c) ∗ R c)
  X c := iprop(∃ r, prngReg c r)
  Y c := iprop(∃ r, prngReg c r)
  Z c := Pipeline.unscopedRest (Ix := Unit) (Name := ℕ) (U := UR sig nD τ) (Lvl := ℕ) spec4 c (U16 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (U16 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (U16 m c) (fun b => W17 m (o0 m) (o1 m) (o2 m) (o3 m) (o4 m) c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eighteen items in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .region (reg0 m),
    .host (hseg hostOps1 hostOps1_sub hostOps1_fresh (W5 m (o0 m))),
    .region (reg1 m),
    .host (hseg hostOps2 hostOps2_sub hostOps2_fresh (W7 m (o0 m) (o1 m))),
    .host (hseg hostOps2_1 hostOps2_1_sub hostOps2_1_fresh (W8 m (o0 m) (o1 m))),
    .host (hseg hostOps2_2 hostOps2_2_sub hostOps2_2_fresh (W9 m (o0 m) (o1 m))),
    .region (reg2 m),
    .host (hseg hostOps3 hostOps3_sub hostOps3_fresh (W11 m (o0 m) (o1 m) (o2 m))),
    .region (reg3 m),
    .host (hseg hostOps4 hostOps4_sub hostOps4_fresh (W13 m (o0 m) (o1 m) (o2 m) (o3 m))),
    .host (hseg hostOps4_1 hostOps4_1_sub hostOps4_1_fresh (W14 m (o0 m) (o1 m) (o2 m) (o3 m))),
    .host (hseg hostOps4_2 hostOps4_2_sub hostOps4_2_fresh (W15 m (o0 m) (o1 m) (o2 m) (o3 m))),
    .region (reg4 m),
    .host (hseg hostOps5 hostOps5_sub hostOps5_fresh (W17 m (o0 m) (o1 m) (o2 m) (o3 m) (o4 m))) ]

/-- @main IS the run of the segments. -/
theorem main_run (c : Dev nD) : main (F := F) c = Pipeline.Seg.run (segs m) := (main_chain c).trans (by chain_rfl)

set_option backward.isDefEq.respectTransparency.types false in
/-- THE RUN: at the compiled mesh, from any memory with zero counters, every weakly fair execution of @main on the
    TensorCores terminates, nothing faulting, and in every final state each unscoped buffer holds the last boundary's
    contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W18 m (o0 m) (o1 m) (o2 m) (o3 m) (o4 m) c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W18 m (o0 m) (o1 m) (o2 m) (o3 m) (o4 m) c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m (o0 m) (o1 m) (o2 m) (o3 m) (o4 m) c b)
    (hfin := fun c s' => by
      iintro ⟨⟨Hh, -⟩, HSI⟩
      unfold StableHlo.held
      imodintro
      iapply (pointsTo_read_all (Pipeline.ucRefs τ sig) (fun b => (((c : Thread nD τ)).1, b)) (W18 m (o0 m) (o1 m) (o2 m) (o3 m) (o4 m) c) s')
      isplitl [Hh] <;> iassumption)
    (hQ := fun s h c => h c)

/-! ## The arguments end as launched -/

theorem W18_main_arg0 (c : Dev nD) : W18 m (o0 m) (o1 m) (o2 m) (o3 m) (o4 m) c main_arg0 = m ((c : Thread nD τ).loc main_arg0) :=
  (W18_of m (o0 m) (o1 m) (o2 m) (o3 m) (o4 m) c main_arg0 (by decide)).trans ((W17_of m (o0 m) (o1 m) (o2 m) (o3 m) (o4 m) c main_arg0 (by decide)).trans ((W16_of m (o0 m) (o1 m) (o2 m) (o3 m) c main_arg0 (by decide)).trans ((W15_of m (o0 m) (o1 m) (o2 m) (o3 m) c main_arg0 (by decide)).trans ((W14_of m (o0 m) (o1 m) (o2 m) (o3 m) c main_arg0 (by decide)).trans ((W13_of m (o0 m) (o1 m) (o2 m) (o3 m) c main_arg0 (by decide)).trans ((W12_of m (o0 m) (o1 m) (o2 m) c main_arg0 (by decide)).trans ((W11_of m (o0 m) (o1 m) (o2 m) c main_arg0 (by decide)).trans ((W10_of m (o0 m) (o1 m) c main_arg0 (by decide)).trans ((W9_of m (o0 m) (o1 m) c main_arg0 (by decide)).trans ((W8_of m (o0 m) (o1 m) c main_arg0 (by decide)).trans ((W7_of m (o0 m) (o1 m) c main_arg0 (by decide)).trans ((W6_of m (o0 m) c main_arg0 (by decide)).trans ((W5_of m (o0 m) c main_arg0 (by decide)).trans ((W4_of m  c main_arg0 (by decide)).trans ((W3_of m  c main_arg0 (by decide)).trans ((W2_of m  c main_arg0 (by decide)).trans ((W1_of m  c main_arg0 (by decide)))))))))))))))))))
theorem W18_main_arg1 (c : Dev nD) : W18 m (o0 m) (o1 m) (o2 m) (o3 m) (o4 m) c main_arg1 = m ((c : Thread nD τ).loc main_arg1) :=
  (W18_of m (o0 m) (o1 m) (o2 m) (o3 m) (o4 m) c main_arg1 (by decide)).trans ((W17_of m (o0 m) (o1 m) (o2 m) (o3 m) (o4 m) c main_arg1 (by decide)).trans ((W16_of m (o0 m) (o1 m) (o2 m) (o3 m) c main_arg1 (by decide)).trans ((W15_of m (o0 m) (o1 m) (o2 m) (o3 m) c main_arg1 (by decide)).trans ((W14_of m (o0 m) (o1 m) (o2 m) (o3 m) c main_arg1 (by decide)).trans ((W13_of m (o0 m) (o1 m) (o2 m) (o3 m) c main_arg1 (by decide)).trans ((W12_of m (o0 m) (o1 m) (o2 m) c main_arg1 (by decide)).trans ((W11_of m (o0 m) (o1 m) (o2 m) c main_arg1 (by decide)).trans ((W10_of m (o0 m) (o1 m) c main_arg1 (by decide)).trans ((W9_of m (o0 m) (o1 m) c main_arg1 (by decide)).trans ((W8_of m (o0 m) (o1 m) c main_arg1 (by decide)).trans ((W7_of m (o0 m) (o1 m) c main_arg1 (by decide)).trans ((W6_of m (o0 m) c main_arg1 (by decide)).trans ((W5_of m (o0 m) c main_arg1 (by decide)).trans ((W4_of m  c main_arg1 (by decide)).trans ((W3_of m  c main_arg1 (by decide)).trans ((W2_of m  c main_arg1 (by decide)).trans ((W1_of m  c main_arg1 (by decide)))))))))))))))))))
theorem W18_main_arg2 (c : Dev nD) : W18 m (o0 m) (o1 m) (o2 m) (o3 m) (o4 m) c main_arg2 = m ((c : Thread nD τ).loc main_arg2) :=
  (W18_of m (o0 m) (o1 m) (o2 m) (o3 m) (o4 m) c main_arg2 (by decide)).trans ((W17_of m (o0 m) (o1 m) (o2 m) (o3 m) (o4 m) c main_arg2 (by decide)).trans ((W16_of m (o0 m) (o1 m) (o2 m) (o3 m) c main_arg2 (by decide)).trans ((W15_of m (o0 m) (o1 m) (o2 m) (o3 m) c main_arg2 (by decide)).trans ((W14_of m (o0 m) (o1 m) (o2 m) (o3 m) c main_arg2 (by decide)).trans ((W13_of m (o0 m) (o1 m) (o2 m) (o3 m) c main_arg2 (by decide)).trans ((W12_of m (o0 m) (o1 m) (o2 m) c main_arg2 (by decide)).trans ((W11_of m (o0 m) (o1 m) (o2 m) c main_arg2 (by decide)).trans ((W10_of m (o0 m) (o1 m) c main_arg2 (by decide)).trans ((W9_of m (o0 m) (o1 m) c main_arg2 (by decide)).trans ((W8_of m (o0 m) (o1 m) c main_arg2 (by decide)).trans ((W7_of m (o0 m) (o1 m) c main_arg2 (by decide)).trans ((W6_of m (o0 m) c main_arg2 (by decide)).trans ((W5_of m (o0 m) c main_arg2 (by decide)).trans ((W4_of m  c main_arg2 (by decide)).trans ((W3_of m  c main_arg2 (by decide)).trans ((W2_of m  c main_arg2 (by decide)).trans ((W1_of m  c main_arg2 (by decide)))))))))))))))))))
theorem W18_main_arg3 (c : Dev nD) : W18 m (o0 m) (o1 m) (o2 m) (o3 m) (o4 m) c main_arg3 = m ((c : Thread nD τ).loc main_arg3) :=
  (W18_of m (o0 m) (o1 m) (o2 m) (o3 m) (o4 m) c main_arg3 (by decide)).trans ((W17_of m (o0 m) (o1 m) (o2 m) (o3 m) (o4 m) c main_arg3 (by decide)).trans ((W16_of m (o0 m) (o1 m) (o2 m) (o3 m) c main_arg3 (by decide)).trans ((W15_of m (o0 m) (o1 m) (o2 m) (o3 m) c main_arg3 (by decide)).trans ((W14_of m (o0 m) (o1 m) (o2 m) (o3 m) c main_arg3 (by decide)).trans ((W13_of m (o0 m) (o1 m) (o2 m) (o3 m) c main_arg3 (by decide)).trans ((W12_of m (o0 m) (o1 m) (o2 m) c main_arg3 (by decide)).trans ((W11_of m (o0 m) (o1 m) (o2 m) c main_arg3 (by decide)).trans ((W10_of m (o0 m) (o1 m) c main_arg3 (by decide)).trans ((W9_of m (o0 m) (o1 m) c main_arg3 (by decide)).trans ((W8_of m (o0 m) (o1 m) c main_arg3 (by decide)).trans ((W7_of m (o0 m) (o1 m) c main_arg3 (by decide)).trans ((W6_of m (o0 m) c main_arg3 (by decide)).trans ((W5_of m (o0 m) c main_arg3 (by decide)).trans ((W4_of m  c main_arg3 (by decide)).trans ((W3_of m  c main_arg3 (by decide)).trans ((W2_of m  c main_arg3 (by decide)).trans ((W1_of m  c main_arg3 (by decide)))))))))))))))))))
theorem W18_main_arg4 (c : Dev nD) : W18 m (o0 m) (o1 m) (o2 m) (o3 m) (o4 m) c main_arg4 = m ((c : Thread nD τ).loc main_arg4) :=
  (W18_of m (o0 m) (o1 m) (o2 m) (o3 m) (o4 m) c main_arg4 (by decide)).trans ((W17_of m (o0 m) (o1 m) (o2 m) (o3 m) (o4 m) c main_arg4 (by decide)).trans ((W16_of m (o0 m) (o1 m) (o2 m) (o3 m) c main_arg4 (by decide)).trans ((W15_of m (o0 m) (o1 m) (o2 m) (o3 m) c main_arg4 (by decide)).trans ((W14_of m (o0 m) (o1 m) (o2 m) (o3 m) c main_arg4 (by decide)).trans ((W13_of m (o0 m) (o1 m) (o2 m) (o3 m) c main_arg4 (by decide)).trans ((W12_of m (o0 m) (o1 m) (o2 m) c main_arg4 (by decide)).trans ((W11_of m (o0 m) (o1 m) (o2 m) c main_arg4 (by decide)).trans ((W10_of m (o0 m) (o1 m) c main_arg4 (by decide)).trans ((W9_of m (o0 m) (o1 m) c main_arg4 (by decide)).trans ((W8_of m (o0 m) (o1 m) c main_arg4 (by decide)).trans ((W7_of m (o0 m) (o1 m) c main_arg4 (by decide)).trans ((W6_of m (o0 m) c main_arg4 (by decide)).trans ((W5_of m (o0 m) c main_arg4 (by decide)).trans ((W4_of m  c main_arg4 (by decide)).trans ((W3_of m  c main_arg4 (by decide)).trans ((W2_of m  c main_arg4 (by decide)).trans ((W1_of m  c main_arg4 (by decide)))))))))))))))))))
theorem W18_main_arg5 (c : Dev nD) : W18 m (o0 m) (o1 m) (o2 m) (o3 m) (o4 m) c main_arg5 = m ((c : Thread nD τ).loc main_arg5) :=
  (W18_of m (o0 m) (o1 m) (o2 m) (o3 m) (o4 m) c main_arg5 (by decide)).trans ((W17_of m (o0 m) (o1 m) (o2 m) (o3 m) (o4 m) c main_arg5 (by decide)).trans ((W16_of m (o0 m) (o1 m) (o2 m) (o3 m) c main_arg5 (by decide)).trans ((W15_of m (o0 m) (o1 m) (o2 m) (o3 m) c main_arg5 (by decide)).trans ((W14_of m (o0 m) (o1 m) (o2 m) (o3 m) c main_arg5 (by decide)).trans ((W13_of m (o0 m) (o1 m) (o2 m) (o3 m) c main_arg5 (by decide)).trans ((W12_of m (o0 m) (o1 m) (o2 m) c main_arg5 (by decide)).trans ((W11_of m (o0 m) (o1 m) (o2 m) c main_arg5 (by decide)).trans ((W10_of m (o0 m) (o1 m) c main_arg5 (by decide)).trans ((W9_of m (o0 m) (o1 m) c main_arg5 (by decide)).trans ((W8_of m (o0 m) (o1 m) c main_arg5 (by decide)).trans ((W7_of m (o0 m) (o1 m) c main_arg5 (by decide)).trans ((W6_of m (o0 m) c main_arg5 (by decide)).trans ((W5_of m (o0 m) c main_arg5 (by decide)).trans ((W4_of m  c main_arg5 (by decide)).trans ((W3_of m  c main_arg5 (by decide)).trans ((W2_of m  c main_arg5 (by decide)).trans ((W1_of m  c main_arg5 (by decide)))))))))))))))))))
theorem W18_main_arg6 (c : Dev nD) : W18 m (o0 m) (o1 m) (o2 m) (o3 m) (o4 m) c main_arg6 = m ((c : Thread nD τ).loc main_arg6) :=
  (W18_of m (o0 m) (o1 m) (o2 m) (o3 m) (o4 m) c main_arg6 (by decide)).trans ((W17_of m (o0 m) (o1 m) (o2 m) (o3 m) (o4 m) c main_arg6 (by decide)).trans ((W16_of m (o0 m) (o1 m) (o2 m) (o3 m) c main_arg6 (by decide)).trans ((W15_of m (o0 m) (o1 m) (o2 m) (o3 m) c main_arg6 (by decide)).trans ((W14_of m (o0 m) (o1 m) (o2 m) (o3 m) c main_arg6 (by decide)).trans ((W13_of m (o0 m) (o1 m) (o2 m) (o3 m) c main_arg6 (by decide)).trans ((W12_of m (o0 m) (o1 m) (o2 m) c main_arg6 (by decide)).trans ((W11_of m (o0 m) (o1 m) (o2 m) c main_arg6 (by decide)).trans ((W10_of m (o0 m) (o1 m) c main_arg6 (by decide)).trans ((W9_of m (o0 m) (o1 m) c main_arg6 (by decide)).trans ((W8_of m (o0 m) (o1 m) c main_arg6 (by decide)).trans ((W7_of m (o0 m) (o1 m) c main_arg6 (by decide)).trans ((W6_of m (o0 m) c main_arg6 (by decide)).trans ((W5_of m (o0 m) c main_arg6 (by decide)).trans ((W4_of m  c main_arg6 (by decide)).trans ((W3_of m  c main_arg6 (by decide)).trans ((W2_of m  c main_arg6 (by decide)).trans ((W1_of m  c main_arg6 (by decide)))))))))))))))))))
theorem W18_main_arg7 (c : Dev nD) : W18 m (o0 m) (o1 m) (o2 m) (o3 m) (o4 m) c main_arg7 = m ((c : Thread nD τ).loc main_arg7) :=
  (W18_of m (o0 m) (o1 m) (o2 m) (o3 m) (o4 m) c main_arg7 (by decide)).trans ((W17_of m (o0 m) (o1 m) (o2 m) (o3 m) (o4 m) c main_arg7 (by decide)).trans ((W16_of m (o0 m) (o1 m) (o2 m) (o3 m) c main_arg7 (by decide)).trans ((W15_of m (o0 m) (o1 m) (o2 m) (o3 m) c main_arg7 (by decide)).trans ((W14_of m (o0 m) (o1 m) (o2 m) (o3 m) c main_arg7 (by decide)).trans ((W13_of m (o0 m) (o1 m) (o2 m) (o3 m) c main_arg7 (by decide)).trans ((W12_of m (o0 m) (o1 m) (o2 m) c main_arg7 (by decide)).trans ((W11_of m (o0 m) (o1 m) (o2 m) c main_arg7 (by decide)).trans ((W10_of m (o0 m) (o1 m) c main_arg7 (by decide)).trans ((W9_of m (o0 m) (o1 m) c main_arg7 (by decide)).trans ((W8_of m (o0 m) (o1 m) c main_arg7 (by decide)).trans ((W7_of m (o0 m) (o1 m) c main_arg7 (by decide)).trans ((W6_of m (o0 m) c main_arg7 (by decide)).trans ((W5_of m (o0 m) c main_arg7 (by decide)).trans ((W4_of m  c main_arg7 (by decide)).trans ((W3_of m  c main_arg7 (by decide)).trans ((W2_of m  c main_arg7 (by decide)).trans ((W1_of m  c main_arg7 (by decide)))))))))))))))))))
theorem W18_main_arg8 (c : Dev nD) : W18 m (o0 m) (o1 m) (o2 m) (o3 m) (o4 m) c main_arg8 = m ((c : Thread nD τ).loc main_arg8) :=
  (W18_of m (o0 m) (o1 m) (o2 m) (o3 m) (o4 m) c main_arg8 (by decide)).trans ((W17_of m (o0 m) (o1 m) (o2 m) (o3 m) (o4 m) c main_arg8 (by decide)).trans ((W16_of m (o0 m) (o1 m) (o2 m) (o3 m) c main_arg8 (by decide)).trans ((W15_of m (o0 m) (o1 m) (o2 m) (o3 m) c main_arg8 (by decide)).trans ((W14_of m (o0 m) (o1 m) (o2 m) (o3 m) c main_arg8 (by decide)).trans ((W13_of m (o0 m) (o1 m) (o2 m) (o3 m) c main_arg8 (by decide)).trans ((W12_of m (o0 m) (o1 m) (o2 m) c main_arg8 (by decide)).trans ((W11_of m (o0 m) (o1 m) (o2 m) c main_arg8 (by decide)).trans ((W10_of m (o0 m) (o1 m) c main_arg8 (by decide)).trans ((W9_of m (o0 m) (o1 m) c main_arg8 (by decide)).trans ((W8_of m (o0 m) (o1 m) c main_arg8 (by decide)).trans ((W7_of m (o0 m) (o1 m) c main_arg8 (by decide)).trans ((W6_of m (o0 m) c main_arg8 (by decide)).trans ((W5_of m (o0 m) c main_arg8 (by decide)).trans ((W4_of m  c main_arg8 (by decide)).trans ((W3_of m  c main_arg8 (by decide)).trans ((W2_of m  c main_arg8 (by decide)).trans ((W1_of m  c main_arg8 (by decide)))))))))))))))))))
theorem W18_main_arg9 (c : Dev nD) : W18 m (o0 m) (o1 m) (o2 m) (o3 m) (o4 m) c main_arg9 = m ((c : Thread nD τ).loc main_arg9) :=
  (W18_of m (o0 m) (o1 m) (o2 m) (o3 m) (o4 m) c main_arg9 (by decide)).trans ((W17_of m (o0 m) (o1 m) (o2 m) (o3 m) (o4 m) c main_arg9 (by decide)).trans ((W16_of m (o0 m) (o1 m) (o2 m) (o3 m) c main_arg9 (by decide)).trans ((W15_of m (o0 m) (o1 m) (o2 m) (o3 m) c main_arg9 (by decide)).trans ((W14_of m (o0 m) (o1 m) (o2 m) (o3 m) c main_arg9 (by decide)).trans ((W13_of m (o0 m) (o1 m) (o2 m) (o3 m) c main_arg9 (by decide)).trans ((W12_of m (o0 m) (o1 m) (o2 m) c main_arg9 (by decide)).trans ((W11_of m (o0 m) (o1 m) (o2 m) c main_arg9 (by decide)).trans ((W10_of m (o0 m) (o1 m) c main_arg9 (by decide)).trans ((W9_of m (o0 m) (o1 m) c main_arg9 (by decide)).trans ((W8_of m (o0 m) (o1 m) c main_arg9 (by decide)).trans ((W7_of m (o0 m) (o1 m) c main_arg9 (by decide)).trans ((W6_of m (o0 m) c main_arg9 (by decide)).trans ((W5_of m (o0 m) c main_arg9 (by decide)).trans ((W4_of m  c main_arg9 (by decide)).trans ((W3_of m  c main_arg9 (by decide)).trans ((W2_of m  c main_arg9 (by decide)).trans ((W1_of m  c main_arg9 (by decide)))))))))))))))))))
theorem W18_main_arg10 (c : Dev nD) : W18 m (o0 m) (o1 m) (o2 m) (o3 m) (o4 m) c main_arg10 = m ((c : Thread nD τ).loc main_arg10) :=
  (W18_of m (o0 m) (o1 m) (o2 m) (o3 m) (o4 m) c main_arg10 (by decide)).trans ((W17_of m (o0 m) (o1 m) (o2 m) (o3 m) (o4 m) c main_arg10 (by decide)).trans ((W16_of m (o0 m) (o1 m) (o2 m) (o3 m) c main_arg10 (by decide)).trans ((W15_of m (o0 m) (o1 m) (o2 m) (o3 m) c main_arg10 (by decide)).trans ((W14_of m (o0 m) (o1 m) (o2 m) (o3 m) c main_arg10 (by decide)).trans ((W13_of m (o0 m) (o1 m) (o2 m) (o3 m) c main_arg10 (by decide)).trans ((W12_of m (o0 m) (o1 m) (o2 m) c main_arg10 (by decide)).trans ((W11_of m (o0 m) (o1 m) (o2 m) c main_arg10 (by decide)).trans ((W10_of m (o0 m) (o1 m) c main_arg10 (by decide)).trans ((W9_of m (o0 m) (o1 m) c main_arg10 (by decide)).trans ((W8_of m (o0 m) (o1 m) c main_arg10 (by decide)).trans ((W7_of m (o0 m) (o1 m) c main_arg10 (by decide)).trans ((W6_of m (o0 m) c main_arg10 (by decide)).trans ((W5_of m (o0 m) c main_arg10 (by decide)).trans ((W4_of m  c main_arg10 (by decide)).trans ((W3_of m  c main_arg10 (by decide)).trans ((W2_of m  c main_arg10 (by decide)).trans ((W1_of m  c main_arg10 (by decide)))))))))))))))))))
theorem W18_main_arg11 (c : Dev nD) : W18 m (o0 m) (o1 m) (o2 m) (o3 m) (o4 m) c main_arg11 = m ((c : Thread nD τ).loc main_arg11) :=
  (W18_of m (o0 m) (o1 m) (o2 m) (o3 m) (o4 m) c main_arg11 (by decide)).trans ((W17_of m (o0 m) (o1 m) (o2 m) (o3 m) (o4 m) c main_arg11 (by decide)).trans ((W16_of m (o0 m) (o1 m) (o2 m) (o3 m) c main_arg11 (by decide)).trans ((W15_of m (o0 m) (o1 m) (o2 m) (o3 m) c main_arg11 (by decide)).trans ((W14_of m (o0 m) (o1 m) (o2 m) (o3 m) c main_arg11 (by decide)).trans ((W13_of m (o0 m) (o1 m) (o2 m) (o3 m) c main_arg11 (by decide)).trans ((W12_of m (o0 m) (o1 m) (o2 m) c main_arg11 (by decide)).trans ((W11_of m (o0 m) (o1 m) (o2 m) c main_arg11 (by decide)).trans ((W10_of m (o0 m) (o1 m) c main_arg11 (by decide)).trans ((W9_of m (o0 m) (o1 m) c main_arg11 (by decide)).trans ((W8_of m (o0 m) (o1 m) c main_arg11 (by decide)).trans ((W7_of m (o0 m) (o1 m) c main_arg11 (by decide)).trans ((W6_of m (o0 m) c main_arg11 (by decide)).trans ((W5_of m (o0 m) c main_arg11 (by decide)).trans ((W4_of m  c main_arg11 (by decide)).trans ((W3_of m  c main_arg11 (by decide)).trans ((W2_of m  c main_arg11 (by decide)).trans ((W1_of m  c main_arg11 (by decide)))))))))))))))))))
theorem W18_main_arg12 (c : Dev nD) : W18 m (o0 m) (o1 m) (o2 m) (o3 m) (o4 m) c main_arg12 = m ((c : Thread nD τ).loc main_arg12) :=
  (W18_of m (o0 m) (o1 m) (o2 m) (o3 m) (o4 m) c main_arg12 (by decide)).trans ((W17_of m (o0 m) (o1 m) (o2 m) (o3 m) (o4 m) c main_arg12 (by decide)).trans ((W16_of m (o0 m) (o1 m) (o2 m) (o3 m) c main_arg12 (by decide)).trans ((W15_of m (o0 m) (o1 m) (o2 m) (o3 m) c main_arg12 (by decide)).trans ((W14_of m (o0 m) (o1 m) (o2 m) (o3 m) c main_arg12 (by decide)).trans ((W13_of m (o0 m) (o1 m) (o2 m) (o3 m) c main_arg12 (by decide)).trans ((W12_of m (o0 m) (o1 m) (o2 m) c main_arg12 (by decide)).trans ((W11_of m (o0 m) (o1 m) (o2 m) c main_arg12 (by decide)).trans ((W10_of m (o0 m) (o1 m) c main_arg12 (by decide)).trans ((W9_of m (o0 m) (o1 m) c main_arg12 (by decide)).trans ((W8_of m (o0 m) (o1 m) c main_arg12 (by decide)).trans ((W7_of m (o0 m) (o1 m) c main_arg12 (by decide)).trans ((W6_of m (o0 m) c main_arg12 (by decide)).trans ((W5_of m (o0 m) c main_arg12 (by decide)).trans ((W4_of m  c main_arg12 (by decide)).trans ((W3_of m  c main_arg12 (by decide)).trans ((W2_of m  c main_arg12 (by decide)).trans ((W1_of m  c main_arg12 (by decide)))))))))))))))))))
theorem W18_main_arg13 (c : Dev nD) : W18 m (o0 m) (o1 m) (o2 m) (o3 m) (o4 m) c main_arg13 = m ((c : Thread nD τ).loc main_arg13) :=
  (W18_of m (o0 m) (o1 m) (o2 m) (o3 m) (o4 m) c main_arg13 (by decide)).trans ((W17_of m (o0 m) (o1 m) (o2 m) (o3 m) (o4 m) c main_arg13 (by decide)).trans ((W16_of m (o0 m) (o1 m) (o2 m) (o3 m) c main_arg13 (by decide)).trans ((W15_of m (o0 m) (o1 m) (o2 m) (o3 m) c main_arg13 (by decide)).trans ((W14_of m (o0 m) (o1 m) (o2 m) (o3 m) c main_arg13 (by decide)).trans ((W13_of m (o0 m) (o1 m) (o2 m) (o3 m) c main_arg13 (by decide)).trans ((W12_of m (o0 m) (o1 m) (o2 m) c main_arg13 (by decide)).trans ((W11_of m (o0 m) (o1 m) (o2 m) c main_arg13 (by decide)).trans ((W10_of m (o0 m) (o1 m) c main_arg13 (by decide)).trans ((W9_of m (o0 m) (o1 m) c main_arg13 (by decide)).trans ((W8_of m (o0 m) (o1 m) c main_arg13 (by decide)).trans ((W7_of m (o0 m) (o1 m) c main_arg13 (by decide)).trans ((W6_of m (o0 m) c main_arg13 (by decide)).trans ((W5_of m (o0 m) c main_arg13 (by decide)).trans ((W4_of m  c main_arg13 (by decide)).trans ((W3_of m  c main_arg13 (by decide)).trans ((W2_of m  c main_arg13 (by decide)).trans ((W1_of m  c main_arg13 (by decide)))))))))))))))))))

/-- info: 'Cert.Kernel.Hand.run_all' depends on axioms: [propext, Classical.choice, Quot.sound] -/
#guard_msgs in #print axioms run_all

end Cert.Kernel.Hand

end
-- ==== Proof.KernelTerms.lean ====
/-
  The kernel program's host side as pure terms, at any float instance: what each region finds in the arrays of its
  input windows, and what the four results hold at the end, each as ONE term of the launch contents of the
  arguments and of what the regions left (`O p`).  The host stretches are read by unfolding their operations; between
  stretches a buffer that no later item writes keeps its contents.
-/
import proofs.«153293_j29283087024787_2_alg».proof.Proof.Fold
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

/-! ## The host side's pieces, as functions -/

/-- The first embedding table padded with 200 rows of the converted integer zero. -/
def padA (a : FVec F S1000x128 .f32) : FVec F S1200x128 .f32 :=
  pad S1200x128 ![0, 0] ![200, 0] ![0, 0] a (sitofp .f32 (constantI S_ 32 0#32)) pads_S1000x128_S1200x128_02000_000 h_S_
/-- The second embedding table through its trivial pad. -/
def padB (b : FVec F S1200x128 .f32) : FVec F S1200x128 .f32 :=
  pad S1200x128 ![0, 0] ![0, 0] ![0, 0] b (sitofp .f32 (constantI S_ 32 0#32)) pads_S1200x128_S1200x128_000_000 h_S_
/-- An edge array viewed as 31250 rows of 128 lanes. -/
def rows (x : FVec F S4000000 .f32) : FVec F S31250x128 .f32 := shapeCast S31250x128 x shapeCasts_S4000000_S31250x128
/-- and back. -/
def flat (x : FVec F S31250x128 .f32) : FVec F S4000000 .f32 := shapeCast S4000000 x shapeCasts_S31250x128_S4000000
/-- The raw index array as one column. -/
def rawCol (h : IVec S4000000 32) : IVec S4000000x1 32 := broadcastInDim S4000000x1 ![0] bcast_S4000000_S4000000x1_0 h
/-- The index array with the node count added where negative, as one column. -/
def normCol (h : IVec S4000000 32) : IVec S4000000x1 32 :=
  broadcastInDim S4000000x1 ![0] bcast_S4000000_S4000000x1_0
    (select (cmpi .slt h (broadcastInDim S4000000 ![] bcast_S_S4000000 (constantI S_ 32 0#32)))
      (addi h (broadcastInDim S4000000 ![] bcast_S_S4000000 (constantI S_ 32 200000#32))) h)
/-- The edge weights summed per head node into zeros, padded to 200704 entries and viewed as 1568 rows of 128 lanes. -/
def degRows (v : FVec F S4000000 .f32) (h : IVec S4000000 32) : FVec F S1568x128 .f32 :=
  shapeCast S1568x128
    (pad S200704 ![0] ![704] ![0]
      (Host.scatterAdd scatter_S200000_S4000000x1_S4000000_n_0_0_1
        (broadcastInDim S200000 ![] bcast_S_S200000 (constant S_ .f32 0x00000000#32)) (rawCol h) v)
      (sitofp .f32 (constantI S_ 32 0#32)) pads_S200000_S200704_07040 h_S_)
    shapeCasts_S200704_S1568x128
/-- A 1568 × 128 array's first 200000 entries in row-major order. -/
def nodes (d : FVec F S1568x128 .f32) : FVec F S200000 .f32 :=
  extractStridedSlice S200000 ![0] (shapeCast S200704 d shapeCasts_S1568x128_S200704) slices_S200704_S200000_0
/-- The adjacency values: each edge weight times the node factor gathered at its head and at its tail, then the
    diagonal values. -/
def adjOut (v : FVec F S4000000 .f32) (dA dB : FVec F S1568x128 .f32) (h t : IVec S4000000 32) : FVec F S4200000 .f32 :=
  concatenate S4200000 0
    [⟨S4000000, mulf (mulf v (Host.gather gather_S200000_S4000000x1_S4000000_n_0_n_n_0_1_1 (nodes dA) (normCol h)))
        (Host.gather gather_S200000_S4000000x1_S4000000_n_0_n_n_0_1_1 (nodes dA) (normCol t))⟩,
     ⟨S200000, nodes dB⟩] concatenates_S4000000_S200000_S4200000_d0
/-- A one-row array as a vector, and its first 1000 entries. -/
def row1200 (x : FVec F S1x1200 .f32) : FVec F S1200 .f32 := shapeCast S1200 x shapeCasts_S1x1200_S1200
def first1000 (x : FVec F S1200 .f32) : FVec F S1000 .f32 := extractStridedSlice S1000 ![0] x slices_S1200_S1000_0

/-! ## The host stretches from any contents -/

section Stretch
variable (X : Valuation τ sig (Elt F))

theorem s0_v0 : StableHlo.after hostOps0_3 (StableHlo.after hostOps0_2 (StableHlo.after hostOps0_1 (StableHlo.after hostOps0 X))) (Proc.devRef .tc main_v0) = padA (X (Proc.devRef .tc main_arg0)) := by
  after_results; rfl
theorem s0_v1 : StableHlo.after hostOps0_3 (StableHlo.after hostOps0_2 (StableHlo.after hostOps0_1 (StableHlo.after hostOps0 X))) (Proc.devRef .tc main_v1) = padB (X (Proc.devRef .tc main_arg1)) := by
  after_results; rfl
theorem s1_v4 : StableHlo.after hostOps1 X (Proc.devRef .tc main_v4) = first1000 (row1200 (X (Proc.devRef .tc main_v2_0))) := by
  after_results; rfl
theorem s1_v5 : StableHlo.after hostOps1 X (Proc.devRef .tc main_v5) = row1200 (X (Proc.devRef .tc main_v2_1)) := by
  after_results; rfl
theorem s1_v6 : StableHlo.after hostOps1 X (Proc.devRef .tc main_v6) = rows (X (Proc.devRef .tc main_arg2)) := by
  after_results; rfl
theorem s1_v7 : StableHlo.after hostOps1 X (Proc.devRef .tc main_v7) = rows (X (Proc.devRef .tc main_arg3)) := by
  after_results; rfl
theorem s1_v8 : StableHlo.after hostOps1 X (Proc.devRef .tc main_v8) = rows (X (Proc.devRef .tc main_arg4)) := by
  after_results; rfl
theorem s2_v10 : StableHlo.after hostOps2_2 (StableHlo.after hostOps2_1 (StableHlo.after hostOps2 X)) (Proc.devRef .tc main_v10) = flat (X (Proc.devRef .tc main_v9)) := by
  after_results; rfl
theorem s2_v15 : StableHlo.after hostOps2_2 (StableHlo.after hostOps2_1 (StableHlo.after hostOps2 X)) (Proc.devRef .tc main_v15) = degRows (flat (X (Proc.devRef .tc main_v9))) (X (Proc.devRef .tc main_arg8)) := by
  after_results; rfl
set_option maxHeartbeats 4000000 in
theorem s3_v37 : StableHlo.after hostOps3 X (Proc.devRef .tc main_v37) = adjOut (X (Proc.devRef .tc main_v10)) (X (Proc.devRef .tc main_v16_0)) (X (Proc.devRef .tc main_v16_1)) (X (Proc.devRef .tc main_arg8)) (X (Proc.devRef .tc main_arg9)) := by
  after_results_simp
  unfold adjOut nodes normCol
  rfl
theorem s3_v38 : StableHlo.after hostOps3 X (Proc.devRef .tc main_v38) = rows (X (Proc.devRef .tc main_arg5)) := by
  after_results; rfl
theorem s3_v39 : StableHlo.after hostOps3 X (Proc.devRef .tc main_v39) = rows (X (Proc.devRef .tc main_arg6)) := by
  after_results; rfl
theorem s3_v40 : StableHlo.after hostOps3 X (Proc.devRef .tc main_v40) = rows (X (Proc.devRef .tc main_arg7)) := by
  after_results; rfl
theorem s4_v42 : StableHlo.after hostOps4_2 (StableHlo.after hostOps4_1 (StableHlo.after hostOps4 X)) (Proc.devRef .tc main_v42) = flat (X (Proc.devRef .tc main_v41)) := by
  after_results; rfl
theorem s4_v47 : StableHlo.after hostOps4_2 (StableHlo.after hostOps4_1 (StableHlo.after hostOps4 X)) (Proc.devRef .tc main_v47) = degRows (flat (X (Proc.devRef .tc main_v41))) (X (Proc.devRef .tc main_arg11)) := by
  after_results; rfl
set_option maxHeartbeats 4000000 in
theorem s5_v69 : StableHlo.after hostOps5 X (Proc.devRef .tc main_v69) = adjOut (X (Proc.devRef .tc main_v42)) (X (Proc.devRef .tc main_v48_0)) (X (Proc.devRef .tc main_v48_1)) (X (Proc.devRef .tc main_arg11)) (X (Proc.devRef .tc main_arg12)) := by
  after_results_simp
  unfold adjOut nodes normCol
  rfl

end Stretch

end Cert.KernelIdeal.Hand

end
-- ==== Proof.Results.lean ====
/-
  The kernel program's four results at the end of the run, as closed terms of the argument arrays — given, for each
  region, what it leaves in its output arrays as a function of what it finds in its input arrays (hypotheses here:
  the regions' own modules prove them).  Every step is either a host stretch read from the contents before it, or a
  buffer no later item writes keeping its contents.
-/
import proofs.«153293_j29283087024787_2_alg».proof.Proof.KernelTerms
import proofs.«153293_j29283087024787_2_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ)
variable (O0 : Out0 (F := F)) (O1 : Out1 (F := F)) (O2 : Out2 (F := F)) (O3 : Out3 (F := F)) (O4 : Out4 (F := F))

/-- Region 0 finds the two embedding tables padded. -/
theorem entry_v0 (c : Dev nD) : W4 m c main_v0 = padA (m ((c : Thread nD τ).loc main_arg0)) := s0_v0 (W0 m c)
theorem entry_v1 (c : Dev nD) : W4 m c main_v1 = padB (m ((c : Thread nD τ).loc main_arg1)) := s0_v1 (W0 m c)

/-- The row maxima, cut to the first table's 1000 rows. -/
theorem res_main_v4 (c : Dev nD) (h02 : O0 c 2 = k0_pay2 (W4 m c main_v0) (W4 m c main_v1)) :
    W18 m O0 O1 O2 O3 O4 c main_v4 = first1000 (row1200 (k0_pay2 (padA (m ((c : Thread nD τ).loc main_arg0))) (padB (m ((c : Thread nD τ).loc main_arg1))))) := by
  have e : W5 m O0 c main_v2_0 = k0_pay2 (padA (m ((c : Thread nD τ).loc main_arg0))) (padB (m ((c : Thread nD τ).loc main_arg1))) := by
    refine (show W5 m O0 c main_v2_0 = O0 c 2 from W5_arr m O0 c 2).trans ?_
    rw [h02, entry_v0, entry_v1]
  refine ((W18_of m O0 O1 O2 O3 O4 c main_v4 (by decide)).trans ((W17_of m O0 O1 O2 O3 O4 c main_v4 (by decide)).trans ((W16_of m O0 O1 O2 O3 c main_v4 (by decide)).trans ((W15_of m O0 O1 O2 O3 c main_v4 (by decide)).trans ((W14_of m O0 O1 O2 O3 c main_v4 (by decide)).trans ((W13_of m O0 O1 O2 O3 c main_v4 (by decide)).trans ((W12_of m O0 O1 O2 c main_v4 (by decide)).trans ((W11_of m O0 O1 O2 c main_v4 (by decide)).trans ((W10_of m O0 O1 c main_v4 (by decide)).trans ((W9_of m O0 O1 c main_v4 (by decide)).trans ((W8_of m O0 O1 c main_v4 (by decide)).trans ((W7_of m O0 O1 c main_v4 (by decide)))))))))))))).trans ?_
  refine (s1_v4 (W5 m O0 c)).trans ?_
  rw [e]

/-- The column maxima. -/
theorem res_main_v5 (c : Dev nD) (h03 : O0 c 3 = k0_pay3 (W4 m c main_v0) (W4 m c main_v1)) :
    W18 m O0 O1 O2 O3 O4 c main_v5 = row1200 (k0_pay3 (padA (m ((c : Thread nD τ).loc main_arg0))) (padB (m ((c : Thread nD τ).loc main_arg1)))) := by
  have e : W5 m O0 c main_v2_1 = k0_pay3 (padA (m ((c : Thread nD τ).loc main_arg0))) (padB (m ((c : Thread nD τ).loc main_arg1))) := by
    refine (show W5 m O0 c main_v2_1 = O0 c 3 from W5_arr m O0 c 3).trans ?_
    rw [h03, entry_v0, entry_v1]
  refine ((W18_of m O0 O1 O2 O3 O4 c main_v5 (by decide)).trans ((W17_of m O0 O1 O2 O3 O4 c main_v5 (by decide)).trans ((W16_of m O0 O1 O2 O3 c main_v5 (by decide)).trans ((W15_of m O0 O1 O2 O3 c main_v5 (by decide)).trans ((W14_of m O0 O1 O2 O3 c main_v5 (by decide)).trans ((W13_of m O0 O1 O2 O3 c main_v5 (by decide)).trans ((W12_of m O0 O1 O2 c main_v5 (by decide)).trans ((W11_of m O0 O1 O2 c main_v5 (by decide)).trans ((W10_of m O0 O1 c main_v5 (by decide)).trans ((W9_of m O0 O1 c main_v5 (by decide)).trans ((W8_of m O0 O1 c main_v5 (by decide)).trans ((W7_of m O0 O1 c main_v5 (by decide)))))))))))))).trans ?_
  refine (s1_v5 (W5 m O0 c)).trans ?_
  rw [e]

/-- The source side's result: the adjacency term of the three factor arrays and the head and tail index arrays. -/
theorem res_main_v37 (c : Dev nD)
    (h1 : O1 c 3 = mulf (mulf (W6 m O0 c main_v6) (W6 m O0 c main_v7)) (W6 m O0 c main_v8))
    (h21 : O2 c 1 = k2_pay1 (W10 m O0 O1 c main_v15))
    (h22 : O2 c 2 = k2_pay2 (W10 m O0 O1 c main_v15)) :
    W18 m O0 O1 O2 O3 O4 c main_v37 = adjOut (flat (mulf (mulf (rows (m ((c : Thread nD τ).loc main_arg2))) (rows (m ((c : Thread nD τ).loc main_arg3)))) (rows (m ((c : Thread nD τ).loc main_arg4))))) (k2_pay1 (degRows (flat (mulf (mulf (rows (m ((c : Thread nD τ).loc main_arg2))) (rows (m ((c : Thread nD τ).loc main_arg3)))) (rows (m ((c : Thread nD τ).loc main_arg4))))) (m ((c : Thread nD τ).loc main_arg8)))) (k2_pay2 (degRows (flat (mulf (mulf (rows (m ((c : Thread nD τ).loc main_arg2))) (rows (m ((c : Thread nD τ).loc main_arg3)))) (rows (m ((c : Thread nD τ).loc main_arg4))))) (m ((c : Thread nD τ).loc main_arg8)))) (m ((c : Thread nD τ).loc main_arg8)) (m ((c : Thread nD τ).loc main_arg9)) := by
  have e6 : W6 m O0 c main_v6 = rows (m ((c : Thread nD τ).loc main_arg2)) :=
    (s1_v6 (W5 m O0 c)).trans (congrArg rows ((W5_of m O0 c main_arg2 (by decide)).trans ((W4_of m  c main_arg2 (by decide)).trans ((W3_of m  c main_arg2 (by decide)).trans ((W2_of m  c main_arg2 (by decide)).trans ((W1_of m  c main_arg2 (by decide))))))))
  have e7 : W6 m O0 c main_v7 = rows (m ((c : Thread nD τ).loc main_arg3)) :=
    (s1_v7 (W5 m O0 c)).trans (congrArg rows ((W5_of m O0 c main_arg3 (by decide)).trans ((W4_of m  c main_arg3 (by decide)).trans ((W3_of m  c main_arg3 (by decide)).trans ((W2_of m  c main_arg3 (by decide)).trans ((W1_of m  c main_arg3 (by decide))))))))
  have e8 : W6 m O0 c main_v8 = rows (m ((c : Thread nD τ).loc main_arg4)) :=
    (s1_v8 (W5 m O0 c)).trans (congrArg rows ((W5_of m O0 c main_arg4 (by decide)).trans ((W4_of m  c main_arg4 (by decide)).trans ((W3_of m  c main_arg4 (by decide)).trans ((W2_of m  c main_arg4 (by decide)).trans ((W1_of m  c main_arg4 (by decide))))))))
  have e9 : W7 m O0 O1 c main_v9 = mulf (mulf (rows (m ((c : Thread nD τ).loc main_arg2))) (rows (m ((c : Thread nD τ).loc main_arg3)))) (rows (m ((c : Thread nD τ).loc main_arg4))) := by
    refine (show W7 m O0 O1 c main_v9 = O1 c 3 from W7_arr m O0 O1 c 3).trans ?_
    rw [h1, e6, e7, e8]
  have eh : W7 m O0 O1 c main_arg8 = (m ((c : Thread nD τ).loc main_arg8)) := (W7_of m O0 O1 c main_arg8 (by decide)).trans ((W6_of m O0 c main_arg8 (by decide)).trans ((W5_of m O0 c main_arg8 (by decide)).trans ((W4_of m  c main_arg8 (by decide)).trans ((W3_of m  c main_arg8 (by decide)).trans ((W2_of m  c main_arg8 (by decide)).trans ((W1_of m  c main_arg8 (by decide))))))))
  have e10 : W10 m O0 O1 c main_v10 = (flat (mulf (mulf (rows (m ((c : Thread nD τ).loc main_arg2))) (rows (m ((c : Thread nD τ).loc main_arg3)))) (rows (m ((c : Thread nD τ).loc main_arg4))))) :=
    (s2_v10 (W7 m O0 O1 c)).trans (congrArg flat e9)
  have e15 : W10 m O0 O1 c main_v15 = (degRows (flat (mulf (mulf (rows (m ((c : Thread nD τ).loc main_arg2))) (rows (m ((c : Thread nD τ).loc main_arg3)))) (rows (m ((c : Thread nD τ).loc main_arg4))))) (m ((c : Thread nD τ).loc main_arg8))) := by
    refine (s2_v15 (W7 m O0 O1 c)).trans ?_
    rw [e9, eh]
  have ed0 : W11 m O0 O1 O2 c main_v16_0 = k2_pay1 (degRows (flat (mulf (mulf (rows (m ((c : Thread nD τ).loc main_arg2))) (rows (m ((c : Thread nD τ).loc main_arg3)))) (rows (m ((c : Thread nD τ).loc main_arg4))))) (m ((c : Thread nD τ).loc main_arg8))) := by
    refine (show W11 m O0 O1 O2 c main_v16_0 = O2 c 1 from W11_arr m O0 O1 O2 c 1).trans ?_
    rw [h21, e15]
  have ed1 : W11 m O0 O1 O2 c main_v16_1 = k2_pay2 (degRows (flat (mulf (mulf (rows (m ((c : Thread nD τ).loc main_arg2))) (rows (m ((c : Thread nD τ).loc main_arg3)))) (rows (m ((c : Thread nD τ).loc main_arg4))))) (m ((c : Thread nD τ).loc main_arg8))) := by
    refine (show W11 m O0 O1 O2 c main_v16_1 = O2 c 2 from W11_arr m O0 O1 O2 c 2).trans ?_
    rw [h22, e15]
  have e10' : W11 m O0 O1 O2 c main_v10 = (flat (mulf (mulf (rows (m ((c : Thread nD τ).loc main_arg2))) (rows (m ((c : Thread nD τ).loc main_arg3)))) (rows (m ((c : Thread nD τ).loc main_arg4))))) := (W11_of m O0 O1 O2 c main_v10 (by decide)).trans e10
  have eh' : W11 m O0 O1 O2 c main_arg8 = (m ((c : Thread nD τ).loc main_arg8)) := (W11_of m O0 O1 O2 c main_arg8 (by decide)).trans ((W10_of m O0 O1 c main_arg8 (by decide)).trans ((W9_of m O0 O1 c main_arg8 (by decide)).trans ((W8_of m O0 O1 c main_arg8 (by decide)).trans ((W7_of m O0 O1 c main_arg8 (by decide)).trans ((W6_of m O0 c main_arg8 (by decide)).trans ((W5_of m O0 c main_arg8 (by decide)).trans ((W4_of m  c main_arg8 (by decide)).trans ((W3_of m  c main_arg8 (by decide)).trans ((W2_of m  c main_arg8 (by decide)).trans ((W1_of m  c main_arg8 (by decide))))))))))))
  have et' : W11 m O0 O1 O2 c main_arg9 = (m ((c : Thread nD τ).loc main_arg9)) := (W11_of m O0 O1 O2 c main_arg9 (by decide)).trans ((W10_of m O0 O1 c main_arg9 (by decide)).trans ((W9_of m O0 O1 c main_arg9 (by decide)).trans ((W8_of m O0 O1 c main_arg9 (by decide)).trans ((W7_of m O0 O1 c main_arg9 (by decide)).trans ((W6_of m O0 c main_arg9 (by decide)).trans ((W5_of m O0 c main_arg9 (by decide)).trans ((W4_of m  c main_arg9 (by decide)).trans ((W3_of m  c main_arg9 (by decide)).trans ((W2_of m  c main_arg9 (by decide)).trans ((W1_of m  c main_arg9 (by decide))))))))))))
  refine ((W18_of m O0 O1 O2 O3 O4 c main_v37 (by decide)).trans ((W17_of m O0 O1 O2 O3 O4 c main_v37 (by decide)).trans ((W16_of m O0 O1 O2 O3 c main_v37 (by decide)).trans ((W15_of m O0 O1 O2 O3 c main_v37 (by decide)).trans ((W14_of m O0 O1 O2 O3 c main_v37 (by decide)).trans ((W13_of m O0 O1 O2 O3 c main_v37 (by decide)))))))).trans ?_
  refine (s3_v37 (W11 m O0 O1 O2 c)).trans ?_
  rw [e10', ed0, ed1, eh', et']

/-- The target side's result: the adjacency term of the three factor arrays and the head and tail index arrays. -/
theorem res_main_v69 (c : Dev nD)
    (h3 : O3 c 3 = mulf (mulf (W12 m O0 O1 O2 c main_v38) (W12 m O0 O1 O2 c main_v39)) (W12 m O0 O1 O2 c main_v40))
    (h41 : O4 c 1 = k4_pay1 (W16 m O0 O1 O2 O3 c main_v47))
    (h42 : O4 c 2 = k4_pay2 (W16 m O0 O1 O2 O3 c main_v47)) :
    W18 m O0 O1 O2 O3 O4 c main_v69 = adjOut (flat (mulf (mulf (rows (m ((c : Thread nD τ).loc main_arg5))) (rows (m ((c : Thread nD τ).loc main_arg6)))) (rows (m ((c : Thread nD τ).loc main_arg7))))) (k4_pay1 (degRows (flat (mulf (mulf (rows (m ((c : Thread nD τ).loc main_arg5))) (rows (m ((c : Thread nD τ).loc main_arg6)))) (rows (m ((c : Thread nD τ).loc main_arg7))))) (m ((c : Thread nD τ).loc main_arg11)))) (k4_pay2 (degRows (flat (mulf (mulf (rows (m ((c : Thread nD τ).loc main_arg5))) (rows (m ((c : Thread nD τ).loc main_arg6)))) (rows (m ((c : Thread nD τ).loc main_arg7))))) (m ((c : Thread nD τ).loc main_arg11)))) (m ((c : Thread nD τ).loc main_arg11)) (m ((c : Thread nD τ).loc main_arg12)) := by
  have e6 : W12 m O0 O1 O2 c main_v38 = rows (m ((c : Thread nD τ).loc main_arg5)) :=
    (s3_v38 (W11 m O0 O1 O2 c)).trans (congrArg rows ((W11_of m O0 O1 O2 c main_arg5 (by decide)).trans ((W10_of m O0 O1 c main_arg5 (by decide)).trans ((W9_of m O0 O1 c main_arg5 (by decide)).trans ((W8_of m O0 O1 c main_arg5 (by decide)).trans ((W7_of m O0 O1 c main_arg5 (by decide)).trans ((W6_of m O0 c main_arg5 (by decide)).trans ((W5_of m O0 c main_arg5 (by decide)).trans ((W4_of m  c main_arg5 (by decide)).trans ((W3_of m  c main_arg5 (by decide)).trans ((W2_of m  c main_arg5 (by decide)).trans ((W1_of m  c main_arg5 (by decide))))))))))))))
  have e7 : W12 m O0 O1 O2 c main_v39 = rows (m ((c : Thread nD τ).loc main_arg6)) :=
    (s3_v39 (W11 m O0 O1 O2 c)).trans (congrArg rows ((W11_of m O0 O1 O2 c main_arg6 (by decide)).trans ((W10_of m O0 O1 c main_arg6 (by decide)).trans ((W9_of m O0 O1 c main_arg6 (by decide)).trans ((W8_of m O0 O1 c main_arg6 (by decide)).trans ((W7_of m O0 O1 c main_arg6 (by decide)).trans ((W6_of m O0 c main_arg6 (by decide)).trans ((W5_of m O0 c main_arg6 (by decide)).trans ((W4_of m  c main_arg6 (by decide)).trans ((W3_of m  c main_arg6 (by decide)).trans ((W2_of m  c main_arg6 (by decide)).trans ((W1_of m  c main_arg6 (by decide))))))))))))))
  have e8 : W12 m O0 O1 O2 c main_v40 = rows (m ((c : Thread nD τ).loc main_arg7)) :=
    (s3_v40 (W11 m O0 O1 O2 c)).trans (congrArg rows ((W11_of m O0 O1 O2 c main_arg7 (by decide)).trans ((W10_of m O0 O1 c main_arg7 (by decide)).trans ((W9_of m O0 O1 c main_arg7 (by decide)).trans ((W8_of m O0 O1 c main_arg7 (by decide)).trans ((W7_of m O0 O1 c main_arg7 (by decide)).trans ((W6_of m O0 c main_arg7 (by decide)).trans ((W5_of m O0 c main_arg7 (by decide)).trans ((W4_of m  c main_arg7 (by decide)).trans ((W3_of m  c main_arg7 (by decide)).trans ((W2_of m  c main_arg7 (by decide)).trans ((W1_of m  c main_arg7 (by decide))))))))))))))
  have e9 : W13 m O0 O1 O2 O3 c main_v41 = mulf (mulf (rows (m ((c : Thread nD τ).loc main_arg5))) (rows (m ((c : Thread nD τ).loc main_arg6)))) (rows (m ((c : Thread nD τ).loc main_arg7))) := by
    refine (show W13 m O0 O1 O2 O3 c main_v41 = O3 c 3 from W13_arr m O0 O1 O2 O3 c 3).trans ?_
    rw [h3, e6, e7, e8]
  have eh : W13 m O0 O1 O2 O3 c main_arg11 = (m ((c : Thread nD τ).loc main_arg11)) := (W13_of m O0 O1 O2 O3 c main_arg11 (by decide)).trans ((W12_of m O0 O1 O2 c main_arg11 (by decide)).trans ((W11_of m O0 O1 O2 c main_arg11 (by decide)).trans ((W10_of m O0 O1 c main_arg11 (by decide)).trans ((W9_of m O0 O1 c main_arg11 (by decide)).trans ((W8_of m O0 O1 c main_arg11 (by decide)).trans ((W7_of m O0 O1 c main_arg11 (by decide)).trans ((W6_of m O0 c main_arg11 (by decide)).trans ((W5_of m O0 c main_arg11 (by decide)).trans ((W4_of m  c main_arg11 (by decide)).trans ((W3_of m  c main_arg11 (by decide)).trans ((W2_of m  c main_arg11 (by decide)).trans ((W1_of m  c main_arg11 (by decide))))))))))))))
  have e10 : W16 m O0 O1 O2 O3 c main_v42 = (flat (mulf (mulf (rows (m ((c : Thread nD τ).loc main_arg5))) (rows (m ((c : Thread nD τ).loc main_arg6)))) (rows (m ((c : Thread nD τ).loc main_arg7))))) :=
    (s4_v42 (W13 m O0 O1 O2 O3 c)).trans (congrArg flat e9)
  have e15 : W16 m O0 O1 O2 O3 c main_v47 = (degRows (flat (mulf (mulf (rows (m ((c : Thread nD τ).loc main_arg5))) (rows (m ((c : Thread nD τ).loc main_arg6)))) (rows (m ((c : Thread nD τ).loc main_arg7))))) (m ((c : Thread nD τ).loc main_arg11))) := by
    refine (s4_v47 (W13 m O0 O1 O2 O3 c)).trans ?_
    rw [e9, eh]
  have ed0 : W17 m O0 O1 O2 O3 O4 c main_v48_0 = k4_pay1 (degRows (flat (mulf (mulf (rows (m ((c : Thread nD τ).loc main_arg5))) (rows (m ((c : Thread nD τ).loc main_arg6)))) (rows (m ((c : Thread nD τ).loc main_arg7))))) (m ((c : Thread nD τ).loc main_arg11))) := by
    refine (show W17 m O0 O1 O2 O3 O4 c main_v48_0 = O4 c 1 from W17_arr m O0 O1 O2 O3 O4 c 1).trans ?_
    rw [h41, e15]
  have ed1 : W17 m O0 O1 O2 O3 O4 c main_v48_1 = k4_pay2 (degRows (flat (mulf (mulf (rows (m ((c : Thread nD τ).loc main_arg5))) (rows (m ((c : Thread nD τ).loc main_arg6)))) (rows (m ((c : Thread nD τ).loc main_arg7))))) (m ((c : Thread nD τ).loc main_arg11))) := by
    refine (show W17 m O0 O1 O2 O3 O4 c main_v48_1 = O4 c 2 from W17_arr m O0 O1 O2 O3 O4 c 2).trans ?_
    rw [h42, e15]
  have e10' : W17 m O0 O1 O2 O3 O4 c main_v42 = (flat (mulf (mulf (rows (m ((c : Thread nD τ).loc main_arg5))) (rows (m ((c : Thread nD τ).loc main_arg6)))) (rows (m ((c : Thread nD τ).loc main_arg7))))) := (W17_of m O0 O1 O2 O3 O4 c main_v42 (by decide)).trans e10
  have eh' : W17 m O0 O1 O2 O3 O4 c main_arg11 = (m ((c : Thread nD τ).loc main_arg11)) := (W17_of m O0 O1 O2 O3 O4 c main_arg11 (by decide)).trans ((W16_of m O0 O1 O2 O3 c main_arg11 (by decide)).trans ((W15_of m O0 O1 O2 O3 c main_arg11 (by decide)).trans ((W14_of m O0 O1 O2 O3 c main_arg11 (by decide)).trans ((W13_of m O0 O1 O2 O3 c main_arg11 (by decide)).trans ((W12_of m O0 O1 O2 c main_arg11 (by decide)).trans ((W11_of m O0 O1 O2 c main_arg11 (by decide)).trans ((W10_of m O0 O1 c main_arg11 (by decide)).trans ((W9_of m O0 O1 c main_arg11 (by decide)).trans ((W8_of m O0 O1 c main_arg11 (by decide)).trans ((W7_of m O0 O1 c main_arg11 (by decide)).trans ((W6_of m O0 c main_arg11 (by decide)).trans ((W5_of m O0 c main_arg11 (by decide)).trans ((W4_of m  c main_arg11 (by decide)).trans ((W3_of m  c main_arg11 (by decide)).trans ((W2_of m  c main_arg11 (by decide)).trans ((W1_of m  c main_arg11 (by decide))))))))))))))))))
  have et' : W17 m O0 O1 O2 O3 O4 c main_arg12 = (m ((c : Thread nD τ).loc main_arg12)) := (W17_of m O0 O1 O2 O3 O4 c main_arg12 (by decide)).trans ((W16_of m O0 O1 O2 O3 c main_arg12 (by decide)).trans ((W15_of m O0 O1 O2 O3 c main_arg12 (by decide)).trans ((W14_of m O0 O1 O2 O3 c main_arg12 (by decide)).trans ((W13_of m O0 O1 O2 O3 c main_arg12 (by decide)).trans ((W12_of m O0 O1 O2 c main_arg12 (by decide)).trans ((W11_of m O0 O1 O2 c main_arg12 (by decide)).trans ((W10_of m O0 O1 c main_arg12 (by decide)).trans ((W9_of m O0 O1 c main_arg12 (by decide)).trans ((W8_of m O0 O1 c main_arg12 (by decide)).trans ((W7_of m O0 O1 c main_arg12 (by decide)).trans ((W6_of m O0 c main_arg12 (by decide)).trans ((W5_of m O0 c main_arg12 (by decide)).trans ((W4_of m  c main_arg12 (by decide)).trans ((W3_of m  c main_arg12 (by decide)).trans ((W2_of m  c main_arg12 (by decide)).trans ((W1_of m  c main_arg12 (by decide))))))))))))))))))
  refine (rfl).trans ?_
  refine (s5_v69 (W17 m O0 O1 O2 O3 O4 c)).trans ?_
  rw [e10', ed0, ed1, eh', et']

end Cert.KernelIdeal.Hand

end
-- ==== Proof.LibEdgeRows.lean ====
/-
  Row gathers and row scatter-adds along the leading axis, read at coordinate indices.

  An edge list of extent `E` names, per edge `e`, one start index `idx[e, 0]` into a node axis of extent `N`.
  * A gather of whole rows of an `[N, C]` array (or of entries of an `[N]` vector) reads, at edge `e`, the row
    `rowOf N idx e`: the start index read as a signed integer and clamped into `[0, N − 1]`.
  * An accumulating scatter of the rows of an `[E, C]` array (or of the entries of an `[E]` vector) into an `[N, C]`
    array (an `[N]` vector) adds row `e` at the row `landsOf N idx e`: the start index read as a signed integer when it
    lies in `[0, N)`, and nowhere otherwise (the update is dropped). On the extended reals the result at `(n, k)` is the
    operand there plus the sum over the edges landing on `n` of their entries in column `k`.
  The row maps depend only on the index array and on `N`, not on the row width `C`: the same `rowOf` and `landsOf` serve
  arrays of every width over one node axis.
-/
import Idealize.ShloMosaic.Lib.ValueIdx
import Idealize.ShloMosaic.PureOps.Ideal

noncomputable section

namespace Idealize.ShloMosaic.EdgeRows

open Idealize.ShloMosaic Idealize.ShloMosaic.ValueIdx

variable {α : Type}

/-- The index-array entry `[e, 0]`. -/
abbrev edgeAt {E : Nat} (e : Fin E) : (⟨2, ![E, 1]⟩ : Shape).Idx := ix2 e (⟨0, Nat.one_pos⟩ : Fin 1)

/-- The row a gather reads for edge `e`: the start index, signed, clamped into `[0, N − 1]`. -/
def rowOf (N : Nat) (hN : 0 < N) {E w : Nat} (idx : IVec ⟨2, ![E, 1]⟩ w) (e : Fin E) : Fin N :=
  ⟨min (idx (edgeAt e)).toInt.toNat (N - 1), by omega⟩

/-- The row an accumulating scatter adds edge `e`'s update to: the start index, signed, when inside `[0, N)`. -/
def landsOf (N : Nat) {E w : Nat} (idx : IVec ⟨2, ![E, 1]⟩ w) (e : Fin E) : Option (Fin N) :=
  if h : 0 ≤ (idx (edgeAt e)).toInt ∧ (idx (edgeAt e)).toInt < (N : Int) then
    some ⟨(idx (edgeAt e)).toInt.toNat, by omega⟩
  else none

/-- The dimension numbers of a gather of whole rows: operand `[N, C]`, start indices `[E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The dimension numbers of a gather of entries of a vector: operand `[N]`, start indices `[E, 1]`, result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The dimension numbers of a scatter of whole rows: operand `[N, C]`, scatter indices `[E, 1]`, updates `[E, C]`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The dimension numbers of a scatter of entries: operand `[N]`, scatter indices `[E, 1]`, updates `[E]`. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A row gather read at `(e, k)`: the operand at row `rowOf N idx e`, column `k`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k) = x (ix2 (rowOf N hN idx e) k) := by
  unfold Host.gather
  congr 1
  funext a
  refine Fin.ext ?_
  show (rowGatherDims N E C wf).start (ix2 e k) idx a + (rowGatherDims N E C wf).batchCoord (ix2 e k) a
    + (rowGatherDims N E C wf).offCoord (ix2 e k) a = _
  rw [GatherDims.batchCoord_eq_zero _ _ _ List.not_mem_nil]
  simp only [Nat.add_zero]
  match a with
  | ⟨0, _⟩ =>
    -- the collapsed node axis: the clamped start index, no offset
    rw [GatherDims.offCoord_eq_zero _ _ _ (fun h => ((GatherDims.mem_sKept _ _).mp h).1 (List.mem_singleton.mpr rfl))]
    simp only [Nat.add_zero]
    unfold GatherDims.start
    rw [dif_pos (show (⟨0, by omega⟩ : Fin 2) ∈ (rowGatherDims N E C wf).startIndexMap from List.mem_singleton.mpr rfl)]
    have hsi : (rowGatherDims N E C wf).siIdx (ix2 e k) ⟨List.idxOf (⟨0, by omega⟩ : Fin 2) (rowGatherDims N E C wf).startIndexMap,
        List.idxOf_lt_length_iff.2 (List.mem_singleton.mpr rfl)⟩ = edgeAt e := by
      funext b; refine Fin.ext ?_
      match b with
      | ⟨0, _⟩ => rfl
      | ⟨1, _⟩ => rfl
    rw [hsi]
    rfl
  | ⟨1, _⟩ =>
    -- the full-width column axis: start 0, the offset is the column coordinate
    unfold GatherDims.start
    have h1 : (⟨1, by omega⟩ : Fin 2) ∉ (rowGatherDims N E C wf).startIndexMap := fun h =>
      absurd (congrArg Fin.val (List.mem_singleton.mp h)) Nat.one_ne_zero
    have h1' : (⟨1, by omega⟩ : Fin 2) ∉ (rowGatherDims N E C wf).collapsedSliceDims := fun h =>
      absurd (congrArg Fin.val (List.mem_singleton.mp h)) Nat.one_ne_zero
    rw [dif_neg h1]
    unfold GatherDims.offCoord
    rw [dif_pos ((GatherDims.mem_sKept _ _).mpr ⟨h1', List.not_mem_nil⟩), Nat.zero_add]
    -- the one offset axis of the result is its axis 1, whatever position is looked up
    have hget : ∀ (i : Nat) (h : i < (rowGatherDims N E C wf).offsetDims.length),
        (rowGatherDims N E C wf).offsetDims[i] = ⟨1, by omega⟩ := by
      intro i h
      obtain rfl : i = 0 := Nat.lt_one_iff.mp h
      rfl
    rw [hget]

/-- A gather of vector entries read at `e`: the operand at `rowOf N idx e`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (rowOf N hN idx e)) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = edgeAt e := by
    funext b; refine Fin.ext ?_
    match b with
    | ⟨0, _⟩ => rfl
    | ⟨1, _⟩ => rfl
  rw [hsi]
  rfl

/-- An axis is among the kept ones exactly when it is not among the removed ones. -/
theorem mem_kept_iff {s : Shape} (axes : List (Fin s.rank)) (a : Fin s.rank) : a ∈ s.kept axes ↔ a ∉ axes := by
  simp [Shape.kept, List.mem_filter, List.mem_finRange]

/-- Where the update at `(e, k')` of a row scatter lands: on the row `landsOf N idx e`, in the same column `k'`. -/
theorem rowScatter_resultIdx? {N E C w : Nat}
    (wf : ScatterDims.WF ⟨2, ![N, C]⟩ ⟨2, ![E, 1]⟩ ⟨2, ![E, C]⟩ [1] [0] [0] 1)
    (idx : IVec ⟨2, ![E, 1]⟩ w) (e : Fin E) (k' : Fin C) :
    (rowScatterDims N E C wf).resultIdx? (ix2 e k') idx = (landsOf N idx e).map (fun n => ix2 n k') := by
  have m0 : (⟨0, by omega⟩ : Fin 2) ∈ (rowScatterDims N E C wf).scatterDimsToOperandDims := List.mem_singleton.mpr rfl
  have m0' : (⟨0, by omega⟩ : Fin 2) ∈ (rowScatterDims N E C wf).insertedWindowDims := List.mem_singleton.mpr rfl
  have h1 : (⟨1, by omega⟩ : Fin 2) ∉ (rowScatterDims N E C wf).scatterDimsToOperandDims := fun h =>
    absurd (congrArg Fin.val (List.mem_singleton.mp h)) Nat.one_ne_zero
  have h1' : (⟨1, by omega⟩ : Fin 2) ∉ (rowScatterDims N E C wf).insertedWindowDims := fun h =>
    absurd (congrArg Fin.val (List.mem_singleton.mp h)) Nat.one_ne_zero
  -- axis 0: the start is the signed start index, the window coordinate 0
  have hs0 : (rowScatterDims N E C wf).start (ix2 e k') idx (⟨0, by omega⟩ : Fin 2) = (idx (edgeAt e)).toInt := by
    unfold ScatterDims.start
    rw [dif_pos m0]
    have hsi : (rowScatterDims N E C wf).siIdx (ix2 e k')
        ⟨List.idxOf (⟨0, by omega⟩ : Fin 2) (rowScatterDims N E C wf).scatterDimsToOperandDims,
          List.idxOf_lt_length_iff.2 m0⟩ = edgeAt e := by
      funext b; refine Fin.ext ?_
      match b with
      | ⟨0, _⟩ => rfl
      | ⟨1, _⟩ => rfl
    rw [hsi]
  have hw0 : (rowScatterDims N E C wf).window (ix2 e k') (⟨0, by omega⟩ : Fin 2) = 0 := by
    unfold ScatterDims.window
    rw [dif_neg (fun h => (mem_kept_iff _ _).mp h m0')]
  -- axis 1: the start is 0, the window coordinate the column
  have hs1 : (rowScatterDims N E C wf).start (ix2 e k') idx (⟨1, by omega⟩ : Fin 2) = 0 := by
    unfold ScatterDims.start
    rw [dif_neg h1]
  have hw1 : (rowScatterDims N E C wf).window (ix2 e k') (⟨1, by omega⟩ : Fin 2) = k'.val := by
    unfold ScatterDims.window
    rw [dif_pos ((mem_kept_iff _ _).mpr h1')]
    have hget : ∀ (i : Nat) (h : i < (rowScatterDims N E C wf).updateWindowDims.length),
        (rowScatterDims N E C wf).updateWindowDims[i] = (⟨1, by omega⟩ : Fin 2) := by
      intro i h
      obtain rfl : i = 0 := Nat.lt_one_iff.mp h
      rfl
    rw [hget]
  unfold ScatterDims.resultIdx? landsOf
  by_cases hz : 0 ≤ (idx (edgeAt e)).toInt ∧ (idx (edgeAt e)).toInt < (N : Int)
  · have hall : ∀ a, 0 ≤ (rowScatterDims N E C wf).start (ix2 e k') idx a + (rowScatterDims N E C wf).window (ix2 e k') a ∧
        (rowScatterDims N E C wf).start (ix2 e k') idx a + (rowScatterDims N E C wf).window (ix2 e k') a
          < (⟨2, ![N, C]⟩ : Shape).size a := by
      intro a
      match a with
      | ⟨0, _⟩ =>
        rw [hs0, hw0]
        show 0 ≤ (idx (edgeAt e)).toInt + ((0 : Nat) : Int) ∧ (idx (edgeAt e)).toInt + ((0 : Nat) : Int) < (N : Int)
        omega
      | ⟨1, _⟩ =>
        rw [hs1, hw1]
        have := k'.isLt
        show 0 ≤ (0 : Int) + (k'.val : Int) ∧ (0 : Int) + (k'.val : Int) < (C : Int)
        omega
    rw [dif_pos hall, dif_pos hz]
    show some _ = some _
    congr 1
    funext a
    refine Fin.ext ?_
    match a with
    | ⟨0, p0⟩ =>
      show ((rowScatterDims N E C wf).start (ix2 e k') idx ⟨0, p0⟩
        + (rowScatterDims N E C wf).window (ix2 e k') ⟨0, p0⟩).toNat = (idx (edgeAt e)).toInt.toNat
      rw [hs0, hw0]
      simp
    | ⟨1, p1⟩ =>
      show ((rowScatterDims N E C wf).start (ix2 e k') idx ⟨1, p1⟩
        + (rowScatterDims N E C wf).window (ix2 e k') ⟨1, p1⟩).toNat = k'.val
      rw [hs1, hw1]
      simp
  · rw [dif_neg hz, dif_neg]
    · rfl
    · intro hall
      have := hall (⟨0, by omega⟩ : Fin 2)
      rw [hs0, hw0] at this
      exact hz (by
        have h2 : 0 ≤ (idx (edgeAt e)).toInt + ((0 : Nat) : Int) ∧ (idx (edgeAt e)).toInt + ((0 : Nat) : Int) < (N : Int) := this
        omega)

/-- An accumulating row scatter on the extended reals, read at `(n, k)`: the operand there plus the sum, over the
    edges landing on row `n`, of their updates' column `k`. -/
theorem scatterAdd_rows_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (k : Fin C) :
    Host.scatterAdd (F := Ideal) (rowScatterDims N E C wf) x idx upd (ix2 n k)
      = (x (ix2 n k) : EReal) + ∑ e ∈ Finset.univ.filter (fun e : Fin E => landsOf N idx e = some n), (upd (ix2 e k) : EReal) := by
  -- the update at `(e, k')` lands on `(n, k)` exactly when edge `e` lands on row `n` and `k' = k`
  have hkey : ∀ (e : Fin E) (k' : Fin C),
      (rowScatterDims N E C wf).resultIdx? (ix2 e k') idx = some (ix2 n k) ↔ landsOf N idx e = some n ∧ k' = k := by
    intro e k'
    rw [rowScatter_resultIdx?, Option.map_eq_some_iff]
    constructor
    · rintro ⟨n', hl, hix⟩
      have e0 : n' = n := congrFun hix (⟨0, Nat.zero_lt_two⟩ : Fin 2)
      have e1 : k' = k := congrFun hix (⟨1, Nat.one_lt_two⟩ : Fin 2)
      exact ⟨e0 ▸ hl, e1⟩
    · rintro ⟨hl, rfl⟩
      exact ⟨n, hl, rfl⟩
  unfold Host.scatterAdd
  rw [Ideal.hostScatterAdd_def]
  unfold Ideal.hostScatterAdd
  congr 1
  -- re-index the sum over update indices by the edge coordinate
  refine Finset.sum_nbij' (fun j => (j (⟨0, Nat.zero_lt_two⟩ : Fin 2) : Fin E)) (fun e => ix2 e k) ?_ ?_ ?_ ?_ ?_
  · intro j hj
    obtain ⟨a, b, rfl⟩ : ∃ a b, j = ix2 a b := ⟨_, _, eq_ix2 j⟩
    rw [Finset.mem_filter] at hj ⊢
    exact ⟨Finset.mem_univ _, ((hkey a b).mp hj.2).1⟩
  · intro e he
    rw [Finset.mem_filter] at he ⊢
    exact ⟨Finset.mem_univ _, (hkey e k).mpr ⟨he.2, rfl⟩⟩
  · intro j hj
    obtain ⟨a, b, rfl⟩ : ∃ a b, j = ix2 a b := ⟨_, _, eq_ix2 j⟩
    rw [Finset.mem_filter] at hj
    obtain ⟨_, rfl⟩ := (hkey a b).mp hj.2
    rfl
  · intro e _
    rfl
  · intro j hj
    obtain ⟨a, b, rfl⟩ : ∃ a b, j = ix2 a b := ⟨_, _, eq_ix2 j⟩
    rw [Finset.mem_filter] at hj
    obtain ⟨_, rfl⟩ := (hkey a b).mp hj.2
    rfl

/-- Where the update at `e` of a scatter of vector entries lands: at the entry `landsOf N idx e`. -/
theorem vecScatter_resultIdx? {N E w : Nat}
    (wf : ScatterDims.WF ⟨1, ![N]⟩ ⟨2, ![E, 1]⟩ ⟨1, ![E]⟩ [] [0] [0] 1)
    (idx : IVec ⟨2, ![E, 1]⟩ w) (e : Fin E) :
    (vecScatterDims N E wf).resultIdx? (ix1 e) idx = (landsOf N idx e).map ix1 := by
  have m0 : (⟨0, Nat.one_pos⟩ : Fin 1) ∈ (vecScatterDims N E wf).scatterDimsToOperandDims := List.mem_singleton.mpr rfl
  have m0' : (⟨0, Nat.one_pos⟩ : Fin 1) ∈ (vecScatterDims N E wf).insertedWindowDims := List.mem_singleton.mpr rfl
  -- the one axis: the start is the signed start index, the window coordinate 0
  have hs0 : (vecScatterDims N E wf).start (ix1 e) idx (⟨0, Nat.one_pos⟩ : Fin 1) = (idx (edgeAt e)).toInt := by
    unfold ScatterDims.start
    rw [dif_pos m0]
    have hsi : (vecScatterDims N E wf).siIdx (ix1 e)
        ⟨List.idxOf (⟨0, Nat.one_pos⟩ : Fin 1) (vecScatterDims N E wf).scatterDimsToOperandDims,
          List.idxOf_lt_length_iff.2 m0⟩ = edgeAt e := by
      funext b; refine Fin.ext ?_
      match b with
      | ⟨0, _⟩ => rfl
      | ⟨1, _⟩ => rfl
    rw [hsi]
  have hw0 : (vecScatterDims N E wf).window (ix1 e) (⟨0, Nat.one_pos⟩ : Fin 1) = 0 := by
    unfold ScatterDims.window
    rw [dif_neg (fun h => (mem_kept_iff _ _).mp h m0')]
  unfold ScatterDims.resultIdx? landsOf
  by_cases hz : 0 ≤ (idx (edgeAt e)).toInt ∧ (idx (edgeAt e)).toInt < (N : Int)
  · have hall : ∀ a, 0 ≤ (vecScatterDims N E wf).start (ix1 e) idx a + (vecScatterDims N E wf).window (ix1 e) a ∧
        (vecScatterDims N E wf).start (ix1 e) idx a + (vecScatterDims N E wf).window (ix1 e) a
          < (⟨1, ![N]⟩ : Shape).size a := by
      intro a
      match a with
      | ⟨0, _⟩ =>
        rw [hs0, hw0]
        show 0 ≤ (idx (edgeAt e)).toInt + ((0 : Nat) : Int) ∧ (idx (edgeAt e)).toInt + ((0 : Nat) : Int) < (N : Int)
        omega
    rw [dif_pos hall, dif_pos hz]
    show some _ = some _
    congr 1
    funext a
    refine Fin.ext ?_
    match a with
    | ⟨0, p0⟩ =>
      show ((vecScatterDims N E wf).start (ix1 e) idx ⟨0, p0⟩
        + (vecScatterDims N E wf).window (ix1 e) ⟨0, p0⟩).toNat = (idx (edgeAt e)).toInt.toNat
      rw [hs0, hw0]
      simp
  · rw [dif_neg hz, dif_neg]
    · rfl
    · intro hall
      have := hall (⟨0, Nat.one_pos⟩ : Fin 1)
      rw [hs0, hw0] at this
      exact hz (by
        have h2 : 0 ≤ (idx (edgeAt e)).toInt + ((0 : Nat) : Int) ∧ (idx (edgeAt e)).toInt + ((0 : Nat) : Int) < (N : Int) := this
        omega)

/-- An accumulating scatter of vector entries on the extended reals, read at `n`: the operand there plus the sum of
    the updates of the edges landing on `n`. -/
theorem scatterAdd_vec_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (vecScatterDims N E wf) x idx upd (ix1 n)
      = (x (ix1 n) : EReal) + ∑ e ∈ Finset.univ.filter (fun e : Fin E => landsOf N idx e = some n), (upd (ix1 e) : EReal) := by
  -- the update at `e` lands on `n` exactly when edge `e` lands on `n`
  have hkey : ∀ (e : Fin E),
      (vecScatterDims N E wf).resultIdx? (ix1 e) idx = some (ix1 n) ↔ landsOf N idx e = some n := by
    intro e
    rw [vecScatter_resultIdx?, Option.map_eq_some_iff]
    constructor
    · rintro ⟨n', hl, hix⟩
      have e0 : n' = n := congrFun hix (⟨0, Nat.one_pos⟩ : Fin 1)
      exact e0 ▸ hl
    · intro hl
      exact ⟨n, hl, rfl⟩
  unfold Host.scatterAdd
  rw [Ideal.hostScatterAdd_def]
  unfold Ideal.hostScatterAdd
  congr 1
  -- re-index the sum over update indices by the edge coordinate
  refine Finset.sum_nbij' (fun j => (j (⟨0, Nat.one_pos⟩ : Fin 1) : Fin E)) (fun e => ix1 e) ?_ ?_ ?_ ?_ ?_
  · intro j hj
    obtain ⟨a, rfl⟩ : ∃ a, j = ix1 a := ⟨_, eq_ix1 j⟩
    rw [Finset.mem_filter] at hj ⊢
    exact ⟨Finset.mem_univ _, (hkey a).mp hj.2⟩
  · intro e he
    rw [Finset.mem_filter] at he ⊢
    exact ⟨Finset.mem_univ _, (hkey e).mpr he.2⟩
  · intro j _
    obtain ⟨a, rfl⟩ : ∃ a, j = ix1 a := ⟨_, eq_ix1 j⟩
    rfl
  · intro e _
    rfl
  · intro j _
    obtain ⟨a, rfl⟩ : ∃ a, j = ix1 a := ⟨_, eq_ix1 j⟩
    rfl

end Idealize.ShloMosaic.EdgeRows

end
-- ==== Proof.Spec.lean ====
/-
  The mathematics of the certificate, stated once over the extended reals and over plain index types, with no
  program in sight.

  RELATION WEIGHTING.  For two 1200 × 128 arrays a, b: every row is scaled by the inverse square root of its own
  sum of squares plus the floor 1e-8 (`nrm`), `sim a b p q` is the inner product of the scaled row p of a with the
  scaled row q of b, and the two outputs are the row maxima and the column maxima of that 1200 × 1200 matrix — as
  suprema, the supremum of the empty family being −∞.

  ADJACENCY.  For one graph side with 4 000 000 edges over 200 000 nodes: the weight of edge e is the product of
  its three factors (`vals`); node n's degree is the sum of the weights of the edges whose head index lands on n,
  plus ONE for the unit diagonal (`deg`); `disOf` is the guarded inverse square root x ↦ (x > 0 ? 1/√(max x 1e-12) : 0);
  the 4 200 000 results are, for an edge, its weight times the two node factors at the nodes its (normalised, clamped)
  head and tail read, and for node i of the diagonal the square of its own factor (`adj`).
-/
import Idealize.ShloMosaic.PureOps.Ideal
import Idealize.ShloMosaic.Lib.ValueIdx
import proofs.«153293_j29283087024787_2_alg».proof.Proof.LibEdgeRows

noncomputable section

namespace Cert.Spec

open Idealize.ShloMosaic Idealize.ShloMosaic.ValueIdx Idealize.ShloMosaic.EdgeRows
open scoped BigOperators

/-- The f32 words the two programs share, as extended reals: zero, one, and the two floors. -/
def z0 : EReal := Ideal.ofBits .f32 0x00000000#32
def one : EReal := Ideal.ofBits .f32 0x3F800000#32
def eps8 : EReal := Ideal.ofBits .f32 0x322BCC77#32
def eps12 : EReal := Ideal.ofBits .f32 0x2B8CBCCC#32

/-! ## Relation weighting -/

/-- Entry (p, k) of the row-normalised array: the entry times the inverse square root of (the row's sum of squares
    plus the floor). -/
def nrm (x : (⟨2, ![1200, 128]⟩ : Shape).Idx → EReal) (p : Fin 1200) (k : Fin 128) : EReal :=
  x (ix2 p k) * Ideal.rsqrt ((∑ j : Fin 128, x (ix2 p j) * x (ix2 p j)) + eps8)

/-- The similarity of row p of the first array with row q of the second. -/
def sim (a b : (⟨2, ![1200, 128]⟩ : Shape).Idx → EReal) (p q : Fin 1200) : EReal :=
  ∑ k : Fin 128, nrm a p k * nrm b q k

/-- The largest similarity in row p. -/
def rowMax (a b : (⟨2, ![1200, 128]⟩ : Shape).Idx → EReal) (p : Fin 1200) : EReal :=
  Finset.univ.sup fun q : Fin 1200 => sim a b p q

/-- The largest similarity in column q. -/
def colMax (a b : (⟨2, ![1200, 128]⟩ : Shape).Idx → EReal) (q : Fin 1200) : EReal :=
  Finset.univ.sup fun p : Fin 1200 => sim a b p q

/-! ## Adjacency -/

/-- The guarded inverse square root of a degree: 1/√(max x 1e-12) where x > 0, and 0 elsewhere. -/
def disOf (x : EReal) : EReal :=
  Scalar.select (Ideal.cmp .ogt x z0) (Ideal.rsqrt (max x eps12)) z0

section Side

variable (conf imp pca : (⟨1, ![4000000]⟩ : Shape).Idx → EReal)
/- the raw head indices as a one-column array (what the degree sum scatters along), and the normalised head and
   tail indices as one-column arrays (what the two gathers read) -/
variable (hcol hcolN tcolN : IVec ⟨2, ![4000000, 1]⟩ 32)

/-- The weight of edge e. -/
def vals (e : Fin 4000000) : EReal := conf (ix1 e) * imp (ix1 e) * pca (ix1 e)

/-- The sum of the weights of the edges whose head lands on node n. -/
def edgeSum (n : Fin 200000) : EReal :=
  ∑ e ∈ Finset.univ.filter (fun e : Fin 4000000 => landsOf 200000 hcol e = some n), vals conf imp pca e

/-- Node n's factor: the guarded inverse square root of its degree, the edge sum plus the diagonal's one. -/
def dis (n : Fin 200000) : EReal := disOf (edgeSum conf imp pca hcol n + one)

/-- The normalised adjacency values: 4 000 000 edge values, then the 200 000 diagonal values. -/
def adj (j : Fin 4200000) : EReal :=
  if h : j.val < 4000000 then
    vals conf imp pca ⟨j.val, h⟩
      * dis conf imp pca hcol (rowOf 200000 (by decide) hcolN ⟨j.val, h⟩)
      * dis conf imp pca hcol (rowOf 200000 (by decide) tcolN ⟨j.val, h⟩)
  else
    dis conf imp pca hcol ⟨j.val - 4000000, by omega⟩ * dis conf imp pca hcol ⟨j.val - 4000000, by omega⟩

end Side

end Cert.Spec

end
-- ==== Proof.LibColumnLayout.lean ====
/-
  Column ("keepdims") layouts read at an index.

  A row-wise reduction of an [a, b] array leaves one number per row, a vector of shape [a].  To use it again against
  the [a, b] array it is first viewed as a column [a, 1] and the column is then repeated along its unit axis.  The two
  lemmas below say what those two steps read at an index written by its coordinates: the column at (i, u) is the
  vector at i, and the repeated column at (p, c) is the column at (p, u), whatever the column coordinate c is.  Both
  hold for any element type and any extents a and b.
-/
import Idealize.ShloMosaic.Lib.Pipeline.Value
import Idealize.ShloMosaic.Lib.ValueIdx

namespace Cert.Lib.ColumnLayout

open Idealize.ShloMosaic Idealize.ShloMosaic.ValueIdx

variable {α : Type}

/-- A vector of shape [a] cast to the column [a, 1] reads, at (i, u), the vector at i: the row-major position of
    (i, u) in [a, 1] is i · 1 + u, and u is 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along its unit axis to [a, b] reads, at (p, c), the column at (p, u): on the first axis
    the coordinate is kept (when a = 1 it is 0 on both sides), on the unit axis the operand's coordinate is 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Cert.Lib.ColumnLayout
-- ==== Proof.LibLaneSum.lean ====
/-
  A sum along the second axis of a matrix, read at a row.

  Reducing an [a, b] array by addition along its second axis leaves one number per row, a vector of shape [a].  On the
  extended reals the entry at row r is the plain sum of the b entries of that row: the reduced index r with the
  coordinate k put back on the second axis is the matrix index (r, k).  It holds for any extents a and b and any
  float format.
-/
import Idealize.ShloMosaic.PureOps.Ideal.Laws
import Idealize.ShloMosaic.Lib.ValueIdx

open scoped BigOperators

namespace Cert.Lib.LaneSum

open Idealize.ShloMosaic Idealize.ShloMosaic.ValueIdx

/-- The sum along the second axis of an [a, b] array, read at row r, is the sum over k of the array at (r, k). -/
theorem laneSum_apply {a b : ℕ} {φ : FTy} (src : FVec Ideal (⟨2, ![a, b]⟩ : Shape) φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] (⟨1, ![a]⟩ : Shape) src acc h hφ hacc (ix1 r) = ∑ k : Fin b, src (ix2 r k) := by
  refine (Ideal.multiReduction_add_single src acc h hφ hacc (ix1 r)).trans ?_
  show ∑ k : Fin b, src (h.lift (ix1 r) k) = _
  refine Finset.sum_congr rfl fun k _ => congrArg src ?_
  funext c
  match c with
  | ⟨0, _⟩ => rfl
  | ⟨1, _⟩ => rfl

end Cert.Lib.LaneSum
-- ==== Proof.LibContractSum.lean ====
/-
  A matrix product with ONE contracted axis, into the zero accumulator, read at an output index on the extended reals.

  The product's entry at `j` is the sum, over the contraction index, of the left operand at `lhsIdx j ·` times the right
  operand at `rhsIdx j ·`. When one axis of extent `K` is contracted, the contraction index is its one coordinate, so the
  entry is a sum over `k : Fin K` of the operands at whatever indices the dimension record names there — given by the
  caller as two families `li`, `ri` with the two equations that say so. The statement does not depend on which axes of
  the operands are contracted: row by column, column by column, or any other single-axis contraction.
-/
import Idealize.ShloMosaic.PureOps.Ideal.Laws
import Idealize.ShloMosaic.Lib.ValueIdx

namespace Cert.LibContractSum

open Idealize.ShloMosaic Idealize.ShloMosaic.ValueIdx

/-- A `tpu.matmul` into the f32 zero splat, one contracted axis of extent `K`: at output index `j` it is
    `∑ k : Fin K, lhs (li k) * rhs (ri k)`, where `li k` / `ri k` are the operand indices the dimension record gives at
    `j` and contraction coordinate `k` (`hl`, `hr`). -/
theorem matmul_zero_sum {sl sr so : Shape} {φ₁ φ₂ : FTy} (D : DotDims sl sr so) (prec : Option ContractPrecision) (K : Nat)
    (hrank : D.contr.rank = 1) (hsize : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hrank hsize).symm k) = li k)
    (hr : ∀ k, D.rhsIdx j ((contrEquiv1 D K hrank hsize).symm k) = ri k) :
    FloatOps.matmul D prec lhs rhs (constant so .f32 0x00000000#32) j = ∑ k : Fin K, lhs (li k) * rhs (ri k) := by
  rw [Ideal.matmul_constant_zero_apply, ← Equiv.sum_comp (contrEquiv1 D K hrank hsize).symm]
  exact Finset.sum_congr rfl fun k _ => by rw [hl k, hr k]

end Cert.LibContractSum
-- ==== Proof.LibMatmul2D.lean ====
/-
  A 2-D matrix product into the zero accumulator, read at an output entry on the extended reals, in the three ways a
  single axis of each operand can be contracted:
    * rows by columns   — [M, K] against [K, N], left axis 1 with right axis 0:   ∑ k, lhs (m, k) * rhs (k, n);
    * columns by columns — [K, M] against [K, N], left axis 0 with right axis 0:  ∑ k, lhs (k, m) * rhs (k, n);
    * columns by rows    — [K, M] against [N, K], left axis 0 with right axis 1:  ∑ k, lhs (k, m) * rhs (n, k).
  In each the result is [M, N]: the left operand's free axis first, the right operand's free axis second. The
  dimension record is the one built from the literal axis lists; its well-formedness proof is a parameter, so the
  statements apply to any record with those lists whatever proves it well formed. Over any extents M, K, N.
-/
import Idealize.ShloMosaic.PureOps.Ideal.Laws
import Idealize.ShloMosaic.Lib.ValueIdx
import proofs.«153293_j29283087024787_2_alg».proof.Proof.LibContractSum

namespace Cert.LibMatmul2D

open Idealize.ShloMosaic Idealize.ShloMosaic.ValueIdx

variable {M K N : ℕ} {φ₁ φ₂ : FTy}

/-- Rows by columns: entry (m, n) is the sum over k of lhs (m, k) * rhs (k, n). -/
theorem rows_cols
    (wf : DotDims.WF (⟨2, ![M, K]⟩ : Shape) (⟨2, ![K, N]⟩ : Shape) (⟨2, ![M, N]⟩ : Shape)
      ([1] : List (Fin 2)) ([0] : List (Fin 2)) ([0] : List (Fin 2)) ([1] : List (Fin 2)) [] [])
    (prec : Option ContractPrecision) (lhs : FVec Ideal (⟨2, ![M, K]⟩ : Shape) φ₁) (rhs : FVec Ideal (⟨2, ![K, N]⟩ : Shape) φ₂)
    (m : Fin M) (n : Fin N) :
    FloatOps.matmul (⟨[1], [0], [0], [1], [], [], wf⟩ : DotDims (⟨2, ![M, K]⟩ : Shape) (⟨2, ![K, N]⟩ : Shape) (⟨2, ![M, N]⟩ : Shape))
        prec lhs rhs (constant (⟨2, ![M, N]⟩ : Shape) .f32 0x00000000#32) (ix2 m n)
      = ∑ k : Fin K, lhs (ix2 m k) * rhs (ix2 k n) := by
  refine Cert.LibContractSum.matmul_zero_sum _ prec K rfl rfl lhs rhs (ix2 m n) (fun k => ix2 m k) (fun k => ix2 k n)
    (fun k => ?_) (fun k => ?_)
  · funext a; apply Fin.ext
    match a with
    | ⟨0, _⟩ =>
      unfold DotDims.lhsIdx
      rw [dif_neg, dif_pos]
      case hc => exact List.mem_singleton.mpr (Fin.ext rfl)
      case hnc => exact List.not_mem_nil
      rfl
    | ⟨1, _⟩ => exact (DotDims.lhsIdx_val_of_single _ rfl _ _).trans (contrEquiv1_symm_val _ K rfl rfl k)
  · funext a; apply Fin.ext
    match a with
    | ⟨0, _⟩ => exact (DotDims.rhsIdx_val_of_single _ rfl _ _).trans (contrEquiv1_symm_val _ K rfl rfl k)
    | ⟨1, _⟩ =>
      unfold DotDims.rhsIdx
      rw [dif_neg, dif_pos]
      case hc => exact List.mem_singleton.mpr (Fin.ext rfl)
      case hnc => exact List.not_mem_nil
      rfl

/-- Columns by columns: entry (m, n) is the sum over k of lhs (k, m) * rhs (k, n). -/
theorem cols_cols
    (wf : DotDims.WF (⟨2, ![K, M]⟩ : Shape) (⟨2, ![K, N]⟩ : Shape) (⟨2, ![M, N]⟩ : Shape)
      ([0] : List (Fin 2)) ([0] : List (Fin 2)) ([1] : List (Fin 2)) ([1] : List (Fin 2)) [] [])
    (prec : Option ContractPrecision) (lhs : FVec Ideal (⟨2, ![K, M]⟩ : Shape) φ₁) (rhs : FVec Ideal (⟨2, ![K, N]⟩ : Shape) φ₂)
    (m : Fin M) (n : Fin N) :
    FloatOps.matmul (⟨[0], [0], [1], [1], [], [], wf⟩ : DotDims (⟨2, ![K, M]⟩ : Shape) (⟨2, ![K, N]⟩ : Shape) (⟨2, ![M, N]⟩ : Shape))
        prec lhs rhs (constant (⟨2, ![M, N]⟩ : Shape) .f32 0x00000000#32) (ix2 m n)
      = ∑ k : Fin K, lhs (ix2 k m) * rhs (ix2 k n) := by
  refine Cert.LibContractSum.matmul_zero_sum _ prec K rfl rfl lhs rhs (ix2 m n) (fun k => ix2 k m) (fun k => ix2 k n)
    (fun k => ?_) (fun k => ?_)
  · funext a; apply Fin.ext
    match a with
    | ⟨0, _⟩ => exact (DotDims.lhsIdx_val_of_single _ rfl _ _).trans (contrEquiv1_symm_val _ K rfl rfl k)
    | ⟨1, _⟩ =>
      unfold DotDims.lhsIdx
      rw [dif_neg, dif_pos]
      case hc => exact List.mem_singleton.mpr (Fin.ext rfl)
      case hnc => exact List.not_mem_nil
      rfl
  · funext a; apply Fin.ext
    match a with
    | ⟨0, _⟩ => exact (DotDims.rhsIdx_val_of_single _ rfl _ _).trans (contrEquiv1_symm_val _ K rfl rfl k)
    | ⟨1, _⟩ =>
      unfold DotDims.rhsIdx
      rw [dif_neg, dif_pos]
      case hc => exact List.mem_singleton.mpr (Fin.ext rfl)
      case hnc => exact List.not_mem_nil
      rfl

/-- Columns by rows: entry (m, n) is the sum over k of lhs (k, m) * rhs (n, k). -/
theorem cols_rows
    (wf : DotDims.WF (⟨2, ![K, M]⟩ : Shape) (⟨2, ![N, K]⟩ : Shape) (⟨2, ![M, N]⟩ : Shape)
      ([0] : List (Fin 2)) ([1] : List (Fin 2)) ([1] : List (Fin 2)) ([0] : List (Fin 2)) [] [])
    (prec : Option ContractPrecision) (lhs : FVec Ideal (⟨2, ![K, M]⟩ : Shape) φ₁) (rhs : FVec Ideal (⟨2, ![N, K]⟩ : Shape) φ₂)
    (m : Fin M) (n : Fin N) :
    FloatOps.matmul (⟨[0], [1], [1], [0], [], [], wf⟩ : DotDims (⟨2, ![K, M]⟩ : Shape) (⟨2, ![N, K]⟩ : Shape) (⟨2, ![M, N]⟩ : Shape))
        prec lhs rhs (constant (⟨2, ![M, N]⟩ : Shape) .f32 0x00000000#32) (ix2 m n)
      = ∑ k : Fin K, lhs (ix2 k m) * rhs (ix2 n k) := by
  refine Cert.LibContractSum.matmul_zero_sum _ prec K rfl rfl lhs rhs (ix2 m n) (fun k => ix2 k m) (fun k => ix2 n k)
    (fun k => ?_) (fun k => ?_)
  · funext a; apply Fin.ext
    match a with
    | ⟨0, _⟩ => exact (DotDims.lhsIdx_val_of_single _ rfl _ _).trans (contrEquiv1_symm_val _ K rfl rfl k)
    | ⟨1, _⟩ =>
      unfold DotDims.lhsIdx
      rw [dif_neg, dif_pos]
      case hc => exact List.mem_singleton.mpr (Fin.ext rfl)
      case hnc => exact List.not_mem_nil
      rfl
  · funext a; apply Fin.ext
    match a with
    | ⟨0, _⟩ =>
      unfold DotDims.rhsIdx
      rw [dif_neg, dif_pos]
      case hc => exact List.mem_singleton.mpr (Fin.ext rfl)
      case hnc => exact List.not_mem_nil
      rfl
    | ⟨1, _⟩ => exact (DotDims.rhsIdx_val_of_single _ rfl _ _).trans (contrEquiv1_symm_val _ K rfl rfl k)

end Cert.LibMatmul2D
-- ==== Proof.LibRunningMin.lean ====
/-
  Least and greatest of finitely many extended reals, accumulated.

  A fold of `min` from the f32 word of +∞ over a finite set is the infimum of the family over that set, and
  a fold of `max` from the word of −∞ is its supremum. The infimum of a family indexed by `Fin N` over an
  initial segment can be accumulated block by block: over the first (j + 1)·B indices it is the lesser
  of the infimum over the first j·B indices and the infimum over the block of B indices starting at j·B;
  over no index it is +∞ and over all N indices it is the infimum of the whole family. The exponential
  extended to the extended reals (−∞ ↦ 0, +∞ ↦ +∞) is monotone. Nothing here assumes finiteness of
  the values.
-/
import Idealize.ShloMosaic.PureOps.Ideal

noncomputable section

open scoped BigOperators

namespace Cert.Lib.RunningMin

open Idealize.ShloMosaic

/-! ## Folds of `min` from `+∞` and of `max` from `−∞` -/

/-- The f32 word of `+∞` is the top extended real. -/
theorem ofBits_posInf : Ideal.ofBits .f32 0x7F800000#32 = (⊤ : EReal) := by
  simp [Ideal.ofBits, Ideal.ieee]

/-- The f32 word of `−∞` is the bottom extended real. -/
theorem ofBits_negInf : Ideal.ofBits .f32 0xFF800000#32 = (⊥ : EReal) := by
  simp [Ideal.ofBits, Ideal.ieee]

/-- Folding `min` over a finite set from `+∞` gives the infimum of the family over that set. -/
theorem fold_min_posInf {ι : Type*} (s : Finset ι) (f : ι → EReal) :
    s.fold min (Ideal.ofBits .f32 0x7F800000#32) f = s.inf f := by
  classical
  rw [ofBits_posInf]
  induction s using Finset.induction_on with
  | empty => simp
  | insert a s ha ih => rw [Finset.fold_insert ha, Finset.inf_insert, ih]

/-- Folding `max` over a finite set from `−∞` gives the supremum of the family over that set. -/
theorem fold_max_negInf {ι : Type*} (s : Finset ι) (f : ι → EReal) :
    s.fold max (Ideal.ofBits .f32 0xFF800000#32) f = s.sup f := by
  classical
  rw [ofBits_negInf]
  induction s using Finset.induction_on with
  | empty => simp
  | insert a s ha ih => rw [Finset.fold_insert ha, Finset.sup_insert, ih]

/-! ## The running minimum over initial segments of `Fin N` -/

section
variable {N : ℕ}

/-- The infimum over the empty initial segment is `+∞`. -/
theorem inf_below_zero (g : Fin N → EReal) :
    (Finset.univ.filter fun f : Fin N => f.val < 0).inf g = ⊤ := by
  simp

/-- The infimum over the first `(j + 1) · B` indices is the lesser of the infimum over the first
    `j · B` indices and the infimum over the block of `B` indices that starts at `j · B`. -/
theorem inf_below_succ_block (g : Fin N → EReal) (j B : ℕ) (hj : (j + 1) * B ≤ N) :
    (Finset.univ.filter fun f : Fin N => f.val < (j + 1) * B).inf g
      = min ((Finset.univ.filter fun f : Fin N => f.val < j * B).inf g)
          (Finset.univ.inf fun c : Fin B => g ⟨j * B + c.val, by have := c.isLt; nlinarith⟩) := by
  have hsucc : (j + 1) * B = j * B + B := Nat.succ_mul j B
  apply le_antisymm
  · refine le_min (Finset.inf_mono fun f hf => ?_) (Finset.le_inf fun c _ => Finset.inf_le ?_)
    · rw [Finset.mem_filter] at hf ⊢
      exact ⟨hf.1, by omega⟩
    · rw [Finset.mem_filter]
      exact ⟨Finset.mem_univ _, by have := c.isLt; show j * B + c.val < (j + 1) * B; omega⟩
  · refine Finset.le_inf fun f hf => ?_
    rw [Finset.mem_filter] at hf
    by_cases h : f.val < j * B
    · exact (min_le_left _ _).trans (Finset.inf_le (Finset.mem_filter.mpr ⟨Finset.mem_univ f, h⟩))
    · have hc : f.val - j * B < B := by omega
      refine (min_le_right _ _).trans ((Finset.inf_le (Finset.mem_univ (⟨f.val - j * B, hc⟩ : Fin B))).trans
        (le_of_eq (congrArg g (Fin.ext ?_))))
      show j * B + (f.val - j * B) = f.val
      omega

/-- The infimum over the initial segment of all `N` indices is the infimum over every index. -/
theorem inf_below_all (g : Fin N → EReal) :
    (Finset.univ.filter fun f : Fin N => f.val < N).inf g = Finset.univ.inf g := by
  rw [Finset.filter_true_of_mem fun f _ => f.isLt]

end

/-! ## The extended exponential is monotone -/

/-- The exponential, extended by `exp (−∞) = 0` and `exp (+∞) = +∞`, is monotone on the extended reals. -/
theorem exp_mono : Monotone Ideal.exp := by
  intro x y h
  induction x using EReal.rec with
  | bot =>
    induction y using EReal.rec with
    | bot => exact le_refl _
    | coe s =>
      show ((0 : ℝ) : EReal) ≤ ((Real.exp s : ℝ) : EReal)
      exact EReal.coe_le_coe_iff.mpr (Real.exp_pos s).le
    | top => exact le_top
  | coe r =>
    induction y using EReal.rec with
    | bot => exact absurd h (by simp)
    | coe s =>
      show ((Real.exp r : ℝ) : EReal) ≤ ((Real.exp s : ℝ) : EReal)
      exact EReal.coe_le_coe_iff.mpr (Real.exp_le_exp.mpr (EReal.coe_le_coe_iff.mp h))
    | top => exact le_top
  | top =>
    rw [top_le_iff] at h
    rw [h]

end Cert.Lib.RunningMin

end
-- ==== Proof.LibTopRowsLayout.lean ====
/-
  Two layout operations read at coordinate indices, over any element type and any extents.

  * The first rows of a matrix: the slice of an [A, B] matrix that starts at (0, 0) and has a rows and all B columns,
    read at (k, j), is the matrix at (k, j) with k taken as a row of the larger matrix.
  * A vector viewed as a one-row matrix: a vector of H entries cast to shape [1, H], read at (0, j), is the vector
    at j.
-/
import Idealize.ShloMosaic.Lib.Pipeline.Value
import Idealize.ShloMosaic.Lib.ValueIdx

namespace Cert.LibTopRowsLayout

open Idealize.ShloMosaic Idealize.ShloMosaic.ValueIdx

variable {α : Type}

/-- The slice of the first a rows of an [A, B] matrix, read at (k, j), is the matrix at (k, j). -/
theorem slice_top_apply {A B a : ℕ} (x : (⟨2, ![A, B]⟩ : Shape).Idx → α)
    (h : (⟨2, ![A, B]⟩ : Shape).Slices ![0, 0] (⟨2, ![a, B]⟩ : Shape)) (hle : a ≤ A) (k : Fin a) (j : Fin B) :
    extractStridedSlice (⟨2, ![a, B]⟩ : Shape) ![0, 0] x h (ix2 k j) = x (ix2 (Fin.castLE hle k) j) := by
  refine extractStridedSlice_apply _ x h (ix2 k j) (ix2 (Fin.castLE hle k) j) fun ax => ?_
  match ax with
  | ⟨0, _⟩ => show k.val = 0 + k.val; omega
  | ⟨1, _⟩ => show j.val = 0 + j.val; omega

/-- A vector of H entries cast to the one-row shape [1, H], read at (0, j), is the vector at j. -/
theorem row_of_vector_apply {H : ℕ} (v : (⟨1, ![H]⟩ : Shape).Idx → α)
    (h : (⟨1, ![H]⟩ : Shape).ShapeCasts (⟨2, ![1, H]⟩ : Shape)) (j : Fin H) :
    shapeCast (⟨2, ![1, H]⟩ : Shape) v h (ix2 (0 : Fin 1) j) = v (ix1 j) := by
  refine (shapeCast_addUnit_apply ![H] v h (ix2 (0 : Fin 1) j)).trans (congrArg v (funext fun a => ?_))
  match a with
  | ⟨0, _⟩ => rfl

end Cert.LibTopRowsLayout
-- ==== Proof.BlockValues.lean ====
/-
  The kernels' block computations read at an index on the extended reals.  The relation-weighting body: each table's
  row scaled by the inverse square root of its sum of squares plus the floor, the product of the first scaled table
  with the transpose of the second as a sum over the 128 lanes, and a maximum-reduction from −∞ along an axis as the
  supremum over that axis — so the two stored rows hold the row suprema and the column suprema of the similarity
  matrix.  The node-factor body is lane-wise: the guarded inverse square root of the entry plus one, and its square.
-/
import proofs.«153293_j29283087024787_2_alg».proof.Proof.Gen.KernelIdeal.Skeleton
import proofs.«153293_j29283087024787_2_alg».proof.Proof.Spec
import proofs.«153293_j29283087024787_2_alg».proof.Proof.LibColumnLayout
import proofs.«153293_j29283087024787_2_alg».proof.Proof.LibLaneSum
import proofs.«153293_j29283087024787_2_alg».proof.Proof.LibMatmul2D
import proofs.«153293_j29283087024787_2_alg».proof.Proof.LibRunningMin
import proofs.«153293_j29283087024787_2_alg».proof.Proof.LibTopRowsLayout
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx
open scoped BigOperators

/-! # The bodies' stored values on the extended reals, index by index

## The guarded inverse square root

Every operation of the body is pointwise, so its value at `(r, l)` is the scalar formula at the input's entry
`(r, l)`: with `d = x + 1`, the value is `1/√(max d 1e-12)` where `d > 0` and `0` elsewhere. -/

theorem dis2_at (x : Vec Ideal S1568x128 .f32) (r : Fin 1568) (l : Fin 128) :
    k2_pay1 (F := Ideal) x (ix2 r l) = Cert.Spec.disOf (x (ix2 r l) + Cert.Spec.one) := by
  unfold k2_pay1
  simp only [shapeCast_self]
  rfl

theorem dis2_sq_at (x : Vec Ideal S1568x128 .f32) (r : Fin 1568) (l : Fin 128) :
    k2_pay2 (F := Ideal) x (ix2 r l)
      = Cert.Spec.disOf (x (ix2 r l) + Cert.Spec.one) * Cert.Spec.disOf (x (ix2 r l) + Cert.Spec.one) := by
  unfold k2_pay2
  show k2_pay1 (F := Ideal) x (ix2 r l) * k2_pay1 (F := Ideal) x (ix2 r l) = _
  rw [dis2_at]

theorem dis4_at (x : Vec Ideal S1568x128 .f32) (r : Fin 1568) (l : Fin 128) :
    k4_pay1 (F := Ideal) x (ix2 r l) = Cert.Spec.disOf (x (ix2 r l) + Cert.Spec.one) := by
  unfold k4_pay1
  simp only [shapeCast_self]
  rfl

theorem dis4_sq_at (x : Vec Ideal S1568x128 .f32) (r : Fin 1568) (l : Fin 128) :
    k4_pay2 (F := Ideal) x (ix2 r l)
      = Cert.Spec.disOf (x (ix2 r l) + Cert.Spec.one) * Cert.Spec.disOf (x (ix2 r l) + Cert.Spec.one) := by
  unfold k4_pay2
  show k4_pay1 (F := Ideal) x (ix2 r l) * k4_pay1 (F := Ideal) x (ix2 r l) = _
  rw [dis4_at]

/-! ## The similarity maxima

The body scales every row of each `[1200,128]` matrix by the inverse square root of (its sum of squares plus a
floor), multiplies the first scaled matrix by the transpose of the second — entry `(p, q)` is the inner product of
scaled row `p` of the first with scaled row `q` of the second —, and takes the maximum of that `[1200,1200]`
matrix along each row and along each column. A maximum over an axis is a fold of `max` from the word of `−∞`,
which is the supremum. -/

/-- A matrix with every row scaled by the inverse square root of its sum of squares plus the floor: the body's
    operations on one loaded matrix, as one term. -/
def scaledRows (x : FVec Ideal S1200x128 .f32) : FVec Ideal S1200x128 .f32 :=
  mulf x (broadcastTo S1200x128
    (rsqrt (addf
      (shapeCast S1200x1 (multiReduction .add [1] S1200 (mulf x x) 0x00000000#32 reduces_S1200x128_S1200 (.inl rfl) rfl) shapeCasts_S1200_S1200x1)
      (broadcast S1200x1 (Scalar.ofBits (F := Ideal) .f32 0x322BCC77#32))))
    broadcasts_S1200x1_S1200x128)

/-- The product of a `[1200,128]` matrix with the transpose of another, into the zero accumulator. -/
def rowProducts (u v : FVec Ideal S1200x128 .f32) : FVec Ideal S1200x1200 .f32 :=
  matmul dot_S1200x128_S128x1200_S1200x1200_1_0_0_1_n_n none u
    (transpose S128x1200 [1, 0] v transposes_S1200x128_p1_0_S128x1200)
    (constant (F := Ideal) S1200x1200 .f32 0x00000000#32)

/-- The similarity matrix the body computes is the row products of the two scaled matrices. -/
theorem pay1_eq (a b : Vec Ideal S1200x128 .f32) : k0_pay1 (F := Ideal) a b = rowProducts (scaledRows a) (scaledRows b) := by
  unfold k0_pay1
  simp only [shapeCast_self]
  rfl

/-- A row's sum of squares, as the lane sum of the squared matrix at that row. -/
theorem rowSq_apply (x : FVec Ideal S1200x128 .f32) (p : Fin 1200) :
    multiReduction .add [1] S1200 (mulf x x) 0x00000000#32 reduces_S1200x128_S1200 (.inl rfl) rfl (ix1 p)
      = ∑ j : Fin 128, x (ix2 p j) * x (ix2 p j) :=
  Cert.Lib.LaneSum.laneSum_apply (mulf x x) _ _ _ _ p

/-- The scaled matrix at `(p, k)` is the specification's normalised entry. -/
theorem scaledRows_apply (x : FVec Ideal S1200x128 .f32) (p : Fin 1200) (k : Fin 128) :
    scaledRows x (ix2 p k) = Cert.Spec.nrm x p k := by
  unfold scaledRows Cert.Spec.nrm Cert.Spec.eps8
  refine congrArg (x (ix2 p k) * ·) ?_
  refine (Cert.Lib.ColumnLayout.broadcastTo_a1_ab_apply _ _ p k (0 : Fin 1)).trans ?_
  refine congrArg Ideal.rsqrt ?_
  refine congrArg (· + Ideal.ofBits .f32 0x322BCC77#32) ?_
  refine (Cert.Lib.ColumnLayout.shapeCast_a_a1_apply _ _ p (0 : Fin 1)).trans ?_
  exact rowSq_apply x p

/-- The row products at `(p, q)`: the inner product of row `p` of the first with row `q` of the second. -/
theorem rowProducts_apply (u v : FVec Ideal S1200x128 .f32) (p q : Fin 1200) :
    rowProducts u v (ix2 p q) = ∑ k : Fin 128, u (ix2 p k) * v (ix2 q k) := by
  unfold rowProducts
  refine (Cert.LibMatmul2D.rows_cols (M := 1200) (K := 128) (N := 1200) dot_S1200x128_S128x1200_S1200x1200_1_0_0_1_n_n_wf none u _ p q).trans ?_
  exact Finset.sum_congr rfl fun k _ => congrArg (u (ix2 p k) * ·) (transpose_ix2_apply v _ k q)

/-- The similarity matrix at `(p, q)` is the specification's similarity of row `p` with row `q`. -/
theorem pay1_apply (a b : Vec Ideal S1200x128 .f32) (p q : Fin 1200) :
    k0_pay1 (F := Ideal) a b (ix2 p q) = Cert.Spec.sim a b p q := by
  rw [pay1_eq, rowProducts_apply]
  unfold Cert.Spec.sim
  exact Finset.sum_congr rfl fun k _ => by rw [scaledRows_apply, scaledRows_apply]

/-- Putting column `q` back into a row index `p` of the row-reduced matrix gives `(p, q)`. -/
theorem lift_row (p q : Fin 1200) : reduces_S1200x1200_S1200.lift (ix1 p) q = ix2 p q := by
  funext c
  match c with
  | ⟨0, _⟩ => rfl
  | ⟨1, _⟩ => rfl

/-- Putting row `p` back into a column index `q` of the column-reduced matrix gives `(p, q)`. -/
theorem lift_col (p q : Fin 1200) : reduces_S1200x1200_S1200_2.lift (ix1 q) p = ix2 p q := by
  funext c
  match c with
  | ⟨0, _⟩ => rfl
  | ⟨1, _⟩ => rfl

/-- THE ROW MAXIMA: the first stored row at `(0, p)` is the largest similarity of row `p`. -/
theorem relw_row (a b : Vec Ideal S1200x128 .f32) (p : Fin 1200) :
    k0_pay2 (F := Ideal) a b (ix2 (0 : Fin 1) p) = Cert.Spec.rowMax a b p := by
  unfold k0_pay2
  refine (Cert.LibTopRowsLayout.row_of_vector_apply _ _ p).trans ?_
  refine (Ideal.multiReduction_maximumf_single _ _ _ _ _ (ix1 p)).trans ?_
  refine (Cert.Lib.RunningMin.fold_max_negInf _ _).trans ?_
  unfold Cert.Spec.rowMax
  refine Finset.sup_congr rfl fun q _ => ?_
  exact (congrArg (k0_pay1 (F := Ideal) a b) (lift_row p q)).trans (pay1_apply a b p q)

/-- THE COLUMN MAXIMA: the second stored row at `(0, q)` is the largest similarity of column `q`. -/
theorem relw_col (a b : Vec Ideal S1200x128 .f32) (q : Fin 1200) :
    k0_pay3 (F := Ideal) a b (ix2 (0 : Fin 1) q) = Cert.Spec.colMax a b q := by
  unfold k0_pay3
  refine (Cert.LibTopRowsLayout.row_of_vector_apply _ _ q).trans ?_
  refine (Ideal.multiReduction_maximumf_single _ _ _ _ _ (ix1 q)).trans ?_
  refine (Cert.Lib.RunningMin.fold_max_negInf _ _).trans ?_
  unfold Cert.Spec.colMax
  refine Finset.sup_congr rfl fun p _ => ?_
  exact (congrArg (k0_pay1 (F := Ideal) a b) (lift_col p q)).trans (pay1_apply a b p q)

end Cert.KernelIdeal.Hand

end
-- ==== Proof.RelwValue.lean ====
/-
  The kernel program's two relation-weighting results, read at an index on the extended reals: entry p of the first
  is the largest similarity in row p, entry q of the second the largest in column q.
-/
import proofs.«153293_j29283087024787_2_alg».proof.Proof.KernelTerms
import proofs.«153293_j29283087024787_2_alg».proof.Proof.BlockValues
import proofs.«153293_j29283087024787_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.HandValue

open Cert.KernelIdeal Cert.KernelIdeal.Gen Cert.KernelIdeal.Hand
open Idealize.ShloMosaic Idealize.ShloMosaic.ValueIdx

/-- A one-row array viewed as a vector reads, at q, the row's entry q. -/
theorem row1200_apply (x : FVec Ideal S1x1200 .f32) (q : Fin 1200) : row1200 x (ix1 q) = x (ix2 (0 : Fin 1) q) :=
  shapeCast_1a_a_apply x _ q

/-- The first 1000 entries of a vector of 1200 read, at p, the vector's entry p. -/
theorem first1000_apply (x : FVec Ideal S1200 .f32) (p : Fin 1000) : first1000 x (ix1 p) = x (ix1 (⟨p.val, by omega⟩ : Fin 1200)) := by
  unfold first1000
  exact extractStridedSlice_apply ![0] x slices_S1200_S1000_0 (ix1 p) (ix1 (⟨p.val, by omega⟩ : Fin 1200)) (fun a => by
    match a with
    | ⟨0, _⟩ => show p.val = 0 + p.val; omega)

/-- Entry p of the first relation-weighting result. -/
theorem rowMax_at (A B : Vec Ideal S1200x128 .f32) (p : Fin 1000) :
    first1000 (row1200 (k0_pay2 (F := Ideal) A B)) (ix1 p) = Cert.Spec.rowMax A B ⟨p.val, by omega⟩ := by
  rw [first1000_apply, row1200_apply, relw_row]

/-- Entry q of the second. -/
theorem colMax_at (A B : Vec Ideal S1200x128 .f32) (q : Fin 1200) :
    row1200 (k0_pay3 (F := Ideal) A B) (ix1 q) = Cert.Spec.colMax A B q := by
  rw [row1200_apply, relw_col]

end Cert.KernelIdeal.HandValue

end
-- ==== Proof.LibPadAt.lean ====
/-
  A padded array read at an index.

  `pad` with no low and no interior padding appends `P` copies of the padding value after the operand along an axis.
  Read below the operand's extent it is the operand; read at or above it, the padding value. Stated for a vector
  `[E] → [E + P]` (both cases) and for a matrix padded along its rows `[N, C] → [N + Q, C]` (the rows of the operand).
-/
import Idealize.ShloMosaic.Lib.Pipeline.Value
import Idealize.ShloMosaic.Lib.ValueIdx

noncomputable section

namespace Cert.PadAt

open Idealize.ShloMosaic Idealize.ShloMosaic.ValueIdx

variable {α : Type}

/-- A vector padded at its end, read below the operand's extent, is the operand there. -/
theorem pad_vec_low {E P : Nat} {u : Shape} (x : (⟨1, ![E]⟩ : Shape).Idx → α) (v : u.Idx → α)
    (h : (⟨1, ![E]⟩ : Shape).Pads ![0] ![P] ![0] ⟨1, ![E + P]⟩) (hu : 0 < u.numel) (e : Fin E) :
    pad ⟨1, ![E + P]⟩ ![0] ![P] ![0] x v h hu (ix1 (Fin.castAdd P e)) = x (ix1 e) := by
  unfold pad
  have hin : ∀ a : Fin (⟨1, ![E]⟩ : Shape).rank,
      (![0] : Fin 1 → Nat) a ≤ ((ix1 (Fin.castAdd P e)) (a.cast h.1)).val
        ∧ (((ix1 (Fin.castAdd P e)) (a.cast h.1)).val - (![0] : Fin 1 → Nat) a) % ((![0] : Fin 1 → Nat) a + 1) = 0
        ∧ (((ix1 (Fin.castAdd P e)) (a.cast h.1)).val - (![0] : Fin 1 → Nat) a) / ((![0] : Fin 1 → Nat) a + 1) < (⟨1, ![E]⟩ : Shape).size a := by
    intro a
    match a with
    | ⟨0, _⟩ =>
      show 0 ≤ e.val ∧ (e.val - 0) % (0 + 1) = 0 ∧ (e.val - 0) / (0 + 1) < E
      have := e.isLt
      refine ⟨Nat.zero_le _, ?_, ?_⟩ <;> simp <;> omega
  rw [dif_pos hin]
  refine congrArg x (funext fun a => Fin.ext ?_)
  match a with
  | ⟨0, _⟩ => show (e.val - 0) / (0 + 1) = e.val; simp

/-- A vector padded at its end, read at or above the operand's extent, is the padding value. -/
theorem pad_vec_high {E P : Nat} {u : Shape} (x : (⟨1, ![E]⟩ : Shape).Idx → α) (v : u.Idx → α)
    (h : (⟨1, ![E]⟩ : Shape).Pads ![0] ![P] ![0] ⟨1, ![E + P]⟩) (hu : 0 < u.numel) (p : Fin P) :
    pad ⟨1, ![E + P]⟩ ![0] ![P] ![0] x v h hu (ix1 (Fin.natAdd E p)) = v (Shape.Idx.first hu) := by
  unfold pad
  rw [dif_neg]
  intro hin
  have h0 := (hin (⟨0, Nat.one_pos⟩ : Fin 1)).2.2
  have h1 : ((E + p.val) - 0) / (0 + 1) < E := h0
  simp at h1

/-- A matrix padded with rows at its end, read at a row of the operand, is the operand there. -/
theorem pad_rows_low {N Q C : Nat} {u : Shape} (x : (⟨2, ![N, C]⟩ : Shape).Idx → α) (v : u.Idx → α)
    (h : (⟨2, ![N, C]⟩ : Shape).Pads ![0, 0] ![Q, 0] ![0, 0] ⟨2, ![N + Q, C]⟩) (hu : 0 < u.numel) (n : Fin N) (k : Fin C) :
    pad ⟨2, ![N + Q, C]⟩ ![0, 0] ![Q, 0] ![0, 0] x v h hu (ix2 (Fin.castAdd Q n) k) = x (ix2 n k) := by
  unfold pad
  have hin : ∀ a : Fin (⟨2, ![N, C]⟩ : Shape).rank,
      (![0, 0] : Fin 2 → Nat) a ≤ ((ix2 (Fin.castAdd Q n) k) (a.cast h.1)).val
        ∧ (((ix2 (Fin.castAdd Q n) k) (a.cast h.1)).val - (![0, 0] : Fin 2 → Nat) a) % ((![0, 0] : Fin 2 → Nat) a + 1) = 0
        ∧ (((ix2 (Fin.castAdd Q n) k) (a.cast h.1)).val - (![0, 0] : Fin 2 → Nat) a) / ((![0, 0] : Fin 2 → Nat) a + 1) < (⟨2, ![N, C]⟩ : Shape).size a := by
    intro a
    match a with
    | ⟨0, _⟩ =>
      show 0 ≤ n.val ∧ (n.val - 0) % (0 + 1) = 0 ∧ (n.val - 0) / (0 + 1) < N
      have := n.isLt
      refine ⟨Nat.zero_le _, ?_, ?_⟩ <;> simp <;> omega
    | ⟨1, _⟩ =>
      show 0 ≤ k.val ∧ (k.val - 0) % (0 + 1) = 0 ∧ (k.val - 0) / (0 + 1) < C
      have := k.isLt
      refine ⟨Nat.zero_le _, ?_, ?_⟩ <;> simp <;> omega
  rw [dif_pos hin]
  refine congrArg x (funext fun a => Fin.ext ?_)
  match a with
  | ⟨0, _⟩ => show (n.val - 0) / (0 + 1) = n.val; simp
  | ⟨1, _⟩ => show (k.val - 0) / (0 + 1) = k.val; simp

end Cert.PadAt

end
-- ==== Proof.AdjValue.lean ====
/-
  One graph side of the kernel program on the extended reals, from the edge weights to the adjacency values.

  The weights, summed per head node into zeros, padded and viewed as rows, pass through the lane-wise node-factor
  payload and are read back at node n: the reshape there and back cancels around a lane-wise function, the pad is not
  reached below the node count, the sum into zeros is the sum over the edges landing on n, so the entry is the guarded
  inverse square root of (that sum plus one) — the specification's node factor.  The final array, read at an edge
  position, is the weight times the factors gathered at the edge's head and tail; read at a diagonal position it is
  the square of that node's factor: the specification's adjacency values.
-/
import proofs.«153293_j29283087024787_2_alg».proof.Proof.KernelTerms
import proofs.«153293_j29283087024787_2_alg».proof.Proof.Gen.KernelIdeal.Skeleton
import proofs.«153293_j29283087024787_2_alg».proof.Proof.Spec
import proofs.«153293_j29283087024787_2_alg».proof.Proof.LibEdgeRows
import proofs.«153293_j29283087024787_2_alg».proof.Proof.LibPadAt
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.ValueIdx Idealize.ShloMosaic.EdgeRows
open scoped BigOperators

/-! # The adjacency values the kernel program computes, on the extended reals

The host side around the two degree-factor regions sums the edge weights per head node, pads the sums to
1568 × 128 entries, lets the region apply the guarded inverse square root to every entry, reads the first 200000
entries back as the node factors, and forms, per edge, the weight times the factors at its head and at its tail,
followed by the squared factors of the diagonal. -/

/-- Viewing an edge array as rows, multiplying three such views lane by lane and viewing the product as a flat array
    again is the product of the three arrays: a reshape moves entries without changing them. -/
theorem flat_mul3 {F : FTy → Type} [FloatOps F] (a b c : FVec F S4000000 .f32) :
    flat (mulf (mulf (rows a) (rows b)) (rows c)) = mulf (mulf a b) c := by
  have h : ∀ x : FVec F S4000000 .f32, flat (rows x) = x := fun x => shapeCast_shapeCast x _ _
  calc flat (mulf (mulf (rows a) (rows b)) (rows c)) = mulf (mulf (flat (rows a)) (flat (rows b))) (flat (rows c)) := rfl
    _ = mulf (mulf a b) c := by rw [h, h, h]

/-- The f32 zero word is the real zero. -/
theorem z0_eq : Cert.Spec.z0 = 0 := Ideal.ofBits_zero_f32

/-! ## Through the degree-factor region 2 -/

/-- The node-factor payload is pointwise: at every position the guarded inverse square root of the entry plus one. -/
theorem dis2_pt (x : Vec Ideal S1568x128 .f32) (i : S1568x128.Idx) :
    k2_pay1 (F := Ideal) x i = Cert.Spec.disOf (x i + Cert.Spec.one) := by
  unfold k2_pay1
  simp only [shapeCast_self]
  rfl

/-- and the second payload is its square. -/
theorem dis2_sq_pt (x : Vec Ideal S1568x128 .f32) (i : S1568x128.Idx) :
    k2_pay2 (F := Ideal) x i = Cert.Spec.disOf (x i + Cert.Spec.one) * Cert.Spec.disOf (x i + Cert.Spec.one) := by
  unfold k2_pay2
  show k2_pay1 (F := Ideal) x i * k2_pay1 (F := Ideal) x i = _
  rw [dis2_pt]

/-! ## Through the degree-factor region 4 -/

/-- The node-factor payload is pointwise: at every position the guarded inverse square root of the entry plus one. -/
theorem dis4_pt (x : Vec Ideal S1568x128 .f32) (i : S1568x128.Idx) :
    k4_pay1 (F := Ideal) x i = Cert.Spec.disOf (x i + Cert.Spec.one) := by
  unfold k4_pay1
  simp only [shapeCast_self]
  rfl

/-- and the second payload is its square. -/
theorem dis4_sq_pt (x : Vec Ideal S1568x128 .f32) (i : S1568x128.Idx) :
    k4_pay2 (F := Ideal) x i = Cert.Spec.disOf (x i + Cert.Spec.one) * Cert.Spec.disOf (x i + Cert.Spec.one) := by
  unfold k4_pay2
  show k4_pay1 (F := Ideal) x i * k4_pay1 (F := Ideal) x i = _
  rw [dis4_pt]

/-- The padded per-node sums viewed as rows, read back flat at node `n`: the sum of the weights of the edges whose
    head lands on `n` (the scatter adds into zeros, and positions below 200000 of the padded vector are the sums). -/
theorem degRows_flat_apply (v : FVec Ideal S4000000 .f32) (h : IVec S4000000 32) (n : Fin 200000) (hn : n.val < 200704) :
    shapeCast S200704 (degRows v h) shapeCasts_S1568x128_S200704 (ix1 (⟨n.val, hn⟩ : Fin 200704))
      = ∑ e ∈ Finset.univ.filter (fun e : Fin 4000000 => landsOf 200000 (rawCol h) e = some n), (v (ix1 e) : EReal) := by
  unfold degRows
  rw [shapeCast_shapeCast]
  refine (Cert.PadAt.pad_vec_low (E := 200000) (P := 704) _ _ pads_S200000_S200704_07040 h_S_ n).trans ?_
  refine (scatterAdd_vec_apply scatter_S200000_S4000000x1_S4000000_n_0_0_1_wf _ (rawCol h) v n).trans ?_
  show Cert.Spec.z0 + _ = _
  rw [z0_eq, zero_add]

/-- The first 200000 entries of a 1568 × 128 array in row-major order: entry `n` is the flat view at `n`. -/
theorem nodes_apply {F : FTy → Type} [FloatOps F] (d : FVec F S1568x128 .f32) (n : Fin 200000) (hn : n.val < 200704) :
    nodes d (ix1 n) = shapeCast S200704 d shapeCasts_S1568x128_S200704 (ix1 (⟨n.val, hn⟩ : Fin 200704)) := by
  unfold nodes
  exact extractStridedSlice_apply ![0] _ slices_S200704_S200000_0 (ix1 n) (ix1 (⟨n.val, hn⟩ : Fin 200704))
    (fun a => match a with | ⟨0, _⟩ => (Nat.zero_add _).symm)

/-- The weight of an edge is the entry of the three-fold product. -/
theorem vals_eq (a b c : FVec Ideal S4000000 .f32) (e : Fin 4000000) :
    (mulf (mulf a b) c) (ix1 e) = Cert.Spec.vals a b c e := rfl

/-- The degree rows run through the node-factor payload and read back at node `n`: the guarded inverse square
    root of the sum of the weights landing on `n`, plus one. -/
theorem nodes_dis (v : FVec Ideal S4000000 .f32) (h : IVec S4000000 32) (n : Fin 200000) :
    nodes (k2_pay1 (F := Ideal) (degRows v h)) (ix1 n)
      = Cert.Spec.disOf ((∑ e ∈ Finset.univ.filter (fun e : Fin 4000000 => landsOf 200000 (rawCol h) e = some n), (v (ix1 e) : EReal)) + Cert.Spec.one) := by
  have hn : n.val < 200704 := by have := n.isLt; omega
  refine (nodes_apply _ n hn).trans ?_
  refine (dis2_pt (degRows v h) (Shape.reshapeEquiv shapeCasts_S1568x128_S200704 (ix1 (⟨n.val, hn⟩ : Fin 200704)))).trans ?_
  exact congrArg (fun s => Cert.Spec.disOf (s + Cert.Spec.one)) (degRows_flat_apply v h n hn)

/-- The same through the squared payload: the square of that factor. -/
theorem nodes_dis_sq (v : FVec Ideal S4000000 .f32) (h : IVec S4000000 32) (n : Fin 200000) :
    nodes (k2_pay2 (F := Ideal) (degRows v h)) (ix1 n)
      = Cert.Spec.disOf ((∑ e ∈ Finset.univ.filter (fun e : Fin 4000000 => landsOf 200000 (rawCol h) e = some n), (v (ix1 e) : EReal)) + Cert.Spec.one)
        * Cert.Spec.disOf ((∑ e ∈ Finset.univ.filter (fun e : Fin 4000000 => landsOf 200000 (rawCol h) e = some n), (v (ix1 e) : EReal)) + Cert.Spec.one) := by
  have hn : n.val < 200704 := by have := n.isLt; omega
  refine (nodes_apply _ n hn).trans ?_
  refine (dis2_sq_pt (degRows v h) (Shape.reshapeEquiv shapeCasts_S1568x128_S200704 (ix1 (⟨n.val, hn⟩ : Fin 200704)))).trans ?_
  exact congrArg (fun s => Cert.Spec.disOf (s + Cert.Spec.one) * Cert.Spec.disOf (s + Cert.Spec.one)) (degRows_flat_apply v h n hn)

/-- The degree rows run through the node-factor payload and read back at node `n`: the guarded inverse square
    root of the sum of the weights landing on `n`, plus one. -/
theorem nodes_dis4 (v : FVec Ideal S4000000 .f32) (h : IVec S4000000 32) (n : Fin 200000) :
    nodes (k4_pay1 (F := Ideal) (degRows v h)) (ix1 n)
      = Cert.Spec.disOf ((∑ e ∈ Finset.univ.filter (fun e : Fin 4000000 => landsOf 200000 (rawCol h) e = some n), (v (ix1 e) : EReal)) + Cert.Spec.one) := by
  have hn : n.val < 200704 := by have := n.isLt; omega
  refine (nodes_apply _ n hn).trans ?_
  refine (dis4_pt (degRows v h) (Shape.reshapeEquiv shapeCasts_S1568x128_S200704 (ix1 (⟨n.val, hn⟩ : Fin 200704)))).trans ?_
  exact congrArg (fun s => Cert.Spec.disOf (s + Cert.Spec.one)) (degRows_flat_apply v h n hn)

/-- The same through the squared payload: the square of that factor. -/
theorem nodes_dis4_sq (v : FVec Ideal S4000000 .f32) (h : IVec S4000000 32) (n : Fin 200000) :
    nodes (k4_pay2 (F := Ideal) (degRows v h)) (ix1 n)
      = Cert.Spec.disOf ((∑ e ∈ Finset.univ.filter (fun e : Fin 4000000 => landsOf 200000 (rawCol h) e = some n), (v (ix1 e) : EReal)) + Cert.Spec.one)
        * Cert.Spec.disOf ((∑ e ∈ Finset.univ.filter (fun e : Fin 4000000 => landsOf 200000 (rawCol h) e = some n), (v (ix1 e) : EReal)) + Cert.Spec.one) := by
  have hn : n.val < 200704 := by have := n.isLt; omega
  refine (nodes_apply _ n hn).trans ?_
  refine (dis4_sq_pt (degRows v h) (Shape.reshapeEquiv shapeCasts_S1568x128_S200704 (ix1 (⟨n.val, hn⟩ : Fin 200704)))).trans ?_
  exact congrArg (fun s => Cert.Spec.disOf (s + Cert.Spec.one) * Cert.Spec.disOf (s + Cert.Spec.one)) (degRows_flat_apply v h n hn)

/-- The specification's node factor, with the edge weights written as entries of the three-fold product. -/
theorem dis_eq (a b c : FVec Ideal S4000000 .f32) (h : IVec S4000000 32) (n : Fin 200000) :
    Cert.Spec.dis a b c (rawCol h) n
      = Cert.Spec.disOf ((∑ e ∈ Finset.univ.filter (fun e : Fin 4000000 => landsOf 200000 (rawCol h) e = some n), ((mulf (mulf a b) c) (ix1 e) : EReal)) + Cert.Spec.one) := by
  unfold Cert.Spec.dis Cert.Spec.edgeSum
  refine congrArg (fun s => Cert.Spec.disOf (s + Cert.Spec.one)) ?_
  exact Finset.sum_congr rfl fun e _ => (vals_eq a b c e).symm

/-- THE ADJACENCY VALUES: position `j` below 4000000 is edge `j`, its weight times the node factors its head and
    tail indices read; position `4000000 + i` is the squared factor of node `i`. -/
theorem adjOut_spec (a b c : FVec Ideal S4000000 .f32) (h t : IVec S4000000 32) (j : Fin 4200000) :
    adjOut (mulf (mulf a b) c) (k2_pay1 (F := Ideal) (degRows (mulf (mulf a b) c) h)) (k2_pay2 (F := Ideal) (degRows (mulf (mulf a b) c) h)) h t (ix1 j)
      = Cert.Spec.adj a b c (rawCol h) (normCol h) (normCol t) j := by
  unfold adjOut Cert.Spec.adj
  by_cases hj : j.val < 4000000
  · rw [dif_pos hj]
    refine (concatenate_pair_apply_left (t := S4200000) (s₁ := S4000000) (s₂ := S200000) (0 : Fin 1) _ _
      concatenates_S4000000_S200000_S4200000_d0 (ix1 j) rfl
      (ix1 (⟨j.val, hj⟩ : Fin 4000000)) (fun b => match b with | ⟨0, _⟩ => rfl)).trans ?_
    refine congrArg₂ (· * ·) (congrArg₂ (· * ·) (vals_eq a b c ⟨j.val, hj⟩) ?_) ?_
    · refine (gather_vec_apply (N := 200000) (E := 4000000) (by decide) gather_S200000_S4000000x1_S4000000_n_0_n_n_0_1_1_wf _ (normCol h) ⟨j.val, hj⟩).trans ?_
      exact (nodes_dis (mulf (mulf a b) c) h _).trans (dis_eq a b c h _).symm
    · refine (gather_vec_apply (N := 200000) (E := 4000000) (by decide) gather_S200000_S4000000x1_S4000000_n_0_n_n_0_1_1_wf _ (normCol t) ⟨j.val, hj⟩).trans ?_
      exact (nodes_dis (mulf (mulf a b) c) h _).trans (dis_eq a b c h _).symm
  · rw [dif_neg hj]
    have hi : j.val - 4000000 < 200000 := by have := j.isLt; omega
    refine (concatenate_pair_apply_right (t := S4200000) (s₁ := S4000000) (s₂ := S200000) (0 : Fin 1) _ _
      concatenates_S4000000_S200000_S4200000_d0 (ix1 j) rfl rfl
      (ix1 (⟨j.val - 4000000, hi⟩ : Fin 200000)) (fun b hb => absurd (Subsingleton.elim _ _) hb)
      (by show j.val - 4000000 + 4000000 = j.val; omega)).trans ?_
    refine (nodes_dis_sq (mulf (mulf a b) c) h ⟨j.val - 4000000, hi⟩).trans ?_
    rw [← dis_eq a b c h ⟨j.val - 4000000, hi⟩]

/-- THE ADJACENCY VALUES: position `j` below 4000000 is edge `j`, its weight times the node factors its head and
    tail indices read; position `4000000 + i` is the squared factor of node `i`. -/
theorem adjOut_spec4 (a b c : FVec Ideal S4000000 .f32) (h t : IVec S4000000 32) (j : Fin 4200000) :
    adjOut (mulf (mulf a b) c) (k4_pay1 (F := Ideal) (degRows (mulf (mulf a b) c) h)) (k4_pay2 (F := Ideal) (degRows (mulf (mulf a b) c) h)) h t (ix1 j)
      = Cert.Spec.adj a b c (rawCol h) (normCol h) (normCol t) j := by
  unfold adjOut Cert.Spec.adj
  by_cases hj : j.val < 4000000
  · rw [dif_pos hj]
    refine (concatenate_pair_apply_left (t := S4200000) (s₁ := S4000000) (s₂ := S200000) (0 : Fin 1) _ _
      concatenates_S4000000_S200000_S4200000_d0 (ix1 j) rfl
      (ix1 (⟨j.val, hj⟩ : Fin 4000000)) (fun b => match b with | ⟨0, _⟩ => rfl)).trans ?_
    refine congrArg₂ (· * ·) (congrArg₂ (· * ·) (vals_eq a b c ⟨j.val, hj⟩) ?_) ?_
    · refine (gather_vec_apply (N := 200000) (E := 4000000) (by decide) gather_S200000_S4000000x1_S4000000_n_0_n_n_0_1_1_wf _ (normCol h) ⟨j.val, hj⟩).trans ?_
      exact (nodes_dis4 (mulf (mulf a b) c) h _).trans (dis_eq a b c h _).symm
    · refine (gather_vec_apply (N := 200000) (E := 4000000) (by decide) gather_S200000_S4000000x1_S4000000_n_0_n_n_0_1_1_wf _ (normCol t) ⟨j.val, hj⟩).trans ?_
      exact (nodes_dis4 (mulf (mulf a b) c) h _).trans (dis_eq a b c h _).symm
  · rw [dif_neg hj]
    have hi : j.val - 4000000 < 200000 := by have := j.isLt; omega
    refine (concatenate_pair_apply_right (t := S4200000) (s₁ := S4000000) (s₂ := S200000) (0 : Fin 1) _ _
      concatenates_S4000000_S200000_S4200000_d0 (ix1 j) rfl rfl
      (ix1 (⟨j.val - 4000000, hi⟩ : Fin 200000)) (fun b hb => absurd (Subsingleton.elim _ _) hb)
      (by show j.val - 4000000 + 4000000 = j.val; omega)).trans ?_
    refine (nodes_dis4_sq (mulf (mulf a b) c) h ⟨j.val - 4000000, hi⟩).trans ?_
    rw [← dis_eq a b c h ⟨j.val - 4000000, hi⟩]

end Cert.KernelIdeal.HandValue
end
-- ==== Proof.AdjOutAt.lean ====
/-
  The kernel program's final adjacency term, read at a position.

  The 4 200 000 values are the concatenation of 4 000 000 edge values and 200 000 diagonal values. Position e
  below 4 000 000 holds edge e's weight times the node factor gathered at its head and the one gathered at its tail;
  a gather of vector entries reads the entry at the start index, signed and clamped into the node range, and the
  start indices are the head (tail) indices with the node count added where negative. Position 4 000 000 + i holds
  the i-th diagonal value. The weights and the two arrays of node factors are left as variables.
-/
import proofs.«153293_j29283087024787_2_alg».proof.Proof.KernelTerms
import proofs.«153293_j29283087024787_2_alg».proof.Proof.Spec
import proofs.«153293_j29283087024787_2_alg».proof.Proof.LibEdgeRows
import Idealize.ShloMosaic.PureOps.Ideal.Laws
import Idealize.ShloMosaic.Lib.Pipeline.Value
import Idealize.ShloMosaic.Lib.IdealHost

noncomputable section

namespace Cert.KernelIdeal.HandValue

open Cert.KernelIdeal Cert.KernelIdeal.Gen Cert.KernelIdeal.Hand
open Idealize.ShloMosaic Idealize.ShloMosaic.ValueIdx Idealize.ShloMosaic.EdgeRows
open scoped BigOperators

/-- The first 4 000 000 positions of a concatenation [4 000 000 ; 200 000] read the first piece. -/
theorem concat_lo {α : Type} (x₁ : S4000000.Idx → α) (x₂ : S200000.Idx → α) (e : Fin 4000000) :
    concatenate S4200000 0 [⟨S4000000, x₁⟩, ⟨S200000, x₂⟩] concatenates_S4000000_S200000_S4200000_d0
      (ix1 (⟨e.val, by omega⟩ : Fin 4200000)) = x₁ (ix1 e) :=
  concatenate_pair_apply_left (t := S4200000) (s₁ := S4000000) (s₂ := S200000) 0 x₁ x₂
    concatenates_S4000000_S200000_S4200000_d0 (ix1 (⟨e.val, by omega⟩ : Fin 4200000)) rfl (ix1 e)
    (fun b => match b with | ⟨0, _⟩ => rfl)

/-- Position 4 000 000 + i reads the second piece at i. -/
theorem concat_hi {α : Type} (x₁ : S4000000.Idx → α) (x₂ : S200000.Idx → α) (i : Fin 200000) :
    concatenate S4200000 0 [⟨S4000000, x₁⟩, ⟨S200000, x₂⟩] concatenates_S4000000_S200000_S4200000_d0
      (ix1 (⟨4000000 + i.val, by omega⟩ : Fin 4200000)) = x₂ (ix1 i) :=
  concatenate_pair_apply_right (t := S4200000) (s₁ := S4000000) (s₂ := S200000) 0 x₁ x₂
    concatenates_S4000000_S200000_S4200000_d0 (ix1 (⟨4000000 + i.val, by omega⟩ : Fin 4200000)) rfl rfl (ix1 i)
    (fun b => match b with | ⟨0, _⟩ => fun hb => absurd rfl hb)
    (by show i.val + 4000000 = 4000000 + i.val; omega)

/-- The gather's dimension numbers are those of a gather of vector entries along one column of start indices. -/
theorem gather_eq : gather_S200000_S4000000x1_S4000000_n_0_n_n_0_1_1
    = vecGatherDims 200000 4000000 gather_S200000_S4000000x1_S4000000_n_0_n_n_0_1_1_wf := rfl

/-- The raw index column at [e, 0] is the index of edge e. -/
theorem rawCol_at (h : IVec S4000000 32) (e : Fin 4000000) : rawCol h (edgeAt e) = h (ix1 e) := by
  unfold rawCol
  exact broadcastInDim_apply _ bcast_S4000000_S4000000x1_0 h (edgeAt e) (ix1 e) (fun a => match a with
    | ⟨0, _⟩ => by show e.val = if (4000000 : Nat) = 1 then 0 else e.val; rw [if_neg (by decide)])

/-- The normalised index column at [e, 0] is the index of edge e with the node count added where it is negative. -/
theorem normCol_at (h : IVec S4000000 32) (e : Fin 4000000) :
    normCol h (edgeAt e)
      = Scalar.select (IntOp.cmpi .slt (h (ix1 e)) 0#32) (IntOp.addi (h (ix1 e)) 200000#32) (h (ix1 e)) := by
  have e0 : broadcastInDim S4000000 ![] bcast_S_S4000000 (constantI S_ 32 0#32) (ix1 e) = 0#32 :=
    broadcastInDim_apply _ bcast_S_S4000000 _ (ix1 e) ix0 (fun a => a.elim0)
  have e1 : broadcastInDim S4000000 ![] bcast_S_S4000000 (constantI S_ 32 200000#32) (ix1 e) = 200000#32 :=
    broadcastInDim_apply _ bcast_S_S4000000 _ (ix1 e) ix0 (fun a => a.elim0)
  unfold normCol
  rw [broadcastInDim_apply _ bcast_S4000000_S4000000x1_0 _ (edgeAt e) (ix1 e) (fun a => match a with
    | ⟨0, _⟩ => by show e.val = if (4000000 : Nat) = 1 then 0 else e.val; rw [if_neg (by decide)])]
  show Scalar.select (IntOp.cmpi .slt (h (ix1 e)) (broadcastInDim S4000000 ![] bcast_S_S4000000 (constantI S_ 32 0#32) (ix1 e)))
    (IntOp.addi (h (ix1 e)) (broadcastInDim S4000000 ![] bcast_S_S4000000 (constantI S_ 32 200000#32) (ix1 e))) (h (ix1 e)) = _
  rw [e0, e1]

/-- Edge e's value: its weight times the node factors its normalised, clamped head and tail indices read. -/
theorem adjOut_edge (v : FVec Ideal S4000000 .f32) (dA dB : FVec Ideal S1568x128 .f32) (h t : IVec S4000000 32)
    (e : Fin 4000000) :
    adjOut v dA dB h t (ix1 (⟨e.val, by omega⟩ : Fin 4200000))
      = v (ix1 e) * nodes dA (ix1 (rowOf 200000 (by decide) (normCol h) e))
          * nodes dA (ix1 (rowOf 200000 (by decide) (normCol t) e)) := by
  unfold adjOut
  rw [concat_lo, gather_eq]
  show FloatOps.mulf (FloatOps.mulf (v (ix1 e)) (Host.gather (vecGatherDims 200000 4000000 _) (nodes dA) (normCol h) (ix1 e)))
    (Host.gather (vecGatherDims 200000 4000000 _) (nodes dA) (normCol t) (ix1 e)) = _
  rw [gather_vec_apply (by decide : 0 < 200000), gather_vec_apply (by decide : 0 < 200000)]
  rfl

/-- Position 4 000 000 + i holds the i-th diagonal value. -/
theorem adjOut_diag (v : FVec Ideal S4000000 .f32) (dA dB : FVec Ideal S1568x128 .f32) (h t : IVec S4000000 32)
    (i : Fin 200000) :
    adjOut v dA dB h t (ix1 (⟨4000000 + i.val, by omega⟩ : Fin 4200000)) = nodes dB (ix1 i) := by
  unfold adjOut
  rw [concat_hi]

end Cert.KernelIdeal.HandValue

end
-- ==== Proof.RefValue.lean ====
/-
  The reference program's four results, read index by index as the specification's functions of its arguments.

  RELATION WEIGHTING.  Each 1200 × 128 array (the first one zero-padded from 1000 rows by the host) has every row
  scaled by the inverse square root of the row's sum of squares plus the floor; the product of the first scaled
  array with the transpose of the second is the 1200 × 1200 matrix of similarities; a maximum-reduction from −∞
  along an axis is the supremum over that axis, so the two results are the row suprema (the first 1000 of them)
  and the column suprema.

  ADJACENCY.  One graph side scatters the 4 200 000 values [edge weights ; 200 000 ones] along the 4 200 000
  indices [heads ; 0, 1, …, 199 999] into a zero vector of 200 000 degrees.  The updates landing on node n are
  the edges whose head lands on n, and exactly one of the trailing ones: the one at position 4 000 000 + n, because
  the index there is n itself.  So the degree is the edge sum plus one.  The two gathers read the guarded inverse
  square root of the degree at the normalised (200 000 added where negative), clamped index: for an edge that is
  the normalised head or tail, and at position 4 000 000 + i it is i itself.
-/
import proofs.«153293_j29283087024787_2_alg».proof.Proof.Gen.ReferenceIdeal.Read
import proofs.«153293_j29283087024787_2_alg».proof.Proof.Spec
import proofs.«153293_j29283087024787_2_alg».proof.Proof.LibRunningMin
import proofs.«153293_j29283087024787_2_alg».proof.Proof.LibEdgeRows
import Idealize.ShloMosaic.PureOps.Ideal.Laws
import Idealize.ShloMosaic.PureOps.Reduce
import Idealize.ShloMosaic.Lib.Pipeline.Value
import Idealize.ShloMosaic.Lib.IdealHost

noncomputable section

namespace Cert.ReferenceIdeal.RefValue

open Cert.ReferenceIdeal Cert.ReferenceIdeal.Gen Idealize.ShloMosaic Idealize.ShloMosaic.ValueIdx Idealize.ShloMosaic.EdgeRows
open scoped BigOperators

/-- The reduced row index with the column k put back is (j, k). -/
theorem lift_row (h : S1200x1200.Reduces [1] S1200) (j : Fin 1200) (k : Fin (S1200x1200.size 1)) :
    h.lift (ix1 j) k = ix2 j (⟨k.val, k.isLt⟩ : Fin 1200) := by
  funext c; apply Fin.ext
  fin_cases c <;> rfl

/-- The reduced column index with the row k put back is (k, j). -/
theorem lift_col (h : S1200x1200.Reduces [0] S1200) (j : Fin 1200) (k : Fin (S1200x1200.size 0)) :
    h.lift (ix1 j) k = ix2 (⟨k.val, k.isLt⟩ : Fin 1200) j := by
  funext c; apply Fin.ext
  fin_cases c <;> rfl

/-- From −∞, the maximum-reduction along the columns of a 1200 × 1200 array is, at row j, the supremum of the row. -/
theorem hostMax_rows (y : FVec Ideal S1200x1200 .f32) (j : Fin 1200) :
    Host.reduce (α := Ideal .f32) FloatOps.maximumf y (Read.val_main_cst_4 (F := Ideal)) reducesTo_S1200x1200_S1200_d1 h_S_ (ix1 j)
      = Finset.univ.sup fun q : Fin 1200 => (y (ix2 j q) : EReal) := by
  rw [Host.reduce_eq_fold_single FloatOps.maximumf y _ reducesTo_S1200x1200_S1200_d1 (by decide) h_S_]
  refine (Cert.Lib.RunningMin.fold_max_negInf (Finset.univ : Finset (Fin 1200)) _).trans ?_
  exact Finset.sup_congr rfl fun k _ => congrArg y (lift_row _ j k)

/-- From −∞, the maximum-reduction along the rows of a 1200 × 1200 array is, at column j, the supremum of the column. -/
theorem hostMax_cols (y : FVec Ideal S1200x1200 .f32) (j : Fin 1200) :
    Host.reduce (α := Ideal .f32) FloatOps.maximumf y (Read.val_main_cst_5 (F := Ideal)) reducesTo_S1200x1200_S1200_d0 h_S_ (ix1 j)
      = Finset.univ.sup fun p : Fin 1200 => (y (ix2 p j) : EReal) := by
  rw [Host.reduce_eq_fold_single FloatOps.maximumf y _ reducesTo_S1200x1200_S1200_d0 (by decide) h_S_]
  refine (Cert.Lib.RunningMin.fold_max_negInf (Finset.univ : Finset (Fin 1200)) _).trans ?_
  exact Finset.sup_congr rfl fun k _ => congrArg y (lift_col _ j k)

/-- Entry (p, k) of the first array scaled by the inverse square root of its row's sum of squares plus the floor. -/
theorem nrmA (x0 : (⟨S1000x128, .f32⟩ : BufTy).Contents (Elt Ideal)) (p : Fin 1200) (k : Fin 128) :
    Read.val_main_v9 (F := Ideal) x0 (ix2 p k) = Cert.Spec.nrm (Read.val_main_v0 (F := Ideal) x0) p k := by
  have hi : ∀ j : Fin 128, Read.idx_main_v3 (Read.idx_main_v4 (Read.idx_main_v8 (ix2 p k))) j = ix2 p j :=
    fun j => funext fun a => Fin.ext (by match a with | ⟨0, _⟩ => rfl | ⟨1, _⟩ => rfl)
  rw [Read.val_main_v9_apply, Read.val_main_v8_apply, Read.val_main_v7_apply, Read.val_main_v6_apply,
    Read.val_main_v4_apply, Read.val_main_v3_apply, Read.val_main_v5_apply, Read.val_main_cst_1_apply,
    Read.val_main_cst_apply]
  simp only [hi, Read.val_main_v2_apply, Ideal.mulf_def, Ideal.addf_def, Ideal.hostUnary_rsqrt_def, Ideal.ofBits_def,
    Ideal.ofBits_zero_f32, zero_add]
  rfl

/-- The same for the second array. -/
theorem nrmB (x1 : (⟨S1200x128, .f32⟩ : BufTy).Contents (Elt Ideal)) (q : Fin 1200) (k : Fin 128) :
    Read.val_main_v17 (F := Ideal) x1 (ix2 q k) = Cert.Spec.nrm (Read.val_main_v1 (F := Ideal) x1) q k := by
  have hi : ∀ j : Fin 128, Read.idx_main_v11 (Read.idx_main_v12 (Read.idx_main_v16 (ix2 q k))) j = ix2 q j :=
    fun j => funext fun a => Fin.ext (by match a with | ⟨0, _⟩ => rfl | ⟨1, _⟩ => rfl)
  rw [Read.val_main_v17_apply, Read.val_main_v16_apply, Read.val_main_v15_apply, Read.val_main_v14_apply,
    Read.val_main_v12_apply, Read.val_main_v11_apply, Read.val_main_v13_apply, Read.val_main_cst_3_apply,
    Read.val_main_cst_2_apply]
  simp only [hi, Read.val_main_v10_apply, Ideal.mulf_def, Ideal.addf_def, Ideal.hostUnary_rsqrt_def, Ideal.ofBits_def,
    Ideal.ofBits_zero_f32, zero_add]
  rfl

/-- Entry (p, q) of the product of the first scaled array with the transposed second one is the similarity of
    row p with row q. -/
theorem sim_eq (x0 : (⟨S1000x128, .f32⟩ : BufTy).Contents (Elt Ideal)) (x1 : (⟨S1200x128, .f32⟩ : BufTy).Contents (Elt Ideal))
    (p q : Fin 1200) :
    Read.val_main_v19 (F := Ideal) x0 x1 (ix2 p q)
      = Cert.Spec.sim (Read.val_main_v0 (F := Ideal) x0) (Read.val_main_v1 (F := Ideal) x1) p q := by
  rw [Read.val_main_v19_apply]
  unfold Cert.Spec.sim
  refine Finset.sum_congr rfl fun k _ => ?_
  have hl : Read.lidx_main_v19 (ix2 p q) k = ix2 p k :=
    funext fun a => Fin.ext (by match a with | ⟨0, _⟩ => rfl | ⟨1, _⟩ => rfl)
  have hr : Read.idx_main_v18 (Read.ridx_main_v19 (ix2 p q) k) = ix2 q k :=
    funext fun a => Fin.ext (by match a with | ⟨0, _⟩ => rfl | ⟨1, _⟩ => rfl)
  rw [hl, Read.val_main_v18_apply, hr, nrmA, nrmB]

/-- The first relation-weighting result at p is the largest similarity in row p. -/
theorem ref_rowMax (x0 : (⟨S1000x128, .f32⟩ : BufTy).Contents (Elt Ideal)) (x1 : (⟨S1200x128, .f32⟩ : BufTy).Contents (Elt Ideal))
    (p : Fin 1000) :
    Read.val_main_v21 (F := Ideal) x0 x1 (ix1 p)
      = Cert.Spec.rowMax (Read.val_main_v0 (F := Ideal) x0) (Read.val_main_v1 (F := Ideal) x1) ⟨p.val, by omega⟩ := by
  have hj : Read.idx_main_v21 (ix1 p) = ix1 (⟨p.val, by omega⟩ : Fin 1200) :=
    funext fun a => Fin.ext (by match a with | ⟨0, _⟩ => rfl)
  rw [Read.val_main_v21_apply, hj]
  unfold Read.val_main_v20
  rw [hostMax_rows]
  unfold Cert.Spec.rowMax
  exact Finset.sup_congr rfl fun q _ => sim_eq x0 x1 _ q

/-- The second relation-weighting result at q is the largest similarity in column q. -/
theorem ref_colMax (x0 : (⟨S1000x128, .f32⟩ : BufTy).Contents (Elt Ideal)) (x1 : (⟨S1200x128, .f32⟩ : BufTy).Contents (Elt Ideal))
    (q : Fin 1200) :
    Read.val_main_v22 (F := Ideal) x0 x1 (ix1 q)
      = Cert.Spec.colMax (Read.val_main_v0 (F := Ideal) x0) (Read.val_main_v1 (F := Ideal) x1) q := by
  unfold Read.val_main_v22
  rw [hostMax_cols]
  unfold Cert.Spec.colMax
  exact Finset.sup_congr rfl fun p _ => sim_eq x0 x1 p q

/-! ## Adjacency -/

/-- A start index as the two gathers read it: 200000 is added where it is negative. -/
def normIdx (w : BitVec 32) : BitVec 32 :=
  Scalar.select (IntOp.cmpi .slt w 0#32) (IntOp.addi w 200000#32) w

/-- The row a scatter adds an update to depends only on the update's start index. -/
theorem landsOf_congr {N E E' w : Nat} (idx : IVec ⟨2, ![E, 1]⟩ w) (idx' : IVec ⟨2, ![E', 1]⟩ w) (e : Fin E) (e' : Fin E')
    (h : idx (edgeAt e) = idx' (edgeAt e')) : landsOf N idx e = landsOf N idx' e' := by
  have key : ∀ a b : BitVec w, a = b →
      (if h : 0 ≤ a.toInt ∧ a.toInt < (N : Int) then some (⟨a.toInt.toNat, by omega⟩ : Fin N) else none)
        = (if h : 0 ≤ b.toInt ∧ b.toInt < (N : Int) then some (⟨b.toInt.toNat, by omega⟩ : Fin N) else none) := by
    rintro a b rfl; rfl
  exact key _ _ h

/-- The row a gather reads depends only on the start index. -/
theorem rowOf_congr {N E E' w : Nat} (hN : 0 < N) (idx : IVec ⟨2, ![E, 1]⟩ w) (idx' : IVec ⟨2, ![E', 1]⟩ w) (e : Fin E)
    (e' : Fin E') (h : idx (edgeAt e) = idx' (edgeAt e')) : rowOf N hN idx e = rowOf N hN idx' e' :=
  Fin.ext (by
    show min (idx (edgeAt e)).toInt.toNat (N - 1) = min (idx' (edgeAt e')).toInt.toNat (N - 1)
    rw [h])

/-- A small natural number as a 32-bit word reads back, signed, as itself. -/
theorem toInt_ofNat_small (i : Nat) (h : i < 200000) : (BitVec.ofNat 32 i).toInt = (i : Int) := by
  rw [BitVec.toInt_eq_toNat_cond, BitVec.toNat_ofNat]
  split <;> omega

/-- The first 4 000 000 positions of a concatenation [4 000 000 ; 200 000] read the first piece. -/
theorem concat_lo {α : Type} (x₁ : S4000000.Idx → α) (x₂ : S200000.Idx → α) (e : Fin 4000000) :
    concatenate S4200000 0 [⟨S4000000, x₁⟩, ⟨S200000, x₂⟩] concatenates_S4000000_S200000_S4200000_d0
      (ix1 (⟨e.val, by omega⟩ : Fin 4200000)) = x₁ (ix1 e) :=
  concatenate_pair_apply_left (t := S4200000) (s₁ := S4000000) (s₂ := S200000) 0 x₁ x₂
    concatenates_S4000000_S200000_S4200000_d0 (ix1 (⟨e.val, by omega⟩ : Fin 4200000)) rfl (ix1 e)
    (fun b => match b with | ⟨0, _⟩ => rfl)

/-- Position 4 000 000 + i reads the second piece at i. -/
theorem concat_hi {α : Type} (x₁ : S4000000.Idx → α) (x₂ : S200000.Idx → α) (i : Fin 200000) :
    concatenate S4200000 0 [⟨S4000000, x₁⟩, ⟨S200000, x₂⟩] concatenates_S4000000_S200000_S4200000_d0
      (ix1 (⟨4000000 + i.val, by omega⟩ : Fin 4200000)) = x₂ (ix1 i) :=
  concatenate_pair_apply_right (t := S4200000) (s₁ := S4000000) (s₂ := S200000) 0 x₁ x₂
    concatenates_S4000000_S200000_S4200000_d0 (ix1 (⟨4000000 + i.val, by omega⟩ : Fin 4200000)) rfl rfl (ix1 i)
    (fun b => match b with | ⟨0, _⟩ => fun hb => absurd rfl hb)
    (by show i.val + 4000000 = 4000000 + i.val; omega)

/-- A sum over the 4 200 000 positions is the sum over the 4 000 000 edge positions plus the sum over the 200 000
    diagonal positions. -/
theorem sum_split (f : Fin 4200000 → EReal) :
    ∑ u, f u = ∑ e : Fin 4000000, f ⟨e.val, by omega⟩ + ∑ i : Fin 200000, f ⟨4000000 + i.val, by omega⟩ :=
  Fin.sum_univ_add (a := 4000000) (b := 200000) f

/-- Position 4 000 000 + i is one of the 4 200 000. -/
theorem diag_lt (i : Fin 200000) : 4000000 + i.val < 4200000 := by omega

/-- An update whose start index reads, signed, as n (a node index) lands on n. -/
theorem landsOf_of_val {N E w : Nat} (idx : IVec ⟨2, ![E, 1]⟩ w) (e : Fin E) (n : Fin N)
    (h : (idx (edgeAt e)).toInt = (n.val : Int)) : landsOf N idx e = some n := by
  unfold landsOf
  rw [dif_pos (by rw [h]; have := n.isLt; omega)]
  exact congrArg some (Fin.ext (by show (idx (edgeAt e)).toInt.toNat = n.val; rw [h]; omega))

/-- A gather whose start index reads, signed, as n (a node index) reads n. -/
theorem rowOf_of_val {N E w : Nat} (hN : 0 < N) (idx : IVec ⟨2, ![E, 1]⟩ w) (e : Fin E) (n : Fin N)
    (h : (idx (edgeAt e)).toInt = (n.val : Int)) : rowOf N hN idx e = n :=
  Fin.ext (by
    show min (idx (edgeAt e)).toInt.toNat (N - 1) = n.val
    rw [h]; have := n.isLt; omega)

/-- A node index is not negative, so normalising it changes nothing. -/
theorem normIdx_small (i : Nat) (h : i < 200000) : normIdx (BitVec.ofNat 32 i) = BitVec.ofNat 32 i := by
  have h0 : (0#32 : BitVec 32).toInt = 0 := by decide
  have hs : (BitVec.ofNat 32 i).slt 0#32 = false := by
    show decide ((BitVec.ofNat 32 i).toInt < (0#32 : BitVec 32).toInt) = false
    rw [toInt_ofNat_small i h, h0]
    exact decide_eq_false (by omega)
  unfold normIdx IntOp.cmpi Scalar.select
  simp only [hs]
  rfl

theorem gather_eq : gather_S200000_S4200000x1_S4200000_n_0_n_n_0_1_1
    = vecGatherDims 200000 4200000 gather_S200000_S4200000x1_S4200000_n_0_n_n_0_1_1_wf := rfl

theorem scatter_eq : scatter_S200000_S4200000x1_S4200000_n_0_0_1
    = vecScatterDims 200000 4200000 scatter_S200000_S4200000x1_S4200000_n_0_0_1_wf := rfl

section Side

variable (conf imp pca : (⟨S4000000, .f32⟩ : BufTy).Contents (Elt Ideal))
variable (head tail : (⟨S4000000, .i32⟩ : BufTy).Contents (Elt Ideal))

/-- The index array [heads ; 0, …, 199 999] at an edge position is the head. -/
theorem idx26_lo (e : Fin 4000000) :
    Read.val_main_v26 (F := Ideal) head (ix1 (⟨e.val, by omega⟩ : Fin 4200000)) = head (ix1 e) := by
  unfold Read.val_main_v26; exact concat_lo _ _ e

/-- At position 4 000 000 + i it is i. -/
theorem idx26_hi (i : Fin 200000) :
    Read.val_main_v26 (F := Ideal) head (ix1 (⟨4000000 + i.val, by omega⟩ : Fin 4200000)) = BitVec.ofNat 32 i.val := by
  unfold Read.val_main_v26; rw [concat_hi]; rfl

/-- The value array [weights ; ones] at an edge position is the edge's weight. -/
theorem val29_lo (e : Fin 4000000) :
    Read.val_main_v29 (F := Ideal) conf imp pca (ix1 (⟨e.val, by omega⟩ : Fin 4200000))
      = Cert.Spec.vals conf imp pca e := by
  unfold Read.val_main_v29; rw [concat_lo]; rfl

/-- At position 4 000 000 + i it is one. -/
theorem val29_hi (i : Fin 200000) :
    Read.val_main_v29 (F := Ideal) conf imp pca (ix1 (⟨4000000 + i.val, by omega⟩ : Fin 4200000)) = Cert.Spec.one := by
  unfold Read.val_main_v29; rw [concat_hi, Read.val_main_v28_apply, Read.val_main_cst_6_apply]; rfl

/-- The scatter's one-column index array at u is the index array at u. -/
theorem col31 (u : Fin 4200000) :
    Read.val_main_v31 (F := Ideal) head (edgeAt u) = Read.val_main_v26 (F := Ideal) head (ix1 u) := by
  rw [Read.val_main_v31_apply]
  exact congrArg _ (funext fun a => Fin.ext (by match a with | ⟨0, _⟩ => rfl))

/-- The gathers' one-column index array at u is the normalised index array at u. -/
theorem col44 (u : Fin 4200000) :
    Read.val_main_v44 (F := Ideal) head (edgeAt u) = normIdx (Read.val_main_v26 (F := Ideal) head (ix1 u)) := by
  have hi : Read.idx_main_v44 (edgeAt u) = ix1 u := funext fun a => Fin.ext (by match a with | ⟨0, _⟩ => rfl)
  rw [Read.val_main_v44_apply, hi, Read.val_main_v43_apply, Read.val_main_v40_apply, Read.val_main_v42_apply,
    Read.val_main_v39_apply, Read.val_main_v41_apply, Read.val_main_c_11_apply, Read.val_main_c_12_apply]
  rfl

end Side

section Adjacency

variable (conf imp pca : (⟨S4000000, .f32⟩ : BufTy).Contents (Elt Ideal))
variable (head tail : (⟨S4000000, .i32⟩ : BufTy).Contents (Elt Ideal))
variable (hcol hcolN tcolN : IVec ⟨2, ![4000000, 1]⟩ 32)

/-- Node n's degree: the weights of the edges whose head lands on n, plus the one of the diagonal update at
    position 4 000 000 + n, the only diagonal update landing on n. -/
theorem deg_eq (hH : ∀ e : Fin 4000000, hcol (edgeAt e) = head (ix1 e)) (n : Fin 200000) :
    Read.val_main_v32 (F := Ideal) conf imp pca head (ix1 n)
      = Cert.Spec.edgeSum conf imp pca hcol n + Cert.Spec.one := by
  unfold Read.val_main_v32
  rw [scatter_eq, scatterAdd_vec_apply, Read.val_main_v30_apply, Read.val_main_cst_7_apply]
  simp only [Ideal.ofBits_def, Ideal.ofBits_zero_f32, zero_add]
  rw [Finset.sum_filter, sum_split]
  refine congrArg₂ (· + ·) ?_ ?_
  · unfold Cert.Spec.edgeSum
    rw [Finset.sum_filter]
    refine Finset.sum_congr rfl fun e _ => ?_
    rw [landsOf_congr (N := 200000) (Read.val_main_v31 (F := Ideal) head) hcol (⟨e.val, by omega⟩ : Fin 4200000) e
      (by rw [col31, idx26_lo, hH]), val29_lo]
  · have hl : ∀ i : Fin 200000, landsOf 200000 (Read.val_main_v31 (F := Ideal) head)
        (⟨4000000 + i.val, by omega⟩ : Fin 4200000) = some i :=
      fun i => landsOf_of_val _ _ i (by rw [col31, idx26_hi]; exact toInt_ofNat_small i.val i.isLt)
    simp only [hl, val29_hi, Option.some.injEq]
    rw [Finset.sum_ite_eq', if_pos (Finset.mem_univ n)]

/-- Node n's factor: the guarded inverse square root of its degree. -/
theorem dis_eq (hH : ∀ e : Fin 4000000, hcol (edgeAt e) = head (ix1 e)) (n : Fin 200000) :
    Read.val_main_v38 (F := Ideal) conf imp pca head (ix1 n) = Cert.Spec.dis conf imp pca hcol n := by
  rw [Read.val_main_v38_apply, Read.val_main_v34_apply, Read.val_main_v37_apply, Read.val_main_v36_apply,
    Read.val_main_v33_apply, Read.val_main_v35_apply, Read.val_main_call2_v1_apply, Read.val_main_call2_v0_apply,
    Read.val_main_cst_8_apply, Read.val_main_cst_9_apply, Read.val_main_cst_10_apply,
    deg_eq conf imp pca head hcol hH n]
  unfold Cert.Spec.dis Cert.Spec.disOf Cert.Spec.z0 Cert.Spec.eps12
  generalize Cert.Spec.edgeSum conf imp pca hcol n + Cert.Spec.one = X
  rfl

/-- The second gather's one-column index array at u is the normalised tail-side index array at u. -/
theorem col52 (u : Fin 4200000) :
    Read.val_main_v52 (F := Ideal) tail (edgeAt u) = normIdx (Read.val_main_v26 (F := Ideal) tail (ix1 u)) :=
  col44 tail u

/-- An edge's result: its weight times the factors of the nodes its normalised head and tail read. -/
theorem ref_adj_sr_edge (hH : ∀ e : Fin 4000000, hcol (edgeAt e) = head (ix1 e))
    (hHN : ∀ e : Fin 4000000, hcolN (edgeAt e) = normIdx (head (ix1 e)))
    (hTN : ∀ e : Fin 4000000, tcolN (edgeAt e) = normIdx (tail (ix1 e))) (e : Fin 4000000) :
    Read.val_main_v54 (F := Ideal) conf imp pca head tail (ix1 (⟨e.val, by omega⟩ : Fin 4200000))
      = Cert.Spec.vals conf imp pca e * Cert.Spec.dis conf imp pca hcol (rowOf 200000 (by decide) hcolN e)
          * Cert.Spec.dis conf imp pca hcol (rowOf 200000 (by decide) tcolN e) := by
  rw [Read.val_main_v54_apply, Read.val_main_v46_apply]
  unfold Read.val_main_v45 Read.val_main_v53
  rw [gather_eq, gather_vec_apply (by decide : 0 < 200000), gather_vec_apply (by decide : 0 < 200000),
    dis_eq conf imp pca head hcol hH, dis_eq conf imp pca head hcol hH, val29_lo,
    rowOf_congr _ (Read.val_main_v44 (F := Ideal) head) hcolN (⟨e.val, by omega⟩ : Fin 4200000) e
      (by rw [col44, idx26_lo, hHN]),
    rowOf_congr _ (Read.val_main_v52 (F := Ideal) tail) tcolN (⟨e.val, by omega⟩ : Fin 4200000) e
      (by rw [col52, idx26_lo, hTN])]
  rfl

/-- Node i's diagonal result: one times the square of its factor. -/
theorem ref_adj_sr_diag (hH : ∀ e : Fin 4000000, hcol (edgeAt e) = head (ix1 e)) (i : Fin 200000) :
    Read.val_main_v54 (F := Ideal) conf imp pca head tail (ix1 (⟨4000000 + i.val, by omega⟩ : Fin 4200000))
      = Cert.Spec.one * Cert.Spec.dis conf imp pca hcol i * Cert.Spec.dis conf imp pca hcol i := by
  have hv : ∀ t : (⟨S4000000, .i32⟩ : BufTy).Contents (Elt Ideal),
      (Read.val_main_v44 (F := Ideal) t (edgeAt (⟨4000000 + i.val, by omega⟩ : Fin 4200000))).toInt = (i.val : Int) :=
    fun t => by
      rw [col44, idx26_hi, normIdx_small i.val i.isLt]; exact toInt_ofNat_small i.val i.isLt
  rw [Read.val_main_v54_apply, Read.val_main_v46_apply]
  unfold Read.val_main_v45 Read.val_main_v53
  rw [gather_eq, gather_vec_apply (by decide : 0 < 200000), gather_vec_apply (by decide : 0 < 200000),
    rowOf_of_val _ (Read.val_main_v44 (F := Ideal) head) _ i (hv head),
    rowOf_of_val _ (Read.val_main_v52 (F := Ideal) tail) _ i (hv tail),
    dis_eq conf imp pca head hcol hH, val29_hi]
  rfl

/-- The whole first adjacency result is the specification's. -/
theorem ref_adj_sr (hH : ∀ e : Fin 4000000, hcol (edgeAt e) = head (ix1 e))
    (hHN : ∀ e : Fin 4000000, hcolN (edgeAt e) = normIdx (head (ix1 e)))
    (hTN : ∀ e : Fin 4000000, tcolN (edgeAt e) = normIdx (tail (ix1 e))) (j : Fin 4200000) :
    Read.val_main_v54 (F := Ideal) conf imp pca head tail (ix1 j)
      = Cert.Spec.adj conf imp pca hcol hcolN tcolN j := by
  unfold Cert.Spec.adj
  by_cases h : j.val < 4000000
  · rw [dif_pos h]
    exact ref_adj_sr_edge conf imp pca head tail hcol hcolN tcolN hH hHN hTN ⟨j.val, h⟩
  · rw [dif_neg h]
    obtain ⟨i, rfl⟩ : ∃ i : Fin 200000, j = ⟨4000000 + i.val, diag_lt i⟩ :=
      ⟨⟨j.val - 4000000, by omega⟩, Fin.ext (by show j.val = 4000000 + (j.val - 4000000); omega)⟩
    rw [ref_adj_sr_diag conf imp pca head tail hcol hH i]
    have h1 : Cert.Spec.one = 1 := Ideal.ofBits_one_f32
    have hi : (⟨4000000 + i.val - 4000000, by omega⟩ : Fin 200000) = i := Fin.ext (by show 4000000 + i.val - 4000000 = i.val; omega)
    rw [h1, one_mul]
    simp only [hi]

end Adjacency

/-! ## The second graph side -/

section Adjacency2

variable (conf imp pca : (⟨S4000000, .f32⟩ : BufTy).Contents (Elt Ideal))
variable (head tail : (⟨S4000000, .i32⟩ : BufTy).Contents (Elt Ideal))
variable (hcol hcolN tcolN : IVec ⟨2, ![4000000, 1]⟩ 32)

/-- The second graph side is computed by the same operations, in the same order, from its own five arguments. -/
theorem tg_eq_sr : Read.val_main_v86 (F := Ideal) conf imp pca head tail
    = Read.val_main_v54 (F := Ideal) conf imp pca head tail := rfl

/-- An edge's result on the second graph side. -/
theorem ref_adj_tg_edge (hH : ∀ e : Fin 4000000, hcol (edgeAt e) = head (ix1 e))
    (hHN : ∀ e : Fin 4000000, hcolN (edgeAt e) = normIdx (head (ix1 e)))
    (hTN : ∀ e : Fin 4000000, tcolN (edgeAt e) = normIdx (tail (ix1 e))) (e : Fin 4000000) :
    Read.val_main_v86 (F := Ideal) conf imp pca head tail (ix1 (⟨e.val, by omega⟩ : Fin 4200000))
      = Cert.Spec.vals conf imp pca e * Cert.Spec.dis conf imp pca hcol (rowOf 200000 (by decide) hcolN e)
          * Cert.Spec.dis conf imp pca hcol (rowOf 200000 (by decide) tcolN e) := by
  rw [tg_eq_sr]; exact ref_adj_sr_edge conf imp pca head tail hcol hcolN tcolN hH hHN hTN e

/-- Node i's diagonal result on the second graph side. -/
theorem ref_adj_tg_diag (hH : ∀ e : Fin 4000000, hcol (edgeAt e) = head (ix1 e)) (i : Fin 200000) :
    Read.val_main_v86 (F := Ideal) conf imp pca head tail (ix1 (⟨4000000 + i.val, by omega⟩ : Fin 4200000))
      = Cert.Spec.one * Cert.Spec.dis conf imp pca hcol i * Cert.Spec.dis conf imp pca hcol i := by
  rw [tg_eq_sr]; exact ref_adj_sr_diag conf imp pca head tail hcol hH i

/-- The whole second adjacency result is the specification's. -/
theorem ref_adj_tg (hH : ∀ e : Fin 4000000, hcol (edgeAt e) = head (ix1 e))
    (hHN : ∀ e : Fin 4000000, hcolN (edgeAt e) = normIdx (head (ix1 e)))
    (hTN : ∀ e : Fin 4000000, tcolN (edgeAt e) = normIdx (tail (ix1 e))) (j : Fin 4200000) :
    Read.val_main_v86 (F := Ideal) conf imp pca head tail (ix1 j)
      = Cert.Spec.adj conf imp pca hcol hcolN tcolN j := by
  rw [tg_eq_sr]; exact ref_adj_sr conf imp pca head tail hcol hcolN tcolN hH hHN hTN j

end Adjacency2

/-! ## One-column index arrays built from a vector

  The hypotheses of the adjacency theorems ask what three one-column index arrays hold at [e, 0]. For columns built
  as a broadcast of a vector, and of a vector normalised by compare, add and select, these two lemmas answer. -/

/-- A vector of 4 000 000 entries broadcast to one column, read at [e, 0], is the vector at e. -/
theorem col_apply {α : Type} (hb : S4000000.BroadcastsInDim (⟨2, ![4000000, 1]⟩ : Shape) (![0] : Fin 1 → Fin 2))
    (x : S4000000.Idx → α) (e : Fin 4000000) :
    broadcastInDim (⟨2, ![4000000, 1]⟩ : Shape) ![0] hb x (edgeAt e) = x (ix1 e) :=
  broadcastInDim_apply _ hb x (edgeAt e) (ix1 e) (fun a => match a with
    | ⟨0, _⟩ => by show e.val = if (4000000 : Nat) = 1 then 0 else e.val; rw [if_neg (by decide)])

/-- An index vector with 200000 added where it is negative, read at e, is the normalised entry. -/
theorem normVec_apply (hb0 : S_.BroadcastsInDim S4000000 (![] : Fin 0 → Fin 1)) (h : IVec S4000000 32) (e : Fin 4000000) :
    select (cmpi .slt h (broadcastInDim S4000000 ![] hb0 (constantI S_ 32 0#32)))
      (addi h (broadcastInDim S4000000 ![] hb0 (constantI S_ 32 200000#32))) h (ix1 e) = normIdx (h (ix1 e)) := by
  have e0 : broadcastInDim S4000000 ![] hb0 (constantI S_ 32 0#32) (ix1 e) = 0#32 :=
    broadcastInDim_apply _ hb0 _ (ix1 e) ix0 (fun a => a.elim0)
  have e1 : broadcastInDim S4000000 ![] hb0 (constantI S_ 32 200000#32) (ix1 e) = 200000#32 :=
    broadcastInDim_apply _ hb0 _ (ix1 e) ix0 (fun a => a.elim0)
  show Scalar.select (IntOp.cmpi .slt (h (ix1 e)) (broadcastInDim S4000000 ![] hb0 (constantI S_ 32 0#32) (ix1 e)))
    (IntOp.addi (h (ix1 e)) (broadcastInDim S4000000 ![] hb0 (constantI S_ 32 200000#32) (ix1 e))) (h (ix1 e)) = _
  rw [e0, e1]
  rfl

end Cert.ReferenceIdeal.RefValue

end
-- ==== Proof.lean ====
/-
  The proof of `Cert.Claim`: the kernel program against its jnp reference, both read on the extended reals.

  THE KERNEL PROGRAM is five kernel regions among host operations.  Region 0 takes the two embedding tables (the
  first padded to 1200 rows), scales every row by the inverse square root of its sum of squares plus 1e-8, multiplies
  the first scaled table with the transpose of the second, and leaves the row maxima and the column maxima.  For each
  graph side, a gridded region multiplies the three edge factors lane by lane (31250 rows of 128 lanes in blocks of
  4096 rows: the eighth block hangs over the array's end, its fetch and write-back are cut there and the rows past the
  end are never written back); the host sums the products per head node into zeros (an index outside [0, 200000)
  lands nowhere), pads to 1568 × 128, a gridless region adds ONE — the unit diagonal's contribution to every node's
  degree — and leaves d = (deg > 0 ? 1/√(max deg 1e-12) : 0) and d²; the host gathers d at every edge's head and
  tail (negative indices first moved up by 200000, then clamped), multiplies, and appends the diagonal's d².

  THE REFERENCE does the same arithmetic on the host, except that it appends the diagonal BEFORE normalising: it
  scatters the concatenation [products ; ones] along [heads ; 0..199999] and gathers at the concatenated indices.
  The two agree because the sum over the 4 200 000 updates landing on node n splits into the edges landing on n and
  exactly one diagonal update of weight one, addition on the extended reals being commutative and associative; at
  an edge position both read the same two node factors, and at diagonal position i the reference's 1 · d(i) · d(i)
  is the kernel's d(i)².  Nothing here needs the inputs to be finite.

  The frames: each program's run is the chain of its items, every region a pipeline whose body is run symbolically
  and whose arrays are split out of, and put back into, the thread's unscoped buffers; the arguments are written by
  no item.  The reference's frame is its generated run with the results dropped.  The idealization rewrote nothing.
-/
import proofs.«153293_j29283087024787_2_alg».proof.Defs
import proofs.«153293_j29283087024787_2_alg».proof.Proof.Gen.Kernel
import proofs.«153293_j29283087024787_2_alg».proof.Proof.Gen.Kernel.Skeleton
import proofs.«153293_j29283087024787_2_alg».proof.Proof.Gen.Kernel.Launch
import proofs.«153293_j29283087024787_2_alg».proof.Proof.Gen.Kernel.Regions
import proofs.«153293_j29283087024787_2_alg».proof.Proof.Gen.Kernel.Points
import proofs.«153293_j29283087024787_2_alg».proof.Proof.Gen.KernelIdeal
import proofs.«153293_j29283087024787_2_alg».proof.Proof.Gen.KernelIdeal.Skeleton
import proofs.«153293_j29283087024787_2_alg».proof.Proof.Gen.KernelIdeal.Launch
import proofs.«153293_j29283087024787_2_alg».proof.Proof.Gen.KernelIdeal.Regions
import proofs.«153293_j29283087024787_2_alg».proof.Proof.Gen.KernelIdeal.Points
import proofs.«153293_j29283087024787_2_alg».proof.Proof.Gen.ReferenceIdeal
import proofs.«153293_j29283087024787_2_alg».proof.Proof.Gen.ReferenceIdeal.Run
import proofs.«153293_j29283087024787_2_alg».proof.Proof.Gen.ReferenceIdeal.Read
import proofs.«153293_j29283087024787_2_alg».proof.Proof.Gen.Pre_finite_inputs
import Idealize.ShloMosaic.Adequacy
import Idealize.ShloMosaic.Init
import proofs.«153293_j29283087024787_2_alg».proof.Proof.Run
import proofs.«153293_j29283087024787_2_alg».proof.Proof.KRun
import proofs.«153293_j29283087024787_2_alg».proof.Proof.Results
import proofs.«153293_j29283087024787_2_alg».proof.Proof.RelwValue
import proofs.«153293_j29283087024787_2_alg».proof.Proof.AdjValue
import proofs.«153293_j29283087024787_2_alg».proof.Proof.AdjOutAt
import proofs.«153293_j29283087024787_2_alg».proof.Proof.RefValue

set_option maxRecDepth 16384

noncomputable section

namespace Cert.Proof

open Idealize.ShloMosaic Idealize.ShloMosaic.TcCoe Idealize.SL.Sem Idealize.ShloMosaic.ValueIdx Idealize.ShloMosaic.EdgeRows

/-! ## The kernel program's results as functions of its arguments -/

section KernelSide

open Cert.KernelIdeal Cert.KernelIdeal.Gen Cert.KernelIdeal.Hand Cert.KernelIdeal.HandValue

/-- One side's adjacency values as the kernel program computes them (the node factors by region 2). -/
def kAdj2 (a b c : FVec Ideal S4000000 .f32) (h t : IVec S4000000 32) : FVec Ideal S4200000 .f32 :=
  adjOut (flat (mulf (mulf (rows a) (rows b)) (rows c)))
    (k2_pay1 (F := Ideal) (degRows (flat (mulf (mulf (rows a) (rows b)) (rows c))) h))
    (k2_pay2 (F := Ideal) (degRows (flat (mulf (mulf (rows a) (rows b)) (rows c))) h)) h t
/-- The other side's (the node factors by region 4: the same function). -/
def kAdj4 (a b c : FVec Ideal S4000000 .f32) (h t : IVec S4000000 32) : FVec Ideal S4200000 .f32 :=
  adjOut (flat (mulf (mulf (rows a) (rows b)) (rows c)))
    (k4_pay1 (F := Ideal) (degRows (flat (mulf (mulf (rows a) (rows b)) (rows c))) h))
    (k4_pay2 (F := Ideal) (degRows (flat (mulf (mulf (rows a) (rows b)) (rows c))) h)) h t
/-- The row maxima and the column maxima. -/
def kRow (a0 : FVec Ideal S1000x128 .f32) (a1 : FVec Ideal S1200x128 .f32) : FVec Ideal S1000 .f32 :=
  first1000 (row1200 (k0_pay2 (F := Ideal) (padA a0) (padB a1)))
def kCol (a0 : FVec Ideal S1000x128 .f32) (a1 : FVec Ideal S1200x128 .f32) : FVec Ideal S1200 .f32 :=
  row1200 (k0_pay3 (F := Ideal) (padA a0) (padB a1))

/-- The kernel program's run on the extended reals: it terminates, faults nowhere, ends with its four results at these
    functions of the argument arrays, and the argument arrays as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v37) = kAdj2 (m ((c.tc : Thread nD τ).loc main_arg2)) (m ((c.tc : Thread nD τ).loc main_arg3)) (m ((c.tc : Thread nD τ).loc main_arg4)) (m ((c.tc : Thread nD τ).loc main_arg8)) (m ((c.tc : Thread nD τ).loc main_arg9))
      ∧ r.2.mem ((c.tc : Thread nD τ).loc main_v69) = kAdj4 (m ((c.tc : Thread nD τ).loc main_arg5)) (m ((c.tc : Thread nD τ).loc main_arg6)) (m ((c.tc : Thread nD τ).loc main_arg7)) (m ((c.tc : Thread nD τ).loc main_arg11)) (m ((c.tc : Thread nD τ).loc main_arg12))
      ∧ r.2.mem ((c.tc : Thread nD τ).loc main_v4) = kRow (m ((c.tc : Thread nD τ).loc main_arg0)) (m ((c.tc : Thread nD τ).loc main_arg1))
      ∧ r.2.mem ((c.tc : Thread nD τ).loc main_v5) = kCol (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨
      (h c _ (mem_uc main_v37 (by decide))).trans
        (res_main_v37 m (o0 m) (o1 m) (o2 m) (o3 m) (o4 m) c (by unfold o1; exact final1_3 (U6 m) c)
          (by unfold o2; exact final2_1 (U10 m) c) (by unfold o2; exact final2_2 (U10 m) c)),
      (h c _ (mem_uc main_v69 (by decide))).trans
        (res_main_v69 m (o0 m) (o1 m) (o2 m) (o3 m) (o4 m) c (by unfold o3; exact final3_3 (U12 m) c)
          (by unfold o4; exact final4_1 (U16 m) c) (by unfold o4; exact final4_2 (U16 m) c)),
      (h c _ (mem_uc main_v4 (by decide))).trans
        (res_main_v4 m (o0 m) (o1 m) (o2 m) (o3 m) (o4 m) c (by unfold o0; exact final0_2 (U4 m) c)),
      (h c _ (mem_uc main_v5 (by decide))).trans
        (res_main_v5 m (o0 m) (o1 m) (o2 m) (o3 m) (o4 m) c (by unfold o0; exact final0_3 (U4 m) c)),
      (h c _ (mem_uc main_arg0 (by decide))).trans (W18_main_arg0 m c),
      (h c _ (mem_uc main_arg1 (by decide))).trans (W18_main_arg1 m c),
      (h c _ (mem_uc main_arg2 (by decide))).trans (W18_main_arg2 m c),
      (h c _ (mem_uc main_arg3 (by decide))).trans (W18_main_arg3 m c),
      (h c _ (mem_uc main_arg4 (by decide))).trans (W18_main_arg4 m c),
      (h c _ (mem_uc main_arg5 (by decide))).trans (W18_main_arg5 m c),
      (h c _ (mem_uc main_arg6 (by decide))).trans (W18_main_arg6 m c),
      (h c _ (mem_uc main_arg7 (by decide))).trans (W18_main_arg7 m c),
      (h c _ (mem_uc main_arg8 (by decide))).trans (W18_main_arg8 m c),
      (h c _ (mem_uc main_arg9 (by decide))).trans (W18_main_arg9 m c),
      (h c _ (mem_uc main_arg10 (by decide))).trans (W18_main_arg10 m c),
      (h c _ (mem_uc main_arg11 (by decide))).trans (W18_main_arg11 m c),
      (h c _ (mem_uc main_arg12 (by decide))).trans (W18_main_arg12 m c),
      (h c _ (mem_uc main_arg13 (by decide))).trans (W18_main_arg13 m c)⟩)
    (run_all m ρ)

/-! ## The two programs compute one function -/

/-- One side's adjacency values: the kernel program's term is the reference's stage, position by position — both are
    the specification's `adj` of the three factor arrays and the head and tail indices. -/
theorem adj2_eq (a b c : FVec Ideal S4000000 .f32) (h t : IVec S4000000 32) :
    Cert.ReferenceIdeal.Read.val_main_v54 (F := Ideal) a b c h t = kAdj2 a b c h t := by
  funext i
  obtain ⟨j, rfl⟩ : ∃ j : Fin 4200000, i = ix1 j := ⟨i 0, eq_ix1 i⟩
  unfold kAdj2
  rw [flat_mul3, adjOut_spec]
  exact Cert.ReferenceIdeal.RefValue.ref_adj_sr a b c h t (rawCol h) (normCol h) (normCol t)
    (rawCol_at h) (normCol_at h) (normCol_at t) j

theorem adj4_eq (a b c : FVec Ideal S4000000 .f32) (h t : IVec S4000000 32) :
    Cert.ReferenceIdeal.Read.val_main_v86 (F := Ideal) a b c h t = kAdj4 a b c h t := by
  funext i
  obtain ⟨j, rfl⟩ : ∃ j : Fin 4200000, i = ix1 j := ⟨i 0, eq_ix1 i⟩
  unfold kAdj4
  rw [flat_mul3, adjOut_spec4]
  exact Cert.ReferenceIdeal.RefValue.ref_adj_tg a b c h t (rawCol h) (normCol h) (normCol t)
    (rawCol_at h) (normCol_at h) (normCol_at t) j

/-- The row maxima: entry p of either program's result is the largest similarity in row p of the padded tables. -/
theorem row_eq (a0 : FVec Ideal S1000x128 .f32) (a1 : FVec Ideal S1200x128 .f32) :
    Cert.ReferenceIdeal.Read.val_main_v21 (F := Ideal) a0 a1 = kRow a0 a1 := by
  funext i
  obtain ⟨p, rfl⟩ : ∃ p : Fin 1000, i = ix1 p := ⟨i 0, eq_ix1 i⟩
  unfold kRow
  rw [rowMax_at, Cert.ReferenceIdeal.RefValue.ref_rowMax]
  rfl

/-- The column maxima. -/
theorem col_eq (a0 : FVec Ideal S1000x128 .f32) (a1 : FVec Ideal S1200x128 .f32) :
    Cert.ReferenceIdeal.Read.val_main_v22 (F := Ideal) a0 a1 = kCol a0 a1 := by
  funext i
  obtain ⟨q, rfl⟩ : ∃ q : Fin 1200, i = ix1 q := ⟨i 0, eq_ix1 i⟩
  unfold kCol
  rw [colMax_at, Cert.ReferenceIdeal.RefValue.ref_colMax]
  rfl

end KernelSide

/-! ## The claims -/

namespace Claims

/-- The program as printed runs and leaves its arguments as launched. -/
theorem frame_k : Cert.frame_Kernel := fun m ρ _ =>
  (θ_run Cert.Kernel.defs _ _).mono (fun r h c => ⟨
      (h c _ (Cert.Kernel.Hand.mem_uc Cert.Kernel.main_arg0 (by decide))).trans (Cert.Kernel.Hand.W18_main_arg0 m c),
      (h c _ (Cert.Kernel.Hand.mem_uc Cert.Kernel.main_arg1 (by decide))).trans (Cert.Kernel.Hand.W18_main_arg1 m c),
      (h c _ (Cert.Kernel.Hand.mem_uc Cert.Kernel.main_arg2 (by decide))).trans (Cert.Kernel.Hand.W18_main_arg2 m c),
      (h c _ (Cert.Kernel.Hand.mem_uc Cert.Kernel.main_arg3 (by decide))).trans (Cert.Kernel.Hand.W18_main_arg3 m c),
      (h c _ (Cert.Kernel.Hand.mem_uc Cert.Kernel.main_arg4 (by decide))).trans (Cert.Kernel.Hand.W18_main_arg4 m c),
      (h c _ (Cert.Kernel.Hand.mem_uc Cert.Kernel.main_arg5 (by decide))).trans (Cert.Kernel.Hand.W18_main_arg5 m c),
      (h c _ (Cert.Kernel.Hand.mem_uc Cert.Kernel.main_arg6 (by decide))).trans (Cert.Kernel.Hand.W18_main_arg6 m c),
      (h c _ (Cert.Kernel.Hand.mem_uc Cert.Kernel.main_arg7 (by decide))).trans (Cert.Kernel.Hand.W18_main_arg7 m c),
      (h c _ (Cert.Kernel.Hand.mem_uc Cert.Kernel.main_arg8 (by decide))).trans (Cert.Kernel.Hand.W18_main_arg8 m c),
      (h c _ (Cert.Kernel.Hand.mem_uc Cert.Kernel.main_arg9 (by decide))).trans (Cert.Kernel.Hand.W18_main_arg9 m c),
      (h c _ (Cert.Kernel.Hand.mem_uc Cert.Kernel.main_arg10 (by decide))).trans (Cert.Kernel.Hand.W18_main_arg10 m c),
      (h c _ (Cert.Kernel.Hand.mem_uc Cert.Kernel.main_arg11 (by decide))).trans (Cert.Kernel.Hand.W18_main_arg11 m c),
      (h c _ (Cert.Kernel.Hand.mem_uc Cert.Kernel.main_arg12 (by decide))).trans (Cert.Kernel.Hand.W18_main_arg12 m c),
      (h c _ (Cert.Kernel.Hand.mem_uc Cert.Kernel.main_arg13 (by decide))).trans (Cert.Kernel.Hand.W18_main_arg13 m c)⟩)
    (Cert.Kernel.Hand.run_all (F := Bits) m ρ)

/-- So does the idealized program. -/
theorem frame_ki : Cert.frame_KernelIdeal := fun m ρ _ =>
  (θ_run Cert.KernelIdeal.defs _ _).mono (fun _ h c => (h c).2.2.2.2) (kernel_run m ρ)

/-- The reference's frame is its generated run with the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- The ideal pass rewrote no operation. -/
theorem preserves : Cert.preserves_Kernel_KernelIdeal := trivial

/-- On the extended reals, from memories agreeing on the arguments, both programs run and end with equal results. -/
theorem algebraic : Cert.algebraic_KernelIdeal_ReferenceIdeal := by
  intro m ρ m' ρ' _ hagree
  refine ⟨_, _, _, _, kernel_run m ρ, ?_⟩
  refine (θ_run Cert.ReferenceIdeal.defs _ _).mono (fun r h c => ?_) (Cert.ReferenceIdeal.Value.run (F := Ideal) m' ρ')
  obtain ⟨h54, h86, h21, h22, hargs⟩ := h c
  obtain ⟨g0, g1, g2, g3, g4, g5, g6, g7, g8, g9, g10, g11, g12, g13⟩ := hagree c
  refine ⟨h54.trans ?_, h86.trans ?_, h21.trans ?_, h22.trans ?_, hargs⟩
  · rw [Cert.ReferenceIdeal.Read.val_main_v54_eq, g2, g3, g4, g8, g9]; exact adj2_eq _ _ _ _ _
  · rw [Cert.ReferenceIdeal.Read.val_main_v86_eq, g5, g6, g7, g11, g12]; exact adj4_eq _ _ _ _ _
  · rw [g0, g1]; exact row_eq _ _
  · rw [g0, g1]; exact col_eq _ _

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
